-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S500000x128 : Shape := ⟨2, ![500000, 128]⟩
abbrev S100000x128 : Shape := ⟨2, ![100000, 128]⟩
abbrev S5x128x16 : Shape := ⟨3, ![5, 128, 16]⟩
abbrev S5x16 : Shape := ⟨2, ![5, 16]⟩
abbrev S5x16x16 : Shape := ⟨3, ![5, 16, 16]⟩
abbrev S16x2 : Shape := ⟨2, ![16, 2]⟩
abbrev S2 : Shape := ⟨1, ![2]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S100000x128 : S_.BroadcastsInDim S100000x128 (![] : Fin 0 → Fin S100000x128.rank)
  reducesTo_S100000x128_S_d0_1 : S100000x128.ReducesTo [0, 1] S_
  bcast_S_S5x128x16 : S_.BroadcastsInDim S5x128x16 (![] : Fin 0 → Fin S5x128x16.rank)
  reducesTo_S5x128x16_S_d0_1_2 : S5x128x16.ReducesTo [0, 1, 2] S_
  bcast_S_S5x16 : S_.BroadcastsInDim S5x16 (![] : Fin 0 → Fin S5x16.rank)
  reducesTo_S5x16_S_d0_1 : S5x16.ReducesTo [0, 1] S_
  bcast_S_S5x16x16 : S_.BroadcastsInDim S5x16x16 (![] : Fin 0 → Fin S5x16x16.rank)
  reducesTo_S5x16x16_S_d0_1_2 : S5x16x16.ReducesTo [0, 1, 2] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S5x16x16 .f32) (main_arg8 : FVec F S5x16 .f32) (main_arg9 : FVec F S16x2 .f32) (main_arg10 : FVec F S2 .f32) (main_v33 : IVec S_ 1) : IVec S_ 1 :=
  let main_v34 : FVec F S5x16x16 .f32 := Host.absf main_arg7
  let main_cst_12 : FVec F S_ .f32 := constant S_ .f32 0x7F800000#32
  let main_v35 : FVec F S5x16x16 .f32 := broadcastInDim S5x16x16 ![] bcast_S_S5x16x16 main_cst_12
  let main_v36 : IVec S5x16x16 1 := cmpf .olt main_v34 main_v35
  let main_c_13 : IVec S_ 1 := constantI S_ 1 1#1
  let main_v37 : IVec S_ 1 := (fun x v => Host.reduce IntOp.andi x v reducesTo_S5x16x16_S_d0_1_2 h_S_) main_v36 main_c_13
  let main_v38 : IVec S_ 1 := andi main_v33 main_v37
  let main_v39 : FVec F S5x16 .f32 := Host.absf main_arg8
  let main_cst_14 : FVec F S_ .f32 := constant S_ .f32 0x7F800000#32
  let main_v40 : FVec F S5x16 .f32 := broadcastInDim S5x16 ![] bcast_S_S5x16 main_cst_14
  let main_v41 : IVec S5x16 1 := cmpf .olt main_v39 main_v40
  let main_c_15 : IVec S_ 1 := constantI S_ 1 1#1
  let main_v42 : IVec S_ 1 := (fun x v => Host.reduce IntOp.andi x v reducesTo_S5x16_S_d0_1 h_S_) main_v41 main_c_15
  let main_v43 : IVec S_ 1 := andi main_v38 main_v42
  let main_v44 : FVec F S16x2 .f32 := Host.absf main_arg9
  let main_cst_16 : FVec F S_ .f32 := constant S_ .f32 0x7F800000#32
  let main_v45 : FVec F S16x2 .f32 := broadcastInDim S16x2 ![] bcast_S_S16x2 main_cst_16
  let main_v46 : IVec S16x2 1 := cmpf .olt main_v44 main_v45
  let main_c_17 : IVec S_ 1 := constantI S_ 1 1#1
  let main_v47 : IVec S_ 1 := (fun x v => Host.reduce IntOp.andi x v reducesTo_S16x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S5x16 .f32) (main_arg5 : FVec F S5x16x16 .f32) (main_arg6 : FVec F S5x16 .f32) (main_arg7 : FVec F S5x16x16 .f32) (main_arg8 : FVec F S5x16 .f32) (main_arg9 : FVec F S16x2 .f32) (main_arg10 : FVec F S2 .f32) (main_v13 : IVec S_ 1) (main_v16 : IVec S5x128x16 1) : IVec S_ 1 :=
  let main_c_5 : IVec S_ 1 := constantI S_ 1 1#1
  let main_v17 : IVec S_ 1 := (fun x v => Host.reduce IntOp.andi x v reducesTo_S5x128x16_S_d0_1_2 h_S_) main_v16 main_c_5
  let main_v18 : IVec S_ 1 := andi main_v13 main_v17
  let main_v19 : FVec F S5x16 .f32 := Host.absf main_arg4
  let main_cst_6 : FVec F S_ .f32 := constant S_ .f32 0x7F800000#32
  let main_v20 : FVec F S5x16 .f32 := broadcastInDim S5x16 ![] bcast_S_S5x16 main_cst_6
  let main_v21 : IVec S5x16 1 := cmpf .olt main_v19 main_v20
  let main_c_7 : IVec S_ 1 := constantI S_ 1 1#1
  let main_v22 : IVec S_ 1 := (fun x v => Host.reduce IntOp.andi x v reducesTo_S5x16_S_d0_1 h_S_) main_v21 main_c_7
  let main_v23 : IVec S_ 1 := andi main_v18 main_v22
  let main_v24 : FVec F S5x16x16 .f32 := Host.absf main_arg5
  let main_cst_8 : FVec F S_ .f32 := constant S_ .f32 0x7F800000#32
  let main_v25 : FVec F S5x16x16 .f32 := broadcastInDim S5x16x16 ![] bcast_S_S5x16x16 main_cst_8
  let main_v26 : IVec S5x16x16 1 := cmpf .olt main_v24 main_v25
  let main_c_9 : IVec S_ 1 := constantI S_ 1 1#1
  let main_v27 : IVec S_ 1 := (fun x v => Host.reduce IntOp.andi x v reducesTo_S5x16x16_S_d0_1_2 h_S_) main_v26 main_c_9
  let main_v28 : IVec S_ 1 := andi main_v23 main_v27
  let main_v29 : FVec F S5x16 .f32 := Host.absf main_arg6
  let main_cst_10 : FVec F S_ .f32 := constant S_ .f32 0x7F800000#32
  let main_v30 : FVec F S5x16 .f32 := broadcastInDim S5x16 ![] bcast_S_S5x16 main_cst_10
  let main_v31 : IVec S5x16 1 := cmpf .olt main_v29 main_v30
  let main_c_11 : IVec S_ 1 := constantI S_ 1 1#1
  let main_v32 : IVec S_ 1 := (fun x v => Host.reduce IntOp.andi x v reducesTo_S5x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000x128 .f32) (main_arg1 : FVec F S500000x128 .f32) (main_arg2 : FVec F S100000x128 .f32) (main_arg3 : FVec F S5x128x16 .f32) (main_arg4 : FVec F S5x16 .f32) (main_arg5 : FVec F S5x16x16 .f32) (main_arg6 : FVec F S5x16 .f32) (main_arg7 : FVec F S5x16x16 .f32) (main_arg8 : FVec F S5x16 .f32) (main_arg9 : FVec F S16x2 .f32) (main_arg10 : FVec F S2 .f32) (main_arg11 : IVec S1000000 32) (main_arg12 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S5x128x16 .f32 := Host.absf main_arg3
  let main_cst_4 : FVec F S_ .f32 := constant S_ .f32 0x7F800000#32
  let main_v15 : FVec F S5x128x16 .f32 := broadcastInDim S5x128x16 ![] bcast_S_S5x128x16 main_cst_4
  let main_v16 : IVec S5x128x16 1 := cmpf .olt main_v14 main_v15
  fn_part1 (F := F) main_arg4 main_arg5 main_arg6 main_arg7 main_arg8 main_arg9 main_arg10 main_v13 main_v16
-- ==== Kernel.lean ====
abbrev S1000000x128 : Shape := ⟨2, ![1000000, 128]⟩
abbrev S500000x128 : Shape := ⟨2, ![500000, 128]⟩
abbrev S100000x128 : Shape := ⟨2, ![100000, 128]⟩
abbrev S5x128x16 : Shape := ⟨3, ![5, 128, 16]⟩
abbrev S5x16 : Shape := ⟨2, ![5, 16]⟩
abbrev S5x16x16 : Shape := ⟨3, ![5, 16, 16]⟩
abbrev S16x2 : Shape := ⟨2, ![16, 2]⟩
abbrev S2 : Shape := ⟨1, ![2]⟩
abbrev S1000000 : Shape := ⟨1, ![1000000]⟩
abbrev S1x128x16 : Shape := ⟨3, ![1, 128, 16]⟩
abbrev S1x16 : Shape := ⟨2, ![1, 16]⟩
abbrev S1x500000x16 : Shape := ⟨3, ![1, 500000, 16]⟩
abbrev S4000x128 : Shape := ⟨2, ![4000, 128]⟩
abbrev S1x4000x16 : Shape := ⟨3, ![1, 4000, 16]⟩
abbrev S128x16 : Shape := ⟨2, ![128, 16]⟩
abbrev S4000x16 : Shape := ⟨2, ![4000, 16]⟩
abbrev S16 : Shape := ⟨1, ![16]⟩
abbrev S500000x16 : Shape := ⟨2, ![500000, 16]⟩
abbrev S1x100000x16 : Shape := ⟨3, ![1, 100000, 16]⟩
abbrev S2000x128 : Shape := ⟨2, ![2000, 128]⟩
abbrev S1x2000x16 : Shape := ⟨3, ![1, 2000, 16]⟩
abbrev S2000x16 : Shape := ⟨2, ![2000, 16]⟩
abbrev S100000x16 : Shape := ⟨2, ![100000, 16]⟩
abbrev S3x128x16 : Shape := ⟨3, ![3, 128, 16]⟩
abbrev S3x16 : Shape := ⟨2, ![3, 16]⟩
abbrev S3x1000000x16 : Shape := ⟨3, ![3, 1000000, 16]⟩
abbrev S8000x128 : Shape := ⟨2, ![8000, 128]⟩
abbrev S3x8000x16 : Shape := ⟨3, ![3, 8000, 16]⟩
abbrev S8000x16 : Shape := ⟨2, ![8000, 16]⟩
abbrev S1x8000x16 : Shape := ⟨3, ![1, 8000, 16]⟩
abbrev S1x1000000x16 : Shape := ⟨3, ![1, 1000000, 16]⟩
abbrev S1000000x16 : Shape := ⟨2, ![1000000, 16]⟩
abbrev S_ : Shape := ⟨0, ![]⟩
abbrev S1000000x1 : Shape := ⟨2, ![1000000, 1]⟩
abbrev S500000 : Shape := ⟨1, ![500000]⟩
abbrev S500000x1 : Shape := ⟨2, ![500000, 1]⟩
abbrev S100000 : Shape := ⟨1, ![100000]⟩
abbrev S100000x1 : Shape := ⟨2, ![100000, 1]⟩
abbrev S1x16x16 : Shape := ⟨3, ![1, 16, 16]⟩
abbrev S16x16 : Shape := ⟨2, ![16, 16]⟩
abbrev S3x16x16 : Shape := ⟨3, ![3, 16, 16]⟩
abbrev S1x16x2 : Shape := ⟨3, ![1, 16, 2]⟩
abbrev S1x2 : Shape := ⟨2, ![1, 2]⟩
abbrev S1x1000000x2 : Shape := ⟨3, ![1, 1000000, 2]⟩
abbrev S1x8000x2 : Shape := ⟨3, ![1, 8000, 2]⟩
abbrev S8000x2 : Shape := ⟨2, ![8000, 2]⟩
abbrev S1000000x2 : Shape := ⟨2, ![1000000, 2]⟩

abbrev nBuf : Space → Nat
  | .hbm => 272
  | .vmem => 60
  | .smem => 0
  | _ => 0

abbrev hbmTy0_0 (i : Nat) : BufTy := match i % 128 with
  | 0 => ⟨S1000000x128, .f32⟩
  | 1 => ⟨S500000x128, .f32⟩
  | 2 => ⟨S100000x128, .f32⟩
  | 3 => ⟨S5x128x16, .f32⟩
  | 4 => ⟨S5x16, .f32⟩
  | 5 => ⟨S5x16x16, .f32⟩
  | 6 => ⟨S5x16, .f32⟩
  | 7 => ⟨S5x16x16, .f32⟩
  | 8 => ⟨S5x16, .f32⟩
  | 9 => ⟨S16x2, .f32⟩
  | 10 => ⟨S2, .f32⟩
  | 11 => ⟨S1000000, .i32⟩
  | 12 => ⟨S1000000, .i32⟩
  | 13 => ⟨S1x128x16, .f32⟩
  | 14 => ⟨S1x16, .f32⟩
  | 15 => ⟨S1x500000x16, .f32⟩
  | 16 => ⟨S500000x16, .f32⟩
  | 17 => ⟨S1x128x16, .f32⟩
  | 18 => ⟨S1x16, .f32⟩
  | 19 => ⟨S1x100000x16, .f32⟩
  | 20 => ⟨S100000x16, .f32⟩
  | 21 => ⟨S3x128x16, .f32⟩
  | 22 => ⟨S3x16, .f32⟩
  | 23 => ⟨S3x1000000x16, .f32⟩
  | 24 => ⟨S1x1000000x16, .f32⟩
  | 25 => ⟨S1000000x16, .f32⟩
  | 26 => ⟨S1x1000000x16, .f32⟩
  | 27 => ⟨S1000000x16, .f32⟩
  | 28 => ⟨S1x1000000x16, .f32⟩
  | 29 => ⟨S1000000x16, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x16, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x16, .f32⟩
  | 48 => ⟨S1000000x16, .f32⟩
  | 49 => ⟨S1000000x16, .f32⟩
  | 50 => ⟨S_, .f32⟩
  | 51 => ⟨S500000x16, .f32⟩
  | 52 => ⟨S1000000x1, .i32⟩
  | 53 => ⟨S500000x16, .f32⟩
  | 54 => ⟨S_, .f32⟩
  | 55 => ⟨S1000000, .f32⟩
  | 56 => ⟨S_, .f32⟩
  | 57 => ⟨S500000, .f32⟩
  | 58 => ⟨S1000000x1, .i32⟩
  | 59 => ⟨S500000, .f32⟩
  | 60 => ⟨S_, .f32⟩
  | 61 => ⟨S500000, .f32⟩
  | 62 => ⟨S500000, .f32⟩
  | 63 => ⟨S500000x1, .f32⟩
  | 64 => ⟨S500000x16, .f32⟩
  | 65 => ⟨S500000x16, .f32⟩
  | 66 => ⟨S_, .f32⟩
  | 67 => ⟨S100000x16, .f32⟩
  | 68 => ⟨S1000000x1, .i32⟩
  | 69 => ⟨S100000x16, .f32⟩
  | 70 => ⟨S_, .f32⟩
  | 71 => ⟨S1000000, .f32⟩
  | 72 => ⟨S_, .f32⟩
  | 73 => ⟨S100000, .f32⟩
  | 74 => ⟨S1000000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x16, .f32⟩
  | 81 => ⟨S100000x16, .f32⟩
  | 82 => ⟨S_, .f32⟩
  | 83 => ⟨S_, .f32⟩
  | 84 => ⟨S1000000x16, .f32⟩
  | 85 => ⟨S1000000x16, .i1⟩
  | 86 => ⟨S_, .f32⟩
  | 87 => ⟨S1000000x16, .f32⟩
  | 88 => ⟨S1000000x16, .f32⟩
  | 89 => ⟨S1000000x16, .f32⟩
  | 90 => ⟨S_, .f32⟩
  | 91 => ⟨S_, .f32⟩
  | 92 => ⟨S500000x16, .f32⟩
  | 93 => ⟨S500000x16, .i1⟩
  | 94 => ⟨S_, .f32⟩
  | 95 => ⟨S500000x16, .f32⟩
  | 96 => ⟨S500000x16, .f32⟩
  | 97 => ⟨S500000x16, .f32⟩
  | 98 => ⟨S_, .f32⟩
  | 99 => ⟨S_, .f32⟩
  | 100 => ⟨S100000x16, .f32⟩
  | 101 => ⟨S100000x16, .i1⟩
  | 102 => ⟨S_, .f32⟩
  | 103 => ⟨S100000x16, .f32⟩
  | 104 => ⟨S100000x16, .f32⟩
  | 105 => ⟨S100000x16, .f32⟩
  | 106 => ⟨S1x16x16, .f32⟩
  | 107 => ⟨S1x16, .f32⟩
  | 108 => ⟨S1x500000x16, .f32⟩
  | 109 => ⟨S500000x16, .f32⟩
  | 110 => ⟨S1x16x16, .f32⟩
  | 111 => ⟨S1x16, .f32⟩
  | 112 => ⟨S1x100000x16, .f32⟩
  | 113 => ⟨S100000x16, .f32⟩
  | 114 => ⟨S3x16x16, .f32⟩
  | 115 => ⟨S3x16, .f32⟩
  | 116 => ⟨S3x1000000x16, .f32⟩
  | 117 => ⟨S1x1000000x16, .f32⟩
  | 118 => ⟨S1000000x16, .f32⟩
  | 119 => ⟨S1x1000000x16, .f32⟩
  | 120 => ⟨S1000000x16, .f32⟩
  | 121 => ⟨S1x1000000x16, .f32⟩
  | 122 => ⟨S1000000x16, .f32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x128, .f32⟩

abbrev hbmTy0_1 (i : Nat) : BufTy := match i % 128 with
  | 0 => ⟨S1000000, .i32⟩
  | 1 => ⟨S1000000, .i32⟩
  | 2 => ⟨S1000000x1, .i32⟩
  | 3 => ⟨S1000000x16, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x16, .f32⟩
  | 13 => ⟨S1000000x16, .f32⟩
  | 14 => ⟨S1000000x16, .f32⟩
  | 15 => ⟨S_, .f32⟩
  | 16 => ⟨S500000x16, .f32⟩
  | 17 => ⟨S1000000x1, .i32⟩
  | 18 => ⟨S500000x16, .f32⟩
  | 19 => ⟨S_, .f32⟩
  | 20 => ⟨S1000000, .f32⟩
  | 21 => ⟨S_, .f32⟩
  | 22 => ⟨S500000, .f32⟩
  | 23 => ⟨S1000000x1, .i32⟩
  | 24 => ⟨S500000, .f32⟩
  | 25 => ⟨S_, .f32⟩
  | 26 => ⟨S500000, .f32⟩
  | 27 => ⟨S500000, .f32⟩
  | 28 => ⟨S500000x1, .f32⟩
  | 29 => ⟨S500000x16, .f32⟩
  | 30 => ⟨S500000x16, .f32⟩
  | 31 => ⟨S_, .f32⟩
  | 32 => ⟨S100000x16, .f32⟩
  | 33 => ⟨S1000000x1, .i32⟩
  | 34 => ⟨S100000x16, .f32⟩
  | 35 => ⟨S_, .f32⟩
  | 36 => ⟨S1000000, .f32⟩
  | 37 => ⟨S_, .f32⟩
  | 38 => ⟨S100000, .f32⟩
  | 39 => ⟨S1000000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x16, .f32⟩
  | 46 => ⟨S100000x16, .f32⟩
  | 47 => ⟨S_, .f32⟩
  | 48 => ⟨S_, .f32⟩
  | 49 => ⟨S1000000x16, .f32⟩
  | 50 => ⟨S1000000x16, .i1⟩
  | 51 => ⟨S_, .f32⟩
  | 52 => ⟨S1000000x16, .f32⟩
  | 53 => ⟨S1000000x16, .f32⟩
  | 54 => ⟨S1000000x16, .f32⟩
  | 55 => ⟨S_, .f32⟩
  | 56 => ⟨S_, .f32⟩
  | 57 => ⟨S500000x16, .f32⟩
  | 58 => ⟨S500000x16, .i1⟩
  | 59 => ⟨S_, .f32⟩
  | 60 => ⟨S500000x16, .f32⟩
  | 61 => ⟨S500000x16, .f32⟩
  | 62 => ⟨S500000x16, .f32⟩
  | 63 => ⟨S_, .f32⟩
  | 64 => ⟨S_, .f32⟩
  | 65 => ⟨S100000x16, .f32⟩
  | 66 => ⟨S100000x16, .i1⟩
  | 67 => ⟨S_, .f32⟩
  | 68 => ⟨S100000x16, .f32⟩
  | 69 => ⟨S100000x16, .f32⟩
  | 70 => ⟨S100000x16, .f32⟩
  | 71 => ⟨S1x16x16, .f32⟩
  | 72 => ⟨S1x16, .f32⟩
  | 73 => ⟨S1x500000x16, .f32⟩
  | 74 => ⟨S500000x16, .f32⟩
  | 75 => ⟨S1x16x16, .f32⟩
  | 76 => ⟨S1x16, .f32⟩
  | 77 => ⟨S1x100000x16, .f32⟩
  | 78 => ⟨S100000x16, .f32⟩
  | 79 => ⟨S3x16x16, .f32⟩
  | 80 => ⟨S3x16, .f32⟩
  | 81 => ⟨S3x1000000x16, .f32⟩
  | 82 => ⟨S1x1000000x16, .f32⟩
  | 83 => ⟨S1000000x16, .f32⟩
  | 84 => ⟨S1x1000000x16, .f32⟩
  | 85 => ⟨S1000000x16, .f32⟩
  | 86 => ⟨S1x1000000x16, .f32⟩
  | 87 => ⟨S1000000x16, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x16, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x16, .f32⟩
  | 106 => ⟨S1000000x16, .f32⟩
  | 107 => ⟨S1000000x16, .f32⟩
  | 108 => ⟨S_, .f32⟩
  | 109 => ⟨S500000x16, .f32⟩
  | 110 => ⟨S1000000x1, .i32⟩
  | 111 => ⟨S500000x16, .f32⟩
  | 112 => ⟨S_, .f32⟩
  | 113 => ⟨S1000000, .f32⟩
  | 114 => ⟨S_, .f32⟩
  | 115 => ⟨S500000, .f32⟩
  | 116 => ⟨S1000000x1, .i32⟩
  | 117 => ⟨S500000, .f32⟩
  | 118 => ⟨S_, .f32⟩
  | 119 => ⟨S500000, .f32⟩
  | 120 => ⟨S500000, .f32⟩
  | 121 => ⟨S500000x1, .f32⟩
  | 122 => ⟨S500000x16, .f32⟩
  | 123 => ⟨S500000x16, .f32⟩
  | 124 => ⟨S_, .f32⟩
  | 125 => ⟨S100000x16, .f32⟩
  | 126 => ⟨S1000000x1, .i32⟩
  | 127 => ⟨S100000x16, .f32⟩
  | _ => ⟨S1000000x128, .f32⟩

abbrev hbmTy0_2 (i : Nat) : BufTy := match i % 128 with
  | 0 => ⟨S_, .f32⟩
  | 1 => ⟨S1000000, .f32⟩
  | 2 => ⟨S_, .f32⟩
  | 3 => ⟨S100000, .f32⟩
  | 4 => ⟨S1000000x1, .i32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x16, .f32⟩
  | 11 => ⟨S100000x16, .f32⟩
  | 12 => ⟨S1x16x2, .f32⟩
  | 13 => ⟨S1x2, .f32⟩
  | 14 => ⟨S1x1000000x2, .f32⟩
  | 15 => ⟨S1000000x2, .f32⟩
  | _ => ⟨S1000000x128, .f32⟩

abbrev hbmTy (i : Nat) : BufTy := match i / 128 with
  | 0 => hbmTy0_0 i
  | 1 => hbmTy0_1 i
  | 2 => hbmTy0_2 i
  | _ => ⟨S1000000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S1x128x16, .f32⟩
  | .local _ .vmem, ⟨3, _⟩ => ⟨S1x16, .f32⟩
  | .local _ .vmem, ⟨4, _⟩ => ⟨S1x4000x16, .f32⟩
  | .local _ .vmem, ⟨5, _⟩ => ⟨S1x4000x16, .f32⟩
  | .local _ .vmem, ⟨6, _⟩ => ⟨S2000x128, .f32⟩
  | .local _ .vmem, ⟨7, _⟩ => ⟨S2000x128, .f32⟩
  | .local _ .vmem, ⟨8, _⟩ => ⟨S1x128x16, .f32⟩
  | .local _ .vmem, ⟨9, _⟩ => ⟨S1x16, .f32⟩
  | .local _ .vmem, ⟨10, _⟩ => ⟨S1x2000x16, .f32⟩
  | .local _ .vmem, ⟨11, _⟩ => ⟨S1x2000x16, .f32⟩
  | .local _ .vmem, ⟨12, _⟩ => ⟨S8000x128, .f32⟩
  | .local _ .vmem, ⟨13, _⟩ => ⟨S8000x128, .f32⟩
  | .local _ .vmem, ⟨14, _⟩ => ⟨S3x128x16, .f32⟩
  | .local _ .vmem, ⟨15, _⟩ => ⟨S3x16, .f32⟩
  | .local _ .vmem, ⟨16, _⟩ => ⟨S3x8000x16, .f32⟩
  | .local _ .vmem, ⟨17, _⟩ => ⟨S3x8000x16, .f32⟩
  | .local _ .vmem, ⟨18, _⟩ => ⟨S4000x16, .f32⟩
  | .local _ .vmem, ⟨19, _⟩ => ⟨S4000x16, .f32⟩
  | .local _ .vmem, ⟨20, _⟩ => ⟨S1x16x16, .f32⟩
  | .local _ .vmem, ⟨21, _⟩ => ⟨S1x16, .f32⟩
  | .local _ .vmem, ⟨22, _⟩ => ⟨S1x4000x16, .f32⟩
  | .local _ .vmem, ⟨23, _⟩ => ⟨S1x4000x16, .f32⟩
  | .local _ .vmem, ⟨24, _⟩ => ⟨S2000x16, .f32⟩
  | .local _ .vmem, ⟨25, _⟩ => ⟨S2000x16, .f32⟩
  | .local _ .vmem, ⟨26, _⟩ => ⟨S1x16x16, .f32⟩
  | .local _ .vmem, ⟨27, _⟩ => ⟨S1x16, .f32⟩
  | .local _ .vmem, ⟨28, _⟩ => ⟨S1x2000x16, .f32⟩
  | .local _ .vmem, ⟨29, _⟩ => ⟨S1x2000x16, .f32⟩
  | .local _ .vmem, ⟨30, _⟩ => ⟨S8000x16, .f32⟩
  | .local _ .vmem, ⟨31, _⟩ => ⟨S8000x16, .f32⟩
  | .local _ .vmem, ⟨32, _⟩ => ⟨S3x16x16, .f32⟩
  | .local _ .vmem, ⟨33, _⟩ => ⟨S3x16, .f32⟩
  | .local _ .vmem, ⟨34, _⟩ => ⟨S3x8000x16, .f32⟩
  | .local _ .vmem, ⟨35, _⟩ => ⟨S3x8000x16, .f32⟩
  | .local _ .vmem, ⟨36, _⟩ => ⟨S4000x16, .f32⟩
  | .local _ .vmem, ⟨37, _⟩ => ⟨S4000x16, .f32⟩
  | .local _ .vmem, ⟨38, _⟩ => ⟨S1x16x16, .f32⟩
  | .local _ .vmem, ⟨39, _⟩ => ⟨S1x16, .f32⟩
  | .local _ .vmem, ⟨40, _⟩ => ⟨S1x4000x16, .f32⟩
  | .local _ .vmem, ⟨41, _⟩ => ⟨S1x4000x16, .f32⟩
  | .local _ .vmem, ⟨42, _⟩ => ⟨S2000x16, .f32⟩
  | .local _ .vmem, ⟨43, _⟩ => ⟨S2000x16, .f32⟩
  | .local _ .vmem, ⟨44, _⟩ => ⟨S1x16x16, .f32⟩
  | .local _ .vmem, ⟨45, _⟩ => ⟨S1x16, .f32⟩
  | .local _ .vmem, ⟨46, _⟩ => ⟨S1x2000x16, .f32⟩
  | .local _ .vmem, ⟨47, _⟩ => ⟨S1x2000x16, .f32⟩
  | .local _ .vmem, ⟨48, _⟩ => ⟨S8000x16, .f32⟩
  | .local _ .vmem, ⟨49, _⟩ => ⟨S8000x16, .f32⟩
  | .local _ .vmem, ⟨50, _⟩ => ⟨S3x16x16, .f32⟩
  | .local _ .vmem, ⟨51, _⟩ => ⟨S3x16, .f32⟩
  | .local _ .vmem, ⟨52, _⟩ => ⟨S3x8000x16, .f32⟩
  | .local _ .vmem, ⟨53, _⟩ => ⟨S3x8000x16, .f32⟩
  | .local _ .vmem, ⟨54, _⟩ => ⟨S8000x16, .f32⟩
  | .local _ .vmem, ⟨55, _⟩ => ⟨S8000x16, .f32⟩
  | .local _ .vmem, ⟨56, _⟩ => ⟨S1x16x2, .f32⟩
  | .local _ .vmem, ⟨57, _⟩ => ⟨S1x2, .f32⟩
  | .local _ .vmem, ⟨58, _⟩ => ⟨S1x8000x2, .f32⟩
  | .local _ .vmem, ⟨59, _⟩ => ⟨S1x8000x2, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v57 : Ref sig .tc := ⟨.hbm, 89, rfl⟩
abbrev main_cst_11 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v58 : Ref sig .tc := ⟨.hbm, 97, rfl⟩
abbrev main_cst_12 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_13 : Ref sig .tc := ⟨.hbm, 123, rfl⟩
abbrev main_v77 : Ref sig .tc := ⟨.hbm, 124, rfl⟩
abbrev main_v78 : Ref sig .tc := ⟨.hbm, 125, rfl⟩
abbrev main_c_14 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_15 : Ref sig .tc := ⟨.hbm, 132, rfl⟩
abbrev main_v84 : Ref sig .tc := ⟨.hbm, 133, rfl⟩
abbrev main_v85 : Ref sig .tc := ⟨.hbm, 134, rfl⟩
abbrev main_c_16 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_17 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_18 : Ref sig .tc := ⟨.hbm, 147, rfl⟩
abbrev main_v96 : Ref sig .tc := ⟨.hbm, 148, rfl⟩
abbrev main_cst_19 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_20 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_21 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_22 : Ref sig .tc := ⟨.hbm, 163, rfl⟩
abbrev main_v108 : Ref sig .tc := ⟨.hbm, 164, rfl⟩
abbrev main_cst_23 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_24 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_25 : Ref sig .tc := ⟨.hbm, 175, rfl⟩
abbrev main_call3_cst : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_v117 : Ref sig .tc := ⟨.hbm, 182, rfl⟩
abbrev main_cst_26 : Ref sig .tc := ⟨.hbm, 183, rfl⟩
abbrev main_call4_cst : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_v118 : Ref sig .tc := ⟨.hbm, 190, rfl⟩
abbrev main_cst_27 : Ref sig .tc := ⟨.hbm, 191, rfl⟩
abbrev main_call5_cst : Ref sig .tc := ⟨.hbm, 192, rfl⟩
abbrev main_call5_v0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_c_28 : Ref sig .tc := ⟨.hbm, 216, rfl⟩
abbrev main_v137 : Ref sig .tc := ⟨.hbm, 217, rfl⟩
abbrev main_v138 : Ref sig .tc := ⟨.hbm, 218, rfl⟩
abbrev main_c_29 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_c_30 : Ref sig .tc := ⟨.hbm, 225, rfl⟩
abbrev main_v144 : Ref sig .tc := ⟨.hbm, 226, rfl⟩
abbrev main_v145 : Ref sig .tc := ⟨.hbm, 227, rfl⟩
abbrev main_c_31 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_cst_32 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_cst_33 : Ref sig .tc := ⟨.hbm, 240, rfl⟩
abbrev main_v156 : Ref sig .tc := ⟨.hbm, 241, rfl⟩
abbrev main_cst_34 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_cst_35 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_cst_36 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_cst_37 : Ref sig .tc := ⟨.hbm, 256, rfl⟩
abbrev main_v168 : Ref sig .tc := ⟨.hbm, 257, rfl⟩
abbrev main_cst_38 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_cst_39 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3x8000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x4000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x2000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S8000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3x16x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S3x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S3x8000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S4000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x16x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x4000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S2000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x16x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1x2000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![125], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage8_0 : Fin 2 → Memref sig .tc .vmem S8000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S3x16x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S3x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S3x8000x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![125], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage9_0 : Fin 2 → Memref sig .tc .vmem S8000x16 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x16x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1x8000x2 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S5x128x16_S1x128x16_0_0_0 : S5x128x16.Slices ![0, 0, 0] S1x128x16
  slices_S5x16_S1x16_0_0 : S5x16.Slices ![0, 0] S1x16
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S1x16_S1x16_0_0 : ∀ a, (![0, 0] : Fin 2 → Nat) a + S1x16.size a ≤ S1x16.size a
  h_S1x16 : 0 < S1x16.numel
  shapeCasts_S1x16_S16 : S1x16.ShapeCasts S16
  shapeCasts_S16_S1x16 : S16.ShapeCasts S1x16
  broadcasts_S1x16_S4000x16 : S1x16.Broadcasts S4000x16
  inb_S1x4000x16_S1x4000x16_0_0_0 : ∀ a, (![0, 0, 0] : Fin 3 → Nat) a + S1x4000x16.size a ≤ S1x4000x16.size a
  h_S1x4000x16 : 0 < S1x4000x16.numel
  shapeCasts_S1x4000x16_S4000x16 : S1x4000x16.ShapeCasts S4000x16
  shapeCasts_S4000x16_S1x4000x16 : S4000x16.ShapeCasts S1x4000x16
  shapeCasts_S1x500000x16_S500000x16 : S1x500000x16.ShapeCasts S500000x16
  slices_S5x128x16_S1x128x16_1_0_0 : S5x128x16.Slices ![1, 0, 0] S1x128x16
  slices_S5x16_S1x16_1_0 : S5x16.Slices ![1, 0] S1x16
  inb_S2000x128_S2000x128_0_0 : ∀ a, (![0, 0] : Fin 2 → Nat) a + S2000x128.size a ≤ S2000x128.size a
  h_S2000x128 : 0 < S2000x128.numel
  broadcasts_S1x16_S2000x16 : S1x16.Broadcasts S2000x16
  inb_S1x2000x16_S1x2000x16_0_0_0 : ∀ a, (![0, 0, 0] : Fin 3 → Nat) a + S1x2000x16.size a ≤ S1x2000x16.size a
  h_S1x2000x16 : 0 < S1x2000x16.numel
  shapeCasts_S1x2000x16_S2000x16 : S1x2000x16.ShapeCasts S2000x16
  shapeCasts_S2000x16_S1x2000x16 : S2000x16.ShapeCasts S1x2000x16
  shapeCasts_S1x100000x16_S100000x16 : S1x100000x16.ShapeCasts S100000x16
  slices_S5x128x16_S3x128x16_2_0_0 : S5x128x16.Slices ![2, 0, 0] S3x128x16
  slices_S5x16_S3x16_2_0 : S5x16.Slices ![2, 0] S3x16
  inb_S8000x128_S8000x128_0_0 : ∀ a, (![0, 0] : Fin 2 → Nat) a + S8000x128.size a ≤ S8000x128.size a
  h_S8000x128 : 0 < S8000x128.numel
  inb_S3x128x16_S1x128x16_0_0_0 : ∀ a, (![0, 0, 0] : Fin 3 → Nat) a + S1x128x16.size a ≤ S3x128x16.size a
  inb_S3x16_S1x16_0_0 : ∀ a, (![0, 0] : Fin 2 → Nat) a + S1x16.size a ≤ S3x16.size a
  broadcasts_S1x16_S8000x16 : S1x16.Broadcasts S8000x16
  inb_S3x8000x16_S1x8000x16_0_0_0 : ∀ a, (![0, 0, 0] : Fin 3 → Nat) a + S1x8000x16.size a ≤ S3x8000x16.size a
  h_S1x8000x16 : 0 < S1x8000x16.numel
  shapeCasts_S1x8000x16_S8000x16 : S1x8000x16.ShapeCasts S8000x16
  shapeCasts_S8000x16_S1x8000x16 : S8000x16.ShapeCasts S1x8000x16
  inb_S3x128x16_S1x128x16_1_0_0 : ∀ a, (![1, 0, 0] : Fin 3 → Nat) a + S1x128x16.size a ≤ S3x128x16.size a
  inb_S3x16_S1x16_1_0 : ∀ a, (![1, 0] : Fin 2 → Nat) a + S1x16.size a ≤ S3x16.size a
  inb_S3x8000x16_S1x8000x16_1_0_0 : ∀ a, (![1, 0, 0] : Fin 3 → Nat) a + S1x8000x16.size a ≤ S3x8000x16.size a
  inb_S3x128x16_S1x128x16_2_0_0 : ∀ a, (![2, 0, 0] : Fin 3 → Nat) a + S1x128x16.size a ≤ S3x128x16.size a
  inb_S3x16_S1x16_2_0 : ∀ a, (![2, 0] : Fin 2 → Nat) a + S1x16.size a ≤ S3x16.size a
  inb_S3x8000x16_S1x8000x16_2_0_0 : ∀ a, (![2, 0, 0] : Fin 3 → Nat) a + S1x8000x16.size a ≤ S3x8000x16.size a
  slices_S3x1000000x16_S1x1000000x16_0_0_0 : S3x1000000x16.Slices ![0, 0, 0] S1x1000000x16
  shapeCasts_S1x1000000x16_S1000000x16 : S1x1000000x16.ShapeCasts S1000000x16
  slices_S3x1000000x16_S1x1000000x16_1_0_0 : S3x1000000x16.Slices ![1, 0, 0] S1x1000000x16
  slices_S3x1000000x16_S1x1000000x16_2_0_0 : S3x1000000x16.Slices ![2, 0, 0] S1x1000000x16
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x16 : S_.BroadcastsInDim S500000x16 (![] : Fin 0 → Fin S500000x16.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S1000000x16 : S_.BroadcastsInDim S1000000x16 (![] : Fin 0 → Fin S1000000x16.rank)
  slices_S5x16x16_S1x16x16_0_0_0 : S5x16x16.Slices ![0, 0, 0] S1x16x16
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  slices_S5x16x16_S1x16x16_1_0_0 : S5x16x16.Slices ![1, 0, 0] S1x16x16
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  slices_S5x16x16_S3x16x16_2_0_0 : S5x16x16.Slices ![2, 0, 0] S3x16x16
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S3x16x16_S1x16x16_0_0_0 : ∀ a, (![0, 0, 0] : Fin 3 → Nat) a + S1x16x16.size a ≤ S3x16x16.size a
  inb_S3x16x16_S1x16x16_1_0_0 : ∀ a, (![1, 0, 0] : Fin 3 → Nat) a + S1x16x16.size a ≤ S3x16x16.size a
  inb_S3x16x16_S1x16x16_2_0_0 : ∀ a, (![2, 0, 0] : Fin 3 → Nat) a + S1x16x16.size a ≤ S3x16x16.size a
  shapeCasts_S16x2_S1x16x2 : S16x2.ShapeCasts S1x16x2
  shapeCasts_S2_S1x2 : S2.ShapeCasts S1x2
  inb_S1x16x2_S1x16x2_0_0_0 : ∀ a, (![0, 0, 0] : Fin 3 → Nat) a + S1x16x2.size a ≤ S1x16x2.size a
  h_S1x16x2 : 0 < S1x16x2.numel
  shapeCasts_S1x16x2_S16x2 : S1x16x2.ShapeCasts S16x2
  inb_S1x2_S1x2_0_0 : ∀ a, (![0, 0] : Fin 2 → Nat) a + S1x2.size a ≤ S1x2.size a
  h_S1x2 : 0 < S1x2.numel
  shapeCasts_S1x2_S2 : S1x2.ShapeCasts S2
  broadcasts_S1x2_S8000x2 : S1x2.Broadcasts S8000x2
  inb_S1x8000x2_S1x8000x2_0_0_0 : ∀ a, (![0, 0, 0] : Fin 3 → Nat) a + S1x8000x2.size a ≤ S1x8000x2.size a
  h_S1x8000x2 : 0 < S1x8000x2.numel
  shapeCasts_S1x8000x2_S8000x2 : S1x8000x2.ShapeCasts S8000x2
  shapeCasts_S8000x2_S1x8000x2 : S8000x2.ShapeCasts S1x8000x2
  shapeCasts_S1x1000000x2_S1000000x2 : S1x1000000x2.ShapeCasts S1000000x2
  dot_S4000x128_S128x16_S4000x16_1_0_0_1_n_n_wf : DotDims.WF S4000x128 S128x16 S4000x16 [1] [0] [0] [1] [] []
  dot_S2000x128_S128x16_S2000x16_1_0_0_1_n_n_wf : DotDims.WF S2000x128 S128x16 S2000x16 [1] [0] [0] [1] [] []
  dot_S8000x128_S128x16_S8000x16_1_0_0_1_n_n_wf : DotDims.WF S8000x128 S128x16 S8000x16 [1] [0] [0] [1] [] []
  gather_S500000x16_S1000000x1_S1000000x16_1_0_n_n_0_1_116_wf : GatherDims.WF S500000x16 S1000000x1 S1000000x16 [1] [0] [] [0] [] 1 ![1, 16]
  gather_S100000x16_S1000000x1_S1000000x16_1_0_n_n_0_1_116_wf : GatherDims.WF S100000x16 S1000000x1 S1000000x16 [1] [0] [] [0] [] 1 ![1, 16]
  scatter_S500000x16_S1000000x1_S1000000x16_1_0_0_1_wf : ScatterDims.WF S500000x16 S1000000x1 S1000000x16 [1] [0] [0] 1
  scatter_S500000_S1000000x1_S1000000_n_0_0_1_wf : ScatterDims.WF S500000 S1000000x1 S1000000 [] [0] [0] 1
  scatter_S100000x16_S1000000x1_S1000000x16_1_0_0_1_wf : ScatterDims.WF S100000x16 S1000000x1 S1000000x16 [1] [0] [0] 1
  scatter_S100000_S1000000x1_S1000000_n_0_0_1_wf : ScatterDims.WF S100000 S1000000x1 S1000000 [] [0] [0] 1
  dot_S4000x16_S16x16_S4000x16_1_0_0_1_n_n_wf : DotDims.WF S4000x16 S16x16 S4000x16 [1] [0] [0] [1] [] []
  dot_S2000x16_S16x16_S2000x16_1_0_0_1_n_n_wf : DotDims.WF S2000x16 S16x16 S2000x16 [1] [0] [0] [1] [] []
  dot_S8000x16_S16x16_S8000x16_1_0_0_1_n_n_wf : DotDims.WF S8000x16 S16x16 S8000x16 [1] [0] [0] [1] [] []
  dot_S8000x16_S16x2_S8000x2_1_0_0_1_n_n_wf : DotDims.WF S8000x16 S16x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x16.size a ≤ S1x128x16.size a
  hwx0_1 : ∀ i : grid0.Coords, EltTy.bits .f32 = 32 ∨ (Rect.block (s := S1x128x16) S1x128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4000x16.size a ≤ S1x500000x16.size a
  hwx0_3 : ∀ i : grid0.Coords, EltTy.bits .f32 = 32 ∨ (Rect.block (s := S1x500000x16) S1x4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128x16.size a ≤ S1x128x16.size a
  hwx1_1 : ∀ i : grid1.Coords, EltTy.bits .f32 = 32 ∨ (Rect.block (s := S1x128x16) S1x128x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2000x16.size a ≤ S1x100000x16.size a
  hwx1_3 : ∀ i : grid1.Coords, EltTy.bits .f32 = 32 ∨ (Rect.block (s := S1x100000x16) S1x2000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1000000x128.size a
  hwx2_0 : ∀ i : grid2.Coords, EltTy.bits .f32 = 32 ∨ (Rect.block (s := S1000000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128x16.size a ≤ S3x128x16.size a
  hwx2_1 : ∀ i : grid2.Coords, EltTy.bits .f32 = 32 ∨ (Rect.block (s := S3x128x16) S3x128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x16.size a ≤ S3x16.size a
  hwx2_2 : ∀ i : grid2.Coords, EltTy.bits .f32 = 32 ∨ (Rect.block (s := S3x16) S3x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x8000x16.size a ≤ S3x1000000x16.size a
  hwx2_3 : ∀ i : grid2.Coords, EltTy.bits .f32 = 32 ∨ (Rect.block (s := S3x1000000x16) S3x8000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S500000x16.size a
  hwx3_0 : ∀ i : grid3.Coords, EltTy.bits .f32 = 32 ∨ (Rect.block (s := S500000x16) S4000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16x16.size a ≤ S1x16x16.size a
  hwx3_1 : ∀ i : grid3.Coords, EltTy.bits .f32 = 32 ∨ (Rect.block (s := S1x16x16) S1x16x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x4000x16.size a ≤ S1x500000x16.size a
  hwx3_3 : ∀ i : grid3.Coords, EltTy.bits .f32 = 32 ∨ (Rect.block (s := S1x500000x16) S1x4000x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S100000x16.size a
  hwx4_0 : ∀ i : grid4.Coords, EltTy.bits .f32 = 32 ∨ (Rect.block (s := S100000x16) S2000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x16x16.size a ≤ S1x16x16.size a
  hwx4_1 : ∀ i : grid4.Coords, EltTy.bits .f32 = 32 ∨ (Rect.block (s := S1x16x16) S1x16x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x2000x16.size a ≤ S1x100000x16.size a
  hwx4_3 : ∀ i : grid4.Coords, EltTy.bits .f32 = 32 ∨ (Rect.block (s := S1x100000x16) S1x2000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x16.size a ≤ S1000000x16.size a
  hwx5_0 : ∀ i : grid5.Coords, EltTy.bits .f32 = 32 ∨ (Rect.block (s := S1000000x16) S8000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3x16x16.size a ≤ S3x16x16.size a
  hwx5_1 : ∀ i : grid5.Coords, EltTy.bits .f32 = 32 ∨ (Rect.block (s := S3x16x16) S3x16x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3x16.size a ≤ S3x16.size a
  hwx5_2 : ∀ i : grid5.Coords, EltTy.bits .f32 = 32 ∨ (Rect.block (s := S3x16) S3x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S3x8000x16.size a ≤ S3x1000000x16.size a
  hwx5_3 : ∀ i : grid5.Coords, EltTy.bits .f32 = 32 ∨ (Rect.block (s := S3x1000000x16) S3x8000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x16.size a ≤ S500000x16.size a
  hwx6_0 : ∀ i : grid6.Coords, EltTy.bits .f32 = 32 ∨ (Rect.block (s := S500000x16) S4000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x16x16.size a ≤ S1x16x16.size a
  hwx6_1 : ∀ i : grid6.Coords, EltTy.bits .f32 = 32 ∨ (Rect.block (s := S1x16x16) S1x16x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x4000x16.size a ≤ S1x500000x16.size a
  hwx6_3 : ∀ i : grid6.Coords, EltTy.bits .f32 = 32 ∨ (Rect.block (s := S1x500000x16) S1x4000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x16.size a ≤ S100000x16.size a
  hwx7_0 : ∀ i : grid7.Coords, EltTy.bits .f32 = 32 ∨ (Rect.block (s := S100000x16) S2000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x16x16.size a ≤ S1x16x16.size a
  hwx7_1 : ∀ i : grid7.Coords, EltTy.bits .f32 = 32 ∨ (Rect.block (s := S1x16x16) S1x16x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x2000x16.size a ≤ S1x100000x16.size a
  hwx7_3 : ∀ i : grid7.Coords, EltTy.bits .f32 = 32 ∨ (Rect.block (s := S1x100000x16) S1x2000x16.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x16.size a ≤ S1000000x16.size a
  hwx8_0 : ∀ i : grid8.Coords, EltTy.bits .f32 = 32 ∨ (Rect.block (s := S1000000x16) S8000x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S3x16x16.size a ≤ S3x16x16.size a
  hwx8_1 : ∀ i : grid8.Coords, EltTy.bits .f32 = 32 ∨ (Rect.block (s := S3x16x16) S3x16x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S3x16.size a ≤ S3x16.size a
  hwx8_2 : ∀ i : grid8.Coords, EltTy.bits .f32 = 32 ∨ (Rect.block (s := S3x16) S3x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S3x8000x16.size a ≤ S3x1000000x16.size a
  hwx8_3 : ∀ i : grid8.Coords, EltTy.bits .f32 = 32 ∨ (Rect.block (s := S3x1000000x16) S3x8000x16.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x16.size a ≤ S1000000x16.size a
  hwx9_0 : ∀ i : grid9.Coords, EltTy.bits .f32 = 32 ∨ (Rect.block (s := S1000000x16) S8000x16.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x16x2.size a ≤ S1x16x2.size a
  hwx9_1 : ∀ i : grid9.Coords, EltTy.bits .f32 = 32 ∨ (Rect.block (s := S1x16x2) S1x16x2.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x2.size a ≤ S1x2.size a
  hwx9_2 : ∀ i : grid9.Coords, EltTy.bits .f32 = 32 ∨ (Rect.block (s := S1x2) S1x2.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1x8000x2.size a ≤ S1x1000000x2.size a
  hwx9_3 : ∀ i : grid9.Coords, EltTy.bits .f32 = 32 ∨ (Rect.block (s := S1x1000000x2) S1x8000x2.size (cc9_transform_3 i) (hinb9_3 i)).WholeWords (EltTy.packing .f32)

variable [Facts₀]

def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf
def gather_S500000x16_S1000000x1_S1000000x16_1_0_n_n_0_1_116 : GatherDims S500000x16 S1000000x1 S1000000x16 where
  offsetDims := [1]
  collapsedSliceDims := [0]
  operandBatchingDims := []
  startIndicesBatchingDims := []
  startIndexMap := [0]
  indexVectorDim := 1
  sliceSizes := ![1, 16]
  wf := gather_S500000x16_S1000000x1_S1000000x16_1_0_n_n_0_1_116_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S500000x16_S1000000x1_S1000000x16_1_0_0_1 : ScatterDims S500000x16 S1000000x1 S1000000x16 where
  updateWindowDims := [1]
  insertedWindowDims := [0]
  scatterDimsToOperandDims := [0]
  indexVectorDim := 1
  wf := scatter_S500000x16_S1000000x1_S1000000x16_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S8000x16_S16x2_S8000x2_1_0_0_1_n_n : DotDims S8000x16 S16x2 S8000x2 where
  lhsContracting := [1]
  rhsContracting := [0]
  lhsNonContracting := [0]
  rhsNonContracting := [1]
  lhsBatch := []
  rhsBatch := []
  wf := dot_S8000x16_S16x2_S8000x2_1_0_0_1_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S3x128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S3x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S3x8000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v58) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x4000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v59) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x2000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v57) S8000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S3x16x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S3x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S3x8000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v118) S4000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v120) S1x16x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v121) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v122) S1x4000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v119) S2000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v124) S1x16x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v125) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v126) S1x2000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v117) S8000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v128) S3x16x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v129) S3x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v130) S3x8000x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v152) S8000x16.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v177) S1x16x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v178) S1x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v179) S1x8000x2.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S1000000x128 : Shape := ⟨2, ![1000000, 128]⟩
abbrev S500000x128 : Shape := ⟨2, ![500000, 128]⟩
abbrev S100000x128 : Shape := ⟨2, ![100000, 128]⟩
abbrev S5x128x16 : Shape := ⟨3, ![5, 128, 16]⟩
abbrev S5x16 : Shape := ⟨2, ![5, 16]⟩
abbrev S5x16x16 : Shape := ⟨3, ![5, 16, 16]⟩
abbrev S16x2 : Shape := ⟨2, ![16, 2]⟩
abbrev S2 : Shape := ⟨1, ![2]⟩
abbrev S1000000 : Shape := ⟨1, ![1000000]⟩
abbrev S1x128x16 : Shape := ⟨3, ![1, 128, 16]⟩
abbrev S128x16 : Shape := ⟨2, ![128, 16]⟩
abbrev S500000x16 : Shape := ⟨2, ![500000, 16]⟩
abbrev S1x16 : Shape := ⟨2, ![1, 16]⟩
abbrev S16 : Shape := ⟨1, ![16]⟩
abbrev S100000x16 : Shape := ⟨2, ![100000, 16]⟩
abbrev S1000000x16 : Shape := ⟨2, ![1000000, 16]⟩
abbrev S_ : Shape := ⟨0, ![]⟩
abbrev S1000000x1 : Shape := ⟨2, ![1000000, 1]⟩
abbrev S500000 : Shape := ⟨1, ![500000]⟩
abbrev S500000x1 : Shape := ⟨2, ![500000, 1]⟩
abbrev S100000 : Shape := ⟨1, ![100000]⟩
abbrev S100000x1 : Shape := ⟨2, ![100000, 1]⟩
abbrev S1x16x16 : Shape := ⟨3, ![1, 16, 16]⟩
abbrev S16x16 : Shape := ⟨2, ![16, 16]⟩
abbrev S1000000x2 : Shape := ⟨2, ![1000000, 2]⟩
abbrev S1x2 : Shape := ⟨2, ![1, 2]⟩

abbrev nBuf : Space → Nat
  | .hbm => 341
  | .vmem => 0
  | .smem => 0
  | _ => 0

abbrev hbmTy0_0 (i : Nat) : BufTy := match i % 128 with
  | 0 => ⟨S1000000x128, .f32⟩
  | 1 => ⟨S500000x128, .f32⟩
  | 2 => ⟨S100000x128, .f32⟩
  | 3 => ⟨S5x128x16, .f32⟩
  | 4 => ⟨S5x16, .f32⟩
  | 5 => ⟨S5x16x16, .f32⟩
  | 6 => ⟨S5x16, .f32⟩
  | 7 => ⟨S5x16x16, .f32⟩
  | 8 => ⟨S5x16, .f32⟩
  | 9 => ⟨S16x2, .f32⟩
  | 10 => ⟨S2, .f32⟩
  | 11 => ⟨S1000000, .i32⟩
  | 12 => ⟨S1000000, .i32⟩
  | 13 => ⟨S1x128x16, .f32⟩
  | 14 => ⟨S128x16, .f32⟩
  | 15 => ⟨S500000x16, .f32⟩
  | 16 => ⟨S1x16, .f32⟩
  | 17 => ⟨S16, .f32⟩
  | 18 => ⟨S1x16, .f32⟩
  | 19 => ⟨S500000x16, .f32⟩
  | 20 => ⟨S500000x16, .f32⟩
  | 21 => ⟨S1x128x16, .f32⟩
  | 22 => ⟨S128x16, .f32⟩
  | 23 => ⟨S100000x16, .f32⟩
  | 24 => ⟨S1x16, .f32⟩
  | 25 => ⟨S16, .f32⟩
  | 26 => ⟨S1x16, .f32⟩
  | 27 => ⟨S100000x16, .f32⟩
  | 28 => ⟨S100000x16, .f32⟩
  | 29 => ⟨S1x128x16, .f32⟩
  | 30 => ⟨S128x16, .f32⟩
  | 31 => ⟨S1000000x16, .f32⟩
  | 32 => ⟨S1x16, .f32⟩
  | 33 => ⟨S16, .f32⟩
  | 34 => ⟨S1x16, .f32⟩
  | 35 => ⟨S1000000x16, .f32⟩
  | 36 => ⟨S1000000x16, .f32⟩
  | 37 => ⟨S1x128x16, .f32⟩
  | 38 => ⟨S128x16, .f32⟩
  | 39 => ⟨S1000000x16, .f32⟩
  | 40 => ⟨S1x16, .f32⟩
  | 41 => ⟨S16, .f32⟩
  | 42 => ⟨S1x16, .f32⟩
  | 43 => ⟨S1000000x16, .f32⟩
  | 44 => ⟨S1000000x16, .f32⟩
  | 45 => ⟨S1x128x16, .f32⟩
  | 46 => ⟨S128x16, .f32⟩
  | 47 => ⟨S1000000x16, .f32⟩
  | 48 => ⟨S1x16, .f32⟩
  | 49 => ⟨S16, .f32⟩
  | 50 => ⟨S1x16, .f32⟩
  | 51 => ⟨S1000000x16, .f32⟩
  | 52 => ⟨S1000000x16, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x16, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x16, .f32⟩
  | 71 => ⟨S1000000x16, .f32⟩
  | 72 => ⟨S1000000x16, .f32⟩
  | 73 => ⟨S_, .f32⟩
  | 74 => ⟨S500000x16, .f32⟩
  | 75 => ⟨S1000000x1, .i32⟩
  | 76 => ⟨S500000x16, .f32⟩
  | 77 => ⟨S_, .f32⟩
  | 78 => ⟨S1000000, .f32⟩
  | 79 => ⟨S_, .f32⟩
  | 80 => ⟨S500000, .f32⟩
  | 81 => ⟨S1000000x1, .i32⟩
  | 82 => ⟨S500000, .f32⟩
  | 83 => ⟨S_, .f32⟩
  | 84 => ⟨S500000, .f32⟩
  | 85 => ⟨S500000, .f32⟩
  | 86 => ⟨S500000x1, .f32⟩
  | 87 => ⟨S500000x16, .f32⟩
  | 88 => ⟨S500000x16, .f32⟩
  | 89 => ⟨S_, .f32⟩
  | 90 => ⟨S100000x16, .f32⟩
  | 91 => ⟨S1000000x1, .i32⟩
  | 92 => ⟨S100000x16, .f32⟩
  | 93 => ⟨S_, .f32⟩
  | 94 => ⟨S1000000, .f32⟩
  | 95 => ⟨S_, .f32⟩
  | 96 => ⟨S100000, .f32⟩
  | 97 => ⟨S1000000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x16, .f32⟩
  | 104 => ⟨S100000x16, .f32⟩
  | 105 => ⟨S_, .f32⟩
  | 106 => ⟨S_, .f32⟩
  | 107 => ⟨S1000000x16, .f32⟩
  | 108 => ⟨S1000000x16, .i1⟩
  | 109 => ⟨S_, .f32⟩
  | 110 => ⟨S1000000x16, .f32⟩
  | 111 => ⟨S1000000x16, .f32⟩
  | 112 => ⟨S1000000x16, .f32⟩
  | 113 => ⟨S_, .f32⟩
  | 114 => ⟨S_, .f32⟩
  | 115 => ⟨S500000x16, .f32⟩
  | 116 => ⟨S500000x16, .i1⟩
  | 117 => ⟨S_, .f32⟩
  | 118 => ⟨S500000x16, .f32⟩
  | 119 => ⟨S500000x16, .f32⟩
  | 120 => ⟨S500000x16, .f32⟩
  | 121 => ⟨S_, .f32⟩
  | 122 => ⟨S_, .f32⟩
  | 123 => ⟨S100000x16, .f32⟩
  | 124 => ⟨S100000x16, .i1⟩
  | 125 => ⟨S_, .f32⟩
  | 126 => ⟨S100000x16, .f32⟩
  | 127 => ⟨S100000x16, .f32⟩
  | _ => ⟨S1000000x128, .f32⟩

abbrev hbmTy0_1 (i : Nat) : BufTy := match i % 128 with
  | 0 => ⟨S100000x16, .f32⟩
  | 1 => ⟨S1x16x16, .f32⟩
  | 2 => ⟨S16x16, .f32⟩
  | 3 => ⟨S500000x16, .f32⟩
  | 4 => ⟨S1x16, .f32⟩
  | 5 => ⟨S16, .f32⟩
  | 6 => ⟨S1x16, .f32⟩
  | 7 => ⟨S500000x16, .f32⟩
  | 8 => ⟨S500000x16, .f32⟩
  | 9 => ⟨S1x16x16, .f32⟩
  | 10 => ⟨S16x16, .f32⟩
  | 11 => ⟨S100000x16, .f32⟩
  | 12 => ⟨S1x16, .f32⟩
  | 13 => ⟨S16, .f32⟩
  | 14 => ⟨S1x16, .f32⟩
  | 15 => ⟨S100000x16, .f32⟩
  | 16 => ⟨S100000x16, .f32⟩
  | 17 => ⟨S1x16x16, .f32⟩
  | 18 => ⟨S16x16, .f32⟩
  | 19 => ⟨S1000000x16, .f32⟩
  | 20 => ⟨S1x16, .f32⟩
  | 21 => ⟨S16, .f32⟩
  | 22 => ⟨S1x16, .f32⟩
  | 23 => ⟨S1000000x16, .f32⟩
  | 24 => ⟨S1000000x16, .f32⟩
  | 25 => ⟨S1x16x16, .f32⟩
  | 26 => ⟨S16x16, .f32⟩
  | 27 => ⟨S1000000x16, .f32⟩
  | 28 => ⟨S1x16, .f32⟩
  | 29 => ⟨S16, .f32⟩
  | 30 => ⟨S1x16, .f32⟩
  | 31 => ⟨S1000000x16, .f32⟩
  | 32 => ⟨S1000000x16, .f32⟩
  | 33 => ⟨S1x16x16, .f32⟩
  | 34 => ⟨S16x16, .f32⟩
  | 35 => ⟨S1000000x16, .f32⟩
  | 36 => ⟨S1x16, .f32⟩
  | 37 => ⟨S16, .f32⟩
  | 38 => ⟨S1x16, .f32⟩
  | 39 => ⟨S1000000x16, .f32⟩
  | 40 => ⟨S1000000x16, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x16, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x16, .f32⟩
  | 59 => ⟨S1000000x16, .f32⟩
  | 60 => ⟨S1000000x16, .f32⟩
  | 61 => ⟨S_, .f32⟩
  | 62 => ⟨S500000x16, .f32⟩
  | 63 => ⟨S1000000x1, .i32⟩
  | 64 => ⟨S500000x16, .f32⟩
  | 65 => ⟨S_, .f32⟩
  | 66 => ⟨S1000000, .f32⟩
  | 67 => ⟨S_, .f32⟩
  | 68 => ⟨S500000, .f32⟩
  | 69 => ⟨S1000000x1, .i32⟩
  | 70 => ⟨S500000, .f32⟩
  | 71 => ⟨S_, .f32⟩
  | 72 => ⟨S500000, .f32⟩
  | 73 => ⟨S500000, .f32⟩
  | 74 => ⟨S500000x1, .f32⟩
  | 75 => ⟨S500000x16, .f32⟩
  | 76 => ⟨S500000x16, .f32⟩
  | 77 => ⟨S_, .f32⟩
  | 78 => ⟨S100000x16, .f32⟩
  | 79 => ⟨S1000000x1, .i32⟩
  | 80 => ⟨S100000x16, .f32⟩
  | 81 => ⟨S_, .f32⟩
  | 82 => ⟨S1000000, .f32⟩
  | 83 => ⟨S_, .f32⟩
  | 84 => ⟨S100000, .f32⟩
  | 85 => ⟨S1000000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x16, .f32⟩
  | 92 => ⟨S100000x16, .f32⟩
  | 93 => ⟨S_, .f32⟩
  | 94 => ⟨S_, .f32⟩
  | 95 => ⟨S1000000x16, .f32⟩
  | 96 => ⟨S1000000x16, .i1⟩
  | 97 => ⟨S_, .f32⟩
  | 98 => ⟨S1000000x16, .f32⟩
  | 99 => ⟨S1000000x16, .f32⟩
  | 100 => ⟨S1000000x16, .f32⟩
  | 101 => ⟨S_, .f32⟩
  | 102 => ⟨S_, .f32⟩
  | 103 => ⟨S500000x16, .f32⟩
  | 104 => ⟨S500000x16, .i1⟩
  | 105 => ⟨S_, .f32⟩
  | 106 => ⟨S500000x16, .f32⟩
  | 107 => ⟨S500000x16, .f32⟩
  | 108 => ⟨S500000x16, .f32⟩
  | 109 => ⟨S_, .f32⟩
  | 110 => ⟨S_, .f32⟩
  | 111 => ⟨S100000x16, .f32⟩
  | 112 => ⟨S100000x16, .i1⟩
  | 113 => ⟨S_, .f32⟩
  | 114 => ⟨S100000x16, .f32⟩
  | 115 => ⟨S100000x16, .f32⟩
  | 116 => ⟨S100000x16, .f32⟩
  | 117 => ⟨S1x16x16, .f32⟩
  | 118 => ⟨S16x16, .f32⟩
  | 119 => ⟨S500000x16, .f32⟩
  | 120 => ⟨S1x16, .f32⟩
  | 121 => ⟨S16, .f32⟩
  | 122 => ⟨S1x16, .f32⟩
  | 123 => ⟨S500000x16, .f32⟩
  | 124 => ⟨S500000x16, .f32⟩
  | 125 => ⟨S1x16x16, .f32⟩
  | 126 => ⟨S16x16, .f32⟩
  | 127 => ⟨S100000x16, .f32⟩
  | _ => ⟨S1000000x128, .f32⟩

abbrev hbmTy0_2 (i : Nat) : BufTy := match i % 128 with
  | 0 => ⟨S1x16, .f32⟩
  | 1 => ⟨S16, .f32⟩
  | 2 => ⟨S1x16, .f32⟩
  | 3 => ⟨S100000x16, .f32⟩
  | 4 => ⟨S100000x16, .f32⟩
  | 5 => ⟨S1x16x16, .f32⟩
  | 6 => ⟨S16x16, .f32⟩
  | 7 => ⟨S1000000x16, .f32⟩
  | 8 => ⟨S1x16, .f32⟩
  | 9 => ⟨S16, .f32⟩
  | 10 => ⟨S1x16, .f32⟩
  | 11 => ⟨S1000000x16, .f32⟩
  | 12 => ⟨S1000000x16, .f32⟩
  | 13 => ⟨S1x16x16, .f32⟩
  | 14 => ⟨S16x16, .f32⟩
  | 15 => ⟨S1000000x16, .f32⟩
  | 16 => ⟨S1x16, .f32⟩
  | 17 => ⟨S16, .f32⟩
  | 18 => ⟨S1x16, .f32⟩
  | 19 => ⟨S1000000x16, .f32⟩
  | 20 => ⟨S1000000x16, .f32⟩
  | 21 => ⟨S1x16x16, .f32⟩
  | 22 => ⟨S16x16, .f32⟩
  | 23 => ⟨S1000000x16, .f32⟩
  | 24 => ⟨S1x16, .f32⟩
  | 25 => ⟨S16, .f32⟩
  | 26 => ⟨S1x16, .f32⟩
  | 27 => ⟨S1000000x16, .f32⟩
  | 28 => ⟨S1000000x16, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x16, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000x16, .f32⟩
  | 47 => ⟨S1000000x16, .f32⟩
  | 48 => ⟨S1000000x16, .f32⟩
  | 49 => ⟨S_, .f32⟩
  | 50 => ⟨S500000x16, .f32⟩
  | 51 => ⟨S1000000x1, .i32⟩
  | 52 => ⟨S500000x16, .f32⟩
  | 53 => ⟨S_, .f32⟩
  | 54 => ⟨S1000000, .f32⟩
  | 55 => ⟨S_, .f32⟩
  | 56 => ⟨S500000, .f32⟩
  | 57 => ⟨S1000000x1, .i32⟩
  | 58 => ⟨S500000, .f32⟩
  | 59 => ⟨S_, .f32⟩
  | 60 => ⟨S500000, .f32⟩
  | 61 => ⟨S500000, .f32⟩
  | 62 => ⟨S500000x1, .f32⟩
  | 63 => ⟨S500000x16, .f32⟩
  | 64 => ⟨S500000x16, .f32⟩
  | 65 => ⟨S_, .f32⟩
  | 66 => ⟨S100000x16, .f32⟩
  | 67 => ⟨S1000000x1, .i32⟩
  | 68 => ⟨S100000x16, .f32⟩
  | 69 => ⟨S_, .f32⟩
  | 70 => ⟨S1000000, .f32⟩
  | 71 => ⟨S_, .f32⟩
  | 72 => ⟨S100000, .f32⟩
  | 73 => ⟨S1000000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x16, .f32⟩
  | 80 => ⟨S100000x16, .f32⟩
  | 81 => ⟨S1000000x2, .f32⟩
  | 82 => ⟨S1x2, .f32⟩
  | 83 => ⟨S1000000x2, .f32⟩
  | 84 => ⟨S1000000x2, .f32⟩
  | _ => ⟨S1000000x128, .f32⟩

abbrev hbmTy (i : Nat) : BufTy := match i / 128 with
  | 0 => hbmTy0_0 i
  | 1 => hbmTy0_1 i
  | 2 => hbmTy0_2 i
  | _ => ⟨S1000000x128, .f32⟩

abbrev bufTy : (tb : Table) → Fin (tcTables nBuf tb) → BufTy
  | .hbm, ⟨i, _⟩ => hbmTy i
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_v40 : Ref sig .tc := ⟨.hbm, 54, rfl⟩
abbrev main_v41 : Ref sig .tc := ⟨.hbm, 55, rfl⟩
abbrev main_c_0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_1 : Ref sig .tc := ⟨.hbm, 62, rfl⟩
abbrev main_v47 : Ref sig .tc := ⟨.hbm, 63, rfl⟩
abbrev main_v48 : Ref sig .tc := ⟨.hbm, 64, rfl⟩
abbrev main_c_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_3 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_9 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_10 : Ref sig .tc := ⟨.hbm, 105, rfl⟩
abbrev main_call0_cst : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_v80 : Ref sig .tc := ⟨.hbm, 112, rfl⟩
abbrev main_cst_11 : Ref sig .tc := ⟨.hbm, 113, rfl⟩
abbrev main_call1_cst : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_v81 : Ref sig .tc := ⟨.hbm, 120, rfl⟩
abbrev main_cst_12 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_13 : Ref sig .tc := ⟨.hbm, 169, rfl⟩
abbrev main_v123 : Ref sig .tc := ⟨.hbm, 170, rfl⟩
abbrev main_v124 : Ref sig .tc := ⟨.hbm, 171, rfl⟩
abbrev main_c_14 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_15 : Ref sig .tc := ⟨.hbm, 178, rfl⟩
abbrev main_v130 : Ref sig .tc := ⟨.hbm, 179, rfl⟩
abbrev main_v131 : Ref sig .tc := ⟨.hbm, 180, rfl⟩
abbrev main_c_16 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_17 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_18 : Ref sig .tc := ⟨.hbm, 193, rfl⟩
abbrev main_v142 : Ref sig .tc := ⟨.hbm, 194, rfl⟩
abbrev main_cst_19 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_20 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_21 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_22 : Ref sig .tc := ⟨.hbm, 209, rfl⟩
abbrev main_v154 : Ref sig .tc := ⟨.hbm, 210, rfl⟩
abbrev main_cst_23 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_24 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_25 : Ref sig .tc := ⟨.hbm, 221, rfl⟩
abbrev main_call3_cst : Ref sig .tc := ⟨.hbm, 222, rfl⟩
abbrev main_call3_v0 : Ref sig .tc := ⟨.hbm, 223, rfl⟩
abbrev main_call3_v1 : Ref sig .tc := ⟨.hbm, 224, rfl⟩
abbrev main_call3_v2 : Ref sig .tc := ⟨.hbm, 225, rfl⟩
abbrev main_call3_v3 : Ref sig .tc := ⟨.hbm, 226, rfl⟩
abbrev main_call3_v4 : Ref sig .tc := ⟨.hbm, 227, rfl⟩
abbrev main_v163 : Ref sig .tc := ⟨.hbm, 228, rfl⟩
abbrev main_cst_26 : Ref sig .tc := ⟨.hbm, 229, rfl⟩
abbrev main_call4_cst : Ref sig .tc := ⟨.hbm, 230, rfl⟩
abbrev main_call4_v0 : Ref sig .tc := ⟨.hbm, 231, rfl⟩
abbrev main_call4_v1 : Ref sig .tc := ⟨.hbm, 232, rfl⟩
abbrev main_call4_v2 : Ref sig .tc := ⟨.hbm, 233, rfl⟩
abbrev main_call4_v3 : Ref sig .tc := ⟨.hbm, 234, rfl⟩
abbrev main_call4_v4 : Ref sig .tc := ⟨.hbm, 235, rfl⟩
abbrev main_v164 : Ref sig .tc := ⟨.hbm, 236, rfl⟩
abbrev main_cst_27 : Ref sig .tc := ⟨.hbm, 237, rfl⟩
abbrev main_call5_cst : Ref sig .tc := ⟨.hbm, 238, rfl⟩
abbrev main_call5_v0 : Ref sig .tc := ⟨.hbm, 239, rfl⟩
abbrev main_call5_v1 : Ref sig .tc := ⟨.hbm, 240, rfl⟩
abbrev main_call5_v2 : Ref sig .tc := ⟨.hbm, 241, rfl⟩
abbrev main_call5_v3 : Ref sig .tc := ⟨.hbm, 242, rfl⟩
abbrev main_call5_v4 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_c_28 : Ref sig .tc := ⟨.hbm, 285, rfl⟩
abbrev main_v206 : Ref sig .tc := ⟨.hbm, 286, rfl⟩
abbrev main_v207 : Ref sig .tc := ⟨.hbm, 287, rfl⟩
abbrev main_c_29 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_c_30 : Ref sig .tc := ⟨.hbm, 294, rfl⟩
abbrev main_v213 : Ref sig .tc := ⟨.hbm, 295, rfl⟩
abbrev main_v214 : Ref sig .tc := ⟨.hbm, 296, rfl⟩
abbrev main_c_31 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_cst_32 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_cst_33 : Ref sig .tc := ⟨.hbm, 309, rfl⟩
abbrev main_v225 : Ref sig .tc := ⟨.hbm, 310, rfl⟩
abbrev main_cst_34 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_cst_35 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_cst_36 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_cst_37 : Ref sig .tc := ⟨.hbm, 325, rfl⟩
abbrev main_v237 : Ref sig .tc := ⟨.hbm, 326, rfl⟩
abbrev main_cst_38 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_cst_39 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩

abbrev nD : Nat := 1
abbrev τ : Topo := Topo.v7x

variable {F : FTy → Type} [FloatOps F]

class Facts₀ : Prop where
  slices_S5x128x16_S1x128x16_0_0_0 : S5x128x16.Slices ![0, 0, 0] S1x128x16
  shapeCasts_S1x128x16_S128x16 : S1x128x16.ShapeCasts S128x16
  slices_S5x16_S1x16_0_0 : S5x16.Slices ![0, 0] S1x16
  shapeCasts_S1x16_S16 : S1x16.ShapeCasts S16
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  slices_S5x128x16_S1x128x16_1_0_0 : S5x128x16.Slices ![1, 0, 0] S1x128x16
  slices_S5x16_S1x16_1_0 : S5x16.Slices ![1, 0] S1x16
  bcast_S1x16_S100000x16_0_1 : S1x16.BroadcastsInDim S100000x16 (![0, 1] : Fin 2 → Fin S100000x16.rank)
  slices_S5x128x16_S1x128x16_2_0_0 : S5x128x16.Slices ![2, 0, 0] S1x128x16
  slices_S5x16_S1x16_2_0 : S5x16.Slices ![2, 0] S1x16
  bcast_S1x16_S1000000x16_0_1 : S1x16.BroadcastsInDim S1000000x16 (![0, 1] : Fin 2 → Fin S1000000x16.rank)
  slices_S5x128x16_S1x128x16_3_0_0 : S5x128x16.Slices ![3, 0, 0] S1x128x16
  slices_S5x16_S1x16_3_0 : S5x16.Slices ![3, 0] S1x16
  slices_S5x128x16_S1x128x16_4_0_0 : S5x128x16.Slices ![4, 0, 0] S1x128x16
  slices_S5x16_S1x16_4_0 : S5x16.Slices ![4, 0] S1x16
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x16 : S_.BroadcastsInDim S500000x16 (![] : Fin 0 → Fin S500000x16.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S1000000x16 : S_.BroadcastsInDim S1000000x16 (![] : Fin 0 → Fin S1000000x16.rank)
  slices_S5x16x16_S1x16x16_0_0_0 : S5x16x16.Slices ![0, 0, 0] S1x16x16
  shapeCasts_S1x16x16_S16x16 : S1x16x16.ShapeCasts S16x16
  slices_S5x16x16_S1x16x16_1_0_0 : S5x16x16.Slices ![1, 0, 0] S1x16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  dot_S500000x128_S128x16_S500000x16_1_0_0_1_n_n_wf : DotDims.WF S500000x128 S128x16 S500000x16 [1] [0] [0] [1] [] []
  dot_S100000x128_S128x16_S100000x16_1_0_0_1_n_n_wf : DotDims.WF S100000x128 S128x16 S100000x16 [1] [0] [0] [1] [] []
  dot_S1000000x128_S128x16_S1000000x16_1_0_0_1_n_n_wf : DotDims.WF S1000000x128 S128x16 S1000000x16 [1] [0] [0] [1] [] []
  gather_S500000x16_S1000000x1_S1000000x16_1_0_n_n_0_1_116_wf : GatherDims.WF S500000x16 S1000000x1 S1000000x16 [1] [0] [] [0] [] 1 ![1, 16]
  gather_S100000x16_S1000000x1_S1000000x16_1_0_n_n_0_1_116_wf : GatherDims.WF S100000x16 S1000000x1 S1000000x16 [1] [0] [] [0] [] 1 ![1, 16]
  scatter_S500000x16_S1000000x1_S1000000x16_1_0_0_1_wf : ScatterDims.WF S500000x16 S1000000x1 S1000000x16 [1] [0] [0] 1
  scatter_S500000_S1000000x1_S1000000_n_0_0_1_wf : ScatterDims.WF S500000 S1000000x1 S1000000 [] [0] [0] 1
  scatter_S100000x16_S1000000x1_S1000000x16_1_0_0_1_wf : ScatterDims.WF S100000x16 S1000000x1 S1000000x16 [1] [0] [0] 1
  scatter_S100000_S1000000x1_S1000000_n_0_0_1_wf : ScatterDims.WF S100000 S1000000x1 S1000000 [] [0] [0] 1
  dot_S500000x16_S16x16_S500000x16_1_0_0_1_n_n_wf : DotDims.WF S500000x16 S16x16 S500000x16 [1] [0] [0] [1] [] []
  dot_S100000x16_S16x16_S100000x16_1_0_0_1_n_n_wf : DotDims.WF S100000x16 S16x16 S100000x16 [1] [0] [0] [1] [] []
  dot_S1000000x16_S16x16_S1000000x16_1_0_0_1_n_n_wf : DotDims.WF S1000000x16 S16x16 S1000000x16 [1] [0] [0] [1] [] []
  dot_S1000000x16_S16x2_S1000000x2_1_0_0_1_n_n_wf : DotDims.WF S1000000x16 S16x2 S1000000x2 [1] [0] [0] [1] [] []

variable [Facts₀]

def dot_S500000x128_S128x16_S500000x16_1_0_0_1_n_n : DotDims S500000x128 S128x16 S500000x16 where
  lhsContracting := [1]
  rhsContracting := [0]
  lhsNonContracting := [0]
  rhsNonContracting := [1]
  lhsBatch := []
  rhsBatch := []
  wf := dot_S500000x128_S128x16_S500000x16_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S1000000x128_S128x16_S1000000x16_1_0_0_1_n_n : DotDims S1000000x128 S128x16 S1000000x16 where
  lhsContracting := [1]
  rhsContracting := [0]
  lhsNonContracting := [0]
  rhsNonContracting := [1]
  lhsBatch := []
  rhsBatch := []
  wf := dot_S1000000x128_S128x16_S1000000x16_1_0_0_1_n_n_wf
def gather_S500000x16_S1000000x1_S1000000x16_1_0_n_n_0_1_116 : GatherDims S500000x16 S1000000x1 S1000000x16 where
  offsetDims := [1]
  collapsedSliceDims := [0]
  operandBatchingDims := []
  startIndicesBatchingDims := []
  startIndexMap := [0]
  indexVectorDim := 1
  sliceSizes := ![1, 16]
  wf := gather_S500000x16_S1000000x1_S1000000x16_1_0_n_n_0_1_116_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S500000x16_S1000000x1_S1000000x16_1_0_0_1 : ScatterDims S500000x16 S1000000x1 S1000000x16 where
  updateWindowDims := [1]
  insertedWindowDims := [0]
  scatterDimsToOperandDims := [0]
  indexVectorDim := 1
  wf := scatter_S500000x16_S1000000x1_S1000000x16_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S1000000x16_S16x2_S1000000x2_1_0_0_1_n_n : DotDims S1000000x16 S16x2 S1000000x2 where
  lhsContracting := [1]
  rhsContracting := [0]
  lhsNonContracting := [0]
  rhsNonContracting := [1]
  lhsBatch := []
  rhsBatch := []
  wf := dot_S1000000x16_S16x2_S1000000x2_1_0_0_1_n_n_wf

class Facts : Prop extends Facts₀ where

variable [Facts]
-- ==== Proof.KRun.lean ====
/-
  The idealized kernel program's run with its result named.

  Every weakly fair execution of the program terminates without a fault; at the end each argument array holds what it
  was launched with, and the result array holds what the last boundary of the program's fold of buffer contents holds
  there: the contents after the tenth region's write-backs, passed through the final reshape.  The fold itself (a stretch
  of host operations applied to the contents before it; a region's arrays replaced by what its write-backs leave) is the
  one the frame of the program is stated over; the other modules read it stage by stage.
-/
import proofs.«154745_j79044578115861_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result array at the last boundary's contents, the arguments as launched. -/
theorem run : θ_run defs (onTc (τ := τ) (main (F := F))) ⟨m, fun _ => 0, ρ⟩ (fun r => ∀ c : Dev nD,
      r.2.mem ((c.tc : Thread nD τ).loc main_v180) = W33 m ρ c (Proc.devRef .tc main_v180)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c =>
      ⟨h c _ (mem_uc main_v180 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c)⟩)

end Cert.KernelIdeal.KRun

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.KChain0.lean ====
/-
  The kernel program's fold of buffer contents, boundary by boundary: shared notions.

  Between two regions the program runs a stretch of host operations; after the third, sixth and ninth region the stretch
  is long (the neighbour gathers, the segment means and the leaky rectifiers) and the fold names its pieces separately.
  Here the pieces of each long stretch are joined into one list, so that the contents after the stretch are ONE fold of
  that list from the contents before it.  A buffer that no operation of a list writes holds after the list what it held
  before: the tactic below decides that by comparing the buffer with every operation's result buffer.
-/
import proofs.«154745_j79044578115861_1_alg».proof.Proof.Gen.KernelIdeal.Frame
import proofs.«154745_j79044578115861_1_alg».proof.Proof.LibAfterAppend

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The host operations between the third and the fourth region, as one list. -/
abbrev kops3 : List (HloOp τ sig (Elt F)) :=
  hostOps3 ++ (hostOps3_1 ++ (hostOps3_2 ++ (hostOps3_3 ++ (hostOps3_4 ++ (hostOps3_5 ++ hostOps3_6)))))
/-- The host operations between the sixth and the seventh region, as one list. -/
abbrev kops6 : List (HloOp τ sig (Elt F)) :=
  hostOps6 ++ (hostOps6_1 ++ (hostOps6_2 ++ (hostOps6_3 ++ (hostOps6_4 ++ (hostOps6_5 ++ hostOps6_6)))))

/-- The contents at the fourth region's entry are the fold of the joined list from the third region's exit. -/
theorem W13_eq : W13 m ρ c = StableHlo.after kops3 (W6 m ρ c) := by
  simp only [kops3, Cert.Lib.after_append]
/-- The contents at the seventh region's entry are the fold of the joined list from the sixth region's exit. -/
theorem W25_eq : W25 m ρ c = StableHlo.after kops6 (W18 m ρ c) := by
  simp only [kops6, Cert.Lib.after_append]

/-- Closes `after ops U b = U b` when no operation of the literal list `ops` writes `b`. -/
macro "host_keep" : tactic => `(tactic| (
  refine StableHlo.after_of_forall_not_mem _ _ (List.forall_iff_forall_mem.mp ?_)
  simp only [kops3, kops6, hostOps0, hostOps1, hostOps2, hostOps3, hostOps3_1, hostOps3_2, hostOps3_3, hostOps3_4, hostOps3_5, hostOps3_6, hostOps4, hostOps5, hostOps6, hostOps6_1, hostOps6_2, hostOps6_3, hostOps6_4, hostOps6_5, hostOps6_6, hostOps7, hostOps8, hostOps9, hostOps10,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

end Cert.KernelIdeal.KChain

end
-- ==== Proof.KChainA.lean ====
/-
  The kernel program's argument arrays along the fold of buffer contents.

  No host operation and no region writes an argument array, so at every boundary of the fold where a later stretch or
  region reads an argument it still holds what the program was launched with.  One equation per boundary and argument,
  each from the boundary before it: a stretch of host operations does not write the argument; a region's write-backs
  touch only its own arrays, of which the argument is none (a region that reads an argument through a window is met
  only at its ENTRY here).
-/
import proofs.«154745_j79044578115861_1_alg».proof.Proof.KChain0

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ### `main_arg0` -/
theorem W0_arg0 : W0 m ρ c (Proc.devRef .tc main_arg0) = m ((c : Thread nD τ).loc main_arg0) := rfl
theorem W1_arg0_step : W1 m ρ c (Proc.devRef .tc main_arg0) = W0 m ρ c (Proc.devRef .tc main_arg0) := by
  show StableHlo.after hostOps0 (W0 m ρ c) (Proc.devRef .tc main_arg0) = _
  host_keep
theorem W1_arg0 : W1 m ρ c (Proc.devRef .tc main_arg0) = m ((c : Thread nD τ).loc main_arg0) :=
  (W1_arg0_step m ρ c).trans (W0_arg0 m ρ c)
theorem W2_arg0_step : W2 m ρ c (Proc.devRef .tc main_arg0) = W1 m ρ c (Proc.devRef .tc main_arg0) :=
  W2_of_ne m ρ c main_arg0 (by decide)
theorem W2_arg0 : W2 m ρ c (Proc.devRef .tc main_arg0) = m ((c : Thread nD τ).loc main_arg0) :=
  (W2_arg0_step m ρ c).trans (W1_arg0 m ρ c)
theorem W3_arg0_step : W3 m ρ c (Proc.devRef .tc main_arg0) = W2 m ρ c (Proc.devRef .tc main_arg0) := by
  show StableHlo.after hostOps1 (W2 m ρ c) (Proc.devRef .tc main_arg0) = _
  host_keep
theorem W3_arg0 : W3 m ρ c (Proc.devRef .tc main_arg0) = m ((c : Thread nD τ).loc main_arg0) :=
  (W3_arg0_step m ρ c).trans (W2_arg0 m ρ c)
theorem W4_arg0_step : W4 m ρ c (Proc.devRef .tc main_arg0) = W3 m ρ c (Proc.devRef .tc main_arg0) :=
  W4_of_ne m ρ c main_arg0 (by decide)
theorem W4_arg0 : W4 m ρ c (Proc.devRef .tc main_arg0) = m ((c : Thread nD τ).loc main_arg0) :=
  (W4_arg0_step m ρ c).trans (W3_arg0 m ρ c)
theorem W5_arg0_step : W5 m ρ c (Proc.devRef .tc main_arg0) = W4 m ρ c (Proc.devRef .tc main_arg0) := by
  show StableHlo.after hostOps2 (W4 m ρ c) (Proc.devRef .tc main_arg0) = _
  host_keep
theorem W5_arg0 : W5 m ρ c (Proc.devRef .tc main_arg0) = m ((c : Thread nD τ).loc main_arg0) :=
  (W5_arg0_step m ρ c).trans (W4_arg0 m ρ c)

/-! ### `main_arg1` -/
theorem W0_arg1 : W0 m ρ c (Proc.devRef .tc main_arg1) = m ((c : Thread nD τ).loc main_arg1) := rfl
theorem W1_arg1_step : W1 m ρ c (Proc.devRef .tc main_arg1) = W0 m ρ c (Proc.devRef .tc main_arg1) := by
  show StableHlo.after hostOps0 (W0 m ρ c) (Proc.devRef .tc main_arg1) = _
  host_keep
theorem W1_arg1 : W1 m ρ c (Proc.devRef .tc main_arg1) = m ((c : Thread nD τ).loc main_arg1) :=
  (W1_arg1_step m ρ c).trans (W0_arg1 m ρ c)

/-! ### `main_arg2` -/
theorem W0_arg2 : W0 m ρ c (Proc.devRef .tc main_arg2) = m ((c : Thread nD τ).loc main_arg2) := rfl
theorem W1_arg2_step : W1 m ρ c (Proc.devRef .tc main_arg2) = W0 m ρ c (Proc.devRef .tc main_arg2) := by
  show StableHlo.after hostOps0 (W0 m ρ c) (Proc.devRef .tc main_arg2) = _
  host_keep
theorem W1_arg2 : W1 m ρ c (Proc.devRef .tc main_arg2) = m ((c : Thread nD τ).loc main_arg2) :=
  (W1_arg2_step m ρ c).trans (W0_arg2 m ρ c)
theorem W2_arg2_step : W2 m ρ c (Proc.devRef .tc main_arg2) = W1 m ρ c (Proc.devRef .tc main_arg2) :=
  W2_of_ne m ρ c main_arg2 (by decide)
theorem W2_arg2 : W2 m ρ c (Proc.devRef .tc main_arg2) = m ((c : Thread nD τ).loc main_arg2) :=
  (W2_arg2_step m ρ c).trans (W1_arg2 m ρ c)
theorem W3_arg2_step : W3 m ρ c (Proc.devRef .tc main_arg2) = W2 m ρ c (Proc.devRef .tc main_arg2) := by
  show StableHlo.after hostOps1 (W2 m ρ c) (Proc.devRef .tc main_arg2) = _
  host_keep
theorem W3_arg2 : W3 m ρ c (Proc.devRef .tc main_arg2) = m ((c : Thread nD τ).loc main_arg2) :=
  (W3_arg2_step m ρ c).trans (W2_arg2 m ρ c)

/-! ### `main_arg3` -/
theorem W0_arg3 : W0 m ρ c (Proc.devRef .tc main_arg3) = m ((c : Thread nD τ).loc main_arg3) := rfl
theorem W1_arg3_step : W1 m ρ c (Proc.devRef .tc main_arg3) = W0 m ρ c (Proc.devRef .tc main_arg3) := by
  show StableHlo.after hostOps0 (W0 m ρ c) (Proc.devRef .tc main_arg3) = _
  host_keep
theorem W1_arg3 : W1 m ρ c (Proc.devRef .tc main_arg3) = m ((c : Thread nD τ).loc main_arg3) :=
  (W1_arg3_step m ρ c).trans (W0_arg3 m ρ c)
theorem W2_arg3_step : W2 m ρ c (Proc.devRef .tc main_arg3) = W1 m ρ c (Proc.devRef .tc main_arg3) :=
  W2_of_ne m ρ c main_arg3 (by decide)
theorem W2_arg3 : W2 m ρ c (Proc.devRef .tc main_arg3) = m ((c : Thread nD τ).loc main_arg3) :=
  (W2_arg3_step m ρ c).trans (W1_arg3 m ρ c)
theorem W3_arg3_step : W3 m ρ c (Proc.devRef .tc main_arg3) = W2 m ρ c (Proc.devRef .tc main_arg3) := by
  show StableHlo.after hostOps1 (W2 m ρ c) (Proc.devRef .tc main_arg3) = _
  host_keep
theorem W3_arg3 : W3 m ρ c (Proc.devRef .tc main_arg3) = m ((c : Thread nD τ).loc main_arg3) :=
  (W3_arg3_step m ρ c).trans (W2_arg3 m ρ c)
theorem W4_arg3_step : W4 m ρ c (Proc.devRef .tc main_arg3) = W3 m ρ c (Proc.devRef .tc main_arg3) :=
  W4_of_ne m ρ c main_arg3 (by decide)
theorem W4_arg3 : W4 m ρ c (Proc.devRef .tc main_arg3) = m ((c : Thread nD τ).loc main_arg3) :=
  (W4_arg3_step m ρ c).trans (W3_arg3 m ρ c)

/-! ### `main_arg4` -/
theorem W0_arg4 : W0 m ρ c (Proc.devRef .tc main_arg4) = m ((c : Thread nD τ).loc main_arg4) := rfl
theorem W1_arg4_step : W1 m ρ c (Proc.devRef .tc main_arg4) = W0 m ρ c (Proc.devRef .tc main_arg4) := by
  show StableHlo.after hostOps0 (W0 m ρ c) (Proc.devRef .tc main_arg4) = _
  host_keep
theorem W1_arg4 : W1 m ρ c (Proc.devRef .tc main_arg4) = m ((c : Thread nD τ).loc main_arg4) :=
  (W1_arg4_step m ρ c).trans (W0_arg4 m ρ c)
theorem W2_arg4_step : W2 m ρ c (Proc.devRef .tc main_arg4) = W1 m ρ c (Proc.devRef .tc main_arg4) :=
  W2_of_ne m ρ c main_arg4 (by decide)
theorem W2_arg4 : W2 m ρ c (Proc.devRef .tc main_arg4) = m ((c : Thread nD τ).loc main_arg4) :=
  (W2_arg4_step m ρ c).trans (W1_arg4 m ρ c)
theorem W3_arg4_step : W3 m ρ c (Proc.devRef .tc main_arg4) = W2 m ρ c (Proc.devRef .tc main_arg4) := by
  show StableHlo.after hostOps1 (W2 m ρ c) (Proc.devRef .tc main_arg4) = _
  host_keep
theorem W3_arg4 : W3 m ρ c (Proc.devRef .tc main_arg4) = m ((c : Thread nD τ).loc main_arg4) :=
  (W3_arg4_step m ρ c).trans (W2_arg4 m ρ c)
theorem W4_arg4_step : W4 m ρ c (Proc.devRef .tc main_arg4) = W3 m ρ c (Proc.devRef .tc main_arg4) :=
  W4_of_ne m ρ c main_arg4 (by decide)
theorem W4_arg4 : W4 m ρ c (Proc.devRef .tc main_arg4) = m ((c : Thread nD τ).loc main_arg4) :=
  (W4_arg4_step m ρ c).trans (W3_arg4 m ρ c)

/-! ### `main_arg5` -/
theorem W0_arg5 : W0 m ρ c (Proc.devRef .tc main_arg5) = m ((c : Thread nD τ).loc main_arg5) := rfl
theorem W1_arg5_step : W1 m ρ c (Proc.devRef .tc main_arg5) = W0 m ρ c (Proc.devRef .tc main_arg5) := by
  show StableHlo.after hostOps0 (W0 m ρ c) (Proc.devRef .tc main_arg5) = _
  host_keep
theorem W1_arg5 : W1 m ρ c (Proc.devRef .tc main_arg5) = m ((c : Thread nD τ).loc main_arg5) :=
  (W1_arg5_step m ρ c).trans (W0_arg5 m ρ c)
theorem W2_arg5_step : W2 m ρ c (Proc.devRef .tc main_arg5) = W1 m ρ c (Proc.devRef .tc main_arg5) :=
  W2_of_ne m ρ c main_arg5 (by decide)
theorem W2_arg5 : W2 m ρ c (Proc.devRef .tc main_arg5) = m ((c : Thread nD τ).loc main_arg5) :=
  (W2_arg5_step m ρ c).trans (W1_arg5 m ρ c)
theorem W3_arg5_step : W3 m ρ c (Proc.devRef .tc main_arg5) = W2 m ρ c (Proc.devRef .tc main_arg5) := by
  show StableHlo.after hostOps1 (W2 m ρ c) (Proc.devRef .tc main_arg5) = _
  host_keep
theorem W3_arg5 : W3 m ρ c (Proc.devRef .tc main_arg5) = m ((c : Thread nD τ).loc main_arg5) :=
  (W3_arg5_step m ρ c).trans (W2_arg5 m ρ c)
theorem W4_arg5_step : W4 m ρ c (Proc.devRef .tc main_arg5) = W3 m ρ c (Proc.devRef .tc main_arg5) :=
  W4_of_ne m ρ c main_arg5 (by decide)
theorem W4_arg5 : W4 m ρ c (Proc.devRef .tc main_arg5) = m ((c : Thread nD τ).loc main_arg5) :=
  (W4_arg5_step m ρ c).trans (W3_arg5 m ρ c)
theorem W5_arg5_step : W5 m ρ c (Proc.devRef .tc main_arg5) = W4 m ρ c (Proc.devRef .tc main_arg5) := by
  show StableHlo.after hostOps2 (W4 m ρ c) (Proc.devRef .tc main_arg5) = _
  host_keep
theorem W5_arg5 : W5 m ρ c (Proc.devRef .tc main_arg5) = m ((c : Thread nD τ).loc main_arg5) :=
  (W5_arg5_step m ρ c).trans (W4_arg5 m ρ c)
theorem W6_arg5_step : W6 m ρ c (Proc.devRef .tc main_arg5) = W5 m ρ c (Proc.devRef .tc main_arg5) :=
  W6_of_ne m ρ c main_arg5 (by decide)
theorem W6_arg5 : W6 m ρ c (Proc.devRef .tc main_arg5) = m ((c : Thread nD τ).loc main_arg5) :=
  (W6_arg5_step m ρ c).trans (W5_arg5 m ρ c)
theorem W13_arg5_step : W13 m ρ c (Proc.devRef .tc main_arg5) = W6 m ρ c (Proc.devRef .tc main_arg5) := by
  rw [W13_eq]
  host_keep
theorem W13_arg5 : W13 m ρ c (Proc.devRef .tc main_arg5) = m ((c : Thread nD τ).loc main_arg5) :=
  (W13_arg5_step m ρ c).trans (W6_arg5 m ρ c)
theorem W14_arg5_step : W14 m ρ c (Proc.devRef .tc main_arg5) = W13 m ρ c (Proc.devRef .tc main_arg5) :=
  W14_of_ne m ρ c main_arg5 (by decide)
theorem W14_arg5 : W14 m ρ c (Proc.devRef .tc main_arg5) = m ((c : Thread nD τ).loc main_arg5) :=
  (W14_arg5_step m ρ c).trans (W13_arg5 m ρ c)
theorem W15_arg5_step : W15 m ρ c (Proc.devRef .tc main_arg5) = W14 m ρ c (Proc.devRef .tc main_arg5) := by
  show StableHlo.after hostOps4 (W14 m ρ c) (Proc.devRef .tc main_arg5) = _
  host_keep
theorem W15_arg5 : W15 m ρ c (Proc.devRef .tc main_arg5) = m ((c : Thread nD τ).loc main_arg5) :=
  (W15_arg5_step m ρ c).trans (W14_arg5 m ρ c)
theorem W16_arg5_step : W16 m ρ c (Proc.devRef .tc main_arg5) = W15 m ρ c (Proc.devRef .tc main_arg5) :=
  W16_of_ne m ρ c main_arg5 (by decide)
theorem W16_arg5 : W16 m ρ c (Proc.devRef .tc main_arg5) = m ((c : Thread nD τ).loc main_arg5) :=
  (W16_arg5_step m ρ c).trans (W15_arg5 m ρ c)

/-! ### `main_arg6` -/
theorem W0_arg6 : W0 m ρ c (Proc.devRef .tc main_arg6) = m ((c : Thread nD τ).loc main_arg6) := rfl
theorem W1_arg6_step : W1 m ρ c (Proc.devRef .tc main_arg6) = W0 m ρ c (Proc.devRef .tc main_arg6) := by
  show StableHlo.after hostOps0 (W0 m ρ c) (Proc.devRef .tc main_arg6) = _
  host_keep
theorem W1_arg6 : W1 m ρ c (Proc.devRef .tc main_arg6) = m ((c : Thread nD τ).loc main_arg6) :=
  (W1_arg6_step m ρ c).trans (W0_arg6 m ρ c)
theorem W2_arg6_step : W2 m ρ c (Proc.devRef .tc main_arg6) = W1 m ρ c (Proc.devRef .tc main_arg6) :=
  W2_of_ne m ρ c main_arg6 (by decide)
theorem W2_arg6 : W2 m ρ c (Proc.devRef .tc main_arg6) = m ((c : Thread nD τ).loc main_arg6) :=
  (W2_arg6_step m ρ c).trans (W1_arg6 m ρ c)
theorem W3_arg6_step : W3 m ρ c (Proc.devRef .tc main_arg6) = W2 m ρ c (Proc.devRef .tc main_arg6) := by
  show StableHlo.after hostOps1 (W2 m ρ c) (Proc.devRef .tc main_arg6) = _
  host_keep
theorem W3_arg6 : W3 m ρ c (Proc.devRef .tc main_arg6) = m ((c : Thread nD τ).loc main_arg6) :=
  (W3_arg6_step m ρ c).trans (W2_arg6 m ρ c)
theorem W4_arg6_step : W4 m ρ c (Proc.devRef .tc main_arg6) = W3 m ρ c (Proc.devRef .tc main_arg6) :=
  W4_of_ne m ρ c main_arg6 (by decide)
theorem W4_arg6 : W4 m ρ c (Proc.devRef .tc main_arg6) = m ((c : Thread nD τ).loc main_arg6) :=
  (W4_arg6_step m ρ c).trans (W3_arg6 m ρ c)
theorem W5_arg6_step : W5 m ρ c (Proc.devRef .tc main_arg6) = W4 m ρ c (Proc.devRef .tc main_arg6) := by
  show StableHlo.after hostOps2 (W4 m ρ c) (Proc.devRef .tc main_arg6) = _
  host_keep
theorem W5_arg6 : W5 m ρ c (Proc.devRef .tc main_arg6) = m ((c : Thread nD τ).loc main_arg6) :=
  (W5_arg6_step m ρ c).trans (W4_arg6 m ρ c)
theorem W6_arg6_step : W6 m ρ c (Proc.devRef .tc main_arg6) = W5 m ρ c (Proc.devRef .tc main_arg6) :=
  W6_of_ne m ρ c main_arg6 (by decide)
theorem W6_arg6 : W6 m ρ c (Proc.devRef .tc main_arg6) = m ((c : Thread nD τ).loc main_arg6) :=
  (W6_arg6_step m ρ c).trans (W5_arg6 m ρ c)
theorem W13_arg6_step : W13 m ρ c (Proc.devRef .tc main_arg6) = W6 m ρ c (Proc.devRef .tc main_arg6) := by
  rw [W13_eq]
  host_keep
theorem W13_arg6 : W13 m ρ c (Proc.devRef .tc main_arg6) = m ((c : Thread nD τ).loc main_arg6) :=
  (W13_arg6_step m ρ c).trans (W6_arg6 m ρ c)
theorem W14_arg6_step : W14 m ρ c (Proc.devRef .tc main_arg6) = W13 m ρ c (Proc.devRef .tc main_arg6) :=
  W14_of_ne m ρ c main_arg6 (by decide)
theorem W14_arg6 : W14 m ρ c (Proc.devRef .tc main_arg6) = m ((c : Thread nD τ).loc main_arg6) :=
  (W14_arg6_step m ρ c).trans (W13_arg6 m ρ c)
theorem W15_arg6_step : W15 m ρ c (Proc.devRef .tc main_arg6) = W14 m ρ c (Proc.devRef .tc main_arg6) := by
  show StableHlo.after hostOps4 (W14 m ρ c) (Proc.devRef .tc main_arg6) = _
  host_keep
theorem W15_arg6 : W15 m ρ c (Proc.devRef .tc main_arg6) = m ((c : Thread nD τ).loc main_arg6) :=
  (W15_arg6_step m ρ c).trans (W14_arg6 m ρ c)
theorem W16_arg6_step : W16 m ρ c (Proc.devRef .tc main_arg6) = W15 m ρ c (Proc.devRef .tc main_arg6) :=
  W16_of_ne m ρ c main_arg6 (by decide)
theorem W16_arg6 : W16 m ρ c (Proc.devRef .tc main_arg6) = m ((c : Thread nD τ).loc main_arg6) :=
  (W16_arg6_step m ρ c).trans (W15_arg6 m ρ c)

/-! ### `main_arg7` -/
theorem W0_arg7 : W0 m ρ c (Proc.devRef .tc main_arg7) = m ((c : Thread nD τ).loc main_arg7) := rfl
theorem W1_arg7_step : W1 m ρ c (Proc.devRef .tc main_arg7) = W0 m ρ c (Proc.devRef .tc main_arg7) := by
  show StableHlo.after hostOps0 (W0 m ρ c) (Proc.devRef .tc main_arg7) = _
  host_keep
theorem W1_arg7 : W1 m ρ c (Proc.devRef .tc main_arg7) = m ((c : Thread nD τ).loc main_arg7) :=
  (W1_arg7_step m ρ c).trans (W0_arg7 m ρ c)
theorem W2_arg7_step : W2 m ρ c (Proc.devRef .tc main_arg7) = W1 m ρ c (Proc.devRef .tc main_arg7) :=
  W2_of_ne m ρ c main_arg7 (by decide)
theorem W2_arg7 : W2 m ρ c (Proc.devRef .tc main_arg7) = m ((c : Thread nD τ).loc main_arg7) :=
  (W2_arg7_step m ρ c).trans (W1_arg7 m ρ c)
theorem W3_arg7_step : W3 m ρ c (Proc.devRef .tc main_arg7) = W2 m ρ c (Proc.devRef .tc main_arg7) := by
  show StableHlo.after hostOps1 (W2 m ρ c) (Proc.devRef .tc main_arg7) = _
  host_keep
theorem W3_arg7 : W3 m ρ c (Proc.devRef .tc main_arg7) = m ((c : Thread nD τ).loc main_arg7) :=
  (W3_arg7_step m ρ c).trans (W2_arg7 m ρ c)
theorem W4_arg7_step : W4 m ρ c (Proc.devRef .tc main_arg7) = W3 m ρ c (Proc.devRef .tc main_arg7) :=
  W4_of_ne m ρ c main_arg7 (by decide)
theorem W4_arg7 : W4 m ρ c (Proc.devRef .tc main_arg7) = m ((c : Thread nD τ).loc main_arg7) :=
  (W4_arg7_step m ρ c).trans (W3_arg7 m ρ c)
theorem W5_arg7_step : W5 m ρ c (Proc.devRef .tc main_arg7) = W4 m ρ c (Proc.devRef .tc main_arg7) := by
  show StableHlo.after hostOps2 (W4 m ρ c) (Proc.devRef .tc main_arg7) = _
  host_keep
theorem W5_arg7 : W5 m ρ c (Proc.devRef .tc main_arg7) = m ((c : Thread nD τ).loc main_arg7) :=
  (W5_arg7_step m ρ c).trans (W4_arg7 m ρ c)
theorem W6_arg7_step : W6 m ρ c (Proc.devRef .tc main_arg7) = W5 m ρ c (Proc.devRef .tc main_arg7) :=
  W6_of_ne m ρ c main_arg7 (by decide)
theorem W6_arg7 : W6 m ρ c (Proc.devRef .tc main_arg7) = m ((c : Thread nD τ).loc main_arg7) :=
  (W6_arg7_step m ρ c).trans (W5_arg7 m ρ c)
theorem W13_arg7_step : W13 m ρ c (Proc.devRef .tc main_arg7) = W6 m ρ c (Proc.devRef .tc main_arg7) := by
  rw [W13_eq]
  host_keep
theorem W13_arg7 : W13 m ρ c (Proc.devRef .tc main_arg7) = m ((c : Thread nD τ).loc main_arg7) :=
  (W13_arg7_step m ρ c).trans (W6_arg7 m ρ c)
theorem W14_arg7_step : W14 m ρ c (Proc.devRef .tc main_arg7) = W13 m ρ c (Proc.devRef .tc main_arg7) :=
  W14_of_ne m ρ c main_arg7 (by decide)
theorem W14_arg7 : W14 m ρ c (Proc.devRef .tc main_arg7) = m ((c : Thread nD τ).loc main_arg7) :=
  (W14_arg7_step m ρ c).trans (W13_arg7 m ρ c)
theorem W15_arg7_step : W15 m ρ c (Proc.devRef .tc main_arg7) = W14 m ρ c (Proc.devRef .tc main_arg7) := by
  show StableHlo.after hostOps4 (W14 m ρ c) (Proc.devRef .tc main_arg7) = _
  host_keep
theorem W15_arg7 : W15 m ρ c (Proc.devRef .tc main_arg7) = m ((c : Thread nD τ).loc main_arg7) :=
  (W15_arg7_step m ρ c).trans (W14_arg7 m ρ c)
theorem W16_arg7_step : W16 m ρ c (Proc.devRef .tc main_arg7) = W15 m ρ c (Proc.devRef .tc main_arg7) :=
  W16_of_ne m ρ c main_arg7 (by decide)
theorem W16_arg7 : W16 m ρ c (Proc.devRef .tc main_arg7) = m ((c : Thread nD τ).loc main_arg7) :=
  (W16_arg7_step m ρ c).trans (W15_arg7 m ρ c)
theorem W17_arg7_step : W17 m ρ c (Proc.devRef .tc main_arg7) = W16 m ρ c (Proc.devRef .tc main_arg7) := by
  show StableHlo.after hostOps5 (W16 m ρ c) (Proc.devRef .tc main_arg7) = _
  host_keep
theorem W17_arg7 : W17 m ρ c (Proc.devRef .tc main_arg7) = m ((c : Thread nD τ).loc main_arg7) :=
  (W17_arg7_step m ρ c).trans (W16_arg7 m ρ c)
theorem W18_arg7_step : W18 m ρ c (Proc.devRef .tc main_arg7) = W17 m ρ c (Proc.devRef .tc main_arg7) :=
  W18_of_ne m ρ c main_arg7 (by decide)
theorem W18_arg7 : W18 m ρ c (Proc.devRef .tc main_arg7) = m ((c : Thread nD τ).loc main_arg7) :=
  (W18_arg7_step m ρ c).trans (W17_arg7 m ρ c)
theorem W25_arg7_step : W25 m ρ c (Proc.devRef .tc main_arg7) = W18 m ρ c (Proc.devRef .tc main_arg7) := by
  rw [W25_eq]
  host_keep
theorem W25_arg7 : W25 m ρ c (Proc.devRef .tc main_arg7) = m ((c : Thread nD τ).loc main_arg7) :=
  (W25_arg7_step m ρ c).trans (W18_arg7 m ρ c)
theorem W26_arg7_step : W26 m ρ c (Proc.devRef .tc main_arg7) = W25 m ρ c (Proc.devRef .tc main_arg7) :=
  W26_of_ne m ρ c main_arg7 (by decide)
theorem W26_arg7 : W26 m ρ c (Proc.devRef .tc main_arg7) = m ((c : Thread nD τ).loc main_arg7) :=
  (W26_arg7_step m ρ c).trans (W25_arg7 m ρ c)
theorem W27_arg7_step : W27 m ρ c (Proc.devRef .tc main_arg7) = W26 m ρ c (Proc.devRef .tc main_arg7) := by
  show StableHlo.after hostOps7 (W26 m ρ c) (Proc.devRef .tc main_arg7) = _
  host_keep
theorem W27_arg7 : W27 m ρ c (Proc.devRef .tc main_arg7) = m ((c : Thread nD τ).loc main_arg7) :=
  (W27_arg7_step m ρ c).trans (W26_arg7 m ρ c)
theorem W28_arg7_step : W28 m ρ c (Proc.devRef .tc main_arg7) = W27 m ρ c (Proc.devRef .tc main_arg7) :=
  W28_of_ne m ρ c main_arg7 (by decide)
theorem W28_arg7 : W28 m ρ c (Proc.devRef .tc main_arg7) = m ((c : Thread nD τ).loc main_arg7) :=
  (W28_arg7_step m ρ c).trans (W27_arg7 m ρ c)

/-! ### `main_arg8` -/
theorem W0_arg8 : W0 m ρ c (Proc.devRef .tc main_arg8) = m ((c : Thread nD τ).loc main_arg8) := rfl
theorem W1_arg8_step : W1 m ρ c (Proc.devRef .tc main_arg8) = W0 m ρ c (Proc.devRef .tc main_arg8) := by
  show StableHlo.after hostOps0 (W0 m ρ c) (Proc.devRef .tc main_arg8) = _
  host_keep
theorem W1_arg8 : W1 m ρ c (Proc.devRef .tc main_arg8) = m ((c : Thread nD τ).loc main_arg8) :=
  (W1_arg8_step m ρ c).trans (W0_arg8 m ρ c)
theorem W2_arg8_step : W2 m ρ c (Proc.devRef .tc main_arg8) = W1 m ρ c (Proc.devRef .tc main_arg8) :=
  W2_of_ne m ρ c main_arg8 (by decide)
theorem W2_arg8 : W2 m ρ c (Proc.devRef .tc main_arg8) = m ((c : Thread nD τ).loc main_arg8) :=
  (W2_arg8_step m ρ c).trans (W1_arg8 m ρ c)
theorem W3_arg8_step : W3 m ρ c (Proc.devRef .tc main_arg8) = W2 m ρ c (Proc.devRef .tc main_arg8) := by
  show StableHlo.after hostOps1 (W2 m ρ c) (Proc.devRef .tc main_arg8) = _
  host_keep
theorem W3_arg8 : W3 m ρ c (Proc.devRef .tc main_arg8) = m ((c : Thread nD τ).loc main_arg8) :=
  (W3_arg8_step m ρ c).trans (W2_arg8 m ρ c)
theorem W4_arg8_step : W4 m ρ c (Proc.devRef .tc main_arg8) = W3 m ρ c (Proc.devRef .tc main_arg8) :=
  W4_of_ne m ρ c main_arg8 (by decide)
theorem W4_arg8 : W4 m ρ c (Proc.devRef .tc main_arg8) = m ((c : Thread nD τ).loc main_arg8) :=
  (W4_arg8_step m ρ c).trans (W3_arg8 m ρ c)
theorem W5_arg8_step : W5 m ρ c (Proc.devRef .tc main_arg8) = W4 m ρ c (Proc.devRef .tc main_arg8) := by
  show StableHlo.after hostOps2 (W4 m ρ c) (Proc.devRef .tc main_arg8) = _
  host_keep
theorem W5_arg8 : W5 m ρ c (Proc.devRef .tc main_arg8) = m ((c : Thread nD τ).loc main_arg8) :=
  (W5_arg8_step m ρ c).trans (W4_arg8 m ρ c)
theorem W6_arg8_step : W6 m ρ c (Proc.devRef .tc main_arg8) = W5 m ρ c (Proc.devRef .tc main_arg8) :=
  W6_of_ne m ρ c main_arg8 (by decide)
theorem W6_arg8 : W6 m ρ c (Proc.devRef .tc main_arg8) = m ((c : Thread nD τ).loc main_arg8) :=
  (W6_arg8_step m ρ c).trans (W5_arg8 m ρ c)
theorem W13_arg8_step : W13 m ρ c (Proc.devRef .tc main_arg8) = W6 m ρ c (Proc.devRef .tc main_arg8) := by
  rw [W13_eq]
  host_keep
theorem W13_arg8 : W13 m ρ c (Proc.devRef .tc main_arg8) = m ((c : Thread nD τ).loc main_arg8) :=
  (W13_arg8_step m ρ c).trans (W6_arg8 m ρ c)
theorem W14_arg8_step : W14 m ρ c (Proc.devRef .tc main_arg8) = W13 m ρ c (Proc.devRef .tc main_arg8) :=
  W14_of_ne m ρ c main_arg8 (by decide)
theorem W14_arg8 : W14 m ρ c (Proc.devRef .tc main_arg8) = m ((c : Thread nD τ).loc main_arg8) :=
  (W14_arg8_step m ρ c).trans (W13_arg8 m ρ c)
theorem W15_arg8_step : W15 m ρ c (Proc.devRef .tc main_arg8) = W14 m ρ c (Proc.devRef .tc main_arg8) := by
  show StableHlo.after hostOps4 (W14 m ρ c) (Proc.devRef .tc main_arg8) = _
  host_keep
theorem W15_arg8 : W15 m ρ c (Proc.devRef .tc main_arg8) = m ((c : Thread nD τ).loc main_arg8) :=
  (W15_arg8_step m ρ c).trans (W14_arg8 m ρ c)
theorem W16_arg8_step : W16 m ρ c (Proc.devRef .tc main_arg8) = W15 m ρ c (Proc.devRef .tc main_arg8) :=
  W16_of_ne m ρ c main_arg8 (by decide)
theorem W16_arg8 : W16 m ρ c (Proc.devRef .tc main_arg8) = m ((c : Thread nD τ).loc main_arg8) :=
  (W16_arg8_step m ρ c).trans (W15_arg8 m ρ c)
theorem W17_arg8_step : W17 m ρ c (Proc.devRef .tc main_arg8) = W16 m ρ c (Proc.devRef .tc main_arg8) := by
  show StableHlo.after hostOps5 (W16 m ρ c) (Proc.devRef .tc main_arg8) = _
  host_keep
theorem W17_arg8 : W17 m ρ c (Proc.devRef .tc main_arg8) = m ((c : Thread nD τ).loc main_arg8) :=
  (W17_arg8_step m ρ c).trans (W16_arg8 m ρ c)
theorem W18_arg8_step : W18 m ρ c (Proc.devRef .tc main_arg8) = W17 m ρ c (Proc.devRef .tc main_arg8) :=
  W18_of_ne m ρ c main_arg8 (by decide)
theorem W18_arg8 : W18 m ρ c (Proc.devRef .tc main_arg8) = m ((c : Thread nD τ).loc main_arg8) :=
  (W18_arg8_step m ρ c).trans (W17_arg8 m ρ c)
theorem W25_arg8_step : W25 m ρ c (Proc.devRef .tc main_arg8) = W18 m ρ c (Proc.devRef .tc main_arg8) := by
  rw [W25_eq]
  host_keep
theorem W25_arg8 : W25 m ρ c (Proc.devRef .tc main_arg8) = m ((c : Thread nD τ).loc main_arg8) :=
  (W25_arg8_step m ρ c).trans (W18_arg8 m ρ c)
theorem W26_arg8_step : W26 m ρ c (Proc.devRef .tc main_arg8) = W25 m ρ c (Proc.devRef .tc main_arg8) :=
  W26_of_ne m ρ c main_arg8 (by decide)
theorem W26_arg8 : W26 m ρ c (Proc.devRef .tc main_arg8) = m ((c : Thread nD τ).loc main_arg8) :=
  (W26_arg8_step m ρ c).trans (W25_arg8 m ρ c)
theorem W27_arg8_step : W27 m ρ c (Proc.devRef .tc main_arg8) = W26 m ρ c (Proc.devRef .tc main_arg8) := by
  show StableHlo.after hostOps7 (W26 m ρ c) (Proc.devRef .tc main_arg8) = _
  host_keep
theorem W27_arg8 : W27 m ρ c (Proc.devRef .tc main_arg8) = m ((c : Thread nD τ).loc main_arg8) :=
  (W27_arg8_step m ρ c).trans (W26_arg8 m ρ c)
theorem W28_arg8_step : W28 m ρ c (Proc.devRef .tc main_arg8) = W27 m ρ c (Proc.devRef .tc main_arg8) :=
  W28_of_ne m ρ c main_arg8 (by decide)
theorem W28_arg8 : W28 m ρ c (Proc.devRef .tc main_arg8) = m ((c : Thread nD τ).loc main_arg8) :=
  (W28_arg8_step m ρ c).trans (W27_arg8 m ρ c)

/-! ### `main_arg9` -/
theorem W0_arg9 : W0 m ρ c (Proc.devRef .tc main_arg9) = m ((c : Thread nD τ).loc main_arg9) := rfl
theorem W1_arg9_step : W1 m ρ c (Proc.devRef .tc main_arg9) = W0 m ρ c (Proc.devRef .tc main_arg9) := by
  show StableHlo.after hostOps0 (W0 m ρ c) (Proc.devRef .tc main_arg9) = _
  host_keep
theorem W1_arg9 : W1 m ρ c (Proc.devRef .tc main_arg9) = m ((c : Thread nD τ).loc main_arg9) :=
  (W1_arg9_step m ρ c).trans (W0_arg9 m ρ c)
theorem W2_arg9_step : W2 m ρ c (Proc.devRef .tc main_arg9) = W1 m ρ c (Proc.devRef .tc main_arg9) :=
  W2_of_ne m ρ c main_arg9 (by decide)
theorem W2_arg9 : W2 m ρ c (Proc.devRef .tc main_arg9) = m ((c : Thread nD τ).loc main_arg9) :=
  (W2_arg9_step m ρ c).trans (W1_arg9 m ρ c)
theorem W3_arg9_step : W3 m ρ c (Proc.devRef .tc main_arg9) = W2 m ρ c (Proc.devRef .tc main_arg9) := by
  show StableHlo.after hostOps1 (W2 m ρ c) (Proc.devRef .tc main_arg9) = _
  host_keep
theorem W3_arg9 : W3 m ρ c (Proc.devRef .tc main_arg9) = m ((c : Thread nD τ).loc main_arg9) :=
  (W3_arg9_step m ρ c).trans (W2_arg9 m ρ c)
theorem W4_arg9_step : W4 m ρ c (Proc.devRef .tc main_arg9) = W3 m ρ c (Proc.devRef .tc main_arg9) :=
  W4_of_ne m ρ c main_arg9 (by decide)
theorem W4_arg9 : W4 m ρ c (Proc.devRef .tc main_arg9) = m ((c : Thread nD τ).loc main_arg9) :=
  (W4_arg9_step m ρ c).trans (W3_arg9 m ρ c)
theorem W5_arg9_step : W5 m ρ c (Proc.devRef .tc main_arg9) = W4 m ρ c (Proc.devRef .tc main_arg9) := by
  show StableHlo.after hostOps2 (W4 m ρ c) (Proc.devRef .tc main_arg9) = _
  host_keep
theorem W5_arg9 : W5 m ρ c (Proc.devRef .tc main_arg9) = m ((c : Thread nD τ).loc main_arg9) :=
  (W5_arg9_step m ρ c).trans (W4_arg9 m ρ c)
theorem W6_arg9_step : W6 m ρ c (Proc.devRef .tc main_arg9) = W5 m ρ c (Proc.devRef .tc main_arg9) :=
  W6_of_ne m ρ c main_arg9 (by decide)
theorem W6_arg9 : W6 m ρ c (Proc.devRef .tc main_arg9) = m ((c : Thread nD τ).loc main_arg9) :=
  (W6_arg9_step m ρ c).trans (W5_arg9 m ρ c)
theorem W13_arg9_step : W13 m ρ c (Proc.devRef .tc main_arg9) = W6 m ρ c (Proc.devRef .tc main_arg9) := by
  rw [W13_eq]
  host_keep
theorem W13_arg9 : W13 m ρ c (Proc.devRef .tc main_arg9) = m ((c : Thread nD τ).loc main_arg9) :=
  (W13_arg9_step m ρ c).trans (W6_arg9 m ρ c)
theorem W14_arg9_step : W14 m ρ c (Proc.devRef .tc main_arg9) = W13 m ρ c (Proc.devRef .tc main_arg9) :=
  W14_of_ne m ρ c main_arg9 (by decide)
theorem W14_arg9 : W14 m ρ c (Proc.devRef .tc main_arg9) = m ((c : Thread nD τ).loc main_arg9) :=
  (W14_arg9_step m ρ c).trans (W13_arg9 m ρ c)
theorem W15_arg9_step : W15 m ρ c (Proc.devRef .tc main_arg9) = W14 m ρ c (Proc.devRef .tc main_arg9) := by
  show StableHlo.after hostOps4 (W14 m ρ c) (Proc.devRef .tc main_arg9) = _
  host_keep
theorem W15_arg9 : W15 m ρ c (Proc.devRef .tc main_arg9) = m ((c : Thread nD τ).loc main_arg9) :=
  (W15_arg9_step m ρ c).trans (W14_arg9 m ρ c)
theorem W16_arg9_step : W16 m ρ c (Proc.devRef .tc main_arg9) = W15 m ρ c (Proc.devRef .tc main_arg9) :=
  W16_of_ne m ρ c main_arg9 (by decide)
theorem W16_arg9 : W16 m ρ c (Proc.devRef .tc main_arg9) = m ((c : Thread nD τ).loc main_arg9) :=
  (W16_arg9_step m ρ c).trans (W15_arg9 m ρ c)
theorem W17_arg9_step : W17 m ρ c (Proc.devRef .tc main_arg9) = W16 m ρ c (Proc.devRef .tc main_arg9) := by
  show StableHlo.after hostOps5 (W16 m ρ c) (Proc.devRef .tc main_arg9) = _
  host_keep
theorem W17_arg9 : W17 m ρ c (Proc.devRef .tc main_arg9) = m ((c : Thread nD τ).loc main_arg9) :=
  (W17_arg9_step m ρ c).trans (W16_arg9 m ρ c)
theorem W18_arg9_step : W18 m ρ c (Proc.devRef .tc main_arg9) = W17 m ρ c (Proc.devRef .tc main_arg9) :=
  W18_of_ne m ρ c main_arg9 (by decide)
theorem W18_arg9 : W18 m ρ c (Proc.devRef .tc main_arg9) = m ((c : Thread nD τ).loc main_arg9) :=
  (W18_arg9_step m ρ c).trans (W17_arg9 m ρ c)
theorem W25_arg9_step : W25 m ρ c (Proc.devRef .tc main_arg9) = W18 m ρ c (Proc.devRef .tc main_arg9) := by
  rw [W25_eq]
  host_keep
theorem W25_arg9 : W25 m ρ c (Proc.devRef .tc main_arg9) = m ((c : Thread nD τ).loc main_arg9) :=
  (W25_arg9_step m ρ c).trans (W18_arg9 m ρ c)
theorem W26_arg9_step : W26 m ρ c (Proc.devRef .tc main_arg9) = W25 m ρ c (Proc.devRef .tc main_arg9) :=
  W26_of_ne m ρ c main_arg9 (by decide)
theorem W26_arg9 : W26 m ρ c (Proc.devRef .tc main_arg9) = m ((c : Thread nD τ).loc main_arg9) :=
  (W26_arg9_step m ρ c).trans (W25_arg9 m ρ c)
theorem W27_arg9_step : W27 m ρ c (Proc.devRef .tc main_arg9) = W26 m ρ c (Proc.devRef .tc main_arg9) := by
  show StableHlo.after hostOps7 (W26 m ρ c) (Proc.devRef .tc main_arg9) = _
  host_keep
theorem W27_arg9 : W27 m ρ c (Proc.devRef .tc main_arg9) = m ((c : Thread nD τ).loc main_arg9) :=
  (W27_arg9_step m ρ c).trans (W26_arg9 m ρ c)
theorem W28_arg9_step : W28 m ρ c (Proc.devRef .tc main_arg9) = W27 m ρ c (Proc.devRef .tc main_arg9) :=
  W28_of_ne m ρ c main_arg9 (by decide)
theorem W28_arg9 : W28 m ρ c (Proc.devRef .tc main_arg9) = m ((c : Thread nD τ).loc main_arg9) :=
  (W28_arg9_step m ρ c).trans (W27_arg9 m ρ c)
theorem W29_arg9_step : W29 m ρ c (Proc.devRef .tc main_arg9) = W28 m ρ c (Proc.devRef .tc main_arg9) := by
  show StableHlo.after hostOps8 (W28 m ρ c) (Proc.devRef .tc main_arg9) = _
  host_keep
theorem W29_arg9 : W29 m ρ c (Proc.devRef .tc main_arg9) = m ((c : Thread nD τ).loc main_arg9) :=
  (W29_arg9_step m ρ c).trans (W28_arg9 m ρ c)
theorem W30_arg9_step : W30 m ρ c (Proc.devRef .tc main_arg9) = W29 m ρ c (Proc.devRef .tc main_arg9) :=
  W30_of_ne m ρ c main_arg9 (by decide)
theorem W30_arg9 : W30 m ρ c (Proc.devRef .tc main_arg9) = m ((c : Thread nD τ).loc main_arg9) :=
  (W30_arg9_step m ρ c).trans (W29_arg9 m ρ c)

/-! ### `main_arg10` -/
theorem W0_arg10 : W0 m ρ c (Proc.devRef .tc main_arg10) = m ((c : Thread nD τ).loc main_arg10) := rfl
theorem W1_arg10_step : W1 m ρ c (Proc.devRef .tc main_arg10) = W0 m ρ c (Proc.devRef .tc main_arg10) := by
  show StableHlo.after hostOps0 (W0 m ρ c) (Proc.devRef .tc main_arg10) = _
  host_keep
theorem W1_arg10 : W1 m ρ c (Proc.devRef .tc main_arg10) = m ((c : Thread nD τ).loc main_arg10) :=
  (W1_arg10_step m ρ c).trans (W0_arg10 m ρ c)
theorem W2_arg10_step : W2 m ρ c (Proc.devRef .tc main_arg10) = W1 m ρ c (Proc.devRef .tc main_arg10) :=
  W2_of_ne m ρ c main_arg10 (by decide)
theorem W2_arg10 : W2 m ρ c (Proc.devRef .tc main_arg10) = m ((c : Thread nD τ).loc main_arg10) :=
  (W2_arg10_step m ρ c).trans (W1_arg10 m ρ c)
theorem W3_arg10_step : W3 m ρ c (Proc.devRef .tc main_arg10) = W2 m ρ c (Proc.devRef .tc main_arg10) := by
  show StableHlo.after hostOps1 (W2 m ρ c) (Proc.devRef .tc main_arg10) = _
  host_keep
theorem W3_arg10 : W3 m ρ c (Proc.devRef .tc main_arg10) = m ((c : Thread nD τ).loc main_arg10) :=
  (W3_arg10_step m ρ c).trans (W2_arg10 m ρ c)
theorem W4_arg10_step : W4 m ρ c (Proc.devRef .tc main_arg10) = W3 m ρ c (Proc.devRef .tc main_arg10) :=
  W4_of_ne m ρ c main_arg10 (by decide)
theorem W4_arg10 : W4 m ρ c (Proc.devRef .tc main_arg10) = m ((c : Thread nD τ).loc main_arg10) :=
  (W4_arg10_step m ρ c).trans (W3_arg10 m ρ c)
theorem W5_arg10_step : W5 m ρ c (Proc.devRef .tc main_arg10) = W4 m ρ c (Proc.devRef .tc main_arg10) := by
  show StableHlo.after hostOps2 (W4 m ρ c) (Proc.devRef .tc main_arg10) = _
  host_keep
theorem W5_arg10 : W5 m ρ c (Proc.devRef .tc main_arg10) = m ((c : Thread nD τ).loc main_arg10) :=
  (W5_arg10_step m ρ c).trans (W4_arg10 m ρ c)
theorem W6_arg10_step : W6 m ρ c (Proc.devRef .tc main_arg10) = W5 m ρ c (Proc.devRef .tc main_arg10) :=
  W6_of_ne m ρ c main_arg10 (by decide)
theorem W6_arg10 : W6 m ρ c (Proc.devRef .tc main_arg10) = m ((c : Thread nD τ).loc main_arg10) :=
  (W6_arg10_step m ρ c).trans (W5_arg10 m ρ c)
theorem W13_arg10_step : W13 m ρ c (Proc.devRef .tc main_arg10) = W6 m ρ c (Proc.devRef .tc main_arg10) := by
  rw [W13_eq]
  host_keep
theorem W13_arg10 : W13 m ρ c (Proc.devRef .tc main_arg10) = m ((c : Thread nD τ).loc main_arg10) :=
  (W13_arg10_step m ρ c).trans (W6_arg10 m ρ c)
theorem W14_arg10_step : W14 m ρ c (Proc.devRef .tc main_arg10) = W13 m ρ c (Proc.devRef .tc main_arg10) :=
  W14_of_ne m ρ c main_arg10 (by decide)
theorem W14_arg10 : W14 m ρ c (Proc.devRef .tc main_arg10) = m ((c : Thread nD τ).loc main_arg10) :=
  (W14_arg10_step m ρ c).trans (W13_arg10 m ρ c)
theorem W15_arg10_step : W15 m ρ c (Proc.devRef .tc main_arg10) = W14 m ρ c (Proc.devRef .tc main_arg10) := by
  show StableHlo.after hostOps4 (W14 m ρ c) (Proc.devRef .tc main_arg10) = _
  host_keep
theorem W15_arg10 : W15 m ρ c (Proc.devRef .tc main_arg10) = m ((c : Thread nD τ).loc main_arg10) :=
  (W15_arg10_step m ρ c).trans (W14_arg10 m ρ c)
theorem W16_arg10_step : W16 m ρ c (Proc.devRef .tc main_arg10) = W15 m ρ c (Proc.devRef .tc main_arg10) :=
  W16_of_ne m ρ c main_arg10 (by decide)
theorem W16_arg10 : W16 m ρ c (Proc.devRef .tc main_arg10) = m ((c : Thread nD τ).loc main_arg10) :=
  (W16_arg10_step m ρ c).trans (W15_arg10 m ρ c)
theorem W17_arg10_step : W17 m ρ c (Proc.devRef .tc main_arg10) = W16 m ρ c (Proc.devRef .tc main_arg10) := by
  show StableHlo.after hostOps5 (W16 m ρ c) (Proc.devRef .tc main_arg10) = _
  host_keep
theorem W17_arg10 : W17 m ρ c (Proc.devRef .tc main_arg10) = m ((c : Thread nD τ).loc main_arg10) :=
  (W17_arg10_step m ρ c).trans (W16_arg10 m ρ c)
theorem W18_arg10_step : W18 m ρ c (Proc.devRef .tc main_arg10) = W17 m ρ c (Proc.devRef .tc main_arg10) :=
  W18_of_ne m ρ c main_arg10 (by decide)
theorem W18_arg10 : W18 m ρ c (Proc.devRef .tc main_arg10) = m ((c : Thread nD τ).loc main_arg10) :=
  (W18_arg10_step m ρ c).trans (W17_arg10 m ρ c)
theorem W25_arg10_step : W25 m ρ c (Proc.devRef .tc main_arg10) = W18 m ρ c (Proc.devRef .tc main_arg10) := by
  rw [W25_eq]
  host_keep
theorem W25_arg10 : W25 m ρ c (Proc.devRef .tc main_arg10) = m ((c : Thread nD τ).loc main_arg10) :=
  (W25_arg10_step m ρ c).trans (W18_arg10 m ρ c)
theorem W26_arg10_step : W26 m ρ c (Proc.devRef .tc main_arg10) = W25 m ρ c (Proc.devRef .tc main_arg10) :=
  W26_of_ne m ρ c main_arg10 (by decide)
theorem W26_arg10 : W26 m ρ c (Proc.devRef .tc main_arg10) = m ((c : Thread nD τ).loc main_arg10) :=
  (W26_arg10_step m ρ c).trans (W25_arg10 m ρ c)
theorem W27_arg10_step : W27 m ρ c (Proc.devRef .tc main_arg10) = W26 m ρ c (Proc.devRef .tc main_arg10) := by
  show StableHlo.after hostOps7 (W26 m ρ c) (Proc.devRef .tc main_arg10) = _
  host_keep
theorem W27_arg10 : W27 m ρ c (Proc.devRef .tc main_arg10) = m ((c : Thread nD τ).loc main_arg10) :=
  (W27_arg10_step m ρ c).trans (W26_arg10 m ρ c)
theorem W28_arg10_step : W28 m ρ c (Proc.devRef .tc main_arg10) = W27 m ρ c (Proc.devRef .tc main_arg10) :=
  W28_of_ne m ρ c main_arg10 (by decide)
theorem W28_arg10 : W28 m ρ c (Proc.devRef .tc main_arg10) = m ((c : Thread nD τ).loc main_arg10) :=
  (W28_arg10_step m ρ c).trans (W27_arg10 m ρ c)
theorem W29_arg10_step : W29 m ρ c (Proc.devRef .tc main_arg10) = W28 m ρ c (Proc.devRef .tc main_arg10) := by
  show StableHlo.after hostOps8 (W28 m ρ c) (Proc.devRef .tc main_arg10) = _
  host_keep
theorem W29_arg10 : W29 m ρ c (Proc.devRef .tc main_arg10) = m ((c : Thread nD τ).loc main_arg10) :=
  (W29_arg10_step m ρ c).trans (W28_arg10 m ρ c)
theorem W30_arg10_step : W30 m ρ c (Proc.devRef .tc main_arg10) = W29 m ρ c (Proc.devRef .tc main_arg10) :=
  W30_of_ne m ρ c main_arg10 (by decide)
theorem W30_arg10 : W30 m ρ c (Proc.devRef .tc main_arg10) = m ((c : Thread nD τ).loc main_arg10) :=
  (W30_arg10_step m ρ c).trans (W29_arg10 m ρ c)

/-! ### `main_arg11` -/
theorem W0_arg11 : W0 m ρ c (Proc.devRef .tc main_arg11) = m ((c : Thread nD τ).loc main_arg11) := rfl
theorem W1_arg11_step : W1 m ρ c (Proc.devRef .tc main_arg11) = W0 m ρ c (Proc.devRef .tc main_arg11) := by
  show StableHlo.after hostOps0 (W0 m ρ c) (Proc.devRef .tc main_arg11) = _
  host_keep
theorem W1_arg11 : W1 m ρ c (Proc.devRef .tc main_arg11) = m ((c : Thread nD τ).loc main_arg11) :=
  (W1_arg11_step m ρ c).trans (W0_arg11 m ρ c)
theorem W2_arg11_step : W2 m ρ c (Proc.devRef .tc main_arg11) = W1 m ρ c (Proc.devRef .tc main_arg11) :=
  W2_of_ne m ρ c main_arg11 (by decide)
theorem W2_arg11 : W2 m ρ c (Proc.devRef .tc main_arg11) = m ((c : Thread nD τ).loc main_arg11) :=
  (W2_arg11_step m ρ c).trans (W1_arg11 m ρ c)
theorem W3_arg11_step : W3 m ρ c (Proc.devRef .tc main_arg11) = W2 m ρ c (Proc.devRef .tc main_arg11) := by
  show StableHlo.after hostOps1 (W2 m ρ c) (Proc.devRef .tc main_arg11) = _
  host_keep
theorem W3_arg11 : W3 m ρ c (Proc.devRef .tc main_arg11) = m ((c : Thread nD τ).loc main_arg11) :=
  (W3_arg11_step m ρ c).trans (W2_arg11 m ρ c)
theorem W4_arg11_step : W4 m ρ c (Proc.devRef .tc main_arg11) = W3 m ρ c (Proc.devRef .tc main_arg11) :=
  W4_of_ne m ρ c main_arg11 (by decide)
theorem W4_arg11 : W4 m ρ c (Proc.devRef .tc main_arg11) = m ((c : Thread nD τ).loc main_arg11) :=
  (W4_arg11_step m ρ c).trans (W3_arg11 m ρ c)
theorem W5_arg11_step : W5 m ρ c (Proc.devRef .tc main_arg11) = W4 m ρ c (Proc.devRef .tc main_arg11) := by
  show StableHlo.after hostOps2 (W4 m ρ c) (Proc.devRef .tc main_arg11) = _
  host_keep
theorem W5_arg11 : W5 m ρ c (Proc.devRef .tc main_arg11) = m ((c : Thread nD τ).loc main_arg11) :=
  (W5_arg11_step m ρ c).trans (W4_arg11 m ρ c)
theorem W6_arg11_step : W6 m ρ c (Proc.devRef .tc main_arg11) = W5 m ρ c (Proc.devRef .tc main_arg11) :=
  W6_of_ne m ρ c main_arg11 (by decide)
theorem W6_arg11 : W6 m ρ c (Proc.devRef .tc main_arg11) = m ((c : Thread nD τ).loc main_arg11) :=
  (W6_arg11_step m ρ c).trans (W5_arg11 m ρ c)
theorem W13_arg11_step : W13 m ρ c (Proc.devRef .tc main_arg11) = W6 m ρ c (Proc.devRef .tc main_arg11) := by
  rw [W13_eq]
  host_keep
theorem W13_arg11 : W13 m ρ c (Proc.devRef .tc main_arg11) = m ((c : Thread nD τ).loc main_arg11) :=
  (W13_arg11_step m ρ c).trans (W6_arg11 m ρ c)
theorem W14_arg11_step : W14 m ρ c (Proc.devRef .tc main_arg11) = W13 m ρ c (Proc.devRef .tc main_arg11) :=
  W14_of_ne m ρ c main_arg11 (by decide)
theorem W14_arg11 : W14 m ρ c (Proc.devRef .tc main_arg11) = m ((c : Thread nD τ).loc main_arg11) :=
  (W14_arg11_step m ρ c).trans (W13_arg11 m ρ c)
theorem W15_arg11_step : W15 m ρ c (Proc.devRef .tc main_arg11) = W14 m ρ c (Proc.devRef .tc main_arg11) := by
  show StableHlo.after hostOps4 (W14 m ρ c) (Proc.devRef .tc main_arg11) = _
  host_keep
theorem W15_arg11 : W15 m ρ c (Proc.devRef .tc main_arg11) = m ((c : Thread nD τ).loc main_arg11) :=
  (W15_arg11_step m ρ c).trans (W14_arg11 m ρ c)
theorem W16_arg11_step : W16 m ρ c (Proc.devRef .tc main_arg11) = W15 m ρ c (Proc.devRef .tc main_arg11) :=
  W16_of_ne m ρ c main_arg11 (by decide)
theorem W16_arg11 : W16 m ρ c (Proc.devRef .tc main_arg11) = m ((c : Thread nD τ).loc main_arg11) :=
  (W16_arg11_step m ρ c).trans (W15_arg11 m ρ c)
theorem W17_arg11_step : W17 m ρ c (Proc.devRef .tc main_arg11) = W16 m ρ c (Proc.devRef .tc main_arg11) := by
  show StableHlo.after hostOps5 (W16 m ρ c) (Proc.devRef .tc main_arg11) = _
  host_keep
theorem W17_arg11 : W17 m ρ c (Proc.devRef .tc main_arg11) = m ((c : Thread nD τ).loc main_arg11) :=
  (W17_arg11_step m ρ c).trans (W16_arg11 m ρ c)
theorem W18_arg11_step : W18 m ρ c (Proc.devRef .tc main_arg11) = W17 m ρ c (Proc.devRef .tc main_arg11) :=
  W18_of_ne m ρ c main_arg11 (by decide)
theorem W18_arg11 : W18 m ρ c (Proc.devRef .tc main_arg11) = m ((c : Thread nD τ).loc main_arg11) :=
  (W18_arg11_step m ρ c).trans (W17_arg11 m ρ c)
theorem W25_arg11_step : W25 m ρ c (Proc.devRef .tc main_arg11) = W18 m ρ c (Proc.devRef .tc main_arg11) := by
  rw [W25_eq]
  host_keep
theorem W25_arg11 : W25 m ρ c (Proc.devRef .tc main_arg11) = m ((c : Thread nD τ).loc main_arg11) :=
  (W25_arg11_step m ρ c).trans (W18_arg11 m ρ c)
theorem W26_arg11_step : W26 m ρ c (Proc.devRef .tc main_arg11) = W25 m ρ c (Proc.devRef .tc main_arg11) :=
  W26_of_ne m ρ c main_arg11 (by decide)
theorem W26_arg11 : W26 m ρ c (Proc.devRef .tc main_arg11) = m ((c : Thread nD τ).loc main_arg11) :=
  (W26_arg11_step m ρ c).trans (W25_arg11 m ρ c)
theorem W27_arg11_step : W27 m ρ c (Proc.devRef .tc main_arg11) = W26 m ρ c (Proc.devRef .tc main_arg11) := by
  show StableHlo.after hostOps7 (W26 m ρ c) (Proc.devRef .tc main_arg11) = _
  host_keep
theorem W27_arg11 : W27 m ρ c (Proc.devRef .tc main_arg11) = m ((c : Thread nD τ).loc main_arg11) :=
  (W27_arg11_step m ρ c).trans (W26_arg11 m ρ c)
theorem W28_arg11_step : W28 m ρ c (Proc.devRef .tc main_arg11) = W27 m ρ c (Proc.devRef .tc main_arg11) :=
  W28_of_ne m ρ c main_arg11 (by decide)
theorem W28_arg11 : W28 m ρ c (Proc.devRef .tc main_arg11) = m ((c : Thread nD τ).loc main_arg11) :=
  (W28_arg11_step m ρ c).trans (W27_arg11 m ρ c)
theorem W29_arg11_step : W29 m ρ c (Proc.devRef .tc main_arg11) = W28 m ρ c (Proc.devRef .tc main_arg11) := by
  show StableHlo.after hostOps8 (W28 m ρ c) (Proc.devRef .tc main_arg11) = _
  host_keep
theorem W29_arg11 : W29 m ρ c (Proc.devRef .tc main_arg11) = m ((c : Thread nD τ).loc main_arg11) :=
  (W29_arg11_step m ρ c).trans (W28_arg11 m ρ c)
theorem W30_arg11_step : W30 m ρ c (Proc.devRef .tc main_arg11) = W29 m ρ c (Proc.devRef .tc main_arg11) :=
  W30_of_ne m ρ c main_arg11 (by decide)
theorem W30_arg11 : W30 m ρ c (Proc.devRef .tc main_arg11) = m ((c : Thread nD τ).loc main_arg11) :=
  (W30_arg11_step m ρ c).trans (W29_arg11 m ρ c)

/-! ### `main_arg12` -/
theorem W0_arg12 : W0 m ρ c (Proc.devRef .tc main_arg12) = m ((c : Thread nD τ).loc main_arg12) := rfl
theorem W1_arg12_step : W1 m ρ c (Proc.devRef .tc main_arg12) = W0 m ρ c (Proc.devRef .tc main_arg12) := by
  show StableHlo.after hostOps0 (W0 m ρ c) (Proc.devRef .tc main_arg12) = _
  host_keep
theorem W1_arg12 : W1 m ρ c (Proc.devRef .tc main_arg12) = m ((c : Thread nD τ).loc main_arg12) :=
  (W1_arg12_step m ρ c).trans (W0_arg12 m ρ c)
theorem W2_arg12_step : W2 m ρ c (Proc.devRef .tc main_arg12) = W1 m ρ c (Proc.devRef .tc main_arg12) :=
  W2_of_ne m ρ c main_arg12 (by decide)
theorem W2_arg12 : W2 m ρ c (Proc.devRef .tc main_arg12) = m ((c : Thread nD τ).loc main_arg12) :=
  (W2_arg12_step m ρ c).trans (W1_arg12 m ρ c)
theorem W3_arg12_step : W3 m ρ c (Proc.devRef .tc main_arg12) = W2 m ρ c (Proc.devRef .tc main_arg12) := by
  show StableHlo.after hostOps1 (W2 m ρ c) (Proc.devRef .tc main_arg12) = _
  host_keep
theorem W3_arg12 : W3 m ρ c (Proc.devRef .tc main_arg12) = m ((c : Thread nD τ).loc main_arg12) :=
  (W3_arg12_step m ρ c).trans (W2_arg12 m ρ c)
theorem W4_arg12_step : W4 m ρ c (Proc.devRef .tc main_arg12) = W3 m ρ c (Proc.devRef .tc main_arg12) :=
  W4_of_ne m ρ c main_arg12 (by decide)
theorem W4_arg12 : W4 m ρ c (Proc.devRef .tc main_arg12) = m ((c : Thread nD τ).loc main_arg12) :=
  (W4_arg12_step m ρ c).trans (W3_arg12 m ρ c)
theorem W5_arg12_step : W5 m ρ c (Proc.devRef .tc main_arg12) = W4 m ρ c (Proc.devRef .tc main_arg12) := by
  show StableHlo.after hostOps2 (W4 m ρ c) (Proc.devRef .tc main_arg12) = _
  host_keep
theorem W5_arg12 : W5 m ρ c (Proc.devRef .tc main_arg12) = m ((c : Thread nD τ).loc main_arg12) :=
  (W5_arg12_step m ρ c).trans (W4_arg12 m ρ c)
theorem W6_arg12_step : W6 m ρ c (Proc.devRef .tc main_arg12) = W5 m ρ c (Proc.devRef .tc main_arg12) :=
  W6_of_ne m ρ c main_arg12 (by decide)
theorem W6_arg12 : W6 m ρ c (Proc.devRef .tc main_arg12) = m ((c : Thread nD τ).loc main_arg12) :=
  (W6_arg12_step m ρ c).trans (W5_arg12 m ρ c)
theorem W13_arg12_step : W13 m ρ c (Proc.devRef .tc main_arg12) = W6 m ρ c (Proc.devRef .tc main_arg12) := by
  rw [W13_eq]
  host_keep
theorem W13_arg12 : W13 m ρ c (Proc.devRef .tc main_arg12) = m ((c : Thread nD τ).loc main_arg12) :=
  (W13_arg12_step m ρ c).trans (W6_arg12 m ρ c)
theorem W14_arg12_step : W14 m ρ c (Proc.devRef .tc main_arg12) = W13 m ρ c (Proc.devRef .tc main_arg12) :=
  W14_of_ne m ρ c main_arg12 (by decide)
theorem W14_arg12 : W14 m ρ c (Proc.devRef .tc main_arg12) = m ((c : Thread nD τ).loc main_arg12) :=
  (W14_arg12_step m ρ c).trans (W13_arg12 m ρ c)
theorem W15_arg12_step : W15 m ρ c (Proc.devRef .tc main_arg12) = W14 m ρ c (Proc.devRef .tc main_arg12) := by
  show StableHlo.after hostOps4 (W14 m ρ c) (Proc.devRef .tc main_arg12) = _
  host_keep
theorem W15_arg12 : W15 m ρ c (Proc.devRef .tc main_arg12) = m ((c : Thread nD τ).loc main_arg12) :=
  (W15_arg12_step m ρ c).trans (W14_arg12 m ρ c)
theorem W16_arg12_step : W16 m ρ c (Proc.devRef .tc main_arg12) = W15 m ρ c (Proc.devRef .tc main_arg12) :=
  W16_of_ne m ρ c main_arg12 (by decide)
theorem W16_arg12 : W16 m ρ c (Proc.devRef .tc main_arg12) = m ((c : Thread nD τ).loc main_arg12) :=
  (W16_arg12_step m ρ c).trans (W15_arg12 m ρ c)
theorem W17_arg12_step : W17 m ρ c (Proc.devRef .tc main_arg12) = W16 m ρ c (Proc.devRef .tc main_arg12) := by
  show StableHlo.after hostOps5 (W16 m ρ c) (Proc.devRef .tc main_arg12) = _
  host_keep
theorem W17_arg12 : W17 m ρ c (Proc.devRef .tc main_arg12) = m ((c : Thread nD τ).loc main_arg12) :=
  (W17_arg12_step m ρ c).trans (W16_arg12 m ρ c)
theorem W18_arg12_step : W18 m ρ c (Proc.devRef .tc main_arg12) = W17 m ρ c (Proc.devRef .tc main_arg12) :=
  W18_of_ne m ρ c main_arg12 (by decide)
theorem W18_arg12 : W18 m ρ c (Proc.devRef .tc main_arg12) = m ((c : Thread nD τ).loc main_arg12) :=
  (W18_arg12_step m ρ c).trans (W17_arg12 m ρ c)
theorem W25_arg12_step : W25 m ρ c (Proc.devRef .tc main_arg12) = W18 m ρ c (Proc.devRef .tc main_arg12) := by
  rw [W25_eq]
  host_keep
theorem W25_arg12 : W25 m ρ c (Proc.devRef .tc main_arg12) = m ((c : Thread nD τ).loc main_arg12) :=
  (W25_arg12_step m ρ c).trans (W18_arg12 m ρ c)
theorem W26_arg12_step : W26 m ρ c (Proc.devRef .tc main_arg12) = W25 m ρ c (Proc.devRef .tc main_arg12) :=
  W26_of_ne m ρ c main_arg12 (by decide)
theorem W26_arg12 : W26 m ρ c (Proc.devRef .tc main_arg12) = m ((c : Thread nD τ).loc main_arg12) :=
  (W26_arg12_step m ρ c).trans (W25_arg12 m ρ c)
theorem W27_arg12_step : W27 m ρ c (Proc.devRef .tc main_arg12) = W26 m ρ c (Proc.devRef .tc main_arg12) := by
  show StableHlo.after hostOps7 (W26 m ρ c) (Proc.devRef .tc main_arg12) = _
  host_keep
theorem W27_arg12 : W27 m ρ c (Proc.devRef .tc main_arg12) = m ((c : Thread nD τ).loc main_arg12) :=
  (W27_arg12_step m ρ c).trans (W26_arg12 m ρ c)
theorem W28_arg12_step : W28 m ρ c (Proc.devRef .tc main_arg12) = W27 m ρ c (Proc.devRef .tc main_arg12) :=
  W28_of_ne m ρ c main_arg12 (by decide)
theorem W28_arg12 : W28 m ρ c (Proc.devRef .tc main_arg12) = m ((c : Thread nD τ).loc main_arg12) :=
  (W28_arg12_step m ρ c).trans (W27_arg12 m ρ c)
theorem W29_arg12_step : W29 m ρ c (Proc.devRef .tc main_arg12) = W28 m ρ c (Proc.devRef .tc main_arg12) := by
  show StableHlo.after hostOps8 (W28 m ρ c) (Proc.devRef .tc main_arg12) = _
  host_keep
theorem W29_arg12 : W29 m ρ c (Proc.devRef .tc main_arg12) = m ((c : Thread nD τ).loc main_arg12) :=
  (W29_arg12_step m ρ c).trans (W28_arg12 m ρ c)
theorem W30_arg12_step : W30 m ρ c (Proc.devRef .tc main_arg12) = W29 m ρ c (Proc.devRef .tc main_arg12) :=
  W30_of_ne m ρ c main_arg12 (by decide)
theorem W30_arg12 : W30 m ρ c (Proc.devRef .tc main_arg12) = m ((c : Thread nD τ).loc main_arg12) :=
  (W30_arg12_step m ρ c).trans (W29_arg12 m ρ c)

end Cert.KernelIdeal.KChain

end
-- ==== Proof.KChainB.lean ====
/-
  The kernel program's intermediate arrays along the fold of buffer contents.

  Each region's output array, at the region's exit, is what the pipeline's write-backs leave.  The short stretch of host
  operations after a region reshapes that output (dropping its leading unit axis) and cuts the next region's weight and
  bias slabs out of the argument stacks; the long stretches end by cutting the slabs of the region that follows them.
  An array written by one stretch and read only some regions later is carried unchanged across the regions and
  stretches between, none of which writes it.
-/
import proofs.«154745_j79044578115861_1_alg».proof.Proof.KChainA

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ### The regions' output arrays at their exits -/
theorem W2_out : W2 m ρ c (Proc.devRef .tc main_v2) = (dat0 (V1 m ρ) c).arrAt 3 cfg0.N := W2_arr m ρ c 3
theorem W4_out : W4 m ρ c (Proc.devRef .tc main_v6) = (dat1 (V3 m ρ) c).arrAt 3 cfg1.N := W4_arr m ρ c 3
theorem W6_out : W6 m ρ c (Proc.devRef .tc main_v10) = (dat2 (V5 m ρ) c).arrAt 3 cfg2.N := W6_arr m ρ c 3
theorem W14_out : W14 m ρ c (Proc.devRef .tc main_v62) = (dat3 (V13 m ρ) c).arrAt 3 cfg3.N := W14_arr m ρ c 3
theorem W16_out : W16 m ρ c (Proc.devRef .tc main_v66) = (dat4 (V15 m ρ) c).arrAt 3 cfg4.N := W16_arr m ρ c 3
theorem W18_out : W18 m ρ c (Proc.devRef .tc main_v70) = (dat5 (V17 m ρ) c).arrAt 3 cfg5.N := W18_arr m ρ c 3
theorem W26_out : W26 m ρ c (Proc.devRef .tc main_v122) = (dat6 (V25 m ρ) c).arrAt 3 cfg6.N := W26_arr m ρ c 3
theorem W28_out : W28 m ρ c (Proc.devRef .tc main_v126) = (dat7 (V27 m ρ) c).arrAt 3 cfg7.N := W28_arr m ρ c 3
theorem W30_out : W30 m ρ c (Proc.devRef .tc main_v130) = (dat8 (V29 m ρ) c).arrAt 3 cfg8.N := W30_arr m ρ c 3
theorem W32_out : W32 m ρ c (Proc.devRef .tc main_v179) = (dat9 (V31 m ρ) c).arrAt 3 cfg9.N := W32_arr m ρ c 3

/-! ### What the stretches' layout operations write -/
theorem W1_v0_raw : W1 m ρ c (Proc.devRef .tc main_v0) = extractStridedSlice S1x128x16 ![0, 0, 0] (W0 m ρ c (Proc.devRef .tc main_arg3)) slices_S5x128x16_S1x128x16_0_0_0 := by
  show StableHlo.after hostOps0 (W0 m ρ c) (Proc.devRef .tc main_v0) = _
  after_results
  try rfl
theorem W1_v0 : W1 m ρ c (Proc.devRef .tc main_v0) = extractStridedSlice S1x128x16 ![0, 0, 0] (m ((c : Thread nD τ).loc main_arg3)) slices_S5x128x16_S1x128x16_0_0_0 := by
  rw [W1_v0_raw m ρ c, W0_arg3 m ρ c]
theorem W1_v1_raw : W1 m ρ c (Proc.devRef .tc main_v1) = extractStridedSlice S1x16 ![0, 0] (W0 m ρ c (Proc.devRef .tc main_arg4)) slices_S5x16_S1x16_0_0 := by
  show StableHlo.after hostOps0 (W0 m ρ c) (Proc.devRef .tc main_v1) = _
  after_results
  try rfl
theorem W1_v1 : W1 m ρ c (Proc.devRef .tc main_v1) = extractStridedSlice S1x16 ![0, 0] (m ((c : Thread nD τ).loc main_arg4)) slices_S5x16_S1x16_0_0 := by
  rw [W1_v1_raw m ρ c, W0_arg4 m ρ c]
theorem W3_v3_raw : W3 m ρ c (Proc.devRef .tc main_v3) = shapeCast S500000x16 (W2 m ρ c (Proc.devRef .tc main_v2)) shapeCasts_S1x500000x16_S500000x16 := by
  show StableHlo.after hostOps1 (W2 m ρ c) (Proc.devRef .tc main_v3) = _
  after_results
  try rfl
theorem W3_v4_raw : W3 m ρ c (Proc.devRef .tc main_v4) = extractStridedSlice S1x128x16 ![1, 0, 0] (W2 m ρ c (Proc.devRef .tc main_arg3)) slices_S5x128x16_S1x128x16_1_0_0 := by
  show StableHlo.after hostOps1 (W2 m ρ c) (Proc.devRef .tc main_v4) = _
  after_results
  try rfl
theorem W3_v4 : W3 m ρ c (Proc.devRef .tc main_v4) = extractStridedSlice S1x128x16 ![1, 0, 0] (m ((c : Thread nD τ).loc main_arg3)) slices_S5x128x16_S1x128x16_1_0_0 := by
  rw [W3_v4_raw m ρ c, W2_arg3 m ρ c]
theorem W3_v5_raw : W3 m ρ c (Proc.devRef .tc main_v5) = extractStridedSlice S1x16 ![1, 0] (W2 m ρ c (Proc.devRef .tc main_arg4)) slices_S5x16_S1x16_1_0 := by
  show StableHlo.after hostOps1 (W2 m ρ c) (Proc.devRef .tc main_v5) = _
  after_results
  try rfl
theorem W3_v5 : W3 m ρ c (Proc.devRef .tc main_v5) = extractStridedSlice S1x16 ![1, 0] (m ((c : Thread nD τ).loc main_arg4)) slices_S5x16_S1x16_1_0 := by
  rw [W3_v5_raw m ρ c, W2_arg4 m ρ c]
theorem W5_v7_raw : W5 m ρ c (Proc.devRef .tc main_v7) = shapeCast S100000x16 (W4 m ρ c (Proc.devRef .tc main_v6)) shapeCasts_S1x100000x16_S100000x16 := by
  show StableHlo.after hostOps2 (W4 m ρ c) (Proc.devRef .tc main_v7) = _
  after_results
  try rfl
theorem W5_v8_raw : W5 m ρ c (Proc.devRef .tc main_v8) = extractStridedSlice S3x128x16 ![2, 0, 0] (W4 m ρ c (Proc.devRef .tc main_arg3)) slices_S5x128x16_S3x128x16_2_0_0 := by
  show StableHlo.after hostOps2 (W4 m ρ c) (Proc.devRef .tc main_v8) = _
  after_results
  try rfl
theorem W5_v8 : W5 m ρ c (Proc.devRef .tc main_v8) = extractStridedSlice S3x128x16 ![2, 0, 0] (m ((c : Thread nD τ).loc main_arg3)) slices_S5x128x16_S3x128x16_2_0_0 := by
  rw [W5_v8_raw m ρ c, W4_arg3 m ρ c]
theorem W5_v9_raw : W5 m ρ c (Proc.devRef .tc main_v9) = extractStridedSlice S3x16 ![2, 0] (W4 m ρ c (Proc.devRef .tc main_arg4)) slices_S5x16_S3x16_2_0 := by
  show StableHlo.after hostOps2 (W4 m ρ c) (Proc.devRef .tc main_v9) = _
  after_results
  try rfl
theorem W5_v9 : W5 m ρ c (Proc.devRef .tc main_v9) = extractStridedSlice S3x16 ![2, 0] (m ((c : Thread nD τ).loc main_arg4)) slices_S5x16_S3x16_2_0 := by
  rw [W5_v9_raw m ρ c, W4_arg4 m ρ c]
theorem W13_v60_raw : W13 m ρ c (Proc.devRef .tc main_v60) = extractStridedSlice S1x16x16 ![0, 0, 0] (W6 m ρ c (Proc.devRef .tc main_arg5)) slices_S5x16x16_S1x16x16_0_0_0 := by
  rw [W13_eq]
  simp only [kops3, Cert.Lib.after_append]
  after_results_simp
  try rfl
theorem W13_v60 : W13 m ρ c (Proc.devRef .tc main_v60) = extractStridedSlice S1x16x16 ![0, 0, 0] (m ((c : Thread nD τ).loc main_arg5)) slices_S5x16x16_S1x16x16_0_0_0 := by
  rw [W13_v60_raw m ρ c, W6_arg5 m ρ c]
theorem W13_v61_raw : W13 m ρ c (Proc.devRef .tc main_v61) = extractStridedSlice S1x16 ![0, 0] (W6 m ρ c (Proc.devRef .tc main_arg6)) slices_S5x16_S1x16_0_0 := by
  rw [W13_eq]
  simp only [kops3, Cert.Lib.after_append]
  after_results_simp
  try rfl
theorem W13_v61 : W13 m ρ c (Proc.devRef .tc main_v61) = extractStridedSlice S1x16 ![0, 0] (m ((c : Thread nD τ).loc main_arg6)) slices_S5x16_S1x16_0_0 := by
  rw [W13_v61_raw m ρ c, W6_arg6 m ρ c]
theorem W15_v63_raw : W15 m ρ c (Proc.devRef .tc main_v63) = shapeCast S500000x16 (W14 m ρ c (Proc.devRef .tc main_v62)) shapeCasts_S1x500000x16_S500000x16 := by
  show StableHlo.after hostOps4 (W14 m ρ c) (Proc.devRef .tc main_v63) = _
  after_results
  try rfl
theorem W15_v64_raw : W15 m ρ c (Proc.devRef .tc main_v64) = extractStridedSlice S1x16x16 ![1, 0, 0] (W14 m ρ c (Proc.devRef .tc main_arg5)) slices_S5x16x16_S1x16x16_1_0_0 := by
  show StableHlo.after hostOps4 (W14 m ρ c) (Proc.devRef .tc main_v64) = _
  after_results
  try rfl
theorem W15_v64 : W15 m ρ c (Proc.devRef .tc main_v64) = extractStridedSlice S1x16x16 ![1, 0, 0] (m ((c : Thread nD τ).loc main_arg5)) slices_S5x16x16_S1x16x16_1_0_0 := by
  rw [W15_v64_raw m ρ c, W14_arg5 m ρ c]
theorem W15_v65_raw : W15 m ρ c (Proc.devRef .tc main_v65) = extractStridedSlice S1x16 ![1, 0] (W14 m ρ c (Proc.devRef .tc main_arg6)) slices_S5x16_S1x16_1_0 := by
  show StableHlo.after hostOps4 (W14 m ρ c) (Proc.devRef .tc main_v65) = _
  after_results
  try rfl
theorem W15_v65 : W15 m ρ c (Proc.devRef .tc main_v65) = extractStridedSlice S1x16 ![1, 0] (m ((c : Thread nD τ).loc main_arg6)) slices_S5x16_S1x16_1_0 := by
  rw [W15_v65_raw m ρ c, W14_arg6 m ρ c]
theorem W17_v67_raw : W17 m ρ c (Proc.devRef .tc main_v67) = shapeCast S100000x16 (W16 m ρ c (Proc.devRef .tc main_v66)) shapeCasts_S1x100000x16_S100000x16 := by
  show StableHlo.after hostOps5 (W16 m ρ c) (Proc.devRef .tc main_v67) = _
  after_results
  try rfl
theorem W17_v68_raw : W17 m ρ c (Proc.devRef .tc main_v68) = extractStridedSlice S3x16x16 ![2, 0, 0] (W16 m ρ c (Proc.devRef .tc main_arg5)) slices_S5x16x16_S3x16x16_2_0_0 := by
  show StableHlo.after hostOps5 (W16 m ρ c) (Proc.devRef .tc main_v68) = _
  after_results
  try rfl
theorem W17_v68 : W17 m ρ c (Proc.devRef .tc main_v68) = extractStridedSlice S3x16x16 ![2, 0, 0] (m ((c : Thread nD τ).loc main_arg5)) slices_S5x16x16_S3x16x16_2_0_0 := by
  rw [W17_v68_raw m ρ c, W16_arg5 m ρ c]
theorem W17_v69_raw : W17 m ρ c (Proc.devRef .tc main_v69) = extractStridedSlice S3x16 ![2, 0] (W16 m ρ c (Proc.devRef .tc main_arg6)) slices_S5x16_S3x16_2_0 := by
  show StableHlo.after hostOps5 (W16 m ρ c) (Proc.devRef .tc main_v69) = _
  after_results
  try rfl
theorem W17_v69 : W17 m ρ c (Proc.devRef .tc main_v69) = extractStridedSlice S3x16 ![2, 0] (m ((c : Thread nD τ).loc main_arg6)) slices_S5x16_S3x16_2_0 := by
  rw [W17_v69_raw m ρ c, W16_arg6 m ρ c]
theorem W25_v120_raw : W25 m ρ c (Proc.devRef .tc main_v120) = extractStridedSlice S1x16x16 ![0, 0, 0] (W18 m ρ c (Proc.devRef .tc main_arg7)) slices_S5x16x16_S1x16x16_0_0_0 := by
  rw [W25_eq]
  simp only [kops6, Cert.Lib.after_append]
  after_results_simp
  try rfl
theorem W25_v120 : W25 m ρ c (Proc.devRef .tc main_v120) = extractStridedSlice S1x16x16 ![0, 0, 0] (m ((c : Thread nD τ).loc main_arg7)) slices_S5x16x16_S1x16x16_0_0_0 := by
  rw [W25_v120_raw m ρ c, W18_arg7 m ρ c]
theorem W25_v121_raw : W25 m ρ c (Proc.devRef .tc main_v121) = extractStridedSlice S1x16 ![0, 0] (W18 m ρ c (Proc.devRef .tc main_arg8)) slices_S5x16_S1x16_0_0 := by
  rw [W25_eq]
  simp only [kops6, Cert.Lib.after_append]
  after_results_simp
  try rfl
theorem W25_v121 : W25 m ρ c (Proc.devRef .tc main_v121) = extractStridedSlice S1x16 ![0, 0] (m ((c : Thread nD τ).loc main_arg8)) slices_S5x16_S1x16_0_0 := by
  rw [W25_v121_raw m ρ c, W18_arg8 m ρ c]
theorem W27_v123_raw : W27 m ρ c (Proc.devRef .tc main_v123) = shapeCast S500000x16 (W26 m ρ c (Proc.devRef .tc main_v122)) shapeCasts_S1x500000x16_S500000x16 := by
  show StableHlo.after hostOps7 (W26 m ρ c) (Proc.devRef .tc main_v123) = _
  after_results
  try rfl
theorem W27_v124_raw : W27 m ρ c (Proc.devRef .tc main_v124) = extractStridedSlice S1x16x16 ![1, 0, 0] (W26 m ρ c (Proc.devRef .tc main_arg7)) slices_S5x16x16_S1x16x16_1_0_0 := by
  show StableHlo.after hostOps7 (W26 m ρ c) (Proc.devRef .tc main_v124) = _
  after_results
  try rfl
theorem W27_v124 : W27 m ρ c (Proc.devRef .tc main_v124) = extractStridedSlice S1x16x16 ![1, 0, 0] (m ((c : Thread nD τ).loc main_arg7)) slices_S5x16x16_S1x16x16_1_0_0 := by
  rw [W27_v124_raw m ρ c, W26_arg7 m ρ c]
theorem W27_v125_raw : W27 m ρ c (Proc.devRef .tc main_v125) = extractStridedSlice S1x16 ![1, 0] (W26 m ρ c (Proc.devRef .tc main_arg8)) slices_S5x16_S1x16_1_0 := by
  show StableHlo.after hostOps7 (W26 m ρ c) (Proc.devRef .tc main_v125) = _
  after_results
  try rfl
theorem W27_v125 : W27 m ρ c (Proc.devRef .tc main_v125) = extractStridedSlice S1x16 ![1, 0] (m ((c : Thread nD τ).loc main_arg8)) slices_S5x16_S1x16_1_0 := by
  rw [W27_v125_raw m ρ c, W26_arg8 m ρ c]
theorem W29_v127_raw : W29 m ρ c (Proc.devRef .tc main_v127) = shapeCast S100000x16 (W28 m ρ c (Proc.devRef .tc main_v126)) shapeCasts_S1x100000x16_S100000x16 := by
  show StableHlo.after hostOps8 (W28 m ρ c) (Proc.devRef .tc main_v127) = _
  after_results
  try rfl
theorem W29_v128_raw : W29 m ρ c (Proc.devRef .tc main_v128) = extractStridedSlice S3x16x16 ![2, 0, 0] (W28 m ρ c (Proc.devRef .tc main_arg7)) slices_S5x16x16_S3x16x16_2_0_0 := by
  show StableHlo.after hostOps8 (W28 m ρ c) (Proc.devRef .tc main_v128) = _
  after_results
  try rfl
theorem W29_v128 : W29 m ρ c (Proc.devRef .tc main_v128) = extractStridedSlice S3x16x16 ![2, 0, 0] (m ((c : Thread nD τ).loc main_arg7)) slices_S5x16x16_S3x16x16_2_0_0 := by
  rw [W29_v128_raw m ρ c, W28_arg7 m ρ c]
theorem W29_v129_raw : W29 m ρ c (Proc.devRef .tc main_v129) = extractStridedSlice S3x16 ![2, 0] (W28 m ρ c (Proc.devRef .tc main_arg8)) slices_S5x16_S3x16_2_0 := by
  show StableHlo.after hostOps8 (W28 m ρ c) (Proc.devRef .tc main_v129) = _
  after_results
  try rfl
theorem W29_v129 : W29 m ρ c (Proc.devRef .tc main_v129) = extractStridedSlice S3x16 ![2, 0] (m ((c : Thread nD τ).loc main_arg8)) slices_S5x16_S3x16_2_0 := by
  rw [W29_v129_raw m ρ c, W28_arg8 m ρ c]
theorem W31_v177_raw : W31 m ρ c (Proc.devRef .tc main_v177) = shapeCast S1x16x2 (W30 m ρ c (Proc.devRef .tc main_arg9)) shapeCasts_S16x2_S1x16x2 := by
  show StableHlo.after hostOps9 (W30 m ρ c) (Proc.devRef .tc main_v177) = _
  after_results_simp
  try rfl
theorem W31_v177 : W31 m ρ c (Proc.devRef .tc main_v177) = shapeCast S1x16x2 (m ((c : Thread nD τ).loc main_arg9)) shapeCasts_S16x2_S1x16x2 := by
  rw [W31_v177_raw m ρ c, W30_arg9 m ρ c]
theorem W31_v178_raw : W31 m ρ c (Proc.devRef .tc main_v178) = shapeCast S1x2 (W30 m ρ c (Proc.devRef .tc main_arg10)) shapeCasts_S2_S1x2 := by
  show StableHlo.after hostOps9 (W30 m ρ c) (Proc.devRef .tc main_v178) = _
  after_results_simp
  try rfl
theorem W31_v178 : W31 m ρ c (Proc.devRef .tc main_v178) = shapeCast S1x2 (m ((c : Thread nD τ).loc main_arg10)) shapeCasts_S2_S1x2 := by
  rw [W31_v178_raw m ρ c, W30_arg10 m ρ c]
theorem W33_v180_raw : W33 m ρ c (Proc.devRef .tc main_v180) = shapeCast S1000000x2 (W32 m ρ c (Proc.devRef .tc main_v179)) shapeCasts_S1x1000000x2_S1000000x2 := by
  show StableHlo.after hostOps10 (W32 m ρ c) (Proc.devRef .tc main_v180) = _
  after_results
  try rfl

/-! ### Arrays carried to where they are read -/
theorem W4_v3_step : W4 m ρ c (Proc.devRef .tc main_v3) = W3 m ρ c (Proc.devRef .tc main_v3) :=
  W4_of_ne m ρ c main_v3 (by decide)
theorem W5_v3_step : W5 m ρ c (Proc.devRef .tc main_v3) = W4 m ρ c (Proc.devRef .tc main_v3) := by
  show StableHlo.after hostOps2 (W4 m ρ c) (Proc.devRef .tc main_v3) = _
  host_keep
theorem W6_v3_step : W6 m ρ c (Proc.devRef .tc main_v3) = W5 m ρ c (Proc.devRef .tc main_v3) :=
  W6_of_ne m ρ c main_v3 (by decide)
theorem W6_v3 : W6 m ρ c (Proc.devRef .tc main_v3) = W3 m ρ c (Proc.devRef .tc main_v3) :=
  (((W6_v3_step m ρ c).trans (W5_v3_step m ρ c)).trans (W4_v3_step m ρ c))
theorem W6_v7_step : W6 m ρ c (Proc.devRef .tc main_v7) = W5 m ρ c (Proc.devRef .tc main_v7) :=
  W6_of_ne m ρ c main_v7 (by decide)
theorem W6_v7 : W6 m ρ c (Proc.devRef .tc main_v7) = W5 m ρ c (Proc.devRef .tc main_v7) :=
  (W6_v7_step m ρ c)
theorem W14_v59_step : W14 m ρ c (Proc.devRef .tc main_v59) = W13 m ρ c (Proc.devRef .tc main_v59) :=
  W14_of_ne m ρ c main_v59 (by decide)
theorem W15_v59_step : W15 m ρ c (Proc.devRef .tc main_v59) = W14 m ρ c (Proc.devRef .tc main_v59) := by
  show StableHlo.after hostOps4 (W14 m ρ c) (Proc.devRef .tc main_v59) = _
  host_keep
theorem W15_v59 : W15 m ρ c (Proc.devRef .tc main_v59) = W13 m ρ c (Proc.devRef .tc main_v59) :=
  ((W15_v59_step m ρ c).trans (W14_v59_step m ρ c))
theorem W14_v57_step : W14 m ρ c (Proc.devRef .tc main_v57) = W13 m ρ c (Proc.devRef .tc main_v57) :=
  W14_of_ne m ρ c main_v57 (by decide)
theorem W15_v57_step : W15 m ρ c (Proc.devRef .tc main_v57) = W14 m ρ c (Proc.devRef .tc main_v57) := by
  show StableHlo.after hostOps4 (W14 m ρ c) (Proc.devRef .tc main_v57) = _
  host_keep
theorem W16_v57_step : W16 m ρ c (Proc.devRef .tc main_v57) = W15 m ρ c (Proc.devRef .tc main_v57) :=
  W16_of_ne m ρ c main_v57 (by decide)
theorem W17_v57_step : W17 m ρ c (Proc.devRef .tc main_v57) = W16 m ρ c (Proc.devRef .tc main_v57) := by
  show StableHlo.after hostOps5 (W16 m ρ c) (Proc.devRef .tc main_v57) = _
  host_keep
theorem W17_v57 : W17 m ρ c (Proc.devRef .tc main_v57) = W13 m ρ c (Proc.devRef .tc main_v57) :=
  ((((W17_v57_step m ρ c).trans (W16_v57_step m ρ c)).trans (W15_v57_step m ρ c)).trans (W14_v57_step m ρ c))
theorem W16_v63_step : W16 m ρ c (Proc.devRef .tc main_v63) = W15 m ρ c (Proc.devRef .tc main_v63) :=
  W16_of_ne m ρ c main_v63 (by decide)
theorem W17_v63_step : W17 m ρ c (Proc.devRef .tc main_v63) = W16 m ρ c (Proc.devRef .tc main_v63) := by
  show StableHlo.after hostOps5 (W16 m ρ c) (Proc.devRef .tc main_v63) = _
  host_keep
theorem W18_v63_step : W18 m ρ c (Proc.devRef .tc main_v63) = W17 m ρ c (Proc.devRef .tc main_v63) :=
  W18_of_ne m ρ c main_v63 (by decide)
theorem W18_v63 : W18 m ρ c (Proc.devRef .tc main_v63) = W15 m ρ c (Proc.devRef .tc main_v63) :=
  (((W18_v63_step m ρ c).trans (W17_v63_step m ρ c)).trans (W16_v63_step m ρ c))
theorem W18_v67_step : W18 m ρ c (Proc.devRef .tc main_v67) = W17 m ρ c (Proc.devRef .tc main_v67) :=
  W18_of_ne m ρ c main_v67 (by decide)
theorem W18_v67 : W18 m ρ c (Proc.devRef .tc main_v67) = W17 m ρ c (Proc.devRef .tc main_v67) :=
  (W18_v67_step m ρ c)
theorem W26_v119_step : W26 m ρ c (Proc.devRef .tc main_v119) = W25 m ρ c (Proc.devRef .tc main_v119) :=
  W26_of_ne m ρ c main_v119 (by decide)
theorem W27_v119_step : W27 m ρ c (Proc.devRef .tc main_v119) = W26 m ρ c (Proc.devRef .tc main_v119) := by
  show StableHlo.after hostOps7 (W26 m ρ c) (Proc.devRef .tc main_v119) = _
  host_keep
theorem W27_v119 : W27 m ρ c (Proc.devRef .tc main_v119) = W25 m ρ c (Proc.devRef .tc main_v119) :=
  ((W27_v119_step m ρ c).trans (W26_v119_step m ρ c))
theorem W26_v117_step : W26 m ρ c (Proc.devRef .tc main_v117) = W25 m ρ c (Proc.devRef .tc main_v117) :=
  W26_of_ne m ρ c main_v117 (by decide)
theorem W27_v117_step : W27 m ρ c (Proc.devRef .tc main_v117) = W26 m ρ c (Proc.devRef .tc main_v117) := by
  show StableHlo.after hostOps7 (W26 m ρ c) (Proc.devRef .tc main_v117) = _
  host_keep
theorem W28_v117_step : W28 m ρ c (Proc.devRef .tc main_v117) = W27 m ρ c (Proc.devRef .tc main_v117) :=
  W28_of_ne m ρ c main_v117 (by decide)
theorem W29_v117_step : W29 m ρ c (Proc.devRef .tc main_v117) = W28 m ρ c (Proc.devRef .tc main_v117) := by
  show StableHlo.after hostOps8 (W28 m ρ c) (Proc.devRef .tc main_v117) = _
  host_keep
theorem W29_v117 : W29 m ρ c (Proc.devRef .tc main_v117) = W25 m ρ c (Proc.devRef .tc main_v117) :=
  ((((W29_v117_step m ρ c).trans (W28_v117_step m ρ c)).trans (W27_v117_step m ρ c)).trans (W26_v117_step m ρ c))
theorem W28_v123_step : W28 m ρ c (Proc.devRef .tc main_v123) = W27 m ρ c (Proc.devRef .tc main_v123) :=
  W28_of_ne m ρ c main_v123 (by decide)
theorem W29_v123_step : W29 m ρ c (Proc.devRef .tc main_v123) = W28 m ρ c (Proc.devRef .tc main_v123) := by
  show StableHlo.after hostOps8 (W28 m ρ c) (Proc.devRef .tc main_v123) = _
  host_keep
theorem W30_v123_step : W30 m ρ c (Proc.devRef .tc main_v123) = W29 m ρ c (Proc.devRef .tc main_v123) :=
  W30_of_ne m ρ c main_v123 (by decide)
theorem W30_v123 : W30 m ρ c (Proc.devRef .tc main_v123) = W27 m ρ c (Proc.devRef .tc main_v123) :=
  (((W30_v123_step m ρ c).trans (W29_v123_step m ρ c)).trans (W28_v123_step m ρ c))
theorem W30_v127_step : W30 m ρ c (Proc.devRef .tc main_v127) = W29 m ρ c (Proc.devRef .tc main_v127) :=
  W30_of_ne m ρ c main_v127 (by decide)
theorem W30_v127 : W30 m ρ c (Proc.devRef .tc main_v127) = W29 m ρ c (Proc.devRef .tc main_v127) :=
  (W30_v127_step m ρ c)

end Cert.KernelIdeal.KChain

end
-- ==== Proof.KLayout.lean ====
import proofs.«154745_j79044578115861_1_alg».proof.KernelIdeal
import Idealize.ShloMosaic.Lib.ValueLayout
import Idealize.ShloMosaic.Lib.Pipeline.Value

/-!
# Layout operations around the dense maps, read entry by entry

Each dense map `out[e] = x @ W[e] + b[e]` takes its weights and biases from stacks indexed by a slot `e`.
Before a map the program cuts slot `e` (or the band of slots `2, 3, 4`) out of a stack along the leading axis;
after it the program drops a leading unit axis from the result, or cuts one member out of a stack of three results
and then drops the unit axis. Every lemma here says which entry of the operand such an operation returns at an index
given by coordinates. The element type is arbitrary: a layout operation moves entries and computes nothing.

The evidence a slice or a shape cast carries (`h`) is a variable, so a lemma applies whichever proof is in the term.
-/

namespace Cert.KernelIdeal.KLayout

open Cert.KernelIdeal Idealize.ShloMosaic Idealize.ShloMosaic.ValueIdx

variable {α : Type}

/-! ## A cut along the leading axis -/

/-- A rank-3 array cut along axis 0 from `o` reads, at `(j, a, e)`, the source at `(k, a, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## Weight slabs: one slot, and the band of slots 2, 3, 4 -/

/-- Slot 0 of the `[5, 128, 16]` weight stack. -/
theorem w128_slot0_apply (W : S5x128x16.Idx → α) (h : S5x128x16.Slices ![0, 0, 0] S1x128x16)
    (u : Fin 1) (k : Fin 128) (q : Fin 16) :
    extractStridedSlice S1x128x16 ![0, 0, 0] W h (ix3 u k q) = W (ix3 (0 : Fin 5) k q) :=
  slice3_axis0_apply 0 W h u k q 0 (by have := u.isLt; show (0 : Nat) = 0 + u.val; omega)

/-- Slot 1 of the `[5, 128, 16]` weight stack. -/
theorem w128_slot1_apply (W : S5x128x16.Idx → α) (h : S5x128x16.Slices ![1, 0, 0] S1x128x16)
    (u : Fin 1) (k : Fin 128) (q : Fin 16) :
    extractStridedSlice S1x128x16 ![1, 0, 0] W h (ix3 u k q) = W (ix3 (1 : Fin 5) k q) :=
  slice3_axis0_apply 1 W h u k q 1 (by have := u.isLt; show (1 : Nat) = 1 + u.val; omega)

/-- Slots 2, 3, 4 of the `[5, 128, 16]` weight stack: member `e` of the band is slot `e + 2`. -/
theorem w128_band_apply (W : S5x128x16.Idx → α) (h : S5x128x16.Slices ![2, 0, 0] S3x128x16)
    (e : Fin 3) (k : Fin 128) (q : Fin 16) :
    extractStridedSlice S3x128x16 ![2, 0, 0] W h (ix3 e k q)
      = W (ix3 (⟨e.val + 2, by have := e.isLt; omega⟩ : Fin 5) k q) :=
  slice3_axis0_apply 2 W h e k q ⟨e.val + 2, by have := e.isLt; omega⟩ (Nat.add_comm _ _)

/-- Slot 0 of a `[5, 16, 16]` weight stack. -/
theorem w16_slot0_apply (W : S5x16x16.Idx → α) (h : S5x16x16.Slices ![0, 0, 0] S1x16x16)
    (u : Fin 1) (k : Fin 16) (q : Fin 16) :
    extractStridedSlice S1x16x16 ![0, 0, 0] W h (ix3 u k q) = W (ix3 (0 : Fin 5) k q) :=
  slice3_axis0_apply 0 W h u k q 0 (by have := u.isLt; show (0 : Nat) = 0 + u.val; omega)

/-- Slot 1 of a `[5, 16, 16]` weight stack. -/
theorem w16_slot1_apply (W : S5x16x16.Idx → α) (h : S5x16x16.Slices ![1, 0, 0] S1x16x16)
    (u : Fin 1) (k : Fin 16) (q : Fin 16) :
    extractStridedSlice S1x16x16 ![1, 0, 0] W h (ix3 u k q) = W (ix3 (1 : Fin 5) k q) :=
  slice3_axis0_apply 1 W h u k q 1 (by have := u.isLt; show (1 : Nat) = 1 + u.val; omega)

/-- Slots 2, 3, 4 of a `[5, 16, 16]` weight stack: member `e` of the band is slot `e + 2`. -/
theorem w16_band_apply (W : S5x16x16.Idx → α) (h : S5x16x16.Slices ![2, 0, 0] S3x16x16)
    (e : Fin 3) (k : Fin 16) (q : Fin 16) :
    extractStridedSlice S3x16x16 ![2, 0, 0] W h (ix3 e k q)
      = W (ix3 (⟨e.val + 2, by have := e.isLt; omega⟩ : Fin 5) k q) :=
  slice3_axis0_apply 2 W h e k q ⟨e.val + 2, by have := e.isLt; omega⟩ (Nat.add_comm _ _)

/-! ## Bias rows: one slot, and the band of slots 2, 3, 4 -/

/-- Slot 0 of a `[5, 16]` bias stack. -/
theorem b_slot0_apply (b : S5x16.Idx → α) (h : S5x16.Slices ![0, 0] S1x16) (u : Fin 1) (q : Fin 16) :
    extractStridedSlice S1x16 ![0, 0] b h (ix2 u q) = b (ix2 (0 : Fin 5) q) :=
  slice2_axis0_apply 0 b h u q 0 (by have := u.isLt; show (0 : Nat) = 0 + u.val; omega)

/-- Slot 1 of a `[5, 16]` bias stack. -/
theorem b_slot1_apply (b : S5x16.Idx → α) (h : S5x16.Slices ![1, 0] S1x16) (u : Fin 1) (q : Fin 16) :
    extractStridedSlice S1x16 ![1, 0] b h (ix2 u q) = b (ix2 (1 : Fin 5) q) :=
  slice2_axis0_apply 1 b h u q 1 (by have := u.isLt; show (1 : Nat) = 1 + u.val; omega)

/-- Slots 2, 3, 4 of a `[5, 16]` bias stack: member `e` of the band is slot `e + 2`. -/
theorem b_band_apply (b : S5x16.Idx → α) (h : S5x16.Slices ![2, 0] S3x16) (e : Fin 3) (q : Fin 16) :
    extractStridedSlice S3x16 ![2, 0] b h (ix2 e q)
      = b (ix2 (⟨e.val + 2, by have := e.isLt; omega⟩ : Fin 5) q) :=
  slice2_axis0_apply 2 b h e q ⟨e.val + 2, by have := e.isLt; omega⟩ (Nat.add_comm _ _)

/-! ## The head's weights and bias, given a leading unit axis -/

/-- The `[16, 2]` head weights seen as a stack of one: every member index reads the matrix itself. -/
theorem headW_apply (W : S16x2.Idx → α) (h : S16x2.ShapeCasts S1x16x2) (u : Fin 1) (k : Fin 16) (q : Fin 2) :
    shapeCast S1x16x2 W h (ix3 u k q) = W (ix2 k q) :=
  shapeCast_ab_1ab_apply W h u k q

/-- The `[2]` head bias seen as one row. -/
theorem headB_apply (b : S2.Idx → α) (h : S2.ShapeCasts S1x2) (u : Fin 1) (q : Fin 2) :
    shapeCast S1x2 b h (ix2 u q) = b (ix1 q) :=
  shapeCast_a_1a_apply b h u q

/-! ## A result's leading unit axis dropped -/

/-- `[1, 500000, 16] → [500000, 16]`. -/
theorem out500000_apply (A : S1x500000x16.Idx → α) (h : S1x500000x16.ShapeCasts S500000x16)
    (p : Fin 500000) (q : Fin 16) :
    shapeCast S500000x16 A h (ix2 p q) = A (ix3 (0 : Fin 1) p q) :=
  shapeCast_1ab_ab_apply A h p q

/-- `[1, 100000, 16] → [100000, 16]`. -/
theorem out100000_apply (A : S1x100000x16.Idx → α) (h : S1x100000x16.ShapeCasts S100000x16)
    (p : Fin 100000) (q : Fin 16) :
    shapeCast S100000x16 A h (ix2 p q) = A (ix3 (0 : Fin 1) p q) :=
  shapeCast_1ab_ab_apply A h p q

/-- `[1, 1000000, 16] → [1000000, 16]`. -/
theorem out1000000_apply (A : S1x1000000x16.Idx → α) (h : S1x1000000x16.ShapeCasts S1000000x16)
    (p : Fin 1000000) (q : Fin 16) :
    shapeCast S1000000x16 A h (ix2 p q) = A (ix3 (0 : Fin 1) p q) :=
  shapeCast_1ab_ab_apply A h p q

/-- `[1, 1000000, 2] → [1000000, 2]`: the head's result. -/
theorem outHead_apply (A : S1x1000000x2.Idx → α) (h : S1x1000000x2.ShapeCasts S1000000x2)
    (p : Fin 1000000) (q : Fin 2) :
    shapeCast S1000000x2 A h (ix2 p q) = A (ix3 (0 : Fin 1) p q) :=
  shapeCast_1ab_ab_apply A h p q

/-! ## One member of the stack of three results, its unit axis dropped -/

/-- Member 0 of a `[3, 1000000, 16]` stack as a `[1000000, 16]` matrix. -/
theorem member0_apply (A : S3x1000000x16.Idx → α) (hs : S3x1000000x16.Slices ![0, 0, 0] S1x1000000x16)
    (hc : S1x1000000x16.ShapeCasts S1000000x16) (p : Fin 1000000) (q : Fin 16) :
    shapeCast S1000000x16 (extractStridedSlice S1x1000000x16 ![0, 0, 0] A hs) hc (ix2 p q)
      = A (ix3 (0 : Fin 3) p q) :=
  (shapeCast_1ab_ab_apply _ hc p q).trans (slice3_axis0_apply 0 A hs 0 p q 0 rfl)

/-- Member 1 of a `[3, 1000000, 16]` stack as a `[1000000, 16]` matrix. -/
theorem member1_apply (A : S3x1000000x16.Idx → α) (hs : S3x1000000x16.Slices ![1, 0, 0] S1x1000000x16)
    (hc : S1x1000000x16.ShapeCasts S1000000x16) (p : Fin 1000000) (q : Fin 16) :
    shapeCast S1000000x16 (extractStridedSlice S1x1000000x16 ![1, 0, 0] A hs) hc (ix2 p q)
      = A (ix3 (1 : Fin 3) p q) :=
  (shapeCast_1ab_ab_apply _ hc p q).trans (slice3_axis0_apply 1 A hs 0 p q 1 rfl)

/-- Member 2 of a `[3, 1000000, 16]` stack as a `[1000000, 16]` matrix. -/
theorem member2_apply (A : S3x1000000x16.Idx → α) (hs : S3x1000000x16.Slices ![2, 0, 0] S1x1000000x16)
    (hc : S1x1000000x16.ShapeCasts S1000000x16) (p : Fin 1000000) (q : Fin 16) :
    shapeCast S1000000x16 (extractStridedSlice S1x1000000x16 ![2, 0, 0] A hs) hc (ix2 p q)
      = A (ix3 (2 : Fin 3) p q) :=
  (shapeCast_1ab_ab_apply _ hc p q).trans (slice3_axis0_apply 2 A hs 0 p q 2 rfl)

end Cert.KernelIdeal.KLayout
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«154745_j79044578115861_1_alg».proof.Proof.LibMatmul2
import proofs.«154745_j79044578115861_1_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«154745_j79044578115861_1_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.RefLin.lean ====
import proofs.«154745_j79044578115861_1_alg».proof.ReferenceIdeal
import proofs.«154745_j79044578115861_1_alg».proof.Proof.LibEntryReads
import proofs.«154745_j79044578115861_1_alg».proof.Proof.LibHostReads
import Idealize.ShloMosaic.Lib.ValueLayout
import Idealize.ShloMosaic.Lib.Pipeline.Value

/-!
# The reference's dense maps, read entry by entry

Every dense map of the reference is `x @ W[e] + b[e]`: slot `e` is cut out of the weight stack and the bias stack
along the leading axis, each cut loses its unit axis, the rows `x` are multiplied by the matrix, and the bias vector is
repeated down the rows and added. With exact arithmetic the entry at row `p`, column `q` is

  `(∑ k, x (p, k) * W (e, k, q)) + b (e, q)`.

`dense_apply` proves this once, for any number of rows, any inner width and any slot; the lemmas after it are that
statement at the row counts, widths and slots the reference uses. `linOut_apply` is the last map, whose weights and bias
are not taken from a stack.
-/

open scoped BigOperators

namespace Cert.ReferenceIdeal.RefLin

open Cert.ReferenceIdeal Idealize.ShloMosaic Idealize.ShloMosaic.ValueIdx

/-- A sum of two arrays of extended reals is taken entry by entry. -/
theorem addf_apply {s : Shape} {φ : FTy} (a b : FVec Ideal s φ) (i : s.Idx) : addf a b i = a i + b i := rfl

/-- A rank-3 array cut along axis 0 from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The dense map of slot `e` (the cut starts at `o = e`) on `N` rows of width `K`, at row `p` and column `q`. -/
theorem dense_apply {N K : ℕ} (o : ℕ)
    (D : DotDims ⟨2, ![N, K]⟩ ⟨2, ![K, 16]⟩ ⟨2, ![N, 16]⟩)
    (wf : DotDims.WF ⟨2, ![N, K]⟩ ⟨2, ![K, 16]⟩ ⟨2, ![N, 16]⟩ [1] [0] [0] [1] [] []) (hD : D = Cert.Lib.plain2 wf)
    (x : FVec Ideal ⟨2, ![N, K]⟩ .f32) (W : FVec Ideal ⟨3, ![5, K, 16]⟩ .f32) (b : FVec Ideal ⟨2, ![5, 16]⟩ .f32)
    (hsW : (⟨3, ![5, K, 16]⟩ : Shape).Slices ![o, 0, 0] ⟨3, ![1, K, 16]⟩)
    (hcW : (⟨3, ![1, K, 16]⟩ : Shape).ShapeCasts ⟨2, ![K, 16]⟩)
    (hsb : (⟨2, ![5, 16]⟩ : Shape).Slices ![o, 0] ⟨2, ![1, 16]⟩)
    (hcb : (⟨2, ![1, 16]⟩ : Shape).ShapeCasts ⟨1, ![16]⟩)
    (h1 : (⟨1, ![16]⟩ : Shape).BroadcastsInDim ⟨2, ![1, 16]⟩ ![1])
    (h2 : (⟨2, ![1, 16]⟩ : Shape).BroadcastsInDim ⟨2, ![N, 16]⟩ ![0, 1])
    (e : Fin 5) (he : e.val = o) (p : Fin N) (q : Fin 16) :
    addf (Host.dotGeneral D none x
            (shapeCast ⟨2, ![K, 16]⟩ (extractStridedSlice ⟨3, ![1, K, 16]⟩ ![o, 0, 0] W hsW) hcW))
         (broadcastInDim ⟨2, ![N, 16]⟩ ![0, 1] h2 (broadcastInDim ⟨2, ![1, 16]⟩ ![1] h1
            (shapeCast ⟨1, ![16]⟩ (extractStridedSlice ⟨2, ![1, 16]⟩ ![o, 0] b hsb) hcb))) (ix2 p q)
      = (∑ k : Fin K, x (ix2 p k) * W (ix3 e k q)) + b (ix2 e q) := by
  refine (addf_apply _ _ _).trans ?_
  refine congrArg₂ (· + ·) ?_ ?_
  · refine (Cert.Lib.dotGeneral_plain_apply D wf hD x _ p q).trans ?_
    refine Finset.sum_congr rfl fun k _ => ?_
    refine congrArg (x (ix2 p k) * ·) ?_
    exact (shapeCast_1ab_ab_apply _ hcW k q).trans (slice3_axis0_apply o W hsW 0 k q e he)
  · refine (Cert.Lib.bcast_vec_rows_apply _ h1 h2 p q).trans ?_
    exact (shapeCast_1a_a_apply _ hcb q).trans (slice2_axis0_apply o b hsb 0 q e he)

variable [Facts₀]
open Facts₀

/-! ## Inner width 128: the first layer's five maps -/

/-- The first layer (inner width 128), slot 0, on the 500000 rows. -/
theorem lin_128_0_apply (x : FVec Ideal S500000x128 .f32) (W : FVec Ideal S5x128x16 .f32) (b : FVec Ideal S5x16 .f32)
    (hsW : S5x128x16.Slices ![0, 0, 0] S1x128x16) (hcW : S1x128x16.ShapeCasts S128x16)
    (hsb : S5x16.Slices ![0, 0] S1x16) (hcb : S1x16.ShapeCasts S16)
    (h1 : S16.BroadcastsInDim S1x16 ![1]) (h2 : S1x16.BroadcastsInDim S500000x16 ![0, 1])
    (p : Fin 500000) (q : Fin 16) :
    addf (Host.dotGeneral dot_S500000x128_S128x16_S500000x16_1_0_0_1_n_n none x
            (shapeCast S128x16 (extractStridedSlice S1x128x16 ![0, 0, 0] W hsW) hcW))
         (broadcastInDim S500000x16 ![0, 1] h2 (broadcastInDim S1x16 ![1] h1
            (shapeCast S16 (extractStridedSlice S1x16 ![0, 0] b hsb) hcb))) (ix2 p q)
      = (∑ k : Fin 128, x (ix2 p k) * W (ix3 (0 : Fin 5) k q)) + b (ix2 (0 : Fin 5) q) :=
  dense_apply 0 _ dot_S500000x128_S128x16_S500000x16_1_0_0_1_n_n_wf rfl x W b hsW hcW hsb hcb h1 h2 0 rfl p q

/-- The first layer (inner width 128), slot 1, on the 100000 rows. -/
theorem lin_128_1_apply (x : FVec Ideal S100000x128 .f32) (W : FVec Ideal S5x128x16 .f32) (b : FVec Ideal S5x16 .f32)
    (hsW : S5x128x16.Slices ![1, 0, 0] S1x128x16) (hcW : S1x128x16.ShapeCasts S128x16)
    (hsb : S5x16.Slices ![1, 0] S1x16) (hcb : S1x16.ShapeCasts S16)
    (h1 : S16.BroadcastsInDim S1x16 ![1]) (h2 : S1x16.BroadcastsInDim S100000x16 ![0, 1])
    (p : Fin 100000) (q : Fin 16) :
    addf (Host.dotGeneral dot_S100000x128_S128x16_S100000x16_1_0_0_1_n_n none x
            (shapeCast S128x16 (extractStridedSlice S1x128x16 ![1, 0, 0] W hsW) hcW))
         (broadcastInDim S100000x16 ![0, 1] h2 (broadcastInDim S1x16 ![1] h1
            (shapeCast S16 (extractStridedSlice S1x16 ![1, 0] b hsb) hcb))) (ix2 p q)
      = (∑ k : Fin 128, x (ix2 p k) * W (ix3 (1 : Fin 5) k q)) + b (ix2 (1 : Fin 5) q) :=
  dense_apply 1 _ dot_S100000x128_S128x16_S100000x16_1_0_0_1_n_n_wf rfl x W b hsW hcW hsb hcb h1 h2 1 rfl p q

/-- The first layer (inner width 128), slot 2, on the 1000000 rows. -/
theorem lin_128_2_apply (x : FVec Ideal S1000000x128 .f32) (W : FVec Ideal S5x128x16 .f32) (b : FVec Ideal S5x16 .f32)
    (hsW : S5x128x16.Slices ![2, 0, 0] S1x128x16) (hcW : S1x128x16.ShapeCasts S128x16)
    (hsb : S5x16.Slices ![2, 0] S1x16) (hcb : S1x16.ShapeCasts S16)
    (h1 : S16.BroadcastsInDim S1x16 ![1]) (h2 : S1x16.BroadcastsInDim S1000000x16 ![0, 1])
    (p : Fin 1000000) (q : Fin 16) :
    addf (Host.dotGeneral dot_S1000000x128_S128x16_S1000000x16_1_0_0_1_n_n none x
            (shapeCast S128x16 (extractStridedSlice S1x128x16 ![2, 0, 0] W hsW) hcW))
         (broadcastInDim S1000000x16 ![0, 1] h2 (broadcastInDim S1x16 ![1] h1
            (shapeCast S16 (extractStridedSlice S1x16 ![2, 0] b hsb) hcb))) (ix2 p q)
      = (∑ k : Fin 128, x (ix2 p k) * W (ix3 (2 : Fin 5) k q)) + b (ix2 (2 : Fin 5) q) :=
  dense_apply 2 _ dot_S1000000x128_S128x16_S1000000x16_1_0_0_1_n_n_wf rfl x W b hsW hcW hsb hcb h1 h2 2 rfl p q

/-- The first layer (inner width 128), slot 3, on the 1000000 rows. -/
theorem lin_128_3_apply (x : FVec Ideal S1000000x128 .f32) (W : FVec Ideal S5x128x16 .f32) (b : FVec Ideal S5x16 .f32)
    (hsW : S5x128x16.Slices ![3, 0, 0] S1x128x16) (hcW : S1x128x16.ShapeCasts S128x16)
    (hsb : S5x16.Slices ![3, 0] S1x16) (hcb : S1x16.ShapeCasts S16)
    (h1 : S16.BroadcastsInDim S1x16 ![1]) (h2 : S1x16.BroadcastsInDim S1000000x16 ![0, 1])
    (p : Fin 1000000) (q : Fin 16) :
    addf (Host.dotGeneral dot_S1000000x128_S128x16_S1000000x16_1_0_0_1_n_n none x
            (shapeCast S128x16 (extractStridedSlice S1x128x16 ![3, 0, 0] W hsW) hcW))
         (broadcastInDim S1000000x16 ![0, 1] h2 (broadcastInDim S1x16 ![1] h1
            (shapeCast S16 (extractStridedSlice S1x16 ![3, 0] b hsb) hcb))) (ix2 p q)
      = (∑ k : Fin 128, x (ix2 p k) * W (ix3 (3 : Fin 5) k q)) + b (ix2 (3 : Fin 5) q) :=
  dense_apply 3 _ dot_S1000000x128_S128x16_S1000000x16_1_0_0_1_n_n_wf rfl x W b hsW hcW hsb hcb h1 h2 3 rfl p q

/-- The first layer (inner width 128), slot 4, on the 1000000 rows. -/
theorem lin_128_4_apply (x : FVec Ideal S1000000x128 .f32) (W : FVec Ideal S5x128x16 .f32) (b : FVec Ideal S5x16 .f32)
    (hsW : S5x128x16.Slices ![4, 0, 0] S1x128x16) (hcW : S1x128x16.ShapeCasts S128x16)
    (hsb : S5x16.Slices ![4, 0] S1x16) (hcb : S1x16.ShapeCasts S16)
    (h1 : S16.BroadcastsInDim S1x16 ![1]) (h2 : S1x16.BroadcastsInDim S1000000x16 ![0, 1])
    (p : Fin 1000000) (q : Fin 16) :
    addf (Host.dotGeneral dot_S1000000x128_S128x16_S1000000x16_1_0_0_1_n_n none x
            (shapeCast S128x16 (extractStridedSlice S1x128x16 ![4, 0, 0] W hsW) hcW))
         (broadcastInDim S1000000x16 ![0, 1] h2 (broadcastInDim S1x16 ![1] h1
            (shapeCast S16 (extractStridedSlice S1x16 ![4, 0] b hsb) hcb))) (ix2 p q)
      = (∑ k : Fin 128, x (ix2 p k) * W (ix3 (4 : Fin 5) k q)) + b (ix2 (4 : Fin 5) q) :=
  dense_apply 4 _ dot_S1000000x128_S128x16_S1000000x16_1_0_0_1_n_n_wf rfl x W b hsW hcW hsb hcb h1 h2 4 rfl p q

/-! ## Inner width 16: the five maps of each later layer (the two layers have the same shapes) -/

/-- A later layer (inner width 16), slot 0, on the 500000 rows. -/
theorem lin_16_0_apply (x : FVec Ideal S500000x16 .f32) (W : FVec Ideal S5x16x16 .f32) (b : FVec Ideal S5x16 .f32)
    (hsW : S5x16x16.Slices ![0, 0, 0] S1x16x16) (hcW : S1x16x16.ShapeCasts S16x16)
    (hsb : S5x16.Slices ![0, 0] S1x16) (hcb : S1x16.ShapeCasts S16)
    (h1 : S16.BroadcastsInDim S1x16 ![1]) (h2 : S1x16.BroadcastsInDim S500000x16 ![0, 1])
    (p : Fin 500000) (q : Fin 16) :
    addf (Host.dotGeneral dot_S500000x16_S16x16_S500000x16_1_0_0_1_n_n none x
            (shapeCast S16x16 (extractStridedSlice S1x16x16 ![0, 0, 0] W hsW) hcW))
         (broadcastInDim S500000x16 ![0, 1] h2 (broadcastInDim S1x16 ![1] h1
            (shapeCast S16 (extractStridedSlice S1x16 ![0, 0] b hsb) hcb))) (ix2 p q)
      = (∑ k : Fin 16, x (ix2 p k) * W (ix3 (0 : Fin 5) k q)) + b (ix2 (0 : Fin 5) q) :=
  dense_apply 0 _ dot_S500000x16_S16x16_S500000x16_1_0_0_1_n_n_wf rfl x W b hsW hcW hsb hcb h1 h2 0 rfl p q

/-- A later layer (inner width 16), slot 1, on the 100000 rows. -/
theorem lin_16_1_apply (x : FVec Ideal S100000x16 .f32) (W : FVec Ideal S5x16x16 .f32) (b : FVec Ideal S5x16 .f32)
    (hsW : S5x16x16.Slices ![1, 0, 0] S1x16x16) (hcW : S1x16x16.ShapeCasts S16x16)
    (hsb : S5x16.Slices ![1, 0] S1x16) (hcb : S1x16.ShapeCasts S16)
    (h1 : S16.BroadcastsInDim S1x16 ![1]) (h2 : S1x16.BroadcastsInDim S100000x16 ![0, 1])
    (p : Fin 100000) (q : Fin 16) :
    addf (Host.dotGeneral dot_S100000x16_S16x16_S100000x16_1_0_0_1_n_n none x
            (shapeCast S16x16 (extractStridedSlice S1x16x16 ![1, 0, 0] W hsW) hcW))
         (broadcastInDim S100000x16 ![0, 1] h2 (broadcastInDim S1x16 ![1] h1
            (shapeCast S16 (extractStridedSlice S1x16 ![1, 0] b hsb) hcb))) (ix2 p q)
      = (∑ k : Fin 16, x (ix2 p k) * W (ix3 (1 : Fin 5) k q)) + b (ix2 (1 : Fin 5) q) :=
  dense_apply 1 _ dot_S100000x16_S16x16_S100000x16_1_0_0_1_n_n_wf rfl x W b hsW hcW hsb hcb h1 h2 1 rfl p q

/-- A later layer (inner width 16), slot 2, on the 1000000 rows. -/
theorem lin_16_2_apply (x : FVec Ideal S1000000x16 .f32) (W : FVec Ideal S5x16x16 .f32) (b : FVec Ideal S5x16 .f32)
    (hsW : S5x16x16.Slices ![2, 0, 0] S1x16x16) (hcW : S1x16x16.ShapeCasts S16x16)
    (hsb : S5x16.Slices ![2, 0] S1x16) (hcb : S1x16.ShapeCasts S16)
    (h1 : S16.BroadcastsInDim S1x16 ![1]) (h2 : S1x16.BroadcastsInDim S1000000x16 ![0, 1])
    (p : Fin 1000000) (q : Fin 16) :
    addf (Host.dotGeneral dot_S1000000x16_S16x16_S1000000x16_1_0_0_1_n_n none x
            (shapeCast S16x16 (extractStridedSlice S1x16x16 ![2, 0, 0] W hsW) hcW))
         (broadcastInDim S1000000x16 ![0, 1] h2 (broadcastInDim S1x16 ![1] h1
            (shapeCast S16 (extractStridedSlice S1x16 ![2, 0] b hsb) hcb))) (ix2 p q)
      = (∑ k : Fin 16, x (ix2 p k) * W (ix3 (2 : Fin 5) k q)) + b (ix2 (2 : Fin 5) q) :=
  dense_apply 2 _ dot_S1000000x16_S16x16_S1000000x16_1_0_0_1_n_n_wf rfl x W b hsW hcW hsb hcb h1 h2 2 rfl p q

/-- A later layer (inner width 16), slot 3, on the 1000000 rows. -/
theorem lin_16_3_apply (x : FVec Ideal S1000000x16 .f32) (W : FVec Ideal S5x16x16 .f32) (b : FVec Ideal S5x16 .f32)
    (hsW : S5x16x16.Slices ![3, 0, 0] S1x16x16) (hcW : S1x16x16.ShapeCasts S16x16)
    (hsb : S5x16.Slices ![3, 0] S1x16) (hcb : S1x16.ShapeCasts S16)
    (h1 : S16.BroadcastsInDim S1x16 ![1]) (h2 : S1x16.BroadcastsInDim S1000000x16 ![0, 1])
    (p : Fin 1000000) (q : Fin 16) :
    addf (Host.dotGeneral dot_S1000000x16_S16x16_S1000000x16_1_0_0_1_n_n none x
            (shapeCast S16x16 (extractStridedSlice S1x16x16 ![3, 0, 0] W hsW) hcW))
         (broadcastInDim S1000000x16 ![0, 1] h2 (broadcastInDim S1x16 ![1] h1
            (shapeCast S16 (extractStridedSlice S1x16 ![3, 0] b hsb) hcb))) (ix2 p q)
      = (∑ k : Fin 16, x (ix2 p k) * W (ix3 (3 : Fin 5) k q)) + b (ix2 (3 : Fin 5) q) :=
  dense_apply 3 _ dot_S1000000x16_S16x16_S1000000x16_1_0_0_1_n_n_wf rfl x W b hsW hcW hsb hcb h1 h2 3 rfl p q

/-- A later layer (inner width 16), slot 4, on the 1000000 rows. -/
theorem lin_16_4_apply (x : FVec Ideal S1000000x16 .f32) (W : FVec Ideal S5x16x16 .f32) (b : FVec Ideal S5x16 .f32)
    (hsW : S5x16x16.Slices ![4, 0, 0] S1x16x16) (hcW : S1x16x16.ShapeCasts S16x16)
    (hsb : S5x16.Slices ![4, 0] S1x16) (hcb : S1x16.ShapeCasts S16)
    (h1 : S16.BroadcastsInDim S1x16 ![1]) (h2 : S1x16.BroadcastsInDim S1000000x16 ![0, 1])
    (p : Fin 1000000) (q : Fin 16) :
    addf (Host.dotGeneral dot_S1000000x16_S16x16_S1000000x16_1_0_0_1_n_n none x
            (shapeCast S16x16 (extractStridedSlice S1x16x16 ![4, 0, 0] W hsW) hcW))
         (broadcastInDim S1000000x16 ![0, 1] h2 (broadcastInDim S1x16 ![1] h1
            (shapeCast S16 (extractStridedSlice S1x16 ![4, 0] b hsb) hcb))) (ix2 p q)
      = (∑ k : Fin 16, x (ix2 p k) * W (ix3 (4 : Fin 5) k q)) + b (ix2 (4 : Fin 5) q) :=
  dense_apply 4 _ dot_S1000000x16_S16x16_S1000000x16_1_0_0_1_n_n_wf rfl x W b hsW hcW hsb hcb h1 h2 4 rfl p q

/-! ## The last map: weights and bias taken whole -/

/-- The `[1000000, 16]` rows times the `[16, 2]` matrix plus the `[2]` bias repeated down the rows, at `(p, q)`. -/
theorem linOut_apply (x : FVec Ideal S1000000x16 .f32) (W : FVec Ideal S16x2 .f32) (b : FVec Ideal S2 .f32)
    (h1 : S2.BroadcastsInDim S1x2 ![1]) (h2 : S1x2.BroadcastsInDim S1000000x2 ![0, 1])
    (p : Fin 1000000) (q : Fin 2) :
    addf (Host.dotGeneral dot_S1000000x16_S16x2_S1000000x2_1_0_0_1_n_n none x W)
         (broadcastInDim S1000000x2 ![0, 1] h2 (broadcastInDim S1x2 ![1] h1 b)) (ix2 p q)
      = (∑ k : Fin 16, x (ix2 p k) * W (ix2 k q)) + b (ix1 q) :=
  (addf_apply _ _ _).trans (congrArg₂ (· + ·)
    (Cert.Lib.dotGeneral_plain_apply _ dot_S1000000x16_S16x2_S1000000x2_1_0_0_1_n_n_wf rfl x W p q)
    (Cert.Lib.bcast_vec_rows_apply b h1 h2 p q))

end Cert.ReferenceIdeal.RefLin
-- ==== Proof.RefRun.lean ====
import proofs.«154745_j79044578115861_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-! ## The operations of @main, in order, cut into stretches

Each list is the printed program's statements in order; a call of a module-local function is its body's operations
over the call's own buffers, the nested select writing the call's result buffer. -/

/-- Layer 0, the five dense maps (%0 … %39): each a slice of the stacked weights and biases, a contraction, the bias row broadcast and added. -/
abbrev ops0 : List (HloOp τ sig (Elt F)) :=
  [ StableHlo.unary main_arg3 main_v0 ((extractStridedSlice S1x128x16 ![0, 0, 0] · slices_S5x128x16_S1x128x16_0_0_0) : (⟨S5x128x16, .f32⟩ : BufTy).Contents (Elt F) → (⟨S1x128x16, .f32⟩ : BufTy).Contents (Elt F)),
    StableHlo.reshape main_v0 main_v1 rfl shapeCasts_S1x128x16_S128x16,
    StableHlo.binary main_arg1 main_v1 main_v2 ((fun l r => Host.dotGeneral dot_S500000x128_S128x16_S500000x16_1_0_0_1_n_n none l r) : (⟨S500000x128, .f32⟩ : BufTy).Contents (Elt F) → (⟨S128x16, .f32⟩ : BufTy).Contents (Elt F) → (⟨S500000x16, .f32⟩ : BufTy).Contents (Elt F)),
    StableHlo.unary main_arg4 main_v3 ((extractStridedSlice S1x16 ![0, 0] · slices_S5x16_S1x16_0_0) : (⟨S5x16, .f32⟩ : BufTy).Contents (Elt F) → (⟨S1x16, .f32⟩ : BufTy).Contents (Elt F)),
    StableHlo.reshape main_v3 main_v4 rfl shapeCasts_S1x16_S16,
    StableHlo.unary main_v4 main_v5 (broadcastInDim S1x16 ![1] bcast_S16_S1x16_1 : (⟨S16, .f32⟩ : BufTy).Contents (Elt F) → (⟨S1x16, .f32⟩ : BufTy).Contents (Elt F)),
    StableHlo.unary main_v5 main_v6 (broadcastInDim S500000x16 ![0, 1] bcast_S1x16_S500000x16_0_1 : (⟨S1x16, .f32⟩ : BufTy).Contents (Elt F) → (⟨S500000x16, .f32⟩ : BufTy).Contents (Elt F)),
    StableHlo.binary main_v2 main_v6 main_v7 (addf : (⟨S500000x16, .f32⟩ : BufTy).Contents (Elt F) → (⟨S500000x16, .f32⟩ : BufTy).Contents (Elt F) → (⟨S500000x16, .f32⟩ : BufTy).Contents (Elt F)),
    StableHlo.unary main_arg3 main_v8 ((extractStridedSlice S1x128x16 ![1, 0, 0] · slices_S5x128x16_S1x128x16_1_0_0) : (⟨S5x128x16, .f32⟩ : BufTy).Contents (Elt F) → (⟨S1x128x16, .f32⟩ : BufTy).Contents (Elt F)),
    StableHlo.reshape main_v8 main_v9 rfl shapeCasts_S1x128x16_S128x16,
    StableHlo.binary main_arg2 main_v9 main_v10 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    StableHlo.unary main_arg4 main_v11 ((extractStridedSlice S1x16 ![1, 0] · slices_S5x16_S1x16_1_0) : (⟨S5x16, .f32⟩ : BufTy).Contents (Elt F) → (⟨S1x16, .f32⟩ : BufTy).Contents (Elt F)),
    StableHlo.reshape main_v11 main_v12 rfl shapeCasts_S1x16_S16,
    StableHlo.unary main_v12 main_v13 (broadcastInDim S1x16 ![1] bcast_S16_S1x16_1 : (⟨S16, .f32⟩ : BufTy).Contents (Elt F) → (⟨S1x16, .f32⟩ : BufTy).Contents (Elt F)),
    StableHlo.unary main_v13 main_v14 (broadcastInDim S100000x16 ![0, 1] bcast_S1x16_S100000x16_0_1 : (⟨S1x16, .f32⟩ : BufTy).Contents (Elt F) → (⟨S100000x16, .f32⟩ : BufTy).Contents (Elt F)),
    StableHlo.binary main_v10 main_v14 main_v15 (addf : (⟨S100000x16, .f32⟩ : BufTy).Contents (Elt F) → (⟨S100000x16, .f32⟩ : BufTy).Contents (Elt F) → (⟨S100000x16, .f32⟩ : BufTy).Contents (Elt F)),
    StableHlo.unary main_arg3 main_v16 ((extractStridedSlice S1x128x16 ![2, 0, 0] · slices_S5x128x16_S1x128x16_2_0_0) : (⟨S5x128x16, .f32⟩ : BufTy).Contents (Elt F) → (⟨S1x128x16, .f32⟩ : BufTy).Contents (Elt F)),
    StableHlo.reshape main_v16 main_v17 rfl shapeCasts_S1x128x16_S128x16,
    StableHlo.binary main_arg0 main_v17 main_v18 ((fun l r => Host.dotGeneral dot_S1000000x128_S128x16_S1000000x16_1_0_0_1_n_n none l r) : (⟨S1000000x128, .f32⟩ : BufTy).Contents (Elt F) → (⟨S128x16, .f32⟩ : BufTy).Contents (Elt F) → (⟨S1000000x16, .f32⟩ : BufTy).Contents (Elt F)),
    StableHlo.unary main_arg4 main_v19 ((extractStridedSlice S1x16 ![2, 0] · slices_S5x16_S1x16_2_0) : (⟨S5x16, .f32⟩ : BufTy).Contents (Elt F) → (⟨S1x16, .f32⟩ : BufTy).Contents (Elt F)),
    StableHlo.reshape main_v19 main_v20 rfl shapeCasts_S1x16_S16,
    StableHlo.unary main_v20 main_v21 (broadcastInDim S1x16 ![1] bcast_S16_S1x16_1 : (⟨S16, .f32⟩ : BufTy).Contents (Elt F) → (⟨S1x16, .f32⟩ : BufTy).Contents (Elt F)),
    StableHlo.unary main_v21 main_v22 (broadcastInDim S1000000x16 ![0, 1] bcast_S1x16_S1000000x16_0_1 : (⟨S1x16, .f32⟩ : BufTy).Contents (Elt F) → (⟨S1000000x16, .f32⟩ : BufTy).Contents (Elt F)),
    StableHlo.binary main_v18 main_v22 main_v23 (addf : (⟨S1000000x16, .f32⟩ : BufTy).Contents (Elt F) → (⟨S1000000x16, .f32⟩ : BufTy).Contents (Elt F) → (⟨S1000000x16, .f32⟩ : BufTy).Contents (Elt F)),
    StableHlo.unary main_arg3 main_v24 ((extractStridedSlice S1x128x16 ![3, 0, 0] · slices_S5x128x16_S1x128x16_3_0_0) : (⟨S5x128x16, .f32⟩ : BufTy).Contents (Elt F) → (⟨S1x128x16, .f32⟩ : BufTy).Contents (Elt F)),
    StableHlo.reshape main_v24 main_v25 rfl shapeCasts_S1x128x16_S128x16,
    StableHlo.binary main_arg0 main_v25 main_v26 ((fun l r => Host.dotGeneral dot_S1000000x128_S128x16_S1000000x16_1_0_0_1_n_n none l r) : (⟨S1000000x128, .f32⟩ : BufTy).Contents (Elt F) → (⟨S128x16, .f32⟩ : BufTy).Contents (Elt F) → (⟨S1000000x16, .f32⟩ : BufTy).Contents (Elt F)),
    StableHlo.unary main_arg4 main_v27 ((extractStridedSlice S1x16 ![3, 0] · slices_S5x16_S1x16_3_0) : (⟨S5x16, .f32⟩ : BufTy).Contents (Elt F) → (⟨S1x16, .f32⟩ : BufTy).Contents (Elt F)),
    StableHlo.reshape main_v27 main_v28 rfl shapeCasts_S1x16_S16,
    StableHlo.unary main_v28 main_v29 (broadcastInDim S1x16 ![1] bcast_S16_S1x16_1 : (⟨S16, .f32⟩ : BufTy).Contents (Elt F) → (⟨S1x16, .f32⟩ : BufTy).Contents (Elt F)),
    StableHlo.unary main_v29 main_v30 (broadcastInDim S1000000x16 ![0, 1] bcast_S1x16_S1000000x16_0_1 : (⟨S1x16, .f32⟩ : BufTy).Contents (Elt F) → (⟨S1000000x16, .f32⟩ : BufTy).Contents (Elt F)),
    StableHlo.binary main_v26 main_v30 main_v31 (addf : (⟨S1000000x16, .f32⟩ : BufTy).Contents (Elt F) → (⟨S1000000x16, .f32⟩ : BufTy).Contents (Elt F) → (⟨S1000000x16, .f32⟩ : BufTy).Contents (Elt F)),
    StableHlo.unary main_arg3 main_v32 ((extractStridedSlice S1x128x16 ![4, 0, 0] · slices_S5x128x16_S1x128x16_4_0_0) : (⟨S5x128x16, .f32⟩ : BufTy).Contents (Elt F) → (⟨S1x128x16, .f32⟩ : BufTy).Contents (Elt F)),
    StableHlo.reshape main_v32 main_v33 rfl shapeCasts_S1x128x16_S128x16,
    StableHlo.binary main_arg0 main_v33 main_v34 ((fun l r => Host.dotGeneral dot_S1000000x128_S128x16_S1000000x16_1_0_0_1_n_n none l r) : (⟨S1000000x128, .f32⟩ : BufTy).Contents (Elt F) → (⟨S128x16, .f32⟩ : BufTy).Contents (Elt F) → (⟨S1000000x16, .f32⟩ : BufTy).Contents (Elt F)),
    StableHlo.unary main_arg4 main_v35 ((extractStridedSlice S1x16 ![4, 0] · slices_S5x16_S1x16_4_0) : (⟨S5x16, .f32⟩ : BufTy).Contents (Elt F) → (⟨S1x16, .f32⟩ : BufTy).Contents (Elt F)),
    StableHlo.reshape main_v35 main_v36 rfl shapeCasts_S1x16_S16,
    StableHlo.unary main_v36 main_v37 (broadcastInDim S1x16 ![1] bcast_S16_S1x16_1 : (⟨S16, .f32⟩ : BufTy).Contents (Elt F) → (⟨S1x16, .f32⟩ : BufTy).Contents (Elt F)),
    StableHlo.unary main_v37 main_v38 (broadcastInDim S1000000x16 ![0, 1] bcast_S1x16_S1000000x16_0_1 : (⟨S1x16, .f32⟩ : BufTy).Contents (Elt F) → (⟨S1000000x16, .f32⟩ : BufTy).Contents (Elt F)),
    StableHlo.binary main_v34 main_v38 main_v39 (addf : (⟨S1000000x16, .f32⟩ : BufTy).Contents (Elt F) → (⟨S1000000x16, .f32⟩ : BufTy).Contents (Elt F) → (⟨S1000000x16, .f32⟩ : BufTy).Contents (Elt F)) ]
theorem ops0_sub : (ops0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- 20 operations of @main (main_c … main_v55). -/
abbrev pc1 : List (HloOp τ sig (Elt F)) :=
  [ StableHlo.nullary main_c (constantI S_ 32 0#32),
    StableHlo.unary main_c main_v40 (broadcastInDim S1000000 ![] bcast_S_S1000000 : (⟨S_, .i32⟩ : BufTy).Contents (Elt F) → (⟨S1000000, .i32⟩ : BufTy).Contents (Elt F)),
    StableHlo.binary main_arg11 main_v40 main_v41 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 500000#32),
    StableHlo.unary main_c_0 main_v42 (broadcastInDim S1000000 ![] bcast_S_S1000000 : (⟨S_, .i32⟩ : BufTy).Contents (Elt F) → (⟨S1000000, .i32⟩ : BufTy).Contents (Elt F)),
    StableHlo.binary main_arg11 main_v42 main_v43 (addi : (⟨S1000000, .i32⟩ : BufTy).Contents (Elt F) → (⟨S1000000, .i32⟩ : BufTy).Contents (Elt F) → (⟨S1000000, .i32⟩ : BufTy).Contents (Elt F)),
    StableHlo.ternary main_v41 main_v43 main_arg11 main_v44 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v44 main_v45 (broadcastInDim S1000000x1 ![0] bcast_S1000000_S1000000x1_0 : (⟨S1000000, .i32⟩ : BufTy).Contents (Elt F) → (⟨S1000000x1, .i32⟩ : BufTy).Contents (Elt F)),
    StableHlo.binary main_v7 main_v45 main_v46 ((fun x i => Host.gather gather_S500000x16_S1000000x1_S1000000x16_1_0_n_n_0_1_116 x i) : (⟨S500000x16, .f32⟩ : BufTy).Contents (Elt F) → (⟨S1000000x1, .i32⟩ : BufTy).Contents (Elt F) → (⟨S1000000x16, .f32⟩ : BufTy).Contents (Elt F)),
    StableHlo.nullary main_c_1 (constantI S_ 32 0#32),
    StableHlo.unary main_c_1 main_v47 (broadcastInDim S1000000 ![] bcast_S_S1000000 : (⟨S_, .i32⟩ : BufTy).Contents (Elt F) → (⟨S1000000, .i32⟩ : BufTy).Contents (Elt F)),
    StableHlo.binary main_arg12 main_v47 main_v48 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v49 (broadcastInDim S1000000 ![] bcast_S_S1000000 : (⟨S_, .i32⟩ : BufTy).Contents (Elt F) → (⟨S1000000, .i32⟩ : BufTy).Contents (Elt F)),
    StableHlo.binary main_arg12 main_v49 main_v50 (addi : (⟨S1000000, .i32⟩ : BufTy).Contents (Elt F) → (⟨S1000000, .i32⟩ : BufTy).Contents (Elt F) → (⟨S1000000, .i32⟩ : BufTy).Contents (Elt F)),
    StableHlo.ternary main_v48 main_v50 main_arg12 main_v51 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v51 main_v52 (broadcastInDim S1000000x1 ![0] bcast_S1000000_S1000000x1_0 : (⟨S1000000, .i32⟩ : BufTy).Contents (Elt F) → (⟨S1000000x1, .i32⟩ : BufTy).Contents (Elt F)),
    StableHlo.binary main_v15 main_v52 main_v53 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v46 main_v53 main_v54 (addf : (⟨S1000000x16, .f32⟩ : BufTy).Contents (Elt F) → (⟨S1000000x16, .f32⟩ : BufTy).Contents (Elt F) → (⟨S1000000x16, .f32⟩ : BufTy).Contents (Elt F)),
    StableHlo.binary main_v54 main_v23 main_v55 (addf : (⟨S1000000x16, .f32⟩ : BufTy).Contents (Elt F) → (⟨S1000000x16, .f32⟩ : BufTy).Contents (Elt F) → (⟨S1000000x16, .f32⟩ : BufTy).Contents (Elt F)) ]
theorem pc1_sub : (pc1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩
theorem pc1_fresh : (pc1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- 33 operations of @main (main_cst … main_cst_10). -/
abbrev pc2 : List (HloOp τ sig (Elt F)) :=
  [ StableHlo.nullary main_cst (constant S_ .f32 0x00000000#32),
    StableHlo.unary main_cst main_v56 (broadcastInDim S500000x16 ![] bcast_S_S500000x16 : (⟨S_, .f32⟩ : BufTy).Contents (Elt F) → (⟨S500000x16, .f32⟩ : BufTy).Contents (Elt F)),
    StableHlo.unary main_arg11 main_v57 (broadcastInDim S1000000x1 ![0] bcast_S1000000_S1000000x1_0 : (⟨S1000000, .i32⟩ : BufTy).Contents (Elt F) → (⟨S1000000x1, .i32⟩ : BufTy).Contents (Elt F)),
    StableHlo.ternary main_v56 main_v57 main_v31 main_v58 ((fun x i u => Host.scatterAdd scatter_S500000x16_S1000000x1_S1000000x16_1_0_0_1 x i u) : (⟨S500000x16, .f32⟩ : BufTy).Contents (Elt F) → (⟨S1000000x1, .i32⟩ : BufTy).Contents (Elt F) → (⟨S1000000x16, .f32⟩ : BufTy).Contents (Elt F) → (⟨S500000x16, .f32⟩ : BufTy).Contents (Elt F)),
    StableHlo.nullary main_cst_3 (constant S_ .f32 0x3F800000#32),
    StableHlo.unary main_cst_3 main_v59 (broadcastInDim S1000000 ![] bcast_S_S1000000 : (⟨S_, .f32⟩ : BufTy).Contents (Elt F) → (⟨S1000000, .f32⟩ : BufTy).Contents (Elt F)),
    StableHlo.nullary main_cst_4 (constant S_ .f32 0x00000000#32),
    StableHlo.unary main_cst_4 main_v60 (broadcastInDim S500000 ![] bcast_S_S500000 : (⟨S_, .f32⟩ : BufTy).Contents (Elt F) → (⟨S500000, .f32⟩ : BufTy).Contents (Elt F)),
    StableHlo.unary main_arg11 main_v61 (broadcastInDim S1000000x1 ![0] bcast_S1000000_S1000000x1_0 : (⟨S1000000, .i32⟩ : BufTy).Contents (Elt F) → (⟨S1000000x1, .i32⟩ : BufTy).Contents (Elt F)),
    StableHlo.ternary main_v60 main_v61 main_v59 main_v62 ((fun x i u => Host.scatterAdd scatter_S500000_S1000000x1_S1000000_n_0_0_1 x i u) : (⟨S500000, .f32⟩ : BufTy).Contents (Elt F) → (⟨S1000000x1, .i32⟩ : BufTy).Contents (Elt F) → (⟨S1000000, .f32⟩ : BufTy).Contents (Elt F) → (⟨S500000, .f32⟩ : BufTy).Contents (Elt F)),
    StableHlo.nullary main_cst_5 (constant S_ .f32 0x3F800000#32),
    StableHlo.unary main_cst_5 main_v63 (broadcastInDim S500000 ![] bcast_S_S500000 : (⟨S_, .f32⟩ : BufTy).Contents (Elt F) → (⟨S500000, .f32⟩ : BufTy).Contents (Elt F)),
    StableHlo.binary main_v62 main_v63 main_v64 (maximumf : (⟨S500000, .f32⟩ : BufTy).Contents (Elt F) → (⟨S500000, .f32⟩ : BufTy).Contents (Elt F) → (⟨S500000, .f32⟩ : BufTy).Contents (Elt F)),
    StableHlo.unary main_v64 main_v65 (broadcastInDim S500000x1 ![0] bcast_S500000_S500000x1_0 : (⟨S500000, .f32⟩ : BufTy).Contents (Elt F) → (⟨S500000x1, .f32⟩ : BufTy).Contents (Elt F)),
    StableHlo.unary main_v65 main_v66 (broadcastInDim S500000x16 ![0, 1] bcast_S500000x1_S500000x16_0_1 : (⟨S500000x1, .f32⟩ : BufTy).Contents (Elt F) → (⟨S500000x16, .f32⟩ : BufTy).Contents (Elt F)),
    StableHlo.binary main_v58 main_v66 main_v67 (Host.divf : (⟨S500000x16, .f32⟩ : BufTy).Contents (Elt F) → (⟨S500000x16, .f32⟩ : BufTy).Contents (Elt F) → (⟨S500000x16, .f32⟩ : BufTy).Contents (Elt F)),
    StableHlo.nullary main_cst_6 (constant S_ .f32 0x00000000#32),
    StableHlo.unary main_cst_6 main_v68 (broadcastInDim S100000x16 ![] bcast_S_S100000x16 : (⟨S_, .f32⟩ : BufTy).Contents (Elt F) → (⟨S100000x16, .f32⟩ : BufTy).Contents (Elt F)),
    StableHlo.unary main_arg12 main_v69 (broadcastInDim S1000000x1 ![0] bcast_S1000000_S1000000x1_0 : (⟨S1000000, .i32⟩ : BufTy).Contents (Elt F) → (⟨S1000000x1, .i32⟩ : BufTy).Contents (Elt F)),
    StableHlo.ternary main_v68 main_v69 main_v39 main_v70 ((fun x i u => Host.scatterAdd scatter_S100000x16_S1000000x1_S1000000x16_1_0_0_1 x i u) : (⟨S100000x16, .f32⟩ : BufTy).Contents (Elt F) → (⟨S1000000x1, .i32⟩ : BufTy).Contents (Elt F) → (⟨S1000000x16, .f32⟩ : BufTy).Contents (Elt F) → (⟨S100000x16, .f32⟩ : BufTy).Contents (Elt F)),
    StableHlo.nullary main_cst_7 (constant S_ .f32 0x3F800000#32),
    StableHlo.unary main_cst_7 main_v71 (broadcastInDim S1000000 ![] bcast_S_S1000000 : (⟨S_, .f32⟩ : BufTy).Contents (Elt F) → (⟨S1000000, .f32⟩ : BufTy).Contents (Elt F)),
    StableHlo.nullary main_cst_8 (constant S_ .f32 0x00000000#32),
    StableHlo.unary main_cst_8 main_v72 (broadcastInDim S100000 ![] bcast_S_S100000 : (⟨S_, .f32⟩ : BufTy).Contents (Elt F) → (⟨S100000, .f32⟩ : BufTy).Contents (Elt F)),
    StableHlo.unary main_arg12 main_v73 (broadcastInDim S1000000x1 ![0] bcast_S1000000_S1000000x1_0 : (⟨S1000000, .i32⟩ : BufTy).Contents (Elt F) → (⟨S1000000x1, .i32⟩ : BufTy).Contents (Elt F)),
    StableHlo.ternary main_v72 main_v73 main_v71 main_v74 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_9 (constant S_ .f32 0x3F800000#32),
    StableHlo.unary main_cst_9 main_v75 (broadcastInDim S100000 ![] bcast_S_S100000 : (⟨S_, .f32⟩ : BufTy).Contents (Elt F) → (⟨S100000, .f32⟩ : BufTy).Contents (Elt F)),
    StableHlo.binary main_v74 main_v75 main_v76 (maximumf : (⟨S100000, .f32⟩ : BufTy).Contents (Elt F) → (⟨S100000, .f32⟩ : BufTy).Contents (Elt F) → (⟨S100000, .f32⟩ : BufTy).Contents (Elt F)),
    StableHlo.unary main_v76 main_v77 (broadcastInDim S100000x1 ![0] bcast_S100000_S100000x1_0 : (⟨S100000, .f32⟩ : BufTy).Contents (Elt F) → (⟨S100000x1, .f32⟩ : BufTy).Contents (Elt F)),
    StableHlo.unary main_v77 main_v78 (broadcastInDim S100000x16 ![0, 1] bcast_S100000x1_S100000x16_0_1 : (⟨S100000x1, .f32⟩ : BufTy).Contents (Elt F) → (⟨S100000x16, .f32⟩ : BufTy).Contents (Elt F)),
    StableHlo.binary main_v70 main_v78 main_v79 (Host.divf : (⟨S100000x16, .f32⟩ : BufTy).Contents (Elt F) → (⟨S100000x16, .f32⟩ : BufTy).Contents (Elt F) → (⟨S100000x16, .f32⟩ : BufTy).Contents (Elt F)),
    StableHlo.nullary main_cst_10 (constant S_ .f32 0x3C23D70A#32) ]
theorem pc2_sub : (pc2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub ..⟩
theorem pc2_fresh : (pc2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 7 operations of the rectifier called into record `main_call0`. -/
abbrev pc3 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1000000x16, .f32⟩) (broadcastInDim S1000000x16 ![] bcast_S_S1000000x16),
    StableHlo.TRef.binary (.of main_v55 : StableHlo.TRef sig ⟨S1000000x16, .f32⟩) (.of main_call0_v0 : StableHlo.TRef sig ⟨S1000000x16, .f32⟩) (.of main_call0_v1 : StableHlo.TRef sig ⟨S1000000x16, .i1⟩) (cmpf .oge),
    StableHlo.TRef.unary (.of main_cst_10 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1000000x16, .f32⟩) (broadcastInDim S1000000x16 ![] bcast_S_S1000000x16),
    StableHlo.TRef.binary (.of main_call0_v3 : StableHlo.TRef sig ⟨S1000000x16, .f32⟩) (.of main_v55 : StableHlo.TRef sig ⟨S1000000x16, .f32⟩) (.of main_call0_v4 : StableHlo.TRef sig ⟨S1000000x16, .f32⟩) mulf,
    StableHlo.TRef.ternary (.of main_call0_v1 : StableHlo.TRef sig ⟨S1000000x16, .i1⟩) (.of main_v55 : StableHlo.TRef sig ⟨S1000000x16, .f32⟩) (.of main_call0_v4 : StableHlo.TRef sig ⟨S1000000x16, .f32⟩) (.of main_v80 : StableHlo.TRef sig ⟨S1000000x16, .f32⟩) select ]
theorem pc3_sub : (pc3 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem pc3_fresh : (pc3 : List (HloOp τ sig (Elt F))).Forall fun op => op.fresh = ∅ :=
  ⟨rfl, rfl, rfl, rfl, rfl, rfl, rfl⟩

/-- 1 operation of @main (main_cst_11 … main_cst_11). -/
abbrev pc4 : List (HloOp τ sig (Elt F)) :=
  [ StableHlo.nullary main_cst_11 (constant S_ .f32 0x3C23D70A#32) ]
theorem pc4_sub : (pc4 : List (HloOp τ sig (Elt F))).Forall fun op => op.bufs ⊆ tcRefs τ sig :=
  nullary_bufs_sub ..
theorem pc4_fresh : (pc4 : List (HloOp τ sig (Elt F))).Forall fun op => op.fresh = ∅ :=
  rfl

/-- The 7 operations of the rectifier called into record `main_call1`. -/
abbrev pc5 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S500000x16, .f32⟩) (broadcastInDim S500000x16 ![] bcast_S_S500000x16),
    StableHlo.TRef.binary (.of main_v67 : StableHlo.TRef sig ⟨S500000x16, .f32⟩) (.of main_call1_v0 : StableHlo.TRef sig ⟨S500000x16, .f32⟩) (.of main_call1_v1 : StableHlo.TRef sig ⟨S500000x16, .i1⟩) (cmpf .oge),
    StableHlo.TRef.unary (.of main_cst_11 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S500000x16, .f32⟩) (broadcastInDim S500000x16 ![] bcast_S_S500000x16),
    StableHlo.TRef.binary (.of main_call1_v3 : StableHlo.TRef sig ⟨S500000x16, .f32⟩) (.of main_v67 : StableHlo.TRef sig ⟨S500000x16, .f32⟩) (.of main_call1_v4 : StableHlo.TRef sig ⟨S500000x16, .f32⟩) mulf,
    StableHlo.TRef.ternary (.of main_call1_v1 : StableHlo.TRef sig ⟨S500000x16, .i1⟩) (.of main_v67 : StableHlo.TRef sig ⟨S500000x16, .f32⟩) (.of main_call1_v4 : StableHlo.TRef sig ⟨S500000x16, .f32⟩) (.of main_v81 : StableHlo.TRef sig ⟨S500000x16, .f32⟩) select ]
theorem pc5_sub : (pc5 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem pc5_fresh : (pc5 : List (HloOp τ sig (Elt F))).Forall fun op => op.fresh = ∅ :=
  ⟨rfl, rfl, rfl, rfl, rfl, rfl, rfl⟩

/-- 1 operation of @main (main_cst_12 … main_cst_12). -/
abbrev pc6 : List (HloOp τ sig (Elt F)) :=
  [ StableHlo.nullary main_cst_12 (constant S_ .f32 0x3C23D70A#32) ]
theorem pc6_sub : (pc6 : List (HloOp τ sig (Elt F))).Forall fun op => op.bufs ⊆ tcRefs τ sig :=
  nullary_bufs_sub ..
theorem pc6_fresh : (pc6 : List (HloOp τ sig (Elt F))).Forall fun op => op.fresh = ∅ :=
  rfl

/-- The 7 operations of the rectifier called into record `main_call2`. -/
abbrev pc7 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x16, .f32⟩) (broadcastInDim S100000x16 ![] bcast_S_S100000x16),
    StableHlo.TRef.binary (.of main_v79 : StableHlo.TRef sig ⟨S100000x16, .f32⟩) (.of main_call2_v0 : StableHlo.TRef sig ⟨S100000x16, .f32⟩) (.of main_call2_v1 : StableHlo.TRef sig ⟨S100000x16, .i1⟩) (cmpf .oge),
    StableHlo.TRef.unary (.of main_cst_12 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x16, .f32⟩) (broadcastInDim S100000x16 ![] bcast_S_S100000x16),
    StableHlo.TRef.binary (.of main_call2_v3 : StableHlo.TRef sig ⟨S100000x16, .f32⟩) (.of main_v79 : StableHlo.TRef sig ⟨S100000x16, .f32⟩) (.of main_call2_v4 : StableHlo.TRef sig ⟨S100000x16, .f32⟩) mulf,
    StableHlo.TRef.ternary (.of main_call2_v1 : StableHlo.TRef sig ⟨S100000x16, .i1⟩) (.of main_v79 : StableHlo.TRef sig ⟨S100000x16, .f32⟩) (.of main_call2_v4 : StableHlo.TRef sig ⟨S100000x16, .f32⟩) (.of main_v82 : StableHlo.TRef sig ⟨S100000x16, .f32⟩) select ]
theorem pc7_sub : (pc7 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem pc7_fresh : (pc7 : List (HloOp τ sig (Elt F))).Forall fun op => op.fresh = ∅ :=
  ⟨rfl, rfl, rfl, rfl, rfl, rfl, rfl⟩

/-- 22 operations of @main (main_v83 … main_v104). -/
abbrev pc8 : List (HloOp τ sig (Elt F)) :=
  [ StableHlo.unary main_arg5 main_v83 ((extractStridedSlice S1x16x16 ![0, 0, 0] · slices_S5x16x16_S1x16x16_0_0_0) : (⟨S5x16x16, .f32⟩ : BufTy).Contents (Elt F) → (⟨S1x16x16, .f32⟩ : BufTy).Contents (Elt F)),
    StableHlo.reshape main_v83 main_v84 rfl shapeCasts_S1x16x16_S16x16,
    StableHlo.binary main_v81 main_v84 main_v85 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    StableHlo.unary main_arg6 main_v86 ((extractStridedSlice S1x16 ![0, 0] · slices_S5x16_S1x16_0_0) : (⟨S5x16, .f32⟩ : BufTy).Contents (Elt F) → (⟨S1x16, .f32⟩ : BufTy).Contents (Elt F)),
    StableHlo.reshape main_v86 main_v87 rfl shapeCasts_S1x16_S16,
    StableHlo.unary main_v87 main_v88 (broadcastInDim S1x16 ![1] bcast_S16_S1x16_1 : (⟨S16, .f32⟩ : BufTy).Contents (Elt F) → (⟨S1x16, .f32⟩ : BufTy).Contents (Elt F)),
    StableHlo.unary main_v88 main_v89 (broadcastInDim S500000x16 ![0, 1] bcast_S1x16_S500000x16_0_1 : (⟨S1x16, .f32⟩ : BufTy).Contents (Elt F) → (⟨S500000x16, .f32⟩ : BufTy).Contents (Elt F)),
    StableHlo.binary main_v85 main_v89 main_v90 (addf : (⟨S500000x16, .f32⟩ : BufTy).Contents (Elt F) → (⟨S500000x16, .f32⟩ : BufTy).Contents (Elt F) → (⟨S500000x16, .f32⟩ : BufTy).Contents (Elt F)),
    StableHlo.unary main_arg5 main_v91 ((extractStridedSlice S1x16x16 ![1, 0, 0] · slices_S5x16x16_S1x16x16_1_0_0) : (⟨S5x16x16, .f32⟩ : BufTy).Contents (Elt F) → (⟨S1x16x16, .f32⟩ : BufTy).Contents (Elt F)),
    StableHlo.reshape main_v91 main_v92 rfl shapeCasts_S1x16x16_S16x16,
    StableHlo.binary main_v82 main_v92 main_v93 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.unary main_arg6 main_v94 ((extractStridedSlice S1x16 ![1, 0] · slices_S5x16_S1x16_1_0) : (⟨S5x16, .f32⟩ : BufTy).Contents (Elt F) → (⟨S1x16, .f32⟩ : BufTy).Contents (Elt F)),
    StableHlo.reshape main_v94 main_v95 rfl shapeCasts_S1x16_S16,
    StableHlo.unary main_v95 main_v96 (broadcastInDim S1x16 ![1] bcast_S16_S1x16_1 : (⟨S16, .f32⟩ : BufTy).Contents (Elt F) → (⟨S1x16, .f32⟩ : BufTy).Contents (Elt F)),
    StableHlo.unary main_v96 main_v97 (broadcastInDim S100000x16 ![0, 1] bcast_S1x16_S100000x16_0_1 : (⟨S1x16, .f32⟩ : BufTy).Contents (Elt F) → (⟨S100000x16, .f32⟩ : BufTy).Contents (Elt F)),
    StableHlo.binary main_v93 main_v97 main_v98 (addf : (⟨S100000x16, .f32⟩ : BufTy).Contents (Elt F) → (⟨S100000x16, .f32⟩ : BufTy).Contents (Elt F) → (⟨S100000x16, .f32⟩ : BufTy).Contents (Elt F)),
    StableHlo.unary main_arg5 main_v99 ((extractStridedSlice S1x16x16 ![2, 0, 0] · slices_S5x16x16_S1x16x16_2_0_0) : (⟨S5x16x16, .f32⟩ : BufTy).Contents (Elt F) → (⟨S1x16x16, .f32⟩ : BufTy).Contents (Elt F)),
    StableHlo.reshape main_v99 main_v100 rfl shapeCasts_S1x16x16_S16x16,
    StableHlo.binary main_v80 main_v100 main_v101 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg6 main_v102 ((extractStridedSlice S1x16 ![2, 0] · slices_S5x16_S1x16_2_0) : (⟨S5x16, .f32⟩ : BufTy).Contents (Elt F) → (⟨S1x16, .f32⟩ : BufTy).Contents (Elt F)),
    StableHlo.reshape main_v102 main_v103 rfl shapeCasts_S1x16_S16,
    StableHlo.unary main_v103 main_v104 (broadcastInDim S1x16 ![1] bcast_S16_S1x16_1 : (⟨S16, .f32⟩ : BufTy).Contents (Elt F) → (⟨S1x16, .f32⟩ : BufTy).Contents (Elt F)) ]
theorem pc8_sub : (pc8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub ..⟩
theorem pc8_fresh : (pc8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- 18 operations of @main (main_v105 … main_v122). -/
abbrev pc9 : List (HloOp τ sig (Elt F)) :=
  [ StableHlo.unary main_v104 main_v105 (broadcastInDim S1000000x16 ![0, 1] bcast_S1x16_S1000000x16_0_1 : (⟨S1x16, .f32⟩ : BufTy).Contents (Elt F) → (⟨S1000000x16, .f32⟩ : BufTy).Contents (Elt F)),
    StableHlo.binary main_v101 main_v105 main_v106 (addf : (⟨S1000000x16, .f32⟩ : BufTy).Contents (Elt F) → (⟨S1000000x16, .f32⟩ : BufTy).Contents (Elt F) → (⟨S1000000x16, .f32⟩ : BufTy).Contents (Elt F)),
    StableHlo.unary main_arg5 main_v107 ((extractStridedSlice S1x16x16 ![3, 0, 0] · slices_S5x16x16_S1x16x16_3_0_0) : (⟨S5x16x16, .f32⟩ : BufTy).Contents (Elt F) → (⟨S1x16x16, .f32⟩ : BufTy).Contents (Elt F)),
    StableHlo.reshape main_v107 main_v108 rfl shapeCasts_S1x16x16_S16x16,
    StableHlo.binary main_v80 main_v108 main_v109 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg6 main_v110 ((extractStridedSlice S1x16 ![3, 0] · slices_S5x16_S1x16_3_0) : (⟨S5x16, .f32⟩ : BufTy).Contents (Elt F) → (⟨S1x16, .f32⟩ : BufTy).Contents (Elt F)),
    StableHlo.reshape main_v110 main_v111 rfl shapeCasts_S1x16_S16,
    StableHlo.unary main_v111 main_v112 (broadcastInDim S1x16 ![1] bcast_S16_S1x16_1 : (⟨S16, .f32⟩ : BufTy).Contents (Elt F) → (⟨S1x16, .f32⟩ : BufTy).Contents (Elt F)),
    StableHlo.unary main_v112 main_v113 (broadcastInDim S1000000x16 ![0, 1] bcast_S1x16_S1000000x16_0_1 : (⟨S1x16, .f32⟩ : BufTy).Contents (Elt F) → (⟨S1000000x16, .f32⟩ : BufTy).Contents (Elt F)),
    StableHlo.binary main_v109 main_v113 main_v114 (addf : (⟨S1000000x16, .f32⟩ : BufTy).Contents (Elt F) → (⟨S1000000x16, .f32⟩ : BufTy).Contents (Elt F) → (⟨S1000000x16, .f32⟩ : BufTy).Contents (Elt F)),
    StableHlo.unary main_arg5 main_v115 ((extractStridedSlice S1x16x16 ![4, 0, 0] · slices_S5x16x16_S1x16x16_4_0_0) : (⟨S5x16x16, .f32⟩ : BufTy).Contents (Elt F) → (⟨S1x16x16, .f32⟩ : BufTy).Contents (Elt F)),
    StableHlo.reshape main_v115 main_v116 rfl shapeCasts_S1x16x16_S16x16,
    StableHlo.binary main_v80 main_v116 main_v117 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg6 main_v118 ((extractStridedSlice S1x16 ![4, 0] · slices_S5x16_S1x16_4_0) : (⟨S5x16, .f32⟩ : BufTy).Contents (Elt F) → (⟨S1x16, .f32⟩ : BufTy).Contents (Elt F)),
    StableHlo.reshape main_v118 main_v119 rfl shapeCasts_S1x16_S16,
    StableHlo.unary main_v119 main_v120 (broadcastInDim S1x16 ![1] bcast_S16_S1x16_1 : (⟨S16, .f32⟩ : BufTy).Contents (Elt F) → (⟨S1x16, .f32⟩ : BufTy).Contents (Elt F)),
    StableHlo.unary main_v120 main_v121 (broadcastInDim S1000000x16 ![0, 1] bcast_S1x16_S1000000x16_0_1 : (⟨S1x16, .f32⟩ : BufTy).Contents (Elt F) → (⟨S1000000x16, .f32⟩ : BufTy).Contents (Elt F)),
    StableHlo.binary main_v117 main_v121 main_v122 (addf : (⟨S1000000x16, .f32⟩ : BufTy).Contents (Elt F) → (⟨S1000000x16, .f32⟩ : BufTy).Contents (Elt F) → (⟨S1000000x16, .f32⟩ : BufTy).Contents (Elt F)) ]
theorem pc9_sub : (pc9 : List (HloOp τ sig (Elt F))).Forall fun op => op.bufs ⊆ tcRefs τ sig :=
  ⟨unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem pc9_fresh : (pc9 : List (HloOp τ sig (Elt F))).Forall fun op => op.fresh = ∅ :=
  ⟨rfl, rfl, rfl, rfl, rfl, rfl, rfl, rfl, rfl, rfl, rfl, rfl, rfl, rfl, rfl, rfl, rfl, rfl⟩

/-- 42 operations of @main (main_c_13 … main_v154). -/
abbrev pc10 : List (HloOp τ sig (Elt F)) :=
  [ StableHlo.nullary main_c_13 (constantI S_ 32 0#32),
    StableHlo.unary main_c_13 main_v123 (broadcastInDim S1000000 ![] bcast_S_S1000000 : (⟨S_, .i32⟩ : BufTy).Contents (Elt F) → (⟨S1000000, .i32⟩ : BufTy).Contents (Elt F)),
    StableHlo.binary main_arg11 main_v123 main_v124 (cmpi .slt : (⟨S1000000, .i32⟩ : BufTy).Contents (Elt F) → (⟨S1000000, .i32⟩ : BufTy).Contents (Elt F) → (⟨S1000000, .i1⟩ : BufTy).Contents (Elt F)),
    StableHlo.nullary main_c_14 (constantI S_ 32 500000#32),
    StableHlo.unary main_c_14 main_v125 (broadcastInDim S1000000 ![] bcast_S_S1000000 : (⟨S_, .i32⟩ : BufTy).Contents (Elt F) → (⟨S1000000, .i32⟩ : BufTy).Contents (Elt F)),
    StableHlo.binary main_arg11 main_v125 main_v126 (addi : (⟨S1000000, .i32⟩ : BufTy).Contents (Elt F) → (⟨S1000000, .i32⟩ : BufTy).Contents (Elt F) → (⟨S1000000, .i32⟩ : BufTy).Contents (Elt F)),
    StableHlo.ternary main_v124 main_v126 main_arg11 main_v127 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v127 main_v128 (broadcastInDim S1000000x1 ![0] bcast_S1000000_S1000000x1_0 : (⟨S1000000, .i32⟩ : BufTy).Contents (Elt F) → (⟨S1000000x1, .i32⟩ : BufTy).Contents (Elt F)),
    StableHlo.binary main_v90 main_v128 main_v129 ((fun x i => Host.gather gather_S500000x16_S1000000x1_S1000000x16_1_0_n_n_0_1_116 x i) : (⟨S500000x16, .f32⟩ : BufTy).Contents (Elt F) → (⟨S1000000x1, .i32⟩ : BufTy).Contents (Elt F) → (⟨S1000000x16, .f32⟩ : BufTy).Contents (Elt F)),
    StableHlo.nullary main_c_15 (constantI S_ 32 0#32),
    StableHlo.unary main_c_15 main_v130 (broadcastInDim S1000000 ![] bcast_S_S1000000 : (⟨S_, .i32⟩ : BufTy).Contents (Elt F) → (⟨S1000000, .i32⟩ : BufTy).Contents (Elt F)),
    StableHlo.binary main_arg12 main_v130 main_v131 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 100000#32),
    StableHlo.unary main_c_16 main_v132 (broadcastInDim S1000000 ![] bcast_S_S1000000 : (⟨S_, .i32⟩ : BufTy).Contents (Elt F) → (⟨S1000000, .i32⟩ : BufTy).Contents (Elt F)),
    StableHlo.binary main_arg12 main_v132 main_v133 (addi : (⟨S1000000, .i32⟩ : BufTy).Contents (Elt F) → (⟨S1000000, .i32⟩ : BufTy).Contents (Elt F) → (⟨S1000000, .i32⟩ : BufTy).Contents (Elt F)),
    StableHlo.ternary main_v131 main_v133 main_arg12 main_v134 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v134 main_v135 (broadcastInDim S1000000x1 ![0] bcast_S1000000_S1000000x1_0 : (⟨S1000000, .i32⟩ : BufTy).Contents (Elt F) → (⟨S1000000x1, .i32⟩ : BufTy).Contents (Elt F)),
    StableHlo.binary main_v98 main_v135 main_v136 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v129 main_v136 main_v137 (addf : (⟨S1000000x16, .f32⟩ : BufTy).Contents (Elt F) → (⟨S1000000x16, .f32⟩ : BufTy).Contents (Elt F) → (⟨S1000000x16, .f32⟩ : BufTy).Contents (Elt F)),
    StableHlo.binary main_v137 main_v106 main_v138 (addf : (⟨S1000000x16, .f32⟩ : BufTy).Contents (Elt F) → (⟨S1000000x16, .f32⟩ : BufTy).Contents (Elt F) → (⟨S1000000x16, .f32⟩ : BufTy).Contents (Elt F)),
    StableHlo.nullary main_cst_17 (constant S_ .f32 0x00000000#32),
    StableHlo.unary main_cst_17 main_v139 (broadcastInDim S500000x16 ![] bcast_S_S500000x16 : (⟨S_, .f32⟩ : BufTy).Contents (Elt F) → (⟨S500000x16, .f32⟩ : BufTy).Contents (Elt F)),
    StableHlo.unary main_arg11 main_v140 (broadcastInDim S1000000x1 ![0] bcast_S1000000_S1000000x1_0 : (⟨S1000000, .i32⟩ : BufTy).Contents (Elt F) → (⟨S1000000x1, .i32⟩ : BufTy).Contents (Elt F)),
    StableHlo.ternary main_v139 main_v140 main_v114 main_v141 ((fun x i u => Host.scatterAdd scatter_S500000x16_S1000000x1_S1000000x16_1_0_0_1 x i u) : (⟨S500000x16, .f32⟩ : BufTy).Contents (Elt F) → (⟨S1000000x1, .i32⟩ : BufTy).Contents (Elt F) → (⟨S1000000x16, .f32⟩ : BufTy).Contents (Elt F) → (⟨S500000x16, .f32⟩ : BufTy).Contents (Elt F)),
    StableHlo.nullary main_cst_18 (constant S_ .f32 0x3F800000#32),
    StableHlo.unary main_cst_18 main_v142 (broadcastInDim S1000000 ![] bcast_S_S1000000 : (⟨S_, .f32⟩ : BufTy).Contents (Elt F) → (⟨S1000000, .f32⟩ : BufTy).Contents (Elt F)),
    StableHlo.nullary main_cst_19 (constant S_ .f32 0x00000000#32),
    StableHlo.unary main_cst_19 main_v143 (broadcastInDim S500000 ![] bcast_S_S500000 : (⟨S_, .f32⟩ : BufTy).Contents (Elt F) → (⟨S500000, .f32⟩ : BufTy).Contents (Elt F)),
    StableHlo.unary main_arg11 main_v144 (broadcastInDim S1000000x1 ![0] bcast_S1000000_S1000000x1_0 : (⟨S1000000, .i32⟩ : BufTy).Contents (Elt F) → (⟨S1000000x1, .i32⟩ : BufTy).Contents (Elt F)),
    StableHlo.ternary main_v143 main_v144 main_v142 main_v145 ((fun x i u => Host.scatterAdd scatter_S500000_S1000000x1_S1000000_n_0_0_1 x i u) : (⟨S500000, .f32⟩ : BufTy).Contents (Elt F) → (⟨S1000000x1, .i32⟩ : BufTy).Contents (Elt F) → (⟨S1000000, .f32⟩ : BufTy).Contents (Elt F) → (⟨S500000, .f32⟩ : BufTy).Contents (Elt F)),
    StableHlo.nullary main_cst_20 (constant S_ .f32 0x3F800000#32),
    StableHlo.unary main_cst_20 main_v146 (broadcastInDim S500000 ![] bcast_S_S500000 : (⟨S_, .f32⟩ : BufTy).Contents (Elt F) → (⟨S500000, .f32⟩ : BufTy).Contents (Elt F)),
    StableHlo.binary main_v145 main_v146 main_v147 (maximumf : (⟨S500000, .f32⟩ : BufTy).Contents (Elt F) → (⟨S500000, .f32⟩ : BufTy).Contents (Elt F) → (⟨S500000, .f32⟩ : BufTy).Contents (Elt F)),
    StableHlo.unary main_v147 main_v148 (broadcastInDim S500000x1 ![0] bcast_S500000_S500000x1_0 : (⟨S500000, .f32⟩ : BufTy).Contents (Elt F) → (⟨S500000x1, .f32⟩ : BufTy).Contents (Elt F)),
    StableHlo.unary main_v148 main_v149 (broadcastInDim S500000x16 ![0, 1] bcast_S500000x1_S500000x16_0_1 : (⟨S500000x1, .f32⟩ : BufTy).Contents (Elt F) → (⟨S500000x16, .f32⟩ : BufTy).Contents (Elt F)),
    StableHlo.binary main_v141 main_v149 main_v150 (Host.divf : (⟨S500000x16, .f32⟩ : BufTy).Contents (Elt F) → (⟨S500000x16, .f32⟩ : BufTy).Contents (Elt F) → (⟨S500000x16, .f32⟩ : BufTy).Contents (Elt F)),
    StableHlo.nullary main_cst_21 (constant S_ .f32 0x00000000#32),
    StableHlo.unary main_cst_21 main_v151 (broadcastInDim S100000x16 ![] bcast_S_S100000x16 : (⟨S_, .f32⟩ : BufTy).Contents (Elt F) → (⟨S100000x16, .f32⟩ : BufTy).Contents (Elt F)),
    StableHlo.unary main_arg12 main_v152 (broadcastInDim S1000000x1 ![0] bcast_S1000000_S1000000x1_0 : (⟨S1000000, .i32⟩ : BufTy).Contents (Elt F) → (⟨S1000000x1, .i32⟩ : BufTy).Contents (Elt F)),
    StableHlo.ternary main_v151 main_v152 main_v122 main_v153 ((fun x i u => Host.scatterAdd scatter_S100000x16_S1000000x1_S1000000x16_1_0_0_1 x i u) : (⟨S100000x16, .f32⟩ : BufTy).Contents (Elt F) → (⟨S1000000x1, .i32⟩ : BufTy).Contents (Elt F) → (⟨S1000000x16, .f32⟩ : BufTy).Contents (Elt F) → (⟨S100000x16, .f32⟩ : BufTy).Contents (Elt F)),
    StableHlo.nullary main_cst_22 (constant S_ .f32 0x3F800000#32),
    StableHlo.unary main_cst_22 main_v154 (broadcastInDim S1000000 ![] bcast_S_S1000000 : (⟨S_, .f32⟩ : BufTy).Contents (Elt F) → (⟨S1000000, .f32⟩ : BufTy).Contents (Elt F)) ]
theorem pc10_sub : (pc10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub ..⟩
theorem pc10_fresh : (pc10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- 11 operations of @main (main_cst_23 … main_cst_25). -/
abbrev pc11 : List (HloOp τ sig (Elt F)) :=
  [ StableHlo.nullary main_cst_23 (constant S_ .f32 0x00000000#32),
    StableHlo.unary main_cst_23 main_v155 (broadcastInDim S100000 ![] bcast_S_S100000 : (⟨S_, .f32⟩ : BufTy).Contents (Elt F) → (⟨S100000, .f32⟩ : BufTy).Contents (Elt F)),
    StableHlo.unary main_arg12 main_v156 (broadcastInDim S1000000x1 ![0] bcast_S1000000_S1000000x1_0 : (⟨S1000000, .i32⟩ : BufTy).Contents (Elt F) → (⟨S1000000x1, .i32⟩ : BufTy).Contents (Elt F)),
    StableHlo.ternary main_v155 main_v156 main_v154 main_v157 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_24 (constant S_ .f32 0x3F800000#32),
    StableHlo.unary main_cst_24 main_v158 (broadcastInDim S100000 ![] bcast_S_S100000 : (⟨S_, .f32⟩ : BufTy).Contents (Elt F) → (⟨S100000, .f32⟩ : BufTy).Contents (Elt F)),
    StableHlo.binary main_v157 main_v158 main_v159 (maximumf : (⟨S100000, .f32⟩ : BufTy).Contents (Elt F) → (⟨S100000, .f32⟩ : BufTy).Contents (Elt F) → (⟨S100000, .f32⟩ : BufTy).Contents (Elt F)),
    StableHlo.unary main_v159 main_v160 (broadcastInDim S100000x1 ![0] bcast_S100000_S100000x1_0 : (⟨S100000, .f32⟩ : BufTy).Contents (Elt F) → (⟨S100000x1, .f32⟩ : BufTy).Contents (Elt F)),
    StableHlo.unary main_v160 main_v161 (broadcastInDim S100000x16 ![0, 1] bcast_S100000x1_S100000x16_0_1 : (⟨S100000x1, .f32⟩ : BufTy).Contents (Elt F) → (⟨S100000x16, .f32⟩ : BufTy).Contents (Elt F)),
    StableHlo.binary main_v153 main_v161 main_v162 (Host.divf : (⟨S100000x16, .f32⟩ : BufTy).Contents (Elt F) → (⟨S100000x16, .f32⟩ : BufTy).Contents (Elt F) → (⟨S100000x16, .f32⟩ : BufTy).Contents (Elt F)),
    StableHlo.nullary main_cst_25 (constant S_ .f32 0x3C23D70A#32) ]
theorem pc11_sub : (pc11 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., unary_bufs_sub .., binary_bufs_sub .., nullary_bufs_sub ..⟩
theorem pc11_fresh : (pc11 : List (HloOp τ sig (Elt F))).Forall fun op => op.fresh = ∅ :=
  ⟨rfl, rfl, rfl, rfl, rfl, rfl, rfl, rfl, rfl, rfl, rfl⟩

/-- The 7 operations of the rectifier called into record `main_call3`. -/
abbrev pc12 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1000000x16, .f32⟩) (broadcastInDim S1000000x16 ![] bcast_S_S1000000x16),
    StableHlo.TRef.binary (.of main_v138 : StableHlo.TRef sig ⟨S1000000x16, .f32⟩) (.of main_call3_v0 : StableHlo.TRef sig ⟨S1000000x16, .f32⟩) (.of main_call3_v1 : StableHlo.TRef sig ⟨S1000000x16, .i1⟩) (cmpf .oge),
    StableHlo.TRef.unary (.of main_cst_25 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S1000000x16, .f32⟩) (broadcastInDim S1000000x16 ![] bcast_S_S1000000x16),
    StableHlo.TRef.binary (.of main_call3_v3 : StableHlo.TRef sig ⟨S1000000x16, .f32⟩) (.of main_v138 : StableHlo.TRef sig ⟨S1000000x16, .f32⟩) (.of main_call3_v4 : StableHlo.TRef sig ⟨S1000000x16, .f32⟩) mulf,
    StableHlo.TRef.ternary (.of main_call3_v1 : StableHlo.TRef sig ⟨S1000000x16, .i1⟩) (.of main_v138 : StableHlo.TRef sig ⟨S1000000x16, .f32⟩) (.of main_call3_v4 : StableHlo.TRef sig ⟨S1000000x16, .f32⟩) (.of main_v163 : StableHlo.TRef sig ⟨S1000000x16, .f32⟩) select ]
theorem pc12_sub : (pc12 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem pc12_fresh : (pc12 : List (HloOp τ sig (Elt F))).Forall fun op => op.fresh = ∅ :=
  ⟨rfl, rfl, rfl, rfl, rfl, rfl, rfl⟩

/-- 1 operation of @main (main_cst_26 … main_cst_26). -/
abbrev pc13 : List (HloOp τ sig (Elt F)) :=
  [ StableHlo.nullary main_cst_26 (constant S_ .f32 0x3C23D70A#32) ]
theorem pc13_sub : (pc13 : List (HloOp τ sig (Elt F))).Forall fun op => op.bufs ⊆ tcRefs τ sig :=
  nullary_bufs_sub ..
theorem pc13_fresh : (pc13 : List (HloOp τ sig (Elt F))).Forall fun op => op.fresh = ∅ :=
  rfl

/-- The 7 operations of the rectifier called into record `main_call4`. -/
abbrev pc14 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S500000x16, .f32⟩) (broadcastInDim S500000x16 ![] bcast_S_S500000x16),
    StableHlo.TRef.binary (.of main_v150 : StableHlo.TRef sig ⟨S500000x16, .f32⟩) (.of main_call4_v0 : StableHlo.TRef sig ⟨S500000x16, .f32⟩) (.of main_call4_v1 : StableHlo.TRef sig ⟨S500000x16, .i1⟩) (cmpf .oge),
    StableHlo.TRef.unary (.of main_cst_26 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S500000x16, .f32⟩) (broadcastInDim S500000x16 ![] bcast_S_S500000x16),
    StableHlo.TRef.binary (.of main_call4_v3 : StableHlo.TRef sig ⟨S500000x16, .f32⟩) (.of main_v150 : StableHlo.TRef sig ⟨S500000x16, .f32⟩) (.of main_call4_v4 : StableHlo.TRef sig ⟨S500000x16, .f32⟩) mulf,
    StableHlo.TRef.ternary (.of main_call4_v1 : StableHlo.TRef sig ⟨S500000x16, .i1⟩) (.of main_v150 : StableHlo.TRef sig ⟨S500000x16, .f32⟩) (.of main_call4_v4 : StableHlo.TRef sig ⟨S500000x16, .f32⟩) (.of main_v164 : StableHlo.TRef sig ⟨S500000x16, .f32⟩) select ]
theorem pc14_sub : (pc14 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem pc14_fresh : (pc14 : List (HloOp τ sig (Elt F))).Forall fun op => op.fresh = ∅ :=
  ⟨rfl, rfl, rfl, rfl, rfl, rfl, rfl⟩

/-- 1 operation of @main (main_cst_27 … main_cst_27). -/
abbrev pc15 : List (HloOp τ sig (Elt F)) :=
  [ StableHlo.nullary main_cst_27 (constant S_ .f32 0x3C23D70A#32) ]
theorem pc15_sub : (pc15 : List (HloOp τ sig (Elt F))).Forall fun op => op.bufs ⊆ tcRefs τ sig :=
  nullary_bufs_sub ..
theorem pc15_fresh : (pc15 : List (HloOp τ sig (Elt F))).Forall fun op => op.fresh = ∅ :=
  rfl

/-- The 7 operations of the rectifier called into record `main_call5`. -/
abbrev pc16 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x16, .f32⟩) (broadcastInDim S100000x16 ![] bcast_S_S100000x16),
    StableHlo.TRef.binary (.of main_v162 : StableHlo.TRef sig ⟨S100000x16, .f32⟩) (.of main_call5_v0 : StableHlo.TRef sig ⟨S100000x16, .f32⟩) (.of main_call5_v1 : StableHlo.TRef sig ⟨S100000x16, .i1⟩) (cmpf .oge),
    StableHlo.TRef.unary (.of main_cst_27 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S100000x16, .f32⟩) (broadcastInDim S100000x16 ![] bcast_S_S100000x16),
    StableHlo.TRef.binary (.of main_call5_v3 : StableHlo.TRef sig ⟨S100000x16, .f32⟩) (.of main_v162 : StableHlo.TRef sig ⟨S100000x16, .f32⟩) (.of main_call5_v4 : StableHlo.TRef sig ⟨S100000x16, .f32⟩) mulf,
    StableHlo.TRef.ternary (.of main_call5_v1 : StableHlo.TRef sig ⟨S100000x16, .i1⟩) (.of main_v162 : StableHlo.TRef sig ⟨S100000x16, .f32⟩) (.of main_call5_v4 : StableHlo.TRef sig ⟨S100000x16, .f32⟩) (.of main_v165 : StableHlo.TRef sig ⟨S100000x16, .f32⟩) select ]
theorem pc16_sub : (pc16 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem pc16_fresh : (pc16 : List (HloOp τ sig (Elt F))).Forall fun op => op.fresh = ∅ :=
  ⟨rfl, rfl, rfl, rfl, rfl, rfl, rfl⟩

/-- Layer 2, the five dense maps (%166 … %205). -/
abbrev ops4 : List (HloOp τ sig (Elt F)) :=
  [ StableHlo.unary main_arg7 main_v166 ((extractStridedSlice S1x16x16 ![0, 0, 0] · slices_S5x16x16_S1x16x16_0_0_0) : (⟨S5x16x16, .f32⟩ : BufTy).Contents (Elt F) → (⟨S1x16x16, .f32⟩ : BufTy).Contents (Elt F)),
    StableHlo.reshape main_v166 main_v167 rfl shapeCasts_S1x16x16_S16x16,
    StableHlo.binary main_v164 main_v167 main_v168 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    StableHlo.unary main_arg8 main_v169 ((extractStridedSlice S1x16 ![0, 0] · slices_S5x16_S1x16_0_0) : (⟨S5x16, .f32⟩ : BufTy).Contents (Elt F) → (⟨S1x16, .f32⟩ : BufTy).Contents (Elt F)),
    StableHlo.reshape main_v169 main_v170 rfl shapeCasts_S1x16_S16,
    StableHlo.unary main_v170 main_v171 (broadcastInDim S1x16 ![1] bcast_S16_S1x16_1 : (⟨S16, .f32⟩ : BufTy).Contents (Elt F) → (⟨S1x16, .f32⟩ : BufTy).Contents (Elt F)),
    StableHlo.unary main_v171 main_v172 (broadcastInDim S500000x16 ![0, 1] bcast_S1x16_S500000x16_0_1 : (⟨S1x16, .f32⟩ : BufTy).Contents (Elt F) → (⟨S500000x16, .f32⟩ : BufTy).Contents (Elt F)),
    StableHlo.binary main_v168 main_v172 main_v173 (addf : (⟨S500000x16, .f32⟩ : BufTy).Contents (Elt F) → (⟨S500000x16, .f32⟩ : BufTy).Contents (Elt F) → (⟨S500000x16, .f32⟩ : BufTy).Contents (Elt F)),
    StableHlo.unary main_arg7 main_v174 ((extractStridedSlice S1x16x16 ![1, 0, 0] · slices_S5x16x16_S1x16x16_1_0_0) : (⟨S5x16x16, .f32⟩ : BufTy).Contents (Elt F) → (⟨S1x16x16, .f32⟩ : BufTy).Contents (Elt F)),
    StableHlo.reshape main_v174 main_v175 rfl shapeCasts_S1x16x16_S16x16,
    StableHlo.binary main_v165 main_v175 main_v176 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.unary main_arg8 main_v177 ((extractStridedSlice S1x16 ![1, 0] · slices_S5x16_S1x16_1_0) : (⟨S5x16, .f32⟩ : BufTy).Contents (Elt F) → (⟨S1x16, .f32⟩ : BufTy).Contents (Elt F)),
    StableHlo.reshape main_v177 main_v178 rfl shapeCasts_S1x16_S16,
    StableHlo.unary main_v178 main_v179 (broadcastInDim S1x16 ![1] bcast_S16_S1x16_1 : (⟨S16, .f32⟩ : BufTy).Contents (Elt F) → (⟨S1x16, .f32⟩ : BufTy).Contents (Elt F)),
    StableHlo.unary main_v179 main_v180 (broadcastInDim S100000x16 ![0, 1] bcast_S1x16_S100000x16_0_1 : (⟨S1x16, .f32⟩ : BufTy).Contents (Elt F) → (⟨S100000x16, .f32⟩ : BufTy).Contents (Elt F)),
    StableHlo.binary main_v176 main_v180 main_v181 (addf : (⟨S100000x16, .f32⟩ : BufTy).Contents (Elt F) → (⟨S100000x16, .f32⟩ : BufTy).Contents (Elt F) → (⟨S100000x16, .f32⟩ : BufTy).Contents (Elt F)),
    StableHlo.unary main_arg7 main_v182 ((extractStridedSlice S1x16x16 ![2, 0, 0] · slices_S5x16x16_S1x16x16_2_0_0) : (⟨S5x16x16, .f32⟩ : BufTy).Contents (Elt F) → (⟨S1x16x16, .f32⟩ : BufTy).Contents (Elt F)),
    StableHlo.reshape main_v182 main_v183 rfl shapeCasts_S1x16x16_S16x16,
    StableHlo.binary main_v163 main_v183 main_v184 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg8 main_v185 ((extractStridedSlice S1x16 ![2, 0] · slices_S5x16_S1x16_2_0) : (⟨S5x16, .f32⟩ : BufTy).Contents (Elt F) → (⟨S1x16, .f32⟩ : BufTy).Contents (Elt F)),
    StableHlo.reshape main_v185 main_v186 rfl shapeCasts_S1x16_S16,
    StableHlo.unary main_v186 main_v187 (broadcastInDim S1x16 ![1] bcast_S16_S1x16_1 : (⟨S16, .f32⟩ : BufTy).Contents (Elt F) → (⟨S1x16, .f32⟩ : BufTy).Contents (Elt F)),
    StableHlo.unary main_v187 main_v188 (broadcastInDim S1000000x16 ![0, 1] bcast_S1x16_S1000000x16_0_1 : (⟨S1x16, .f32⟩ : BufTy).Contents (Elt F) → (⟨S1000000x16, .f32⟩ : BufTy).Contents (Elt F)),
    StableHlo.binary main_v184 main_v188 main_v189 (addf : (⟨S1000000x16, .f32⟩ : BufTy).Contents (Elt F) → (⟨S1000000x16, .f32⟩ : BufTy).Contents (Elt F) → (⟨S1000000x16, .f32⟩ : BufTy).Contents (Elt F)),
    StableHlo.unary main_arg7 main_v190 ((extractStridedSlice S1x16x16 ![3, 0, 0] · slices_S5x16x16_S1x16x16_3_0_0) : (⟨S5x16x16, .f32⟩ : BufTy).Contents (Elt F) → (⟨S1x16x16, .f32⟩ : BufTy).Contents (Elt F)),
    StableHlo.reshape main_v190 main_v191 rfl shapeCasts_S1x16x16_S16x16,
    StableHlo.binary main_v163 main_v191 main_v192 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg8 main_v193 ((extractStridedSlice S1x16 ![3, 0] · slices_S5x16_S1x16_3_0) : (⟨S5x16, .f32⟩ : BufTy).Contents (Elt F) → (⟨S1x16, .f32⟩ : BufTy).Contents (Elt F)),
    StableHlo.reshape main_v193 main_v194 rfl shapeCasts_S1x16_S16,
    StableHlo.unary main_v194 main_v195 (broadcastInDim S1x16 ![1] bcast_S16_S1x16_1 : (⟨S16, .f32⟩ : BufTy).Contents (Elt F) → (⟨S1x16, .f32⟩ : BufTy).Contents (Elt F)),
    StableHlo.unary main_v195 main_v196 (broadcastInDim S1000000x16 ![0, 1] bcast_S1x16_S1000000x16_0_1 : (⟨S1x16, .f32⟩ : BufTy).Contents (Elt F) → (⟨S1000000x16, .f32⟩ : BufTy).Contents (Elt F)),
    StableHlo.binary main_v192 main_v196 main_v197 (addf : (⟨S1000000x16, .f32⟩ : BufTy).Contents (Elt F) → (⟨S1000000x16, .f32⟩ : BufTy).Contents (Elt F) → (⟨S1000000x16, .f32⟩ : BufTy).Contents (Elt F)),
    StableHlo.unary main_arg7 main_v198 ((extractStridedSlice S1x16x16 ![4, 0, 0] · slices_S5x16x16_S1x16x16_4_0_0) : (⟨S5x16x16, .f32⟩ : BufTy).Contents (Elt F) → (⟨S1x16x16, .f32⟩ : BufTy).Contents (Elt F)),
    StableHlo.reshape main_v198 main_v199 rfl shapeCasts_S1x16x16_S16x16,
    StableHlo.binary main_v163 main_v199 main_v200 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg8 main_v201 ((extractStridedSlice S1x16 ![4, 0] · slices_S5x16_S1x16_4_0) : (⟨S5x16, .f32⟩ : BufTy).Contents (Elt F) → (⟨S1x16, .f32⟩ : BufTy).Contents (Elt F)),
    StableHlo.reshape main_v201 main_v202 rfl shapeCasts_S1x16_S16,
    StableHlo.unary main_v202 main_v203 (broadcastInDim S1x16 ![1] bcast_S16_S1x16_1 : (⟨S16, .f32⟩ : BufTy).Contents (Elt F) → (⟨S1x16, .f32⟩ : BufTy).Contents (Elt F)),
    StableHlo.unary main_v203 main_v204 (broadcastInDim S1000000x16 ![0, 1] bcast_S1x16_S1000000x16_0_1 : (⟨S1x16, .f32⟩ : BufTy).Contents (Elt F) → (⟨S1000000x16, .f32⟩ : BufTy).Contents (Elt F)),
    StableHlo.binary main_v200 main_v204 main_v205 (addf : (⟨S1000000x16, .f32⟩ : BufTy).Contents (Elt F) → (⟨S1000000x16, .f32⟩ : BufTy).Contents (Elt F) → (⟨S1000000x16, .f32⟩ : BufTy).Contents (Elt F)) ]
theorem ops4_sub : (ops4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- 4 operations of @main (main_c_28 … main_c_29). -/
abbrev pc18 : List (HloOp τ sig (Elt F)) :=
  [ StableHlo.nullary main_c_28 (constantI S_ 32 0#32),
    StableHlo.unary main_c_28 main_v206 (broadcastInDim S1000000 ![] bcast_S_S1000000 : (⟨S_, .i32⟩ : BufTy).Contents (Elt F) → (⟨S1000000, .i32⟩ : BufTy).Contents (Elt F)),
    StableHlo.binary main_arg11 main_v206 main_v207 (cmpi .slt : (⟨S1000000, .i32⟩ : BufTy).Contents (Elt F) → (⟨S1000000, .i32⟩ : BufTy).Contents (Elt F) → (⟨S1000000, .i1⟩ : BufTy).Contents (Elt F)),
    StableHlo.nullary main_c_29 (constantI S_ 32 500000#32) ]
theorem pc18_sub : (pc18 : List (HloOp τ sig (Elt F))).Forall fun op => op.bufs ⊆ tcRefs τ sig :=
  ⟨nullary_bufs_sub .., unary_bufs_sub .., binary_bufs_sub .., nullary_bufs_sub ..⟩
theorem pc18_fresh : (pc18 : List (HloOp τ sig (Elt F))).Forall fun op => op.fresh = ∅ :=
  ⟨rfl, rfl, rfl, rfl⟩

/-- 48 operations of @main (main_v208 … main_v245). -/
abbrev pc19 : List (HloOp τ sig (Elt F)) :=
  [ StableHlo.unary main_c_29 main_v208 (broadcastInDim S1000000 ![] bcast_S_S1000000 : (⟨S_, .i32⟩ : BufTy).Contents (Elt F) → (⟨S1000000, .i32⟩ : BufTy).Contents (Elt F)),
    StableHlo.binary main_arg11 main_v208 main_v209 (addi : (⟨S1000000, .i32⟩ : BufTy).Contents (Elt F) → (⟨S1000000, .i32⟩ : BufTy).Contents (Elt F) → (⟨S1000000, .i32⟩ : BufTy).Contents (Elt F)),
    StableHlo.ternary main_v207 main_v209 main_arg11 main_v210 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v210 main_v211 (broadcastInDim S1000000x1 ![0] bcast_S1000000_S1000000x1_0 : (⟨S1000000, .i32⟩ : BufTy).Contents (Elt F) → (⟨S1000000x1, .i32⟩ : BufTy).Contents (Elt F)),
    StableHlo.binary main_v173 main_v211 main_v212 ((fun x i => Host.gather gather_S500000x16_S1000000x1_S1000000x16_1_0_n_n_0_1_116 x i) : (⟨S500000x16, .f32⟩ : BufTy).Contents (Elt F) → (⟨S1000000x1, .i32⟩ : BufTy).Contents (Elt F) → (⟨S1000000x16, .f32⟩ : BufTy).Contents (Elt F)),
    StableHlo.nullary main_c_30 (constantI S_ 32 0#32),
    StableHlo.unary main_c_30 main_v213 (broadcastInDim S1000000 ![] bcast_S_S1000000 : (⟨S_, .i32⟩ : BufTy).Contents (Elt F) → (⟨S1000000, .i32⟩ : BufTy).Contents (Elt F)),
    StableHlo.binary main_arg12 main_v213 main_v214 (cmpi .slt : (⟨S1000000, .i32⟩ : BufTy).Contents (Elt F) → (⟨S1000000, .i32⟩ : BufTy).Contents (Elt F) → (⟨S1000000, .i1⟩ : BufTy).Contents (Elt F)),
    StableHlo.nullary main_c_31 (constantI S_ 32 100000#32),
    StableHlo.unary main_c_31 main_v215 (broadcastInDim S1000000 ![] bcast_S_S1000000 : (⟨S_, .i32⟩ : BufTy).Contents (Elt F) → (⟨S1000000, .i32⟩ : BufTy).Contents (Elt F)),
    StableHlo.binary main_arg12 main_v215 main_v216 (addi : (⟨S1000000, .i32⟩ : BufTy).Contents (Elt F) → (⟨S1000000, .i32⟩ : BufTy).Contents (Elt F) → (⟨S1000000, .i32⟩ : BufTy).Contents (Elt F)),
    StableHlo.ternary main_v214 main_v216 main_arg12 main_v217 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v217 main_v218 (broadcastInDim S1000000x1 ![0] bcast_S1000000_S1000000x1_0 : (⟨S1000000, .i32⟩ : BufTy).Contents (Elt F) → (⟨S1000000x1, .i32⟩ : BufTy).Contents (Elt F)),
    StableHlo.binary main_v181 main_v218 main_v219 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v212 main_v219 main_v220 (addf : (⟨S1000000x16, .f32⟩ : BufTy).Contents (Elt F) → (⟨S1000000x16, .f32⟩ : BufTy).Contents (Elt F) → (⟨S1000000x16, .f32⟩ : BufTy).Contents (Elt F)),
    StableHlo.binary main_v220 main_v189 main_v221 (addf : (⟨S1000000x16, .f32⟩ : BufTy).Contents (Elt F) → (⟨S1000000x16, .f32⟩ : BufTy).Contents (Elt F) → (⟨S1000000x16, .f32⟩ : BufTy).Contents (Elt F)),
    StableHlo.nullary main_cst_32 (constant S_ .f32 0x00000000#32),
    StableHlo.unary main_cst_32 main_v222 (broadcastInDim S500000x16 ![] bcast_S_S500000x16 : (⟨S_, .f32⟩ : BufTy).Contents (Elt F) → (⟨S500000x16, .f32⟩ : BufTy).Contents (Elt F)),
    StableHlo.unary main_arg11 main_v223 (broadcastInDim S1000000x1 ![0] bcast_S1000000_S1000000x1_0 : (⟨S1000000, .i32⟩ : BufTy).Contents (Elt F) → (⟨S1000000x1, .i32⟩ : BufTy).Contents (Elt F)),
    StableHlo.ternary main_v222 main_v223 main_v197 main_v224 ((fun x i u => Host.scatterAdd scatter_S500000x16_S1000000x1_S1000000x16_1_0_0_1 x i u) : (⟨S500000x16, .f32⟩ : BufTy).Contents (Elt F) → (⟨S1000000x1, .i32⟩ : BufTy).Contents (Elt F) → (⟨S1000000x16, .f32⟩ : BufTy).Contents (Elt F) → (⟨S500000x16, .f32⟩ : BufTy).Contents (Elt F)),
    StableHlo.nullary main_cst_33 (constant S_ .f32 0x3F800000#32),
    StableHlo.unary main_cst_33 main_v225 (broadcastInDim S1000000 ![] bcast_S_S1000000 : (⟨S_, .f32⟩ : BufTy).Contents (Elt F) → (⟨S1000000, .f32⟩ : BufTy).Contents (Elt F)),
    StableHlo.nullary main_cst_34 (constant S_ .f32 0x00000000#32),
    StableHlo.unary main_cst_34 main_v226 (broadcastInDim S500000 ![] bcast_S_S500000 : (⟨S_, .f32⟩ : BufTy).Contents (Elt F) → (⟨S500000, .f32⟩ : BufTy).Contents (Elt F)),
    StableHlo.unary main_arg11 main_v227 (broadcastInDim S1000000x1 ![0] bcast_S1000000_S1000000x1_0 : (⟨S1000000, .i32⟩ : BufTy).Contents (Elt F) → (⟨S1000000x1, .i32⟩ : BufTy).Contents (Elt F)),
    StableHlo.ternary main_v226 main_v227 main_v225 main_v228 ((fun x i u => Host.scatterAdd scatter_S500000_S1000000x1_S1000000_n_0_0_1 x i u) : (⟨S500000, .f32⟩ : BufTy).Contents (Elt F) → (⟨S1000000x1, .i32⟩ : BufTy).Contents (Elt F) → (⟨S1000000, .f32⟩ : BufTy).Contents (Elt F) → (⟨S500000, .f32⟩ : BufTy).Contents (Elt F)),
    StableHlo.nullary main_cst_35 (constant S_ .f32 0x3F800000#32),
    StableHlo.unary main_cst_35 main_v229 (broadcastInDim S500000 ![] bcast_S_S500000 : (⟨S_, .f32⟩ : BufTy).Contents (Elt F) → (⟨S500000, .f32⟩ : BufTy).Contents (Elt F)),
    StableHlo.binary main_v228 main_v229 main_v230 (maximumf : (⟨S500000, .f32⟩ : BufTy).Contents (Elt F) → (⟨S500000, .f32⟩ : BufTy).Contents (Elt F) → (⟨S500000, .f32⟩ : BufTy).Contents (Elt F)),
    StableHlo.unary main_v230 main_v231 (broadcastInDim S500000x1 ![0] bcast_S500000_S500000x1_0 : (⟨S500000, .f32⟩ : BufTy).Contents (Elt F) → (⟨S500000x1, .f32⟩ : BufTy).Contents (Elt F)),
    StableHlo.unary main_v231 main_v232 (broadcastInDim S500000x16 ![0, 1] bcast_S500000x1_S500000x16_0_1 : (⟨S500000x1, .f32⟩ : BufTy).Contents (Elt F) → (⟨S500000x16, .f32⟩ : BufTy).Contents (Elt F)),
    StableHlo.binary main_v224 main_v232 main_v233 (Host.divf : (⟨S500000x16, .f32⟩ : BufTy).Contents (Elt F) → (⟨S500000x16, .f32⟩ : BufTy).Contents (Elt F) → (⟨S500000x16, .f32⟩ : BufTy).Contents (Elt F)),
    StableHlo.nullary main_cst_36 (constant S_ .f32 0x00000000#32),
    StableHlo.unary main_cst_36 main_v234 (broadcastInDim S100000x16 ![] bcast_S_S100000x16 : (⟨S_, .f32⟩ : BufTy).Contents (Elt F) → (⟨S100000x16, .f32⟩ : BufTy).Contents (Elt F)),
    StableHlo.unary main_arg12 main_v235 (broadcastInDim S1000000x1 ![0] bcast_S1000000_S1000000x1_0 : (⟨S1000000, .i32⟩ : BufTy).Contents (Elt F) → (⟨S1000000x1, .i32⟩ : BufTy).Contents (Elt F)),
    StableHlo.ternary main_v234 main_v235 main_v205 main_v236 ((fun x i u => Host.scatterAdd scatter_S100000x16_S1000000x1_S1000000x16_1_0_0_1 x i u) : (⟨S100000x16, .f32⟩ : BufTy).Contents (Elt F) → (⟨S1000000x1, .i32⟩ : BufTy).Contents (Elt F) → (⟨S1000000x16, .f32⟩ : BufTy).Contents (Elt F) → (⟨S100000x16, .f32⟩ : BufTy).Contents (Elt F)),
    StableHlo.nullary main_cst_37 (constant S_ .f32 0x3F800000#32),
    StableHlo.unary main_cst_37 main_v237 (broadcastInDim S1000000 ![] bcast_S_S1000000 : (⟨S_, .f32⟩ : BufTy).Contents (Elt F) → (⟨S1000000, .f32⟩ : BufTy).Contents (Elt F)),
    StableHlo.nullary main_cst_38 (constant S_ .f32 0x00000000#32),
    StableHlo.unary main_cst_38 main_v238 (broadcastInDim S100000 ![] bcast_S_S100000 : (⟨S_, .f32⟩ : BufTy).Contents (Elt F) → (⟨S100000, .f32⟩ : BufTy).Contents (Elt F)),
    StableHlo.unary main_arg12 main_v239 (broadcastInDim S1000000x1 ![0] bcast_S1000000_S1000000x1_0 : (⟨S1000000, .i32⟩ : BufTy).Contents (Elt F) → (⟨S1000000x1, .i32⟩ : BufTy).Contents (Elt F)),
    StableHlo.ternary main_v238 main_v239 main_v237 main_v240 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_39 (constant S_ .f32 0x3F800000#32),
    StableHlo.unary main_cst_39 main_v241 (broadcastInDim S100000 ![] bcast_S_S100000 : (⟨S_, .f32⟩ : BufTy).Contents (Elt F) → (⟨S100000, .f32⟩ : BufTy).Contents (Elt F)),
    StableHlo.binary main_v240 main_v241 main_v242 (maximumf : (⟨S100000, .f32⟩ : BufTy).Contents (Elt F) → (⟨S100000, .f32⟩ : BufTy).Contents (Elt F) → (⟨S100000, .f32⟩ : BufTy).Contents (Elt F)),
    StableHlo.unary main_v242 main_v243 (broadcastInDim S100000x1 ![0] bcast_S100000_S100000x1_0 : (⟨S100000, .f32⟩ : BufTy).Contents (Elt F) → (⟨S100000x1, .f32⟩ : BufTy).Contents (Elt F)),
    StableHlo.unary main_v243 main_v244 (broadcastInDim S100000x16 ![0, 1] bcast_S100000x1_S100000x16_0_1 : (⟨S100000x1, .f32⟩ : BufTy).Contents (Elt F) → (⟨S100000x16, .f32⟩ : BufTy).Contents (Elt F)),
    StableHlo.binary main_v236 main_v244 main_v245 (Host.divf : (⟨S100000x16, .f32⟩ : BufTy).Contents (Elt F) → (⟨S100000x16, .f32⟩ : BufTy).Contents (Elt F) → (⟨S100000x16, .f32⟩ : BufTy).Contents (Elt F)) ]
theorem pc19_sub : (pc19 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem pc19_fresh : (pc19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The linear head (%246 … %249): a contraction and the bias row broadcast and added. -/
abbrev ops6 : List (HloOp τ sig (Elt F)) :=
  [ StableHlo.binary main_v221 main_arg9 main_v246 ((fun l r => Host.dotGeneral dot_S1000000x16_S16x2_S1000000x2_1_0_0_1_n_n none l r) : (⟨S1000000x16, .f32⟩ : BufTy).Contents (Elt F) → (⟨S16x2, .f32⟩ : BufTy).Contents (Elt F) → (⟨S1000000x2, .f32⟩ : BufTy).Contents (Elt F)),
    StableHlo.unary main_arg10 main_v247 (broadcastInDim S1x2 ![1] bcast_S2_S1x2_1 : (⟨S2, .f32⟩ : BufTy).Contents (Elt F) → (⟨S1x2, .f32⟩ : BufTy).Contents (Elt F)),
    StableHlo.unary main_v247 main_v248 (broadcastInDim S1000000x2 ![0, 1] bcast_S1x2_S1000000x2_0_1 : (⟨S1x2, .f32⟩ : BufTy).Contents (Elt F) → (⟨S1000000x2, .f32⟩ : BufTy).Contents (Elt F)),
    StableHlo.binary main_v246 main_v248 main_v249 (addf : (⟨S1000000x2, .f32⟩ : BufTy).Contents (Elt F) → (⟨S1000000x2, .f32⟩ : BufTy).Contents (Elt F) → (⟨S1000000x2, .f32⟩ : BufTy).Contents (Elt F)) ]
theorem ops6_sub : (ops6 : List (HloOp τ sig (Elt F))).Forall fun op => op.bufs ⊆ tcRefs τ sig :=
  ⟨binary_bufs_sub .., unary_bufs_sub .., unary_bufs_sub .., binary_bufs_sub ..⟩
theorem ops6_fresh : (ops6 : List (HloOp τ sig (Elt F))).Forall fun op => op.fresh = ∅ :=
  ⟨rfl, rfl, rfl, rfl⟩

/-- Layer 0, the message passing (%c … %82): the two index normalisations and gathers, their sum with the self term, the two segment sums divided by the clamped counts, and the three leaky rectifiers (each the callee's seven operations, inlined). -/
abbrev ops1 : List (HloOp τ sig (Elt F)) :=
  [ StableHlo.nullary main_c (constantI S_ 32 0#32),
    StableHlo.unary main_c main_v40 (broadcastInDim S1000000 ![] bcast_S_S1000000 : (⟨S_, .i32⟩ : BufTy).Contents (Elt F) → (⟨S1000000, .i32⟩ : BufTy).Contents (Elt F)),
    StableHlo.binary main_arg11 main_v40 main_v41 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 500000#32),
    StableHlo.unary main_c_0 main_v42 (broadcastInDim S1000000 ![] bcast_S_S1000000 : (⟨S_, .i32⟩ : BufTy).Contents (Elt F) → (⟨S1000000, .i32⟩ : BufTy).Contents (Elt F)),
    StableHlo.binary main_arg11 main_v42 main_v43 (addi : (⟨S1000000, .i32⟩ : BufTy).Contents (Elt F) → (⟨S1000000, .i32⟩ : BufTy).Contents (Elt F) → (⟨S1000000, .i32⟩ : BufTy).Contents (Elt F)),
    StableHlo.ternary main_v41 main_v43 main_arg11 main_v44 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v44 main_v45 (broadcastInDim S1000000x1 ![0] bcast_S1000000_S1000000x1_0 : (⟨S1000000, .i32⟩ : BufTy).Contents (Elt F) → (⟨S1000000x1, .i32⟩ : BufTy).Contents (Elt F)),
    StableHlo.binary main_v7 main_v45 main_v46 ((fun x i => Host.gather gather_S500000x16_S1000000x1_S1000000x16_1_0_n_n_0_1_116 x i) : (⟨S500000x16, .f32⟩ : BufTy).Contents (Elt F) → (⟨S1000000x1, .i32⟩ : BufTy).Contents (Elt F) → (⟨S1000000x16, .f32⟩ : BufTy).Contents (Elt F)),
    StableHlo.nullary main_c_1 (constantI S_ 32 0#32),
    StableHlo.unary main_c_1 main_v47 (broadcastInDim S1000000 ![] bcast_S_S1000000 : (⟨S_, .i32⟩ : BufTy).Contents (Elt F) → (⟨S1000000, .i32⟩ : BufTy).Contents (Elt F)),
    StableHlo.binary main_arg12 main_v47 main_v48 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v49 (broadcastInDim S1000000 ![] bcast_S_S1000000 : (⟨S_, .i32⟩ : BufTy).Contents (Elt F) → (⟨S1000000, .i32⟩ : BufTy).Contents (Elt F)),
    StableHlo.binary main_arg12 main_v49 main_v50 (addi : (⟨S1000000, .i32⟩ : BufTy).Contents (Elt F) → (⟨S1000000, .i32⟩ : BufTy).Contents (Elt F) → (⟨S1000000, .i32⟩ : BufTy).Contents (Elt F)),
    StableHlo.ternary main_v48 main_v50 main_arg12 main_v51 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v51 main_v52 (broadcastInDim S1000000x1 ![0] bcast_S1000000_S1000000x1_0 : (⟨S1000000, .i32⟩ : BufTy).Contents (Elt F) → (⟨S1000000x1, .i32⟩ : BufTy).Contents (Elt F)),
    StableHlo.binary main_v15 main_v52 main_v53 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v46 main_v53 main_v54 (addf : (⟨S1000000x16, .f32⟩ : BufTy).Contents (Elt F) → (⟨S1000000x16, .f32⟩ : BufTy).Contents (Elt F) → (⟨S1000000x16, .f32⟩ : BufTy).Contents (Elt F)),
    StableHlo.binary main_v54 main_v23 main_v55 (addf : (⟨S1000000x16, .f32⟩ : BufTy).Contents (Elt F) → (⟨S1000000x16, .f32⟩ : BufTy).Contents (Elt F) → (⟨S1000000x16, .f32⟩ : BufTy).Contents (Elt F)),
    StableHlo.nullary main_cst (constant S_ .f32 0x00000000#32),
    StableHlo.unary main_cst main_v56 (broadcastInDim S500000x16 ![] bcast_S_S500000x16 : (⟨S_, .f32⟩ : BufTy).Contents (Elt F) → (⟨S500000x16, .f32⟩ : BufTy).Contents (Elt F)),
    StableHlo.unary main_arg11 main_v57 (broadcastInDim S1000000x1 ![0] bcast_S1000000_S1000000x1_0 : (⟨S1000000, .i32⟩ : BufTy).Contents (Elt F) → (⟨S1000000x1, .i32⟩ : BufTy).Contents (Elt F)),
    StableHlo.ternary main_v56 main_v57 main_v31 main_v58 ((fun x i u => Host.scatterAdd scatter_S500000x16_S1000000x1_S1000000x16_1_0_0_1 x i u) : (⟨S500000x16, .f32⟩ : BufTy).Contents (Elt F) → (⟨S1000000x1, .i32⟩ : BufTy).Contents (Elt F) → (⟨S1000000x16, .f32⟩ : BufTy).Contents (Elt F) → (⟨S500000x16, .f32⟩ : BufTy).Contents (Elt F)),
    StableHlo.nullary main_cst_3 (constant S_ .f32 0x3F800000#32),
    StableHlo.unary main_cst_3 main_v59 (broadcastInDim S1000000 ![] bcast_S_S1000000 : (⟨S_, .f32⟩ : BufTy).Contents (Elt F) → (⟨S1000000, .f32⟩ : BufTy).Contents (Elt F)),
    StableHlo.nullary main_cst_4 (constant S_ .f32 0x00000000#32),
    StableHlo.unary main_cst_4 main_v60 (broadcastInDim S500000 ![] bcast_S_S500000 : (⟨S_, .f32⟩ : BufTy).Contents (Elt F) → (⟨S500000, .f32⟩ : BufTy).Contents (Elt F)),
    StableHlo.unary main_arg11 main_v61 (broadcastInDim S1000000x1 ![0] bcast_S1000000_S1000000x1_0 : (⟨S1000000, .i32⟩ : BufTy).Contents (Elt F) → (⟨S1000000x1, .i32⟩ : BufTy).Contents (Elt F)),
    StableHlo.ternary main_v60 main_v61 main_v59 main_v62 ((fun x i u => Host.scatterAdd scatter_S500000_S1000000x1_S1000000_n_0_0_1 x i u) : (⟨S500000, .f32⟩ : BufTy).Contents (Elt F) → (⟨S1000000x1, .i32⟩ : BufTy).Contents (Elt F) → (⟨S1000000, .f32⟩ : BufTy).Contents (Elt F) → (⟨S500000, .f32⟩ : BufTy).Contents (Elt F)),
    StableHlo.nullary main_cst_5 (constant S_ .f32 0x3F800000#32),
    StableHlo.unary main_cst_5 main_v63 (broadcastInDim S500000 ![] bcast_S_S500000 : (⟨S_, .f32⟩ : BufTy).Contents (Elt F) → (⟨S500000, .f32⟩ : BufTy).Contents (Elt F)),
    StableHlo.binary main_v62 main_v63 main_v64 (maximumf : (⟨S500000, .f32⟩ : BufTy).Contents (Elt F) → (⟨S500000, .f32⟩ : BufTy).Contents (Elt F) → (⟨S500000, .f32⟩ : BufTy).Contents (Elt F)),
    StableHlo.unary main_v64 main_v65 (broadcastInDim S500000x1 ![0] bcast_S500000_S500000x1_0 : (⟨S500000, .f32⟩ : BufTy).Contents (Elt F) → (⟨S500000x1, .f32⟩ : BufTy).Contents (Elt F)),
    StableHlo.unary main_v65 main_v66 (broadcastInDim S500000x16 ![0, 1] bcast_S500000x1_S500000x16_0_1 : (⟨S500000x1, .f32⟩ : BufTy).Contents (Elt F) → (⟨S500000x16, .f32⟩ : BufTy).Contents (Elt F)),
    StableHlo.binary main_v58 main_v66 main_v67 (Host.divf : (⟨S500000x16, .f32⟩ : BufTy).Contents (Elt F) → (⟨S500000x16, .f32⟩ : BufTy).Contents (Elt F) → (⟨S500000x16, .f32⟩ : BufTy).Contents (Elt F)),
    StableHlo.nullary main_cst_6 (constant S_ .f32 0x00000000#32),
    StableHlo.unary main_cst_6 main_v68 (broadcastInDim S100000x16 ![] bcast_S_S100000x16 : (⟨S_, .f32⟩ : BufTy).Contents (Elt F) → (⟨S100000x16, .f32⟩ : BufTy).Contents (Elt F)),
    StableHlo.unary main_arg12 main_v69 (broadcastInDim S1000000x1 ![0] bcast_S1000000_S1000000x1_0 : (⟨S1000000, .i32⟩ : BufTy).Contents (Elt F) → (⟨S1000000x1, .i32⟩ : BufTy).Contents (Elt F)),
    StableHlo.ternary main_v68 main_v69 main_v39 main_v70 ((fun x i u => Host.scatterAdd scatter_S100000x16_S1000000x1_S1000000x16_1_0_0_1 x i u) : (⟨S100000x16, .f32⟩ : BufTy).Contents (Elt F) → (⟨S1000000x1, .i32⟩ : BufTy).Contents (Elt F) → (⟨S1000000x16, .f32⟩ : BufTy).Contents (Elt F) → (⟨S100000x16, .f32⟩ : BufTy).Contents (Elt F)),
    StableHlo.nullary main_cst_7 (constant S_ .f32 0x3F800000#32),
    StableHlo.unary main_cst_7 main_v71 (broadcastInDim S1000000 ![] bcast_S_S1000000 : (⟨S_, .f32⟩ : BufTy).Contents (Elt F) → (⟨S1000000, .f32⟩ : BufTy).Contents (Elt F)),
    StableHlo.nullary main_cst_8 (constant S_ .f32 0x00000000#32),
    StableHlo.unary main_cst_8 main_v72 (broadcastInDim S100000 ![] bcast_S_S100000 : (⟨S_, .f32⟩ : BufTy).Contents (Elt F) → (⟨S100000, .f32⟩ : BufTy).Contents (Elt F)),
    StableHlo.unary main_arg12 main_v73 (broadcastInDim S1000000x1 ![0] bcast_S1000000_S1000000x1_0 : (⟨S1000000, .i32⟩ : BufTy).Contents (Elt F) → (⟨S1000000x1, .i32⟩ : BufTy).Contents (Elt F)),
    StableHlo.ternary main_v72 main_v73 main_v71 main_v74 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_9 (constant S_ .f32 0x3F800000#32),
    StableHlo.unary main_cst_9 main_v75 (broadcastInDim S100000 ![] bcast_S_S100000 : (⟨S_, .f32⟩ : BufTy).Contents (Elt F) → (⟨S100000, .f32⟩ : BufTy).Contents (Elt F)),
    StableHlo.binary main_v74 main_v75 main_v76 (maximumf : (⟨S100000, .f32⟩ : BufTy).Contents (Elt F) → (⟨S100000, .f32⟩ : BufTy).Contents (Elt F) → (⟨S100000, .f32⟩ : BufTy).Contents (Elt F)),
    StableHlo.unary main_v76 main_v77 (broadcastInDim S100000x1 ![0] bcast_S100000_S100000x1_0 : (⟨S100000, .f32⟩ : BufTy).Contents (Elt F) → (⟨S100000x1, .f32⟩ : BufTy).Contents (Elt F)),
    StableHlo.unary main_v77 main_v78 (broadcastInDim S100000x16 ![0, 1] bcast_S100000x1_S100000x16_0_1 : (⟨S100000x1, .f32⟩ : BufTy).Contents (Elt F) → (⟨S100000x16, .f32⟩ : BufTy).Contents (Elt F)),
    StableHlo.binary main_v70 main_v78 main_v79 (Host.divf : (⟨S100000x16, .f32⟩ : BufTy).Contents (Elt F) → (⟨S100000x16, .f32⟩ : BufTy).Contents (Elt F) → (⟨S100000x16, .f32⟩ : BufTy).Contents (Elt F)),
    StableHlo.nullary main_cst_10 (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1000000x16, .f32⟩) (broadcastInDim S1000000x16 ![] bcast_S_S1000000x16),
    StableHlo.TRef.binary (.of main_v55 : StableHlo.TRef sig ⟨S1000000x16, .f32⟩) (.of main_call0_v0 : StableHlo.TRef sig ⟨S1000000x16, .f32⟩) (.of main_call0_v1 : StableHlo.TRef sig ⟨S1000000x16, .i1⟩) (cmpf .oge),
    StableHlo.TRef.unary (.of main_cst_10 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1000000x16, .f32⟩) (broadcastInDim S1000000x16 ![] bcast_S_S1000000x16),
    StableHlo.TRef.binary (.of main_call0_v3 : StableHlo.TRef sig ⟨S1000000x16, .f32⟩) (.of main_v55 : StableHlo.TRef sig ⟨S1000000x16, .f32⟩) (.of main_call0_v4 : StableHlo.TRef sig ⟨S1000000x16, .f32⟩) mulf,
    StableHlo.TRef.ternary (.of main_call0_v1 : StableHlo.TRef sig ⟨S1000000x16, .i1⟩) (.of main_v55 : StableHlo.TRef sig ⟨S1000000x16, .f32⟩) (.of main_call0_v4 : StableHlo.TRef sig ⟨S1000000x16, .f32⟩) (.of main_v80 : StableHlo.TRef sig ⟨S1000000x16, .f32⟩) select,
    StableHlo.nullary main_cst_11 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S500000x16, .f32⟩) (broadcastInDim S500000x16 ![] bcast_S_S500000x16),
    StableHlo.TRef.binary (.of main_v67 : StableHlo.TRef sig ⟨S500000x16, .f32⟩) (.of main_call1_v0 : StableHlo.TRef sig ⟨S500000x16, .f32⟩) (.of main_call1_v1 : StableHlo.TRef sig ⟨S500000x16, .i1⟩) (cmpf .oge),
    StableHlo.TRef.unary (.of main_cst_11 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S500000x16, .f32⟩) (broadcastInDim S500000x16 ![] bcast_S_S500000x16),
    StableHlo.TRef.binary (.of main_call1_v3 : StableHlo.TRef sig ⟨S500000x16, .f32⟩) (.of main_v67 : StableHlo.TRef sig ⟨S500000x16, .f32⟩) (.of main_call1_v4 : StableHlo.TRef sig ⟨S500000x16, .f32⟩) mulf,
    StableHlo.TRef.ternary (.of main_call1_v1 : StableHlo.TRef sig ⟨S500000x16, .i1⟩) (.of main_v67 : StableHlo.TRef sig ⟨S500000x16, .f32⟩) (.of main_call1_v4 : StableHlo.TRef sig ⟨S500000x16, .f32⟩) (.of main_v81 : StableHlo.TRef sig ⟨S500000x16, .f32⟩) select,
    StableHlo.nullary main_cst_12 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x16, .f32⟩) (broadcastInDim S100000x16 ![] bcast_S_S100000x16),
    StableHlo.TRef.binary (.of main_v79 : StableHlo.TRef sig ⟨S100000x16, .f32⟩) (.of main_call2_v0 : StableHlo.TRef sig ⟨S100000x16, .f32⟩) (.of main_call2_v1 : StableHlo.TRef sig ⟨S100000x16, .i1⟩) (cmpf .oge),
    StableHlo.TRef.unary (.of main_cst_12 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x16, .f32⟩) (broadcastInDim S100000x16 ![] bcast_S_S100000x16),
    StableHlo.TRef.binary (.of main_call2_v3 : StableHlo.TRef sig ⟨S100000x16, .f32⟩) (.of main_v79 : StableHlo.TRef sig ⟨S100000x16, .f32⟩) (.of main_call2_v4 : StableHlo.TRef sig ⟨S100000x16, .f32⟩) mulf,
    StableHlo.TRef.ternary (.of main_call2_v1 : StableHlo.TRef sig ⟨S100000x16, .i1⟩) (.of main_v79 : StableHlo.TRef sig ⟨S100000x16, .f32⟩) (.of main_call2_v4 : StableHlo.TRef sig ⟨S100000x16, .f32⟩) (.of main_v82 : StableHlo.TRef sig ⟨S100000x16, .f32⟩) select ]
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 1, the five dense maps (%83 … %122). -/
abbrev ops2 : List (HloOp τ sig (Elt F)) :=
  [ StableHlo.unary main_arg5 main_v83 ((extractStridedSlice S1x16x16 ![0, 0, 0] · slices_S5x16x16_S1x16x16_0_0_0) : (⟨S5x16x16, .f32⟩ : BufTy).Contents (Elt F) → (⟨S1x16x16, .f32⟩ : BufTy).Contents (Elt F)),
    StableHlo.reshape main_v83 main_v84 rfl shapeCasts_S1x16x16_S16x16,
    StableHlo.binary main_v81 main_v84 main_v85 ((fun l r => Host.dotGeneral dot_S500000x16_S16x16_S500000x16_1_0_0_1_n_n none l r) : (⟨S500000x16, .f32⟩ : BufTy).Contents (Elt F) → (⟨S16x16, .f32⟩ : BufTy).Contents (Elt F) → (⟨S500000x16, .f32⟩ : BufTy).Contents (Elt F)),
    StableHlo.unary main_arg6 main_v86 ((extractStridedSlice S1x16 ![0, 0] · slices_S5x16_S1x16_0_0) : (⟨S5x16, .f32⟩ : BufTy).Contents (Elt F) → (⟨S1x16, .f32⟩ : BufTy).Contents (Elt F)),
    StableHlo.reshape main_v86 main_v87 rfl shapeCasts_S1x16_S16,
    StableHlo.unary main_v87 main_v88 (broadcastInDim S1x16 ![1] bcast_S16_S1x16_1 : (⟨S16, .f32⟩ : BufTy).Contents (Elt F) → (⟨S1x16, .f32⟩ : BufTy).Contents (Elt F)),
    StableHlo.unary main_v88 main_v89 (broadcastInDim S500000x16 ![0, 1] bcast_S1x16_S500000x16_0_1 : (⟨S1x16, .f32⟩ : BufTy).Contents (Elt F) → (⟨S500000x16, .f32⟩ : BufTy).Contents (Elt F)),
    StableHlo.binary main_v85 main_v89 main_v90 (addf : (⟨S500000x16, .f32⟩ : BufTy).Contents (Elt F) → (⟨S500000x16, .f32⟩ : BufTy).Contents (Elt F) → (⟨S500000x16, .f32⟩ : BufTy).Contents (Elt F)),
    StableHlo.unary main_arg5 main_v91 ((extractStridedSlice S1x16x16 ![1, 0, 0] · slices_S5x16x16_S1x16x16_1_0_0) : (⟨S5x16x16, .f32⟩ : BufTy).Contents (Elt F) → (⟨S1x16x16, .f32⟩ : BufTy).Contents (Elt F)),
    StableHlo.reshape main_v91 main_v92 rfl shapeCasts_S1x16x16_S16x16,
    StableHlo.binary main_v82 main_v92 main_v93 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.unary main_arg6 main_v94 ((extractStridedSlice S1x16 ![1, 0] · slices_S5x16_S1x16_1_0) : (⟨S5x16, .f32⟩ : BufTy).Contents (Elt F) → (⟨S1x16, .f32⟩ : BufTy).Contents (Elt F)),
    StableHlo.reshape main_v94 main_v95 rfl shapeCasts_S1x16_S16,
    StableHlo.unary main_v95 main_v96 (broadcastInDim S1x16 ![1] bcast_S16_S1x16_1 : (⟨S16, .f32⟩ : BufTy).Contents (Elt F) → (⟨S1x16, .f32⟩ : BufTy).Contents (Elt F)),
    StableHlo.unary main_v96 main_v97 (broadcastInDim S100000x16 ![0, 1] bcast_S1x16_S100000x16_0_1 : (⟨S1x16, .f32⟩ : BufTy).Contents (Elt F) → (⟨S100000x16, .f32⟩ : BufTy).Contents (Elt F)),
    StableHlo.binary main_v93 main_v97 main_v98 (addf : (⟨S100000x16, .f32⟩ : BufTy).Contents (Elt F) → (⟨S100000x16, .f32⟩ : BufTy).Contents (Elt F) → (⟨S100000x16, .f32⟩ : BufTy).Contents (Elt F)),
    StableHlo.unary main_arg5 main_v99 ((extractStridedSlice S1x16x16 ![2, 0, 0] · slices_S5x16x16_S1x16x16_2_0_0) : (⟨S5x16x16, .f32⟩ : BufTy).Contents (Elt F) → (⟨S1x16x16, .f32⟩ : BufTy).Contents (Elt F)),
    StableHlo.reshape main_v99 main_v100 rfl shapeCasts_S1x16x16_S16x16,
    StableHlo.binary main_v80 main_v100 main_v101 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg6 main_v102 ((extractStridedSlice S1x16 ![2, 0] · slices_S5x16_S1x16_2_0) : (⟨S5x16, .f32⟩ : BufTy).Contents (Elt F) → (⟨S1x16, .f32⟩ : BufTy).Contents (Elt F)),
    StableHlo.reshape main_v102 main_v103 rfl shapeCasts_S1x16_S16,
    StableHlo.unary main_v103 main_v104 (broadcastInDim S1x16 ![1] bcast_S16_S1x16_1 : (⟨S16, .f32⟩ : BufTy).Contents (Elt F) → (⟨S1x16, .f32⟩ : BufTy).Contents (Elt F)),
    StableHlo.unary main_v104 main_v105 (broadcastInDim S1000000x16 ![0, 1] bcast_S1x16_S1000000x16_0_1 : (⟨S1x16, .f32⟩ : BufTy).Contents (Elt F) → (⟨S1000000x16, .f32⟩ : BufTy).Contents (Elt F)),
    StableHlo.binary main_v101 main_v105 main_v106 (addf : (⟨S1000000x16, .f32⟩ : BufTy).Contents (Elt F) → (⟨S1000000x16, .f32⟩ : BufTy).Contents (Elt F) → (⟨S1000000x16, .f32⟩ : BufTy).Contents (Elt F)),
    StableHlo.unary main_arg5 main_v107 ((extractStridedSlice S1x16x16 ![3, 0, 0] · slices_S5x16x16_S1x16x16_3_0_0) : (⟨S5x16x16, .f32⟩ : BufTy).Contents (Elt F) → (⟨S1x16x16, .f32⟩ : BufTy).Contents (Elt F)),
    StableHlo.reshape main_v107 main_v108 rfl shapeCasts_S1x16x16_S16x16,
    StableHlo.binary main_v80 main_v108 main_v109 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg6 main_v110 ((extractStridedSlice S1x16 ![3, 0] · slices_S5x16_S1x16_3_0) : (⟨S5x16, .f32⟩ : BufTy).Contents (Elt F) → (⟨S1x16, .f32⟩ : BufTy).Contents (Elt F)),
    StableHlo.reshape main_v110 main_v111 rfl shapeCasts_S1x16_S16,
    StableHlo.unary main_v111 main_v112 (broadcastInDim S1x16 ![1] bcast_S16_S1x16_1 : (⟨S16, .f32⟩ : BufTy).Contents (Elt F) → (⟨S1x16, .f32⟩ : BufTy).Contents (Elt F)),
    StableHlo.unary main_v112 main_v113 (broadcastInDim S1000000x16 ![0, 1] bcast_S1x16_S1000000x16_0_1 : (⟨S1x16, .f32⟩ : BufTy).Contents (Elt F) → (⟨S1000000x16, .f32⟩ : BufTy).Contents (Elt F)),
    StableHlo.binary main_v109 main_v113 main_v114 (addf : (⟨S1000000x16, .f32⟩ : BufTy).Contents (Elt F) → (⟨S1000000x16, .f32⟩ : BufTy).Contents (Elt F) → (⟨S1000000x16, .f32⟩ : BufTy).Contents (Elt F)),
    StableHlo.unary main_arg5 main_v115 ((extractStridedSlice S1x16x16 ![4, 0, 0] · slices_S5x16x16_S1x16x16_4_0_0) : (⟨S5x16x16, .f32⟩ : BufTy).Contents (Elt F) → (⟨S1x16x16, .f32⟩ : BufTy).Contents (Elt F)),
    StableHlo.reshape main_v115 main_v116 rfl shapeCasts_S1x16x16_S16x16,
    StableHlo.binary main_v80 main_v116 main_v117 ((fun l r => Host.dotGeneral dot_S1000000x16_S16x16_S1000000x16_1_0_0_1_n_n none l r) : (⟨S1000000x16, .f32⟩ : BufTy).Contents (Elt F) → (⟨S16x16, .f32⟩ : BufTy).Contents (Elt F) → (⟨S1000000x16, .f32⟩ : BufTy).Contents (Elt F)),
    StableHlo.unary main_arg6 main_v118 ((extractStridedSlice S1x16 ![4, 0] · slices_S5x16_S1x16_4_0) : (⟨S5x16, .f32⟩ : BufTy).Contents (Elt F) → (⟨S1x16, .f32⟩ : BufTy).Contents (Elt F)),
    StableHlo.reshape main_v118 main_v119 rfl shapeCasts_S1x16_S16,
    StableHlo.unary main_v119 main_v120 (broadcastInDim S1x16 ![1] bcast_S16_S1x16_1 : (⟨S16, .f32⟩ : BufTy).Contents (Elt F) → (⟨S1x16, .f32⟩ : BufTy).Contents (Elt F)),
    StableHlo.unary main_v120 main_v121 (broadcastInDim S1000000x16 ![0, 1] bcast_S1x16_S1000000x16_0_1 : (⟨S1x16, .f32⟩ : BufTy).Contents (Elt F) → (⟨S1000000x16, .f32⟩ : BufTy).Contents (Elt F)),
    StableHlo.binary main_v117 main_v121 main_v122 (addf : (⟨S1000000x16, .f32⟩ : BufTy).Contents (Elt F) → (⟨S1000000x16, .f32⟩ : BufTy).Contents (Elt F) → (⟨S1000000x16, .f32⟩ : BufTy).Contents (Elt F)) ]
theorem ops2_sub : (ops2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 1, the message passing (%c_13 … %165), the same operations as layer 0's. -/
abbrev ops3 : List (HloOp τ sig (Elt F)) :=
  [ StableHlo.nullary main_c_13 (constantI S_ 32 0#32),
    StableHlo.unary main_c_13 main_v123 (broadcastInDim S1000000 ![] bcast_S_S1000000 : (⟨S_, .i32⟩ : BufTy).Contents (Elt F) → (⟨S1000000, .i32⟩ : BufTy).Contents (Elt F)),
    StableHlo.binary main_arg11 main_v123 main_v124 (cmpi .slt : (⟨S1000000, .i32⟩ : BufTy).Contents (Elt F) → (⟨S1000000, .i32⟩ : BufTy).Contents (Elt F) → (⟨S1000000, .i1⟩ : BufTy).Contents (Elt F)),
    StableHlo.nullary main_c_14 (constantI S_ 32 500000#32),
    StableHlo.unary main_c_14 main_v125 (broadcastInDim S1000000 ![] bcast_S_S1000000 : (⟨S_, .i32⟩ : BufTy).Contents (Elt F) → (⟨S1000000, .i32⟩ : BufTy).Contents (Elt F)),
    StableHlo.binary main_arg11 main_v125 main_v126 (addi : (⟨S1000000, .i32⟩ : BufTy).Contents (Elt F) → (⟨S1000000, .i32⟩ : BufTy).Contents (Elt F) → (⟨S1000000, .i32⟩ : BufTy).Contents (Elt F)),
    StableHlo.ternary main_v124 main_v126 main_arg11 main_v127 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v127 main_v128 (broadcastInDim S1000000x1 ![0] bcast_S1000000_S1000000x1_0 : (⟨S1000000, .i32⟩ : BufTy).Contents (Elt F) → (⟨S1000000x1, .i32⟩ : BufTy).Contents (Elt F)),
    StableHlo.binary main_v90 main_v128 main_v129 ((fun x i => Host.gather gather_S500000x16_S1000000x1_S1000000x16_1_0_n_n_0_1_116 x i) : (⟨S500000x16, .f32⟩ : BufTy).Contents (Elt F) → (⟨S1000000x1, .i32⟩ : BufTy).Contents (Elt F) → (⟨S1000000x16, .f32⟩ : BufTy).Contents (Elt F)),
    StableHlo.nullary main_c_15 (constantI S_ 32 0#32),
    StableHlo.unary main_c_15 main_v130 (broadcastInDim S1000000 ![] bcast_S_S1000000 : (⟨S_, .i32⟩ : BufTy).Contents (Elt F) → (⟨S1000000, .i32⟩ : BufTy).Contents (Elt F)),
    StableHlo.binary main_arg12 main_v130 main_v131 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 100000#32),
    StableHlo.unary main_c_16 main_v132 (broadcastInDim S1000000 ![] bcast_S_S1000000 : (⟨S_, .i32⟩ : BufTy).Contents (Elt F) → (⟨S1000000, .i32⟩ : BufTy).Contents (Elt F)),
    StableHlo.binary main_arg12 main_v132 main_v133 (addi : (⟨S1000000, .i32⟩ : BufTy).Contents (Elt F) → (⟨S1000000, .i32⟩ : BufTy).Contents (Elt F) → (⟨S1000000, .i32⟩ : BufTy).Contents (Elt F)),
    StableHlo.ternary main_v131 main_v133 main_arg12 main_v134 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v134 main_v135 (broadcastInDim S1000000x1 ![0] bcast_S1000000_S1000000x1_0 : (⟨S1000000, .i32⟩ : BufTy).Contents (Elt F) → (⟨S1000000x1, .i32⟩ : BufTy).Contents (Elt F)),
    StableHlo.binary main_v98 main_v135 main_v136 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v129 main_v136 main_v137 (addf : (⟨S1000000x16, .f32⟩ : BufTy).Contents (Elt F) → (⟨S1000000x16, .f32⟩ : BufTy).Contents (Elt F) → (⟨S1000000x16, .f32⟩ : BufTy).Contents (Elt F)),
    StableHlo.binary main_v137 main_v106 main_v138 (addf : (⟨S1000000x16, .f32⟩ : BufTy).Contents (Elt F) → (⟨S1000000x16, .f32⟩ : BufTy).Contents (Elt F) → (⟨S1000000x16, .f32⟩ : BufTy).Contents (Elt F)),
    StableHlo.nullary main_cst_17 (constant S_ .f32 0x00000000#32),
    StableHlo.unary main_cst_17 main_v139 (broadcastInDim S500000x16 ![] bcast_S_S500000x16 : (⟨S_, .f32⟩ : BufTy).Contents (Elt F) → (⟨S500000x16, .f32⟩ : BufTy).Contents (Elt F)),
    StableHlo.unary main_arg11 main_v140 (broadcastInDim S1000000x1 ![0] bcast_S1000000_S1000000x1_0 : (⟨S1000000, .i32⟩ : BufTy).Contents (Elt F) → (⟨S1000000x1, .i32⟩ : BufTy).Contents (Elt F)),
    StableHlo.ternary main_v139 main_v140 main_v114 main_v141 ((fun x i u => Host.scatterAdd scatter_S500000x16_S1000000x1_S1000000x16_1_0_0_1 x i u) : (⟨S500000x16, .f32⟩ : BufTy).Contents (Elt F) → (⟨S1000000x1, .i32⟩ : BufTy).Contents (Elt F) → (⟨S1000000x16, .f32⟩ : BufTy).Contents (Elt F) → (⟨S500000x16, .f32⟩ : BufTy).Contents (Elt F)),
    StableHlo.nullary main_cst_18 (constant S_ .f32 0x3F800000#32),
    StableHlo.unary main_cst_18 main_v142 (broadcastInDim S1000000 ![] bcast_S_S1000000 : (⟨S_, .f32⟩ : BufTy).Contents (Elt F) → (⟨S1000000, .f32⟩ : BufTy).Contents (Elt F)),
    StableHlo.nullary main_cst_19 (constant S_ .f32 0x00000000#32),
    StableHlo.unary main_cst_19 main_v143 (broadcastInDim S500000 ![] bcast_S_S500000 : (⟨S_, .f32⟩ : BufTy).Contents (Elt F) → (⟨S500000, .f32⟩ : BufTy).Contents (Elt F)),
    StableHlo.unary main_arg11 main_v144 (broadcastInDim S1000000x1 ![0] bcast_S1000000_S1000000x1_0 : (⟨S1000000, .i32⟩ : BufTy).Contents (Elt F) → (⟨S1000000x1, .i32⟩ : BufTy).Contents (Elt F)),
    StableHlo.ternary main_v143 main_v144 main_v142 main_v145 ((fun x i u => Host.scatterAdd scatter_S500000_S1000000x1_S1000000_n_0_0_1 x i u) : (⟨S500000, .f32⟩ : BufTy).Contents (Elt F) → (⟨S1000000x1, .i32⟩ : BufTy).Contents (Elt F) → (⟨S1000000, .f32⟩ : BufTy).Contents (Elt F) → (⟨S500000, .f32⟩ : BufTy).Contents (Elt F)),
    StableHlo.nullary main_cst_20 (constant S_ .f32 0x3F800000#32),
    StableHlo.unary main_cst_20 main_v146 (broadcastInDim S500000 ![] bcast_S_S500000 : (⟨S_, .f32⟩ : BufTy).Contents (Elt F) → (⟨S500000, .f32⟩ : BufTy).Contents (Elt F)),
    StableHlo.binary main_v145 main_v146 main_v147 (maximumf : (⟨S500000, .f32⟩ : BufTy).Contents (Elt F) → (⟨S500000, .f32⟩ : BufTy).Contents (Elt F) → (⟨S500000, .f32⟩ : BufTy).Contents (Elt F)),
    StableHlo.unary main_v147 main_v148 (broadcastInDim S500000x1 ![0] bcast_S500000_S500000x1_0 : (⟨S500000, .f32⟩ : BufTy).Contents (Elt F) → (⟨S500000x1, .f32⟩ : BufTy).Contents (Elt F)),
    StableHlo.unary main_v148 main_v149 (broadcastInDim S500000x16 ![0, 1] bcast_S500000x1_S500000x16_0_1 : (⟨S500000x1, .f32⟩ : BufTy).Contents (Elt F) → (⟨S500000x16, .f32⟩ : BufTy).Contents (Elt F)),
    StableHlo.binary main_v141 main_v149 main_v150 (Host.divf : (⟨S500000x16, .f32⟩ : BufTy).Contents (Elt F) → (⟨S500000x16, .f32⟩ : BufTy).Contents (Elt F) → (⟨S500000x16, .f32⟩ : BufTy).Contents (Elt F)),
    StableHlo.nullary main_cst_21 (constant S_ .f32 0x00000000#32),
    StableHlo.unary main_cst_21 main_v151 (broadcastInDim S100000x16 ![] bcast_S_S100000x16 : (⟨S_, .f32⟩ : BufTy).Contents (Elt F) → (⟨S100000x16, .f32⟩ : BufTy).Contents (Elt F)),
    StableHlo.unary main_arg12 main_v152 (broadcastInDim S1000000x1 ![0] bcast_S1000000_S1000000x1_0 : (⟨S1000000, .i32⟩ : BufTy).Contents (Elt F) → (⟨S1000000x1, .i32⟩ : BufTy).Contents (Elt F)),
    StableHlo.ternary main_v151 main_v152 main_v122 main_v153 ((fun x i u => Host.scatterAdd scatter_S100000x16_S1000000x1_S1000000x16_1_0_0_1 x i u) : (⟨S100000x16, .f32⟩ : BufTy).Contents (Elt F) → (⟨S1000000x1, .i32⟩ : BufTy).Contents (Elt F) → (⟨S1000000x16, .f32⟩ : BufTy).Contents (Elt F) → (⟨S100000x16, .f32⟩ : BufTy).Contents (Elt F)),
    StableHlo.nullary main_cst_22 (constant S_ .f32 0x3F800000#32),
    StableHlo.unary main_cst_22 main_v154 (broadcastInDim S1000000 ![] bcast_S_S1000000 : (⟨S_, .f32⟩ : BufTy).Contents (Elt F) → (⟨S1000000, .f32⟩ : BufTy).Contents (Elt F)),
    StableHlo.nullary main_cst_23 (constant S_ .f32 0x00000000#32),
    StableHlo.unary main_cst_23 main_v155 (broadcastInDim S100000 ![] bcast_S_S100000 : (⟨S_, .f32⟩ : BufTy).Contents (Elt F) → (⟨S100000, .f32⟩ : BufTy).Contents (Elt F)),
    StableHlo.unary main_arg12 main_v156 (broadcastInDim S1000000x1 ![0] bcast_S1000000_S1000000x1_0 : (⟨S1000000, .i32⟩ : BufTy).Contents (Elt F) → (⟨S1000000x1, .i32⟩ : BufTy).Contents (Elt F)),
    StableHlo.ternary main_v155 main_v156 main_v154 main_v157 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_24 (constant S_ .f32 0x3F800000#32),
    StableHlo.unary main_cst_24 main_v158 (broadcastInDim S100000 ![] bcast_S_S100000 : (⟨S_, .f32⟩ : BufTy).Contents (Elt F) → (⟨S100000, .f32⟩ : BufTy).Contents (Elt F)),
    StableHlo.binary main_v157 main_v158 main_v159 (maximumf : (⟨S100000, .f32⟩ : BufTy).Contents (Elt F) → (⟨S100000, .f32⟩ : BufTy).Contents (Elt F) → (⟨S100000, .f32⟩ : BufTy).Contents (Elt F)),
    StableHlo.unary main_v159 main_v160 (broadcastInDim S100000x1 ![0] bcast_S100000_S100000x1_0 : (⟨S100000, .f32⟩ : BufTy).Contents (Elt F) → (⟨S100000x1, .f32⟩ : BufTy).Contents (Elt F)),
    StableHlo.unary main_v160 main_v161 (broadcastInDim S100000x16 ![0, 1] bcast_S100000x1_S100000x16_0_1 : (⟨S100000x1, .f32⟩ : BufTy).Contents (Elt F) → (⟨S100000x16, .f32⟩ : BufTy).Contents (Elt F)),
    StableHlo.binary main_v153 main_v161 main_v162 (Host.divf : (⟨S100000x16, .f32⟩ : BufTy).Contents (Elt F) → (⟨S100000x16, .f32⟩ : BufTy).Contents (Elt F) → (⟨S100000x16, .f32⟩ : BufTy).Contents (Elt F)),
    StableHlo.nullary main_cst_25 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1000000x16, .f32⟩) (broadcastInDim S1000000x16 ![] bcast_S_S1000000x16),
    StableHlo.TRef.binary (.of main_v138 : StableHlo.TRef sig ⟨S1000000x16, .f32⟩) (.of main_call3_v0 : StableHlo.TRef sig ⟨S1000000x16, .f32⟩) (.of main_call3_v1 : StableHlo.TRef sig ⟨S1000000x16, .i1⟩) (cmpf .oge),
    StableHlo.TRef.unary (.of main_cst_25 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S1000000x16, .f32⟩) (broadcastInDim S1000000x16 ![] bcast_S_S1000000x16),
    StableHlo.TRef.binary (.of main_call3_v3 : StableHlo.TRef sig ⟨S1000000x16, .f32⟩) (.of main_v138 : StableHlo.TRef sig ⟨S1000000x16, .f32⟩) (.of main_call3_v4 : StableHlo.TRef sig ⟨S1000000x16, .f32⟩) mulf,
    StableHlo.TRef.ternary (.of main_call3_v1 : StableHlo.TRef sig ⟨S1000000x16, .i1⟩) (.of main_v138 : StableHlo.TRef sig ⟨S1000000x16, .f32⟩) (.of main_call3_v4 : StableHlo.TRef sig ⟨S1000000x16, .f32⟩) (.of main_v163 : StableHlo.TRef sig ⟨S1000000x16, .f32⟩) select,
    StableHlo.nullary main_cst_26 (constant S_ .f32 0x3C23D70A#32),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S500000x16, .f32⟩) (broadcastInDim S500000x16 ![] bcast_S_S500000x16),
    StableHlo.TRef.binary (.of main_v150 : StableHlo.TRef sig ⟨S500000x16, .f32⟩) (.of main_call4_v0 : StableHlo.TRef sig ⟨S500000x16, .f32⟩) (.of main_call4_v1 : StableHlo.TRef sig ⟨S500000x16, .i1⟩) (cmpf .oge),
    StableHlo.TRef.unary (.of main_cst_26 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S500000x16, .f32⟩) (broadcastInDim S500000x16 ![] bcast_S_S500000x16),
    StableHlo.TRef.binary (.of main_call4_v3 : StableHlo.TRef sig ⟨S500000x16, .f32⟩) (.of main_v150 : StableHlo.TRef sig ⟨S500000x16, .f32⟩) (.of main_call4_v4 : StableHlo.TRef sig ⟨S500000x16, .f32⟩) mulf,
    StableHlo.TRef.ternary (.of main_call4_v1 : StableHlo.TRef sig ⟨S500000x16, .i1⟩) (.of main_v150 : StableHlo.TRef sig ⟨S500000x16, .f32⟩) (.of main_call4_v4 : StableHlo.TRef sig ⟨S500000x16, .f32⟩) (.of main_v164 : StableHlo.TRef sig ⟨S500000x16, .f32⟩) select,
    StableHlo.nullary main_cst_27 (constant S_ .f32 0x3C23D70A#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x16, .f32⟩) (broadcastInDim S100000x16 ![] bcast_S_S100000x16),
    StableHlo.TRef.binary (.of main_v162 : StableHlo.TRef sig ⟨S100000x16, .f32⟩) (.of main_call5_v0 : StableHlo.TRef sig ⟨S100000x16, .f32⟩) (.of main_call5_v1 : StableHlo.TRef sig ⟨S100000x16, .i1⟩) (cmpf .oge),
    StableHlo.TRef.unary (.of main_cst_27 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S100000x16, .f32⟩) (broadcastInDim S100000x16 ![] bcast_S_S100000x16),
    StableHlo.TRef.binary (.of main_call5_v3 : StableHlo.TRef sig ⟨S100000x16, .f32⟩) (.of main_v162 : StableHlo.TRef sig ⟨S100000x16, .f32⟩) (.of main_call5_v4 : StableHlo.TRef sig ⟨S100000x16, .f32⟩) mulf,
    StableHlo.TRef.ternary (.of main_call5_v1 : StableHlo.TRef sig ⟨S100000x16, .i1⟩) (.of main_v162 : StableHlo.TRef sig ⟨S100000x16, .f32⟩) (.of main_call5_v4 : StableHlo.TRef sig ⟨S100000x16, .f32⟩) (.of main_v165 : StableHlo.TRef sig ⟨S100000x16, .f32⟩) select ]
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 2, the message passing (%c_28 … %245): gathers and sum, the segment means (no rectifier in the last layer). -/
abbrev ops5 : List (HloOp τ sig (Elt F)) :=
  [ StableHlo.nullary main_c_28 (constantI S_ 32 0#32),
    StableHlo.unary main_c_28 main_v206 (broadcastInDim S1000000 ![] bcast_S_S1000000 : (⟨S_, .i32⟩ : BufTy).Contents (Elt F) → (⟨S1000000, .i32⟩ : BufTy).Contents (Elt F)),
    StableHlo.binary main_arg11 main_v206 main_v207 (cmpi .slt : (⟨S1000000, .i32⟩ : BufTy).Contents (Elt F) → (⟨S1000000, .i32⟩ : BufTy).Contents (Elt F) → (⟨S1000000, .i1⟩ : BufTy).Contents (Elt F)),
    StableHlo.nullary main_c_29 (constantI S_ 32 500000#32),
    StableHlo.unary main_c_29 main_v208 (broadcastInDim S1000000 ![] bcast_S_S1000000 : (⟨S_, .i32⟩ : BufTy).Contents (Elt F) → (⟨S1000000, .i32⟩ : BufTy).Contents (Elt F)),
    StableHlo.binary main_arg11 main_v208 main_v209 (addi : (⟨S1000000, .i32⟩ : BufTy).Contents (Elt F) → (⟨S1000000, .i32⟩ : BufTy).Contents (Elt F) → (⟨S1000000, .i32⟩ : BufTy).Contents (Elt F)),
    StableHlo.ternary main_v207 main_v209 main_arg11 main_v210 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v210 main_v211 (broadcastInDim S1000000x1 ![0] bcast_S1000000_S1000000x1_0 : (⟨S1000000, .i32⟩ : BufTy).Contents (Elt F) → (⟨S1000000x1, .i32⟩ : BufTy).Contents (Elt F)),
    StableHlo.binary main_v173 main_v211 main_v212 ((fun x i => Host.gather gather_S500000x16_S1000000x1_S1000000x16_1_0_n_n_0_1_116 x i) : (⟨S500000x16, .f32⟩ : BufTy).Contents (Elt F) → (⟨S1000000x1, .i32⟩ : BufTy).Contents (Elt F) → (⟨S1000000x16, .f32⟩ : BufTy).Contents (Elt F)),
    StableHlo.nullary main_c_30 (constantI S_ 32 0#32),
    StableHlo.unary main_c_30 main_v213 (broadcastInDim S1000000 ![] bcast_S_S1000000 : (⟨S_, .i32⟩ : BufTy).Contents (Elt F) → (⟨S1000000, .i32⟩ : BufTy).Contents (Elt F)),
    StableHlo.binary main_arg12 main_v213 main_v214 (cmpi .slt : (⟨S1000000, .i32⟩ : BufTy).Contents (Elt F) → (⟨S1000000, .i32⟩ : BufTy).Contents (Elt F) → (⟨S1000000, .i1⟩ : BufTy).Contents (Elt F)),
    StableHlo.nullary main_c_31 (constantI S_ 32 100000#32),
    StableHlo.unary main_c_31 main_v215 (broadcastInDim S1000000 ![] bcast_S_S1000000 : (⟨S_, .i32⟩ : BufTy).Contents (Elt F) → (⟨S1000000, .i32⟩ : BufTy).Contents (Elt F)),
    StableHlo.binary main_arg12 main_v215 main_v216 (addi : (⟨S1000000, .i32⟩ : BufTy).Contents (Elt F) → (⟨S1000000, .i32⟩ : BufTy).Contents (Elt F) → (⟨S1000000, .i32⟩ : BufTy).Contents (Elt F)),
    StableHlo.ternary main_v214 main_v216 main_arg12 main_v217 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v217 main_v218 (broadcastInDim S1000000x1 ![0] bcast_S1000000_S1000000x1_0 : (⟨S1000000, .i32⟩ : BufTy).Contents (Elt F) → (⟨S1000000x1, .i32⟩ : BufTy).Contents (Elt F)),
    StableHlo.binary main_v181 main_v218 main_v219 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v212 main_v219 main_v220 (addf : (⟨S1000000x16, .f32⟩ : BufTy).Contents (Elt F) → (⟨S1000000x16, .f32⟩ : BufTy).Contents (Elt F) → (⟨S1000000x16, .f32⟩ : BufTy).Contents (Elt F)),
    StableHlo.binary main_v220 main_v189 main_v221 (addf : (⟨S1000000x16, .f32⟩ : BufTy).Contents (Elt F) → (⟨S1000000x16, .f32⟩ : BufTy).Contents (Elt F) → (⟨S1000000x16, .f32⟩ : BufTy).Contents (Elt F)),
    StableHlo.nullary main_cst_32 (constant S_ .f32 0x00000000#32),
    StableHlo.unary main_cst_32 main_v222 (broadcastInDim S500000x16 ![] bcast_S_S500000x16 : (⟨S_, .f32⟩ : BufTy).Contents (Elt F) → (⟨S500000x16, .f32⟩ : BufTy).Contents (Elt F)),
    StableHlo.unary main_arg11 main_v223 (broadcastInDim S1000000x1 ![0] bcast_S1000000_S1000000x1_0 : (⟨S1000000, .i32⟩ : BufTy).Contents (Elt F) → (⟨S1000000x1, .i32⟩ : BufTy).Contents (Elt F)),
    StableHlo.ternary main_v222 main_v223 main_v197 main_v224 ((fun x i u => Host.scatterAdd scatter_S500000x16_S1000000x1_S1000000x16_1_0_0_1 x i u) : (⟨S500000x16, .f32⟩ : BufTy).Contents (Elt F) → (⟨S1000000x1, .i32⟩ : BufTy).Contents (Elt F) → (⟨S1000000x16, .f32⟩ : BufTy).Contents (Elt F) → (⟨S500000x16, .f32⟩ : BufTy).Contents (Elt F)),
    StableHlo.nullary main_cst_33 (constant S_ .f32 0x3F800000#32),
    StableHlo.unary main_cst_33 main_v225 (broadcastInDim S1000000 ![] bcast_S_S1000000 : (⟨S_, .f32⟩ : BufTy).Contents (Elt F) → (⟨S1000000, .f32⟩ : BufTy).Contents (Elt F)),
    StableHlo.nullary main_cst_34 (constant S_ .f32 0x00000000#32),
    StableHlo.unary main_cst_34 main_v226 (broadcastInDim S500000 ![] bcast_S_S500000 : (⟨S_, .f32⟩ : BufTy).Contents (Elt F) → (⟨S500000, .f32⟩ : BufTy).Contents (Elt F)),
    StableHlo.unary main_arg11 main_v227 (broadcastInDim S1000000x1 ![0] bcast_S1000000_S1000000x1_0 : (⟨S1000000, .i32⟩ : BufTy).Contents (Elt F) → (⟨S1000000x1, .i32⟩ : BufTy).Contents (Elt F)),
    StableHlo.ternary main_v226 main_v227 main_v225 main_v228 ((fun x i u => Host.scatterAdd scatter_S500000_S1000000x1_S1000000_n_0_0_1 x i u) : (⟨S500000, .f32⟩ : BufTy).Contents (Elt F) → (⟨S1000000x1, .i32⟩ : BufTy).Contents (Elt F) → (⟨S1000000, .f32⟩ : BufTy).Contents (Elt F) → (⟨S500000, .f32⟩ : BufTy).Contents (Elt F)),
    StableHlo.nullary main_cst_35 (constant S_ .f32 0x3F800000#32),
    StableHlo.unary main_cst_35 main_v229 (broadcastInDim S500000 ![] bcast_S_S500000 : (⟨S_, .f32⟩ : BufTy).Contents (Elt F) → (⟨S500000, .f32⟩ : BufTy).Contents (Elt F)),
    StableHlo.binary main_v228 main_v229 main_v230 (maximumf : (⟨S500000, .f32⟩ : BufTy).Contents (Elt F) → (⟨S500000, .f32⟩ : BufTy).Contents (Elt F) → (⟨S500000, .f32⟩ : BufTy).Contents (Elt F)),
    StableHlo.unary main_v230 main_v231 (broadcastInDim S500000x1 ![0] bcast_S500000_S500000x1_0 : (⟨S500000, .f32⟩ : BufTy).Contents (Elt F) → (⟨S500000x1, .f32⟩ : BufTy).Contents (Elt F)),
    StableHlo.unary main_v231 main_v232 (broadcastInDim S500000x16 ![0, 1] bcast_S500000x1_S500000x16_0_1 : (⟨S500000x1, .f32⟩ : BufTy).Contents (Elt F) → (⟨S500000x16, .f32⟩ : BufTy).Contents (Elt F)),
    StableHlo.binary main_v224 main_v232 main_v233 (Host.divf : (⟨S500000x16, .f32⟩ : BufTy).Contents (Elt F) → (⟨S500000x16, .f32⟩ : BufTy).Contents (Elt F) → (⟨S500000x16, .f32⟩ : BufTy).Contents (Elt F)),
    StableHlo.nullary main_cst_36 (constant S_ .f32 0x00000000#32),
    StableHlo.unary main_cst_36 main_v234 (broadcastInDim S100000x16 ![] bcast_S_S100000x16 : (⟨S_, .f32⟩ : BufTy).Contents (Elt F) → (⟨S100000x16, .f32⟩ : BufTy).Contents (Elt F)),
    StableHlo.unary main_arg12 main_v235 (broadcastInDim S1000000x1 ![0] bcast_S1000000_S1000000x1_0 : (⟨S1000000, .i32⟩ : BufTy).Contents (Elt F) → (⟨S1000000x1, .i32⟩ : BufTy).Contents (Elt F)),
    StableHlo.ternary main_v234 main_v235 main_v205 main_v236 ((fun x i u => Host.scatterAdd scatter_S100000x16_S1000000x1_S1000000x16_1_0_0_1 x i u) : (⟨S100000x16, .f32⟩ : BufTy).Contents (Elt F) → (⟨S1000000x1, .i32⟩ : BufTy).Contents (Elt F) → (⟨S1000000x16, .f32⟩ : BufTy).Contents (Elt F) → (⟨S100000x16, .f32⟩ : BufTy).Contents (Elt F)),
    StableHlo.nullary main_cst_37 (constant S_ .f32 0x3F800000#32),
    StableHlo.unary main_cst_37 main_v237 (broadcastInDim S1000000 ![] bcast_S_S1000000 : (⟨S_, .f32⟩ : BufTy).Contents (Elt F) → (⟨S1000000, .f32⟩ : BufTy).Contents (Elt F)),
    StableHlo.nullary main_cst_38 (constant S_ .f32 0x00000000#32),
    StableHlo.unary main_cst_38 main_v238 (broadcastInDim S100000 ![] bcast_S_S100000 : (⟨S_, .f32⟩ : BufTy).Contents (Elt F) → (⟨S100000, .f32⟩ : BufTy).Contents (Elt F)),
    StableHlo.unary main_arg12 main_v239 (broadcastInDim S1000000x1 ![0] bcast_S1000000_S1000000x1_0 : (⟨S1000000, .i32⟩ : BufTy).Contents (Elt F) → (⟨S1000000x1, .i32⟩ : BufTy).Contents (Elt F)),
    StableHlo.ternary main_v238 main_v239 main_v237 main_v240 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_39 (constant S_ .f32 0x3F800000#32),
    StableHlo.unary main_cst_39 main_v241 (broadcastInDim S100000 ![] bcast_S_S100000 : (⟨S_, .f32⟩ : BufTy).Contents (Elt F) → (⟨S100000, .f32⟩ : BufTy).Contents (Elt F)),
    StableHlo.binary main_v240 main_v241 main_v242 (maximumf : (⟨S100000, .f32⟩ : BufTy).Contents (Elt F) → (⟨S100000, .f32⟩ : BufTy).Contents (Elt F) → (⟨S100000, .f32⟩ : BufTy).Contents (Elt F)),
    StableHlo.unary main_v242 main_v243 (broadcastInDim S100000x1 ![0] bcast_S100000_S100000x1_0 : (⟨S100000, .f32⟩ : BufTy).Contents (Elt F) → (⟨S100000x1, .f32⟩ : BufTy).Contents (Elt F)),
    StableHlo.unary main_v243 main_v244 (broadcastInDim S100000x16 ![0, 1] bcast_S100000x1_S100000x16_0_1 : (⟨S100000x1, .f32⟩ : BufTy).Contents (Elt F) → (⟨S100000x16, .f32⟩ : BufTy).Contents (Elt F)),
    StableHlo.binary main_v236 main_v244 main_v245 (Host.divf : (⟨S100000x16, .f32⟩ : BufTy).Contents (Elt F) → (⟨S100000x16, .f32⟩ : BufTy).Contents (Elt F) → (⟨S100000x16, .f32⟩ : BufTy).Contents (Elt F)) ]
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- All of @main's operations: the seven stretches in order. -/
abbrev ops : List (HloOp τ sig (Elt F)) := ops0 ++ (ops1 ++ (ops2 ++ (ops3 ++ (ops4 ++ (ops5 ++ ops6)))))

/-! ## @main is the straight line of those operations

Each window of @main is the chain of its pieces (a called function's body a piece of its own), the windows in order are
the chain of all pieces, and a chain of straight lines is the straight line of their concatenation. -/

theorem main_part0_chain (c : Dev nD) : main_part0 (F := F) c = (Pipeline.chainK
  [ seq ops0 ]
  (seq pc1) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ seq pc2,
    seq pc3,
    seq pc4,
    seq pc5,
    seq pc6,
    seq pc7 ]
  (seq pc8) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chainK
  [ seq pc9 ]
  (seq pc10) : Prog (TpuEff nD τ sig (Elt F) (Pipeline.Sig Λ₀ (Fin 0) fun p => (pcfgs (F := F) p).Adm) .tc) PUnit) := by
  chain_rfl

theorem main_part3_chain (c : Dev nD) : main_part3 (F := F) c = (Pipeline.chainK
  [ seq pc11,
    seq pc12,
    seq pc13,
    seq pc14,
    seq pc15,
    seq pc16,
    seq ops4 ]
  (seq pc18) : Prog (TpuEff nD τ sig (Elt F) (Pipeline.Sig Λ₀ (Fin 0) fun p => (pcfgs (F := F) p).Adm) .tc) PUnit) := by
  chain_rfl

theorem main_part4_chain (c : Dev nD) : main_part4 (F := F) c = (Pipeline.chain
  [ seq pc19,
    seq ops6 ] : Prog (TpuEff nD τ sig (Elt F) (Pipeline.Sig Λ₀ (Fin 0) fun p => (pcfgs (F := F) p).Adm) .tc) PUnit) := by
  chain_rfl

theorem main_chain (c : Dev nD) : main (F := F) c = (Pipeline.chain
  [ seq ops0,
    seq pc1,
    seq pc2,
    seq pc3,
    seq pc4,
    seq pc5,
    seq pc6,
    seq pc7,
    seq pc8,
    seq pc9,
    seq pc10,
    seq pc11,
    seq pc12,
    seq pc13,
    seq pc14,
    seq pc15,
    seq pc16,
    seq ops4,
    seq pc18,
    seq pc19,
    seq ops6 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

/-- A chain of straight lines is the straight line of their concatenation. -/
theorem chain_map_seq (L : List (List (HloOp τ sig (Elt F)))) :
    (Pipeline.chain (L.map seq) : Prog (TpuEff nD τ sig (Elt F) (Pipeline.Sig Λ₀ (Fin 0) fun p => (pcfgs (F := F) p).Adm) .tc) PUnit) = seq L.flatten := by
  induction L with
  | nil => rfl
  | cons l L ih => simp only [List.map_cons, Pipeline.chain_cons, List.flatten_cons, seq_append, ih]

/-- The pieces, concatenated, are the stretches, concatenated: the same operations in the same order. -/
theorem pieces_flatten : ([ops0, pc1, pc2, pc3, pc4, pc5, pc6, pc7, pc8, pc9, pc10, pc11, pc12, pc13, pc14, pc15, pc16, ops4, pc18, pc19, ops6] : List (List (HloOp τ sig (Elt F)))).flatten = ops := by
  chain_rfl

theorem main_eq (c : Dev nD) : main (F := F) c = seq ops :=
  (main_chain c).trans ((chain_map_seq [ops0, pc1, pc2, pc3, pc4, pc5, pc6, pc7, pc8, pc9, pc10, pc11, pc12, pc13, pc14, pc15, pc16, ops4, pc18, pc19, ops6]).trans (congrArg seq pieces_flatten))

/-! ## The run -/

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append ops0_sub (forall_append ops1_sub (forall_append ops2_sub (forall_append ops3_sub
    (forall_append ops4_sub (forall_append ops5_sub ops6_sub)))))

theorem ops_fresh : (ops : List (HloOp τ sig (Elt F))).Forall fun op => op.fresh = ∅ :=
  forall_append ops0_fresh (forall_append ops1_fresh (forall_append ops2_fresh (forall_append ops3_fresh
    (forall_append ops4_fresh (forall_append ops5_fresh ops6_fresh)))))

/-- On every device, for any float values, from any memory with zero counters: every weakly fair execution of
    @main terminates with each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ
    (fun _ => List.forall_iff_forall_mem.1 ops_fresh)

end Cert.ReferenceIdeal.RefRun

end
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.RefRead.lean ====
import proofs.«154745_j79044578115861_1_alg».proof.Proof.RefRun
import proofs.«154745_j79044578115861_1_alg».proof.Proof.LibAfterAppend
import proofs.«154745_j79044578115861_1_alg».proof.Proof.LibTypedRefs
import Idealize.ShloMosaic.PureOps.Ideal

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The dense maps, read off the fold

Each dense stretch leaves in a result buffer the contraction of the rows with one slot of the weight stack (the slot cut
out and its unit axis dropped) plus that slot's bias row repeated down the rows — the printed operations composed, over
whatever the stretch's argument buffers held before it. -/

theorem ops0_v7 (U : Valuation τ sig (Elt F)) :
    after (ops0 (F := F)) U (Proc.devRef .tc main_v7)
      = addf (Host.dotGeneral dot_S500000x128_S128x16_S500000x16_1_0_0_1_n_n none (U (Proc.devRef .tc main_arg1)) (shapeCast S128x16 (extractStridedSlice S1x128x16 ![0, 0, 0] (U (Proc.devRef .tc main_arg3)) slices_S5x128x16_S1x128x16_0_0_0) shapeCasts_S1x128x16_S128x16)) (broadcastInDim S500000x16 ![0, 1] bcast_S1x16_S500000x16_0_1 (broadcastInDim S1x16 ![1] bcast_S16_S1x16_1 (shapeCast S16 (extractStridedSlice S1x16 ![0, 0] (U (Proc.devRef .tc main_arg4)) slices_S5x16_S1x16_0_0) shapeCasts_S1x16_S16))) := by
  after_results_simp
  rfl

theorem ops0_v15 (U : Valuation τ sig (Elt F)) :
    after (ops0 (F := F)) U (Proc.devRef .tc main_v15)
      = addf (Host.dotGeneral dot_S100000x128_S128x16_S100000x16_1_0_0_1_n_n none (U (Proc.devRef .tc main_arg2)) (shapeCast S128x16 (extractStridedSlice S1x128x16 ![1, 0, 0] (U (Proc.devRef .tc main_arg3)) slices_S5x128x16_S1x128x16_1_0_0) shapeCasts_S1x128x16_S128x16)) (broadcastInDim S100000x16 ![0, 1] bcast_S1x16_S100000x16_0_1 (broadcastInDim S1x16 ![1] bcast_S16_S1x16_1 (shapeCast S16 (extractStridedSlice S1x16 ![1, 0] (U (Proc.devRef .tc main_arg4)) slices_S5x16_S1x16_1_0) shapeCasts_S1x16_S16))) := by
  after_results_simp
  rfl

theorem ops0_v23 (U : Valuation τ sig (Elt F)) :
    after (ops0 (F := F)) U (Proc.devRef .tc main_v23)
      = addf (Host.dotGeneral dot_S1000000x128_S128x16_S1000000x16_1_0_0_1_n_n none (U (Proc.devRef .tc main_arg0)) (shapeCast S128x16 (extractStridedSlice S1x128x16 ![2, 0, 0] (U (Proc.devRef .tc main_arg3)) slices_S5x128x16_S1x128x16_2_0_0) shapeCasts_S1x128x16_S128x16)) (broadcastInDim S1000000x16 ![0, 1] bcast_S1x16_S1000000x16_0_1 (broadcastInDim S1x16 ![1] bcast_S16_S1x16_1 (shapeCast S16 (extractStridedSlice S1x16 ![2, 0] (U (Proc.devRef .tc main_arg4)) slices_S5x16_S1x16_2_0) shapeCasts_S1x16_S16))) := by
  after_results_simp
  rfl

theorem ops0_v31 (U : Valuation τ sig (Elt F)) :
    after (ops0 (F := F)) U (Proc.devRef .tc main_v31)
      = addf (Host.dotGeneral dot_S1000000x128_S128x16_S1000000x16_1_0_0_1_n_n none (U (Proc.devRef .tc main_arg0)) (shapeCast S128x16 (extractStridedSlice S1x128x16 ![3, 0, 0] (U (Proc.devRef .tc main_arg3)) slices_S5x128x16_S1x128x16_3_0_0) shapeCasts_S1x128x16_S128x16)) (broadcastInDim S1000000x16 ![0, 1] bcast_S1x16_S1000000x16_0_1 (broadcastInDim S1x16 ![1] bcast_S16_S1x16_1 (shapeCast S16 (extractStridedSlice S1x16 ![3, 0] (U (Proc.devRef .tc main_arg4)) slices_S5x16_S1x16_3_0) shapeCasts_S1x16_S16))) := by
  after_results_simp
  rfl

theorem ops0_v39 (U : Valuation τ sig (Elt F)) :
    after (ops0 (F := F)) U (Proc.devRef .tc main_v39)
      = addf (Host.dotGeneral dot_S1000000x128_S128x16_S1000000x16_1_0_0_1_n_n none (U (Proc.devRef .tc main_arg0)) (shapeCast S128x16 (extractStridedSlice S1x128x16 ![4, 0, 0] (U (Proc.devRef .tc main_arg3)) slices_S5x128x16_S1x128x16_4_0_0) shapeCasts_S1x128x16_S128x16)) (broadcastInDim S1000000x16 ![0, 1] bcast_S1x16_S1000000x16_0_1 (broadcastInDim S1x16 ![1] bcast_S16_S1x16_1 (shapeCast S16 (extractStridedSlice S1x16 ![4, 0] (U (Proc.devRef .tc main_arg4)) slices_S5x16_S1x16_4_0) shapeCasts_S1x16_S16))) := by
  after_results_simp
  rfl

theorem ops2_v90 (U : Valuation τ sig (Elt F)) :
    after (ops2 (F := F)) U (Proc.devRef .tc main_v90)
      = addf (Host.dotGeneral dot_S500000x16_S16x16_S500000x16_1_0_0_1_n_n none (U (Proc.devRef .tc main_v81)) (shapeCast S16x16 (extractStridedSlice S1x16x16 ![0, 0, 0] (U (Proc.devRef .tc main_arg5)) slices_S5x16x16_S1x16x16_0_0_0) shapeCasts_S1x16x16_S16x16)) (broadcastInDim S500000x16 ![0, 1] bcast_S1x16_S500000x16_0_1 (broadcastInDim S1x16 ![1] bcast_S16_S1x16_1 (shapeCast S16 (extractStridedSlice S1x16 ![0, 0] (U (Proc.devRef .tc main_arg6)) slices_S5x16_S1x16_0_0) shapeCasts_S1x16_S16))) := by
  after_results_simp
  rfl

theorem ops2_v98 (U : Valuation τ sig (Elt F)) :
    after (ops2 (F := F)) U (Proc.devRef .tc main_v98)
      = addf (Host.dotGeneral dot_S100000x16_S16x16_S100000x16_1_0_0_1_n_n none (U (Proc.devRef .tc main_v82)) (shapeCast S16x16 (extractStridedSlice S1x16x16 ![1, 0, 0] (U (Proc.devRef .tc main_arg5)) slices_S5x16x16_S1x16x16_1_0_0) shapeCasts_S1x16x16_S16x16)) (broadcastInDim S100000x16 ![0, 1] bcast_S1x16_S100000x16_0_1 (broadcastInDim S1x16 ![1] bcast_S16_S1x16_1 (shapeCast S16 (extractStridedSlice S1x16 ![1, 0] (U (Proc.devRef .tc main_arg6)) slices_S5x16_S1x16_1_0) shapeCasts_S1x16_S16))) := by
  after_results_simp
  rfl

theorem ops2_v106 (U : Valuation τ sig (Elt F)) :
    after (ops2 (F := F)) U (Proc.devRef .tc main_v106)
      = addf (Host.dotGeneral dot_S1000000x16_S16x16_S1000000x16_1_0_0_1_n_n none (U (Proc.devRef .tc main_v80)) (shapeCast S16x16 (extractStridedSlice S1x16x16 ![2, 0, 0] (U (Proc.devRef .tc main_arg5)) slices_S5x16x16_S1x16x16_2_0_0) shapeCasts_S1x16x16_S16x16)) (broadcastInDim S1000000x16 ![0, 1] bcast_S1x16_S1000000x16_0_1 (broadcastInDim S1x16 ![1] bcast_S16_S1x16_1 (shapeCast S16 (extractStridedSlice S1x16 ![2, 0] (U (Proc.devRef .tc main_arg6)) slices_S5x16_S1x16_2_0) shapeCasts_S1x16_S16))) := by
  after_results_simp
  rfl

theorem ops2_v114 (U : Valuation τ sig (Elt F)) :
    after (ops2 (F := F)) U (Proc.devRef .tc main_v114)
      = addf (Host.dotGeneral dot_S1000000x16_S16x16_S1000000x16_1_0_0_1_n_n none (U (Proc.devRef .tc main_v80)) (shapeCast S16x16 (extractStridedSlice S1x16x16 ![3, 0, 0] (U (Proc.devRef .tc main_arg5)) slices_S5x16x16_S1x16x16_3_0_0) shapeCasts_S1x16x16_S16x16)) (broadcastInDim S1000000x16 ![0, 1] bcast_S1x16_S1000000x16_0_1 (broadcastInDim S1x16 ![1] bcast_S16_S1x16_1 (shapeCast S16 (extractStridedSlice S1x16 ![3, 0] (U (Proc.devRef .tc main_arg6)) slices_S5x16_S1x16_3_0) shapeCasts_S1x16_S16))) := by
  after_results_simp
  rfl

theorem ops2_v122 (U : Valuation τ sig (Elt F)) :
    after (ops2 (F := F)) U (Proc.devRef .tc main_v122)
      = addf (Host.dotGeneral dot_S1000000x16_S16x16_S1000000x16_1_0_0_1_n_n none (U (Proc.devRef .tc main_v80)) (shapeCast S16x16 (extractStridedSlice S1x16x16 ![4, 0, 0] (U (Proc.devRef .tc main_arg5)) slices_S5x16x16_S1x16x16_4_0_0) shapeCasts_S1x16x16_S16x16)) (broadcastInDim S1000000x16 ![0, 1] bcast_S1x16_S1000000x16_0_1 (broadcastInDim S1x16 ![1] bcast_S16_S1x16_1 (shapeCast S16 (extractStridedSlice S1x16 ![4, 0] (U (Proc.devRef .tc main_arg6)) slices_S5x16_S1x16_4_0) shapeCasts_S1x16_S16))) := by
  after_results_simp
  rfl

theorem ops4_v173 (U : Valuation τ sig (Elt F)) :
    after (ops4 (F := F)) U (Proc.devRef .tc main_v173)
      = addf (Host.dotGeneral dot_S500000x16_S16x16_S500000x16_1_0_0_1_n_n none (U (Proc.devRef .tc main_v164)) (shapeCast S16x16 (extractStridedSlice S1x16x16 ![0, 0, 0] (U (Proc.devRef .tc main_arg7)) slices_S5x16x16_S1x16x16_0_0_0) shapeCasts_S1x16x16_S16x16)) (broadcastInDim S500000x16 ![0, 1] bcast_S1x16_S500000x16_0_1 (broadcastInDim S1x16 ![1] bcast_S16_S1x16_1 (shapeCast S16 (extractStridedSlice S1x16 ![0, 0] (U (Proc.devRef .tc main_arg8)) slices_S5x16_S1x16_0_0) shapeCasts_S1x16_S16))) := by
  after_results_simp
  rfl

theorem ops4_v181 (U : Valuation τ sig (Elt F)) :
    after (ops4 (F := F)) U (Proc.devRef .tc main_v181)
      = addf (Host.dotGeneral dot_S100000x16_S16x16_S100000x16_1_0_0_1_n_n none (U (Proc.devRef .tc main_v165)) (shapeCast S16x16 (extractStridedSlice S1x16x16 ![1, 0, 0] (U (Proc.devRef .tc main_arg7)) slices_S5x16x16_S1x16x16_1_0_0) shapeCasts_S1x16x16_S16x16)) (broadcastInDim S100000x16 ![0, 1] bcast_S1x16_S100000x16_0_1 (broadcastInDim S1x16 ![1] bcast_S16_S1x16_1 (shapeCast S16 (extractStridedSlice S1x16 ![1, 0] (U (Proc.devRef .tc main_arg8)) slices_S5x16_S1x16_1_0) shapeCasts_S1x16_S16))) := by
  after_results_simp
  rfl

theorem ops4_v189 (U : Valuation τ sig (Elt F)) :
    after (ops4 (F := F)) U (Proc.devRef .tc main_v189)
      = addf (Host.dotGeneral dot_S1000000x16_S16x16_S1000000x16_1_0_0_1_n_n none (U (Proc.devRef .tc main_v163)) (shapeCast S16x16 (extractStridedSlice S1x16x16 ![2, 0, 0] (U (Proc.devRef .tc main_arg7)) slices_S5x16x16_S1x16x16_2_0_0) shapeCasts_S1x16x16_S16x16)) (broadcastInDim S1000000x16 ![0, 1] bcast_S1x16_S1000000x16_0_1 (broadcastInDim S1x16 ![1] bcast_S16_S1x16_1 (shapeCast S16 (extractStridedSlice S1x16 ![2, 0] (U (Proc.devRef .tc main_arg8)) slices_S5x16_S1x16_2_0) shapeCasts_S1x16_S16))) := by
  after_results_simp
  rfl

theorem ops4_v197 (U : Valuation τ sig (Elt F)) :
    after (ops4 (F := F)) U (Proc.devRef .tc main_v197)
      = addf (Host.dotGeneral dot_S1000000x16_S16x16_S1000000x16_1_0_0_1_n_n none (U (Proc.devRef .tc main_v163)) (shapeCast S16x16 (extractStridedSlice S1x16x16 ![3, 0, 0] (U (Proc.devRef .tc main_arg7)) slices_S5x16x16_S1x16x16_3_0_0) shapeCasts_S1x16x16_S16x16)) (broadcastInDim S1000000x16 ![0, 1] bcast_S1x16_S1000000x16_0_1 (broadcastInDim S1x16 ![1] bcast_S16_S1x16_1 (shapeCast S16 (extractStridedSlice S1x16 ![3, 0] (U (Proc.devRef .tc main_arg8)) slices_S5x16_S1x16_3_0) shapeCasts_S1x16_S16))) := by
  after_results_simp
  rfl

theorem ops4_v205 (U : Valuation τ sig (Elt F)) :
    after (ops4 (F := F)) U (Proc.devRef .tc main_v205)
      = addf (Host.dotGeneral dot_S1000000x16_S16x16_S1000000x16_1_0_0_1_n_n none (U (Proc.devRef .tc main_v163)) (shapeCast S16x16 (extractStridedSlice S1x16x16 ![4, 0, 0] (U (Proc.devRef .tc main_arg7)) slices_S5x16x16_S1x16x16_4_0_0) shapeCasts_S1x16x16_S16x16)) (broadcastInDim S1000000x16 ![0, 1] bcast_S1x16_S1000000x16_0_1 (broadcastInDim S1x16 ![1] bcast_S16_S1x16_1 (shapeCast S16 (extractStridedSlice S1x16 ![4, 0] (U (Proc.devRef .tc main_arg8)) slices_S5x16_S1x16_4_0) shapeCasts_S1x16_S16))) := by
  after_results_simp
  rfl

theorem ops6_v249 (U : Valuation τ sig (Elt F)) :
    after (ops6 (F := F)) U (Proc.devRef .tc main_v249)
      = addf (Host.dotGeneral dot_S1000000x16_S16x2_S1000000x2_1_0_0_1_n_n none (U (Proc.devRef .tc main_v221)) (U (Proc.devRef .tc main_arg9))) (broadcastInDim S1000000x2 ![0, 1] bcast_S1x2_S1000000x2_0_1 (broadcastInDim S1x2 ![1] bcast_S2_S1x2_1 (U (Proc.devRef .tc main_arg10)))) := by
  after_results_simp

/-! ## What a stretch does not write, it keeps -/

theorem ops0_keep_arg5 (U : Valuation τ sig (Elt F)) :
    after (ops0 (F := F)) U (Proc.devRef .tc main_arg5) = U (Proc.devRef .tc main_arg5) := by
  after_results_simp

theorem ops0_keep_arg6 (U : Valuation τ sig (Elt F)) :
    after (ops0 (F := F)) U (Proc.devRef .tc main_arg6) = U (Proc.devRef .tc main_arg6) := by
  after_results_simp

theorem ops0_keep_arg7 (U : Valuation τ sig (Elt F)) :
    after (ops0 (F := F)) U (Proc.devRef .tc main_arg7) = U (Proc.devRef .tc main_arg7) := by
  after_results_simp

theorem ops0_keep_arg8 (U : Valuation τ sig (Elt F)) :
    after (ops0 (F := F)) U (Proc.devRef .tc main_arg8) = U (Proc.devRef .tc main_arg8) := by
  after_results_simp

theorem ops0_keep_arg9 (U : Valuation τ sig (Elt F)) :
    after (ops0 (F := F)) U (Proc.devRef .tc main_arg9) = U (Proc.devRef .tc main_arg9) := by
  after_results_simp

theorem ops0_keep_arg10 (U : Valuation τ sig (Elt F)) :
    after (ops0 (F := F)) U (Proc.devRef .tc main_arg10) = U (Proc.devRef .tc main_arg10) := by
  after_results_simp

theorem ops0_keep_arg11 (U : Valuation τ sig (Elt F)) :
    after (ops0 (F := F)) U (Proc.devRef .tc main_arg11) = U (Proc.devRef .tc main_arg11) := by
  after_results_simp

theorem ops0_keep_arg12 (U : Valuation τ sig (Elt F)) :
    after (ops0 (F := F)) U (Proc.devRef .tc main_arg12) = U (Proc.devRef .tc main_arg12) := by
  after_results_simp

theorem ops1_keep_arg5 (U : Valuation τ sig (Elt F)) :
    after (ops1 (F := F)) U (Proc.devRef .tc main_arg5) = U (Proc.devRef .tc main_arg5) := by
  after_results_simp

theorem ops1_keep_arg6 (U : Valuation τ sig (Elt F)) :
    after (ops1 (F := F)) U (Proc.devRef .tc main_arg6) = U (Proc.devRef .tc main_arg6) := by
  after_results_simp

theorem ops1_keep_arg7 (U : Valuation τ sig (Elt F)) :
    after (ops1 (F := F)) U (Proc.devRef .tc main_arg7) = U (Proc.devRef .tc main_arg7) := by
  after_results_simp

theorem ops1_keep_arg8 (U : Valuation τ sig (Elt F)) :
    after (ops1 (F := F)) U (Proc.devRef .tc main_arg8) = U (Proc.devRef .tc main_arg8) := by
  after_results_simp

theorem ops1_keep_arg9 (U : Valuation τ sig (Elt F)) :
    after (ops1 (F := F)) U (Proc.devRef .tc main_arg9) = U (Proc.devRef .tc main_arg9) := by
  after_results_simp

theorem ops1_keep_arg10 (U : Valuation τ sig (Elt F)) :
    after (ops1 (F := F)) U (Proc.devRef .tc main_arg10) = U (Proc.devRef .tc main_arg10) := by
  after_results_simp

theorem ops1_keep_arg11 (U : Valuation τ sig (Elt F)) :
    after (ops1 (F := F)) U (Proc.devRef .tc main_arg11) = U (Proc.devRef .tc main_arg11) := by
  after_results_simp

theorem ops1_keep_arg12 (U : Valuation τ sig (Elt F)) :
    after (ops1 (F := F)) U (Proc.devRef .tc main_arg12) = U (Proc.devRef .tc main_arg12) := by
  after_results_simp

theorem ops2_keep_arg7 (U : Valuation τ sig (Elt F)) :
    after (ops2 (F := F)) U (Proc.devRef .tc main_arg7) = U (Proc.devRef .tc main_arg7) := by
  after_results_simp

theorem ops2_keep_arg8 (U : Valuation τ sig (Elt F)) :
    after (ops2 (F := F)) U (Proc.devRef .tc main_arg8) = U (Proc.devRef .tc main_arg8) := by
  after_results_simp

theorem ops2_keep_arg9 (U : Valuation τ sig (Elt F)) :
    after (ops2 (F := F)) U (Proc.devRef .tc main_arg9) = U (Proc.devRef .tc main_arg9) := by
  after_results_simp

theorem ops2_keep_arg10 (U : Valuation τ sig (Elt F)) :
    after (ops2 (F := F)) U (Proc.devRef .tc main_arg10) = U (Proc.devRef .tc main_arg10) := by
  after_results_simp

theorem ops2_keep_arg11 (U : Valuation τ sig (Elt F)) :
    after (ops2 (F := F)) U (Proc.devRef .tc main_arg11) = U (Proc.devRef .tc main_arg11) := by
  after_results_simp

theorem ops2_keep_arg12 (U : Valuation τ sig (Elt F)) :
    after (ops2 (F := F)) U (Proc.devRef .tc main_arg12) = U (Proc.devRef .tc main_arg12) := by
  after_results_simp

theorem ops3_keep_arg7 (U : Valuation τ sig (Elt F)) :
    after (ops3 (F := F)) U (Proc.devRef .tc main_arg7) = U (Proc.devRef .tc main_arg7) := by
  after_results_simp

theorem ops3_keep_arg8 (U : Valuation τ sig (Elt F)) :
    after (ops3 (F := F)) U (Proc.devRef .tc main_arg8) = U (Proc.devRef .tc main_arg8) := by
  after_results_simp

theorem ops3_keep_arg9 (U : Valuation τ sig (Elt F)) :
    after (ops3 (F := F)) U (Proc.devRef .tc main_arg9) = U (Proc.devRef .tc main_arg9) := by
  after_results_simp

theorem ops3_keep_arg10 (U : Valuation τ sig (Elt F)) :
    after (ops3 (F := F)) U (Proc.devRef .tc main_arg10) = U (Proc.devRef .tc main_arg10) := by
  after_results_simp

theorem ops3_keep_arg11 (U : Valuation τ sig (Elt F)) :
    after (ops3 (F := F)) U (Proc.devRef .tc main_arg11) = U (Proc.devRef .tc main_arg11) := by
  after_results_simp

theorem ops3_keep_arg12 (U : Valuation τ sig (Elt F)) :
    after (ops3 (F := F)) U (Proc.devRef .tc main_arg12) = U (Proc.devRef .tc main_arg12) := by
  after_results_simp

theorem ops4_keep_arg9 (U : Valuation τ sig (Elt F)) :
    after (ops4 (F := F)) U (Proc.devRef .tc main_arg9) = U (Proc.devRef .tc main_arg9) := by
  after_results_simp

theorem ops4_keep_arg10 (U : Valuation τ sig (Elt F)) :
    after (ops4 (F := F)) U (Proc.devRef .tc main_arg10) = U (Proc.devRef .tc main_arg10) := by
  after_results_simp

theorem ops4_keep_arg11 (U : Valuation τ sig (Elt F)) :
    after (ops4 (F := F)) U (Proc.devRef .tc main_arg11) = U (Proc.devRef .tc main_arg11) := by
  after_results_simp

theorem ops4_keep_arg12 (U : Valuation τ sig (Elt F)) :
    after (ops4 (F := F)) U (Proc.devRef .tc main_arg12) = U (Proc.devRef .tc main_arg12) := by
  after_results_simp

theorem ops5_keep_arg9 (U : Valuation τ sig (Elt F)) :
    after (ops5 (F := F)) U (Proc.devRef .tc main_arg9) = U (Proc.devRef .tc main_arg9) := by
  after_results_simp

theorem ops5_keep_arg10 (U : Valuation τ sig (Elt F)) :
    after (ops5 (F := F)) U (Proc.devRef .tc main_arg10) = U (Proc.devRef .tc main_arg10) := by
  after_results_simp

/-! ## The whole fold, stretch by stretch -/

theorem ops_split (U : Valuation τ sig (Elt F)) :
    after (ops (F := F)) U
      = after ops6 (after ops5 (after ops4 (after ops3 (after ops2 (after ops1 (after ops0 U)))))) :=
  (Cert.Lib.after_append ops0 _ U).trans ((Cert.Lib.after_append ops1 _ _).trans ((Cert.Lib.after_append ops2 _ _).trans
    ((Cert.Lib.after_append ops3 _ _).trans ((Cert.Lib.after_append ops4 _ _).trans (Cert.Lib.after_append ops5 _ _)))))

end Cert.ReferenceIdeal.RefRead

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«154745_j79044578115861_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.KRegionLib.lean ====
/-
  One slab of a stacked affine map read at an entry.

  The body of a row-tiled dense layer takes a block x of A rows and K columns, one slab w of a weight stack given as
  [1, K, B] and one slab b of a bias stack given as [1, B].  It forgets the leading unit axis of w, multiplies x by it
  into the zero accumulator (the narrowing format changes on the way in are the identity on extended reals), adds the
  bias row broadcast to all A rows, and puts a leading unit axis back.  At (u, p, q) the result is
      (sum over k < K of x (p, k) * w (0, k, q)) + b (0, q),
  whatever the unit coordinate u.
-/
import Idealize.ShloMosaic.Lib.ValueLayout
import proofs.«154745_j79044578115861_1_alg».proof.Proof.LibAffineLayer

noncomputable section

open scoped BigOperators

namespace Cert.Lib

open Idealize.ShloMosaic Idealize.ShloMosaic.ValueIdx

variable {A K B : ℕ}

/-- The zero offsets of a rank-2 whole-block access, as the constant function. -/
theorem hz2 : (![0, 0] : Fin 2 → Nat) = fun _ => 0 := funext fun a => by fin_cases a <;> rfl
/-- The zero offsets of a rank-3 whole-block access, as the constant function. -/
theorem hz3 : (![0, 0, 0] : Fin 3 → Nat) = fun _ => 0 := funext fun a => by fin_cases a <;> rfl

/-- A property of each of three things is a property of every member of their list. -/
theorem forall_mem_three {α : Type*} {P : α → Prop} {a b c : α} (ha : P a) (hb : P b) (hc : P c) :
    ∀ p ∈ [a, b, c], P p := by
  intro p hp
  simp only [List.mem_cons, List.not_mem_nil, or_false] at hp
  rcases hp with rfl | rfl | rfl <;> assumption

/-- The slab's value at (u, p, q): row p of the block through the affine map of slab 0. -/
theorem slab_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (x : FVec Ideal ⟨2, ![A, K]⟩ .f32) (w : FVec Ideal ⟨3, ![1, K, B]⟩ .f32) (b : FVec Ideal ⟨2, ![1, B]⟩ .f32)
    (hx : FTy.bits .bf16 < FTy.bits .f32) (hw : FTy.bits .bf16 < FTy.bits .f32)
    (h1 : (⟨3, ![1, K, B]⟩ : Shape).ShapeCasts ⟨2, ![K, B]⟩)
    (h2 : (⟨2, ![1, B]⟩ : Shape).ShapeCasts ⟨1, ![B]⟩)
    (h3 : (⟨1, ![B]⟩ : Shape).ShapeCasts ⟨2, ![1, B]⟩)
    (h4 : (⟨2, ![1, B]⟩ : Shape).Broadcasts ⟨2, ![A, B]⟩)
    (h5 : (⟨2, ![A, B]⟩ : Shape).ShapeCasts ⟨3, ![1, A, B]⟩)
    (u : Fin 1) (p : Fin A) (q : Fin B) :
    shapeCast ⟨3, ![1, A, B]⟩
        (addf (matmul D none (truncf .bf16 x hx) (truncf .bf16 (shapeCast ⟨2, ![K, B]⟩ w h1) hw)
                (constant ⟨2, ![A, B]⟩ .f32 0x00000000#32))
              (broadcastTo ⟨2, ![A, B]⟩ (shapeCast ⟨2, ![1, B]⟩ (shapeCast ⟨1, ![B]⟩ b h2) h3) h4)) h5 (ix3 u p q)
      = (∑ k : Fin K, x (ix2 p k) * w (ix3 (0 : Fin 1) k q)) + b (ix2 (0 : Fin 1) q) := by
  subst hD
  refine (shapeCast_ab_1ab_apply _ h5 u p q).trans ?_
  refine (affine_apply wf _ _ _ h3 h4 p q).trans ?_
  refine congrArg₂ (· + ·) (Finset.sum_congr rfl fun k _ => ?_) (shapeCast_1a_a_apply b h2 q)
  show x (ix2 p k) * shapeCast ⟨2, ![K, B]⟩ w h1 (ix2 k q) = _
  rw [shapeCast_1ab_ab_apply w h1 k q]

/-- The same when the block first passes through a cast to its own shape, which changes nothing. -/
theorem slab_self_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (x : FVec Ideal ⟨2, ![A, K]⟩ .f32) (w : FVec Ideal ⟨3, ![1, K, B]⟩ .f32) (b : FVec Ideal ⟨2, ![1, B]⟩ .f32)
    (h0 : (⟨2, ![A, K]⟩ : Shape).ShapeCasts ⟨2, ![A, K]⟩)
    (hx : FTy.bits .bf16 < FTy.bits .f32) (hw : FTy.bits .bf16 < FTy.bits .f32)
    (h1 : (⟨3, ![1, K, B]⟩ : Shape).ShapeCasts ⟨2, ![K, B]⟩)
    (h2 : (⟨2, ![1, B]⟩ : Shape).ShapeCasts ⟨1, ![B]⟩)
    (h3 : (⟨1, ![B]⟩ : Shape).ShapeCasts ⟨2, ![1, B]⟩)
    (h4 : (⟨2, ![1, B]⟩ : Shape).Broadcasts ⟨2, ![A, B]⟩)
    (h5 : (⟨2, ![A, B]⟩ : Shape).ShapeCasts ⟨3, ![1, A, B]⟩)
    (u : Fin 1) (p : Fin A) (q : Fin B) :
    shapeCast ⟨3, ![1, A, B]⟩
        (addf (matmul D none (truncf .bf16 (shapeCast ⟨2, ![A, K]⟩ x h0) hx) (truncf .bf16 (shapeCast ⟨2, ![K, B]⟩ w h1) hw)
                (constant ⟨2, ![A, B]⟩ .f32 0x00000000#32))
              (broadcastTo ⟨2, ![A, B]⟩ (shapeCast ⟨2, ![1, B]⟩ (shapeCast ⟨1, ![B]⟩ b h2) h3) h4)) h5 (ix3 u p q)
      = (∑ k : Fin K, x (ix2 p k) * w (ix3 (0 : Fin 1) k q)) + b (ix2 (0 : Fin 1) q) := by
  rw [shapeCast_self x h0]
  exact slab_apply D wf hD x w b hx hw h1 h2 h3 h4 h5 u p q

end Cert.Lib

end
-- ==== Proof.KRegion0.lean ====
/-
  What one row-tiled dense layer leaves in its output array, as one function of its three input arrays.

  The layer maps each of 500000 rows x of 128 entries to x W + b with W of 128 by 16 and b of 16 entries, the weight
  and the bias given as stacks of one slab.  The rows are handled in 125 tiles of 4000; each tile's result is written
  to the tile's rows of the output, and the tiles cover the output.  Entry (0, p, q) of the output is therefore
  (sum over k < 128 of x (p, k) * W (0, k, q)) + b (0, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 0: a dense layer, 500000 rows in 125 tiles of 4000, 128 inputs, 16 outputs, one slab -/

/-- What the body leaves in its output block, entry by entry: row r of the row tile through the affine map. -/
theorem out0_apply (x0 : Vec Ideal S4000x128 .f32) (x1 : Vec Ideal S1x128x16 .f32) (x2 : Vec Ideal S1x16 .f32)
    (u : Fin 1) (r : Fin 4000) (q : Fin 16) :
    Gen.out0_3 x0 x1 x2 (ix3 u r q)
      = (∑ k : Fin 128, x0 (ix2 r k) * x1 (ix3 (0 : Fin 1) k q)) + x2 (ix2 (0 : Fin 1) q) := by
  unfold Gen.out0_3
  rw [View.canon_unit_zero hz3]
  simp only [View.ld_unit_zero (S := S4000x128) hz2, View.ld_unit_zero (S := S1x128x16) hz3, View.ld_unit_zero (S := S1x16) hz2]
  unfold Gen.k0_pay1
  exact Cert.Lib.slab_apply dot_S4000x128_S128x16_S4000x16_1_0_0_1_n_n dot_S4000x128_S128x16_S4000x16_1_0_0_1_n_n.wf rfl x0 x1 x2 _ _ _ _ _ _ _ u r q

/-- The region's three input arrays as it finds them, at their literal types. -/
abbrev in0_0 : FVec Ideal S500000x128 .f32 := V c (Pipeline.arrRef spec0 0)
abbrev in0_1 : FVec Ideal S1x128x16 .f32 := V c (Pipeline.arrRef spec0 1)
abbrev in0_2 : FVec Ideal S1x16 .f32 := V c (Pipeline.arrRef spec0 2)

/-- Row p of the layer's input through the affine map of slab 0, at output column q. -/
def row0 (p : Fin 500000) (q : Fin 16) : Ideal .f32 :=
  (∑ k : Fin 128, in0_0 V c (ix2 p k) * in0_1 V c (ix3 (0 : Fin 1) k q)) + in0_2 V c (ix2 (0 : Fin 1) q)

/-- The whole output array as one function of the three input arrays. -/
def G0 : FVec Ideal S1x500000x16 .f32 := fun j => row0 V c (j 1) (j 2)

/-- The index maps, decided over the grid: the row tile and the output tile move with the point, the weight and
    bias stacks stay. -/
theorem idx_facts0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- The row of the array that row r of tile t is. -/
abbrev rowAt0 (t : Fin cfg0.N) (r : Fin 4000) : Fin 500000 :=
  ⟨t.val * 4000 + r.val, by have := t.isLt; have hN : cfg0.N = 125 := Gen.N_0; omega⟩

/-- What point t writes back is its block of G0. -/
theorem flushed0_eq (t : Fin cfg0.N) :
    (Gen.dat0 V c).flushed 3 t = ((cfg0.win 3).blk t).view.read (Elt Ideal) (G0 V c) := by
  show (cfg0.win 3).cut (grid0.coords t) ((Gen.dat0 V c).after 3 t) = _
  rw [Gen.after0_3]
  obtain ⟨e00, e01, e10, e11, e12, e20, e21, e30, e31, e32⟩ := idx_facts0 t
  funext j
  obtain ⟨u, r, q, rfl⟩ : ∃ (u : Fin 1) (r : Fin 4000) (q : Fin 16), j = ix3 u r q := ⟨j 0, j 1, j 2, eq_ix3 j⟩
  show Gen.out0_3 (Gen.iblk0 V c 0 t) (Gen.iblk0 V c 1 t) (Gen.iblk0 V c 2 t) (ix3 u r q)
    = G0 V c (((cfg0.win 3).blk t).view.emb (ix3 u r q))
  rw [out0_apply]
  have h3 : ((cfg0.win 3).blk t).view.emb (ix3 u r q) = ix3 (0 : Fin 1) (rowAt0 t r) q := by
    funext a; apply Fin.ext
    match a with
    | ⟨0, _⟩ => show win0_3.index t (0 : Fin 3) * 1 + 1 * u.val = 0; rw [e30]; omega
    | ⟨1, _⟩ => show win0_3.index t (1 : Fin 3) * 4000 + 1 * r.val = t.val * 4000 + r.val; rw [e31]; omega
    | ⟨2, _⟩ => show win0_3.index t (2 : Fin 3) * 16 + 1 * q.val = q.val; rw [e32]; omega
  rw [h3]
  show _ = row0 V c (rowAt0 t r) q
  unfold row0
  have h0 : ∀ k : Fin 128, Gen.iblk0 V c 0 t (ix2 r k) = in0_0 V c (ix2 (rowAt0 t r) k) := fun k => by
    show in0_0 V c (((cfg0.win 0).blk t).view.emb (ix2 r k)) = _
    refine congrArg _ ?_
    funext a; apply Fin.ext
    match a with
    | ⟨0, _⟩ => show win0_0.index t (0 : Fin 2) * 4000 + 1 * r.val = t.val * 4000 + r.val; rw [e00]; omega
    | ⟨1, _⟩ => show win0_0.index t (1 : Fin 2) * 128 + 1 * k.val = k.val; rw [e01]; omega
  have h1 : ∀ k : Fin 128, Gen.iblk0 V c 1 t (ix3 (0 : Fin 1) k q) = in0_1 V c (ix3 (0 : Fin 1) k q) := fun k => by
    show in0_1 V c (((cfg0.win 1).blk t).view.emb (ix3 (0 : Fin 1) k q)) = _
    refine congrArg _ ?_
    funext a; apply Fin.ext
    match a with
    | ⟨0, _⟩ => show win0_1.index t (0 : Fin 3) * 1 + 1 * 0 = 0; rw [e10]
    | ⟨1, _⟩ => show win0_1.index t (1 : Fin 3) * 128 + 1 * k.val = k.val; rw [e11]; omega
    | ⟨2, _⟩ => show win0_1.index t (2 : Fin 3) * 16 + 1 * q.val = q.val; rw [e12]; omega
  have h2 : Gen.iblk0 V c 2 t (ix2 (0 : Fin 1) q) = in0_2 V c (ix2 (0 : Fin 1) q) := by
    show in0_2 V c (((cfg0.win 2).blk t).view.emb (ix2 (0 : Fin 1) q)) = _
    refine congrArg _ ?_
    funext a; apply Fin.ext
    match a with
    | ⟨0, _⟩ => show win0_2.index t (0 : Fin 2) * 1 + 1 * 0 = 0; rw [e20]
    | ⟨1, _⟩ => show win0_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover0 (i : S1x500000x16.Idx) :
    ∃ t : Fin cfg0.N, (cfg0.win 3).flush t = true ∧ i ∈ ((cfg0.win 3).blk t).view.set := by
  have hN : cfg0.N = 125 := Gen.N_0
  have h0 : (i 0).val < 1 := (i 0).isLt
  have h1 : (i 1).val < 500000 := (i 1).isLt
  have h2 : (i 2).val < 16 := (i 2).isLt
  have htN : (i 1).val / 4000 < cfg0.N := by rw [hN]; omega
  obtain ⟨e00, e01, e10, e11, e12, e20, e21, e30, e31, e32⟩ := idx_facts0 ⟨(i 1).val / 4000, htN⟩
  refine ⟨⟨(i 1).val / 4000, htN⟩, Gen.flush0_3 _, ?_⟩
  show i ∈ ((View.whole main_v2).slice (win0_3.rect ⟨(i 1).val / 4000, htN⟩)).set
  rw [View.set_slice_whole, Rect.mem_set_unit]
  intro a
  match a with
  | ⟨0, _⟩ => show win0_3.index ⟨(i 1).val / 4000, htN⟩ (0 : Fin 3) * 1 ≤ (i 0).val ∧ (i 0).val < win0_3.index ⟨(i 1).val / 4000, htN⟩ (0 : Fin 3) * 1 + 1; rw [e30]; omega
  | ⟨1, _⟩ => show win0_3.index ⟨(i 1).val / 4000, htN⟩ (1 : Fin 3) * 4000 ≤ (i 1).val ∧ (i 1).val < win0_3.index ⟨(i 1).val / 4000, htN⟩ (1 : Fin 3) * 4000 + 4000; rw [e31]; show (i 1).val / 4000 * 4000 ≤ (i 1).val ∧ (i 1).val < (i 1).val / 4000 * 4000 + 4000; omega
  | ⟨2, _⟩ => show win0_3.index ⟨(i 1).val / 4000, htN⟩ (2 : Fin 3) * 16 ≤ (i 2).val ∧ (i 2).val < win0_3.index ⟨(i 1).val / 4000, htN⟩ (2 : Fin 3) * 16 + 16; rw [e32]; omega

/-- The output array after the region: G0 of the three input arrays as the region finds them. -/
theorem final0_fun : (Gen.dat0 V c).arrAt 3 cfg0.N = G0 V c :=
  (Gen.dat0 V c).arrAt_eq_of_cover 3 (G0 V c) (fun t _ => flushed0_eq V c t) cover0

/-- Entry by entry. -/
theorem final0 (p : Fin 500000) (q : Fin 16) :
    (Gen.dat0 V c).arrAt 3 cfg0.N (ix3 (0 : Fin 1) p q)
      = (∑ k : Fin 128, in0_0 V c (ix2 p k) * in0_1 V c (ix3 (0 : Fin 1) k q)) + in0_2 V c (ix2 (0 : Fin 1) q) :=
  congrFun (final0_fun V c) (ix3 (0 : Fin 1) p q)

end Cert.KernelIdeal.KRegion

end
-- ==== Proof.KRegion1.lean ====
/-
  What one row-tiled dense layer leaves in its output array, as one function of its three input arrays.

  The layer maps each of 100000 rows x of 128 entries to x W + b with W of 128 by 16 and b of 16 entries, the weight
  and the bias given as stacks of one slab.  The rows are handled in 50 tiles of 2000; each tile's result is written
  to the tile's rows of the output, and the tiles cover the output.  Entry (0, p, q) of the output is therefore
  (sum over k < 128 of x (p, k) * W (0, k, q)) + b (0, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 1: a dense layer, 100000 rows in 50 tiles of 2000, 128 inputs, 16 outputs, one slab -/

/-- What the body leaves in its output block, entry by entry: row r of the row tile through the affine map. -/
theorem out1_apply (x0 : Vec Ideal S2000x128 .f32) (x1 : Vec Ideal S1x128x16 .f32) (x2 : Vec Ideal S1x16 .f32)
    (u : Fin 1) (r : Fin 2000) (q : Fin 16) :
    Gen.out1_3 x0 x1 x2 (ix3 u r q)
      = (∑ k : Fin 128, x0 (ix2 r k) * x1 (ix3 (0 : Fin 1) k q)) + x2 (ix2 (0 : Fin 1) q) := by
  unfold Gen.out1_3
  rw [View.canon_unit_zero hz3]
  simp only [View.ld_unit_zero (S := S2000x128) hz2, View.ld_unit_zero (S := S1x128x16) hz3, View.ld_unit_zero (S := S1x16) hz2]
  unfold Gen.k1_pay1
  exact Cert.Lib.slab_apply dot_S2000x128_S128x16_S2000x16_1_0_0_1_n_n dot_S2000x128_S128x16_S2000x16_1_0_0_1_n_n.wf rfl x0 x1 x2 _ _ _ _ _ _ _ u r q

/-- The region's three input arrays as it finds them, at their literal types. -/
abbrev in1_0 : FVec Ideal S100000x128 .f32 := V c (Pipeline.arrRef spec1 0)
abbrev in1_1 : FVec Ideal S1x128x16 .f32 := V c (Pipeline.arrRef spec1 1)
abbrev in1_2 : FVec Ideal S1x16 .f32 := V c (Pipeline.arrRef spec1 2)

/-- Row p of the layer's input through the affine map of slab 0, at output column q. -/
def row1 (p : Fin 100000) (q : Fin 16) : Ideal .f32 :=
  (∑ k : Fin 128, in1_0 V c (ix2 p k) * in1_1 V c (ix3 (0 : Fin 1) k q)) + in1_2 V c (ix2 (0 : Fin 1) q)

/-- The whole output array as one function of the three input arrays. -/
def G1 : FVec Ideal S1x100000x16 .f32 := fun j => row1 V c (j 1) (j 2)

/-- The index maps, decided over the grid: the row tile and the output tile move with the point, the weight and
    bias stacks stay. -/
theorem idx_facts1 : ∀ t : Fin cfg1.N, win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-- The row of the array that row r of tile t is. -/
abbrev rowAt1 (t : Fin cfg1.N) (r : Fin 2000) : Fin 100000 :=
  ⟨t.val * 2000 + r.val, by have := t.isLt; have hN : cfg1.N = 50 := Gen.N_1; omega⟩

/-- What point t writes back is its block of G1. -/
theorem flushed1_eq (t : Fin cfg1.N) :
    (Gen.dat1 V c).flushed 3 t = ((cfg1.win 3).blk t).view.read (Elt Ideal) (G1 V c) := by
  show (cfg1.win 3).cut (grid1.coords t) ((Gen.dat1 V c).after 3 t) = _
  rw [Gen.after1_3]
  obtain ⟨e00, e01, e10, e11, e12, e20, e21, e30, e31, e32⟩ := idx_facts1 t
  funext j
  obtain ⟨u, r, q, rfl⟩ : ∃ (u : Fin 1) (r : Fin 2000) (q : Fin 16), j = ix3 u r q := ⟨j 0, j 1, j 2, eq_ix3 j⟩
  show Gen.out1_3 (Gen.iblk1 V c 0 t) (Gen.iblk1 V c 1 t) (Gen.iblk1 V c 2 t) (ix3 u r q)
    = G1 V c (((cfg1.win 3).blk t).view.emb (ix3 u r q))
  rw [out1_apply]
  have h3 : ((cfg1.win 3).blk t).view.emb (ix3 u r q) = ix3 (0 : Fin 1) (rowAt1 t r) q := by
    funext a; apply Fin.ext
    match a with
    | ⟨0, _⟩ => show win1_3.index t (0 : Fin 3) * 1 + 1 * u.val = 0; rw [e30]; omega
    | ⟨1, _⟩ => show win1_3.index t (1 : Fin 3) * 2000 + 1 * r.val = t.val * 2000 + r.val; rw [e31]; omega
    | ⟨2, _⟩ => show win1_3.index t (2 : Fin 3) * 16 + 1 * q.val = q.val; rw [e32]; omega
  rw [h3]
  show _ = row1 V c (rowAt1 t r) q
  unfold row1
  have h0 : ∀ k : Fin 128, Gen.iblk1 V c 0 t (ix2 r k) = in1_0 V c (ix2 (rowAt1 t r) k) := fun k => by
    show in1_0 V c (((cfg1.win 0).blk t).view.emb (ix2 r k)) = _
    refine congrArg _ ?_
    funext a; apply Fin.ext
    match a with
    | ⟨0, _⟩ => show win1_0.index t (0 : Fin 2) * 2000 + 1 * r.val = t.val * 2000 + r.val; rw [e00]; omega
    | ⟨1, _⟩ => show win1_0.index t (1 : Fin 2) * 128 + 1 * k.val = k.val; rw [e01]; omega
  have h1 : ∀ k : Fin 128, Gen.iblk1 V c 1 t (ix3 (0 : Fin 1) k q) = in1_1 V c (ix3 (0 : Fin 1) k q) := fun k => by
    show in1_1 V c (((cfg1.win 1).blk t).view.emb (ix3 (0 : Fin 1) k q)) = _
    refine congrArg _ ?_
    funext a; apply Fin.ext
    match a with
    | ⟨0, _⟩ => show win1_1.index t (0 : Fin 3) * 1 + 1 * 0 = 0; rw [e10]
    | ⟨1, _⟩ => show win1_1.index t (1 : Fin 3) * 128 + 1 * k.val = k.val; rw [e11]; omega
    | ⟨2, _⟩ => show win1_1.index t (2 : Fin 3) * 16 + 1 * q.val = q.val; rw [e12]; omega
  have h2 : Gen.iblk1 V c 2 t (ix2 (0 : Fin 1) q) = in1_2 V c (ix2 (0 : Fin 1) q) := by
    show in1_2 V c (((cfg1.win 2).blk t).view.emb (ix2 (0 : Fin 1) q)) = _
    refine congrArg _ ?_
    funext a; apply Fin.ext
    match a with
    | ⟨0, _⟩ => show win1_2.index t (0 : Fin 2) * 1 + 1 * 0 = 0; rw [e20]
    | ⟨1, _⟩ => show win1_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover1 (i : S1x100000x16.Idx) :
    ∃ t : Fin cfg1.N, (cfg1.win 3).flush t = true ∧ i ∈ ((cfg1.win 3).blk t).view.set := by
  have hN : cfg1.N = 50 := Gen.N_1
  have h0 : (i 0).val < 1 := (i 0).isLt
  have h1 : (i 1).val < 100000 := (i 1).isLt
  have h2 : (i 2).val < 16 := (i 2).isLt
  have htN : (i 1).val / 2000 < cfg1.N := by rw [hN]; omega
  obtain ⟨e00, e01, e10, e11, e12, e20, e21, e30, e31, e32⟩ := idx_facts1 ⟨(i 1).val / 2000, htN⟩
  refine ⟨⟨(i 1).val / 2000, htN⟩, Gen.flush1_3 _, ?_⟩
  show i ∈ ((View.whole main_v6).slice (win1_3.rect ⟨(i 1).val / 2000, htN⟩)).set
  rw [View.set_slice_whole, Rect.mem_set_unit]
  intro a
  match a with
  | ⟨0, _⟩ => show win1_3.index ⟨(i 1).val / 2000, htN⟩ (0 : Fin 3) * 1 ≤ (i 0).val ∧ (i 0).val < win1_3.index ⟨(i 1).val / 2000, htN⟩ (0 : Fin 3) * 1 + 1; rw [e30]; omega
  | ⟨1, _⟩ => show win1_3.index ⟨(i 1).val / 2000, htN⟩ (1 : Fin 3) * 2000 ≤ (i 1).val ∧ (i 1).val < win1_3.index ⟨(i 1).val / 2000, htN⟩ (1 : Fin 3) * 2000 + 2000; rw [e31]; show (i 1).val / 2000 * 2000 ≤ (i 1).val ∧ (i 1).val < (i 1).val / 2000 * 2000 + 2000; omega
  | ⟨2, _⟩ => show win1_3.index ⟨(i 1).val / 2000, htN⟩ (2 : Fin 3) * 16 ≤ (i 2).val ∧ (i 2).val < win1_3.index ⟨(i 1).val / 2000, htN⟩ (2 : Fin 3) * 16 + 16; rw [e32]; omega

/-- The output array after the region: G1 of the three input arrays as the region finds them. -/
theorem final1_fun : (Gen.dat1 V c).arrAt 3 cfg1.N = G1 V c :=
  (Gen.dat1 V c).arrAt_eq_of_cover 3 (G1 V c) (fun t _ => flushed1_eq V c t) cover1

/-- Entry by entry. -/
theorem final1 (p : Fin 100000) (q : Fin 16) :
    (Gen.dat1 V c).arrAt 3 cfg1.N (ix3 (0 : Fin 1) p q)
      = (∑ k : Fin 128, in1_0 V c (ix2 p k) * in1_1 V c (ix3 (0 : Fin 1) k q)) + in1_2 V c (ix2 (0 : Fin 1) q) :=
  congrFun (final1_fun V c) (ix3 (0 : Fin 1) p q)

end Cert.KernelIdeal.KRegion

end
-- ==== Proof.KRegion2.lean ====
/-
  What three row-tiled dense layers on one input leave in their output array, as one function of the three input arrays.

  For each slab e < 3 the layers map each of 1000000 rows x of 128 entries to x W[e] + b[e], with a weight stack W of three
  128 by 16 slabs and a bias stack b of three slabs of 16 entries.  The rows are handled in 125 tiles of 8000; for each
  tile the body stores the three slabs' results one after the other, each into its slab of the tile's output block,
  and the tiles cover the output.  Entry (e, p, q) of the output is therefore
  (sum over k < 128 of x (p, k) * W (e, k, q)) + b (e, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 2: three dense layers on one input, 1000000 rows in 125 tiles of 8000, 128 inputs, 16 outputs, three slabs -/

/-- Row r of a row tile through the affine map of slab e, at output column q. -/
def slab2 (x0 : Vec Ideal S8000x128 .f32) (x1 : Vec Ideal S3x128x16 .f32) (x2 : Vec Ideal S3x16 .f32)
    (e : Fin 3) (r : Fin 8000) (q : Fin 16) : Ideal .f32 :=
  (∑ k : Fin 128, x0 (ix2 r k) * x1 (ix3 e k q)) + x2 (ix2 e q)

/-- The body's store into slab 0 of its output block, entry by entry. -/
theorem piece2_0 (x0 : Vec Ideal S8000x128 .f32) (x1 : Vec Ideal S3x128x16 .f32) (x2 : Vec Ideal S3x16 .f32)
    (u : Fin 1) (r : Fin 8000) (q : Fin 16) :
    (Gen.k2_pay3 (View.ld x0 Gen.r2_0) (View.ld x1 Gen.r2_1) (View.ld x2 Gen.r2_2)) (ix3 u r q) = slab2 x0 x1 x2 (0 : Fin 3) r q := by
  simp only [View.ld_unit_zero (S := S8000x128) hz2]
  unfold Gen.k2_pay3 Gen.k2_pay2
  refine (Cert.Lib.slab_apply dot_S8000x128_S128x16_S8000x16_1_0_0_1_n_n dot_S8000x128_S128x16_S8000x16_1_0_0_1_n_n.wf rfl x0 (View.ld x1 Gen.r2_1) (View.ld x2 Gen.r2_2) _ _ _ _ _ _ _ u r q).trans ?_
  unfold slab2
  refine congrArg₂ (· + ·) (Finset.sum_congr rfl fun k _ => ?_) ?_
  · show x0 (ix2 r k) * x1 (Gen.r2_1.idx (ix3 (0 : Fin 1) k q)) = x0 (ix2 r k) * x1 (ix3 (0 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r2_2.idx (ix2 (0 : Fin 1) q)) = x2 (ix2 (0 : Fin 3) q)
    refine congrArg x2 ?_
    funext a; apply Fin.ext
    match a with
    | ⟨0, _⟩ => rfl
    | ⟨1, _⟩ => show 0 + 1 * q.val = q.val; omega

/-- The body's store into slab 1 of its output block, entry by entry. -/
theorem piece2_1 (x0 : Vec Ideal S8000x128 .f32) (x1 : Vec Ideal S3x128x16 .f32) (x2 : Vec Ideal S3x16 .f32)
    (u : Fin 1) (r : Fin 8000) (q : Fin 16) :
    (Gen.k2_pay4 (View.ld x0 Gen.r2_0) (View.ld x1 Gen.r2_4) (View.ld x2 Gen.r2_5)) (ix3 u r q) = slab2 x0 x1 x2 (1 : Fin 3) r q := by
  simp only [View.ld_unit_zero (S := S8000x128) hz2]
  unfold Gen.k2_pay4 Gen.k2_pay2
  refine (Cert.Lib.slab_apply dot_S8000x128_S128x16_S8000x16_1_0_0_1_n_n dot_S8000x128_S128x16_S8000x16_1_0_0_1_n_n.wf rfl x0 (View.ld x1 Gen.r2_4) (View.ld x2 Gen.r2_5) _ _ _ _ _ _ _ u r q).trans ?_
  unfold slab2
  refine congrArg₂ (· + ·) (Finset.sum_congr rfl fun k _ => ?_) ?_
  · show x0 (ix2 r k) * x1 (Gen.r2_4.idx (ix3 (0 : Fin 1) k q)) = x0 (ix2 r k) * x1 (ix3 (1 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r2_5.idx (ix2 (0 : Fin 1) q)) = x2 (ix2 (1 : Fin 3) q)
    refine congrArg x2 ?_
    funext a; apply Fin.ext
    match a with
    | ⟨0, _⟩ => rfl
    | ⟨1, _⟩ => show 0 + 1 * q.val = q.val; omega

/-- The body's store into slab 2 of its output block, entry by entry. -/
theorem piece2_2 (x0 : Vec Ideal S8000x128 .f32) (x1 : Vec Ideal S3x128x16 .f32) (x2 : Vec Ideal S3x16 .f32)
    (u : Fin 1) (r : Fin 8000) (q : Fin 16) :
    (Gen.k2_pay1 (Gen.k2_pay5 (View.ld x0 Gen.r2_0) (View.ld x1 Gen.r2_7)) (View.ld x2 Gen.r2_8)) (ix3 u r q) = slab2 x0 x1 x2 (2 : Fin 3) r q := by
  simp only [View.ld_unit_zero (S := S8000x128) hz2]
  unfold Gen.k2_pay1 Gen.k2_pay5 Gen.k2_pay2
  refine (Cert.Lib.slab_apply dot_S8000x128_S128x16_S8000x16_1_0_0_1_n_n dot_S8000x128_S128x16_S8000x16_1_0_0_1_n_n.wf rfl x0 (View.ld x1 Gen.r2_7) (View.ld x2 Gen.r2_8) _ _ _ _ _ _ _ u r q).trans ?_
  unfold slab2
  refine congrArg₂ (· + ·) (Finset.sum_congr rfl fun k _ => ?_) ?_
  · show x0 (ix2 r k) * x1 (Gen.r2_7.idx (ix3 (0 : Fin 1) k q)) = x0 (ix2 r k) * x1 (ix3 (2 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r2_8.idx (ix2 (0 : Fin 1) q)) = x2 (ix2 (2 : Fin 3) q)
    refine congrArg x2 ?_
    funext a; apply Fin.ext
    match a with
    | ⟨0, _⟩ => rfl
    | ⟨1, _⟩ => show 0 + 1 * q.val = q.val; omega

/-- What the body leaves in its output block, entry by entry: its three stores are the three slabs of one function,
    and they cover the block. -/
theorem out2_apply (x0 : Vec Ideal S8000x128 .f32) (x1 : Vec Ideal S3x128x16 .f32) (x2 : Vec Ideal S3x16 .f32)
    (e : Fin 3) (r : Fin 8000) (q : Fin 16) :
    Gen.out2_3 x0 x1 x2 (ix3 e r q)
      = (∑ k : Fin 128, x0 (ix2 r k) * x1 (ix3 e k q)) + x2 (ix2 e q) := by
  unfold Gen.out2_3
  refine (View.canon_apply_of_pieces (fun y => slab2 x0 x1 x2 (y 0) (y 1) (y 2)) _ ?_ (ix3 e r q) (Gen.cover2_3 _ _ _ _)).trans rfl
  refine Cert.Lib.forall_mem_three ?_ ?_ ?_
  · intro x
    obtain ⟨u, r', q', rfl⟩ : ∃ (u : Fin 1) (r' : Fin 8000) (q' : Fin 16), x = ix3 u r' q' := ⟨x 0, x 1, x 2, eq_ix3 x⟩
    have hemb : Gen.r2_9.emb (ix3 u r' q') = ix3 (2 : Fin 3) r' q' := by
      funext a; apply Fin.ext
      match a with
      | ⟨0, _⟩ => show 2 + 1 * u.val = 2; omega
      | ⟨1, _⟩ => show 0 + 1 * r'.val = r'.val; omega
      | ⟨2, _⟩ => show 0 + 1 * q'.val = q'.val; omega
    show (Gen.k2_pay1 (Gen.k2_pay5 (View.ld x0 Gen.r2_0) (View.ld x1 Gen.r2_7)) (View.ld x2 Gen.r2_8)) (ix3 u r' q')
      = slab2 x0 x1 x2 ((Gen.r2_9.emb (ix3 u r' q')) 0) ((Gen.r2_9.emb (ix3 u r' q')) 1) ((Gen.r2_9.emb (ix3 u r' q')) 2)
    rw [hemb]
    exact piece2_2 x0 x1 x2 u r' q'
  · intro x
    obtain ⟨u, r', q', rfl⟩ : ∃ (u : Fin 1) (r' : Fin 8000) (q' : Fin 16), x = ix3 u r' q' := ⟨x 0, x 1, x 2, eq_ix3 x⟩
    have hemb : Gen.r2_6.emb (ix3 u r' q') = ix3 (1 : Fin 3) r' q' := by
      funext a; apply Fin.ext
      match a with
      | ⟨0, _⟩ => show 1 + 1 * u.val = 1; omega
      | ⟨1, _⟩ => show 0 + 1 * r'.val = r'.val; omega
      | ⟨2, _⟩ => show 0 + 1 * q'.val = q'.val; omega
    show (Gen.k2_pay4 (View.ld x0 Gen.r2_0) (View.ld x1 Gen.r2_4) (View.ld x2 Gen.r2_5)) (ix3 u r' q')
      = slab2 x0 x1 x2 ((Gen.r2_6.emb (ix3 u r' q')) 0) ((Gen.r2_6.emb (ix3 u r' q')) 1) ((Gen.r2_6.emb (ix3 u r' q')) 2)
    rw [hemb]
    exact piece2_1 x0 x1 x2 u r' q'
  · intro x
    obtain ⟨u, r', q', rfl⟩ : ∃ (u : Fin 1) (r' : Fin 8000) (q' : Fin 16), x = ix3 u r' q' := ⟨x 0, x 1, x 2, eq_ix3 x⟩
    have hemb : Gen.r2_3.emb (ix3 u r' q') = ix3 (0 : Fin 3) r' q' := by
      funext a; apply Fin.ext
      match a with
      | ⟨0, _⟩ => show 0 + 1 * u.val = 0; omega
      | ⟨1, _⟩ => show 0 + 1 * r'.val = r'.val; omega
      | ⟨2, _⟩ => show 0 + 1 * q'.val = q'.val; omega
    show (Gen.k2_pay3 (View.ld x0 Gen.r2_0) (View.ld x1 Gen.r2_1) (View.ld x2 Gen.r2_2)) (ix3 u r' q')
      = slab2 x0 x1 x2 ((Gen.r2_3.emb (ix3 u r' q')) 0) ((Gen.r2_3.emb (ix3 u r' q')) 1) ((Gen.r2_3.emb (ix3 u r' q')) 2)
    rw [hemb]
    exact piece2_0 x0 x1 x2 u r' q'

/-- The region's three input arrays as it finds them, at their literal types. -/
abbrev in2_0 : FVec Ideal S1000000x128 .f32 := V c (Pipeline.arrRef spec2 0)
abbrev in2_1 : FVec Ideal S3x128x16 .f32 := V c (Pipeline.arrRef spec2 1)
abbrev in2_2 : FVec Ideal S3x16 .f32 := V c (Pipeline.arrRef spec2 2)

/-- Row p of the layers' input through the affine map of slab e, at output column q. -/
def row2 (e : Fin 3) (p : Fin 1000000) (q : Fin 16) : Ideal .f32 :=
  (∑ k : Fin 128, in2_0 V c (ix2 p k) * in2_1 V c (ix3 e k q)) + in2_2 V c (ix2 e q)

/-- The whole output array as one function of the three input arrays. -/
def G2 : FVec Ideal S3x1000000x16 .f32 := fun j => row2 V c (j 0) (j 1) (j 2)

/-- The index maps, decided over the grid: the row tile and the output tile move with the point, the weight and
    bias stacks stay. -/
theorem idx_facts2 : ∀ t : Fin cfg2.N, win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = 0 ∧ win2_3.index t (1 : Fin 3) = t.val ∧ win2_3.index t (2 : Fin 3) = 0 :=
  (by decide +kernel : ∀ t : Fin grid2.N, _)

/-- The row of the array that row r of tile t is. -/
abbrev rowAt2 (t : Fin cfg2.N) (r : Fin 8000) : Fin 1000000 :=
  ⟨t.val * 8000 + r.val, by have := t.isLt; have hN : cfg2.N = 125 := Gen.N_2; omega⟩

/-- What point t writes back is its block of G2. -/
theorem flushed2_eq (t : Fin cfg2.N) :
    (Gen.dat2 V c).flushed 3 t = ((cfg2.win 3).blk t).view.read (Elt Ideal) (G2 V c) := by
  show (cfg2.win 3).cut (grid2.coords t) ((Gen.dat2 V c).after 3 t) = _
  rw [Gen.after2_3]
  obtain ⟨e00, e01, e10, e11, e12, e20, e21, e30, e31, e32⟩ := idx_facts2 t
  funext j
  obtain ⟨e, r, q, rfl⟩ : ∃ (e : Fin 3) (r : Fin 8000) (q : Fin 16), j = ix3 e r q := ⟨j 0, j 1, j 2, eq_ix3 j⟩
  show Gen.out2_3 (Gen.iblk2 V c 0 t) (Gen.iblk2 V c 1 t) (Gen.iblk2 V c 2 t) (ix3 e r q)
    = G2 V c (((cfg2.win 3).blk t).view.emb (ix3 e r q))
  rw [out2_apply]
  have h3 : ((cfg2.win 3).blk t).view.emb (ix3 e r q) = ix3 e (rowAt2 t r) q := by
    funext a; apply Fin.ext
    match a with
    | ⟨0, _⟩ => show win2_3.index t (0 : Fin 3) * 3 + 1 * e.val = e.val; rw [e30]; omega
    | ⟨1, _⟩ => show win2_3.index t (1 : Fin 3) * 8000 + 1 * r.val = t.val * 8000 + r.val; rw [e31]; omega
    | ⟨2, _⟩ => show win2_3.index t (2 : Fin 3) * 16 + 1 * q.val = q.val; rw [e32]; omega
  rw [h3]
  show _ = row2 V c e (rowAt2 t r) q
  unfold row2
  have h0 : ∀ k : Fin 128, Gen.iblk2 V c 0 t (ix2 r k) = in2_0 V c (ix2 (rowAt2 t r) k) := fun k => by
    show in2_0 V c (((cfg2.win 0).blk t).view.emb (ix2 r k)) = _
    refine congrArg _ ?_
    funext a; apply Fin.ext
    match a with
    | ⟨0, _⟩ => show win2_0.index t (0 : Fin 2) * 8000 + 1 * r.val = t.val * 8000 + r.val; rw [e00]; omega
    | ⟨1, _⟩ => show win2_0.index t (1 : Fin 2) * 128 + 1 * k.val = k.val; rw [e01]; omega
  have h1 : ∀ k : Fin 128, Gen.iblk2 V c 1 t (ix3 e k q) = in2_1 V c (ix3 e k q) := fun k => by
    show in2_1 V c (((cfg2.win 1).blk t).view.emb (ix3 e k q)) = _
    refine congrArg _ ?_
    funext a; apply Fin.ext
    match a with
    | ⟨0, _⟩ => show win2_1.index t (0 : Fin 3) * 3 + 1 * e.val = e.val; rw [e10]; omega
    | ⟨1, _⟩ => show win2_1.index t (1 : Fin 3) * 128 + 1 * k.val = k.val; rw [e11]; omega
    | ⟨2, _⟩ => show win2_1.index t (2 : Fin 3) * 16 + 1 * q.val = q.val; rw [e12]; omega
  have h2 : Gen.iblk2 V c 2 t (ix2 e q) = in2_2 V c (ix2 e q) := by
    show in2_2 V c (((cfg2.win 2).blk t).view.emb (ix2 e q)) = _
    refine congrArg _ ?_
    funext a; apply Fin.ext
    match a with
    | ⟨0, _⟩ => show win2_2.index t (0 : Fin 2) * 3 + 1 * e.val = e.val; rw [e20]; omega
    | ⟨1, _⟩ => show win2_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover2 (i : S3x1000000x16.Idx) :
    ∃ t : Fin cfg2.N, (cfg2.win 3).flush t = true ∧ i ∈ ((cfg2.win 3).blk t).view.set := by
  have hN : cfg2.N = 125 := Gen.N_2
  have h0 : (i 0).val < 3 := (i 0).isLt
  have h1 : (i 1).val < 1000000 := (i 1).isLt
  have h2 : (i 2).val < 16 := (i 2).isLt
  have htN : (i 1).val / 8000 < cfg2.N := by rw [hN]; omega
  obtain ⟨e00, e01, e10, e11, e12, e20, e21, e30, e31, e32⟩ := idx_facts2 ⟨(i 1).val / 8000, htN⟩
  refine ⟨⟨(i 1).val / 8000, htN⟩, Gen.flush2_3 _, ?_⟩
  show i ∈ ((View.whole main_v10).slice (win2_3.rect ⟨(i 1).val / 8000, htN⟩)).set
  rw [View.set_slice_whole, Rect.mem_set_unit]
  intro a
  match a with
  | ⟨0, _⟩ => show win2_3.index ⟨(i 1).val / 8000, htN⟩ (0 : Fin 3) * 3 ≤ (i 0).val ∧ (i 0).val < win2_3.index ⟨(i 1).val / 8000, htN⟩ (0 : Fin 3) * 3 + 3; rw [e30]; omega
  | ⟨1, _⟩ => show win2_3.index ⟨(i 1).val / 8000, htN⟩ (1 : Fin 3) * 8000 ≤ (i 1).val ∧ (i 1).val < win2_3.index ⟨(i 1).val / 8000, htN⟩ (1 : Fin 3) * 8000 + 8000; rw [e31]; show (i 1).val / 8000 * 8000 ≤ (i 1).val ∧ (i 1).val < (i 1).val / 8000 * 8000 + 8000; omega
  | ⟨2, _⟩ => show win2_3.index ⟨(i 1).val / 8000, htN⟩ (2 : Fin 3) * 16 ≤ (i 2).val ∧ (i 2).val < win2_3.index ⟨(i 1).val / 8000, htN⟩ (2 : Fin 3) * 16 + 16; rw [e32]; omega

/-- The output array after the region: G2 of the three input arrays as the region finds them. -/
theorem final2_fun : (Gen.dat2 V c).arrAt 3 cfg2.N = G2 V c :=
  (Gen.dat2 V c).arrAt_eq_of_cover 3 (G2 V c) (fun t _ => flushed2_eq V c t) cover2

/-- Entry by entry. -/
theorem final2 (e : Fin 3) (p : Fin 1000000) (q : Fin 16) :
    (Gen.dat2 V c).arrAt 3 cfg2.N (ix3 e p q)
      = (∑ k : Fin 128, in2_0 V c (ix2 p k) * in2_1 V c (ix3 e k q)) + in2_2 V c (ix2 e q) :=
  congrFun (final2_fun V c) (ix3 e p q)

end Cert.KernelIdeal.KRegion

end
-- ==== Proof.Dense0.lean ====
/-
  Layer 0's dense maps, kernel program against reference, as whole arrays.

  A region of the kernel program leaves in its output array, at (e, p, q), the sum over k of x (p, k) · w (e, k, q)
  plus b (e, q), where w and b are the slabs the host cut out of the weight and bias stacks before the region.  The
  reference computes the same sums by a matrix product of x with the slot's weight matrix plus the slot's bias row
  repeated along the rows.  So, the rows x being equal on the two sides, the region's output (its unit axis dropped,
  or one member of its three slabs) and the reference's dense map are equal, entry by entry: the two sums have the same
  terms in the same order.
-/
import proofs.«154745_j79044578115861_1_alg».proof.Proof.KChainB
import proofs.«154745_j79044578115861_1_alg».proof.Proof.KLayout
import proofs.«154745_j79044578115861_1_alg».proof.Proof.RefLin
import proofs.«154745_j79044578115861_1_alg».proof.Proof.RefRead
import proofs.«154745_j79044578115861_1_alg».proof.Proof.KRegion0
import proofs.«154745_j79044578115861_1_alg».proof.Proof.KRegion1
import proofs.«154745_j79044578115861_1_alg».proof.Proof.KRegion2

set_option maxRecDepth 16384

noncomputable section

namespace Cert.Proof.Dense

open Idealize.ShloMosaic Idealize.ShloMosaic.TcCoe Idealize.SL.Sem Idealize.ShloMosaic.StableHlo Idealize.ShloMosaic.ValueIdx
open scoped BigOperators
open Cert.KernelIdeal Cert.KernelIdeal.Gen Cert.KernelIdeal.KChain

variable (m : (ℓ : Loc nD τ sig) → Buf (Elt Ideal) ℓ) (ρ : Dev nD → PrngReg) (c : Dev nD)

/-- Layer 0, the card rows: the region's output with its unit axis dropped is the reference's dense map of slot 0 — entry (p, q) of both is the sum over k of x (p, k) · W (0, k, q), plus b (0, q). -/
theorem dense0_c (UR : Valuation Cert.ReferenceIdeal.τ Cert.ReferenceIdeal.sig (Elt Ideal))
    (hx : UR (Proc.devRef .tc Cert.ReferenceIdeal.main_arg1) = m ((c : Thread nD τ).loc main_arg1))
    (hW : UR (Proc.devRef .tc Cert.ReferenceIdeal.main_arg3) = m ((c : Thread nD τ).loc main_arg3))
    (hb : UR (Proc.devRef .tc Cert.ReferenceIdeal.main_arg4) = m ((c : Thread nD τ).loc main_arg4)) :
    W3 m ρ c (Proc.devRef .tc main_v3)
      = StableHlo.after Cert.ReferenceIdeal.RefRun.ops0 UR (Proc.devRef .tc Cert.ReferenceIdeal.main_v7) := by
  rw [Cert.ReferenceIdeal.RefRead.ops0_v7 UR, hx, hW, hb]
  rw [W3_v3_raw m ρ c, W2_out m ρ c]
  funext j
  obtain ⟨p, q, rfl⟩ : ∃ (p : Fin 500000) (q : Fin 16), j = ix2 p q := ⟨j 0, j 1, eq_ix2 j⟩
  rw [Cert.KernelIdeal.KLayout.out500000_apply, Cert.KernelIdeal.KRegion.final0 (V1 m ρ) c p q]
  rw [Cert.ReferenceIdeal.RefLin.lin_128_0_apply]
  have e0 : Cert.KernelIdeal.KRegion.in0_0 (V1 m ρ) c = m ((c : Thread nD τ).loc main_arg1) := W1_arg1 m ρ c
  have e1 : Cert.KernelIdeal.KRegion.in0_1 (V1 m ρ) c = _ := W1_v0 m ρ c
  have e2 : Cert.KernelIdeal.KRegion.in0_2 (V1 m ρ) c = _ := W1_v1 m ρ c
  rw [e0, e1, e2]
  simp only [Cert.KernelIdeal.KLayout.w128_slot0_apply, Cert.KernelIdeal.KLayout.b_slot0_apply]

/-- Layer 0, the merchant rows: slot 1. -/
theorem dense0_m (UR : Valuation Cert.ReferenceIdeal.τ Cert.ReferenceIdeal.sig (Elt Ideal))
    (hx : UR (Proc.devRef .tc Cert.ReferenceIdeal.main_arg2) = m ((c : Thread nD τ).loc main_arg2))
    (hW : UR (Proc.devRef .tc Cert.ReferenceIdeal.main_arg3) = m ((c : Thread nD τ).loc main_arg3))
    (hb : UR (Proc.devRef .tc Cert.ReferenceIdeal.main_arg4) = m ((c : Thread nD τ).loc main_arg4)) :
    W5 m ρ c (Proc.devRef .tc main_v7)
      = StableHlo.after Cert.ReferenceIdeal.RefRun.ops0 UR (Proc.devRef .tc Cert.ReferenceIdeal.main_v15) := by
  rw [Cert.ReferenceIdeal.RefRead.ops0_v15 UR, hx, hW, hb]
  rw [W5_v7_raw m ρ c, W4_out m ρ c]
  funext j
  obtain ⟨p, q, rfl⟩ : ∃ (p : Fin 100000) (q : Fin 16), j = ix2 p q := ⟨j 0, j 1, eq_ix2 j⟩
  rw [Cert.KernelIdeal.KLayout.out100000_apply, Cert.KernelIdeal.KRegion.final1 (V3 m ρ) c p q]
  rw [Cert.ReferenceIdeal.RefLin.lin_128_1_apply]
  have e0 : Cert.KernelIdeal.KRegion.in1_0 (V3 m ρ) c = m ((c : Thread nD τ).loc main_arg2) := W3_arg2 m ρ c
  have e1 : Cert.KernelIdeal.KRegion.in1_1 (V3 m ρ) c = _ := W3_v4 m ρ c
  have e2 : Cert.KernelIdeal.KRegion.in1_2 (V3 m ρ) c = _ := W3_v5 m ρ c
  rw [e0, e1, e2]
  simp only [Cert.KernelIdeal.KLayout.w128_slot1_apply, Cert.KernelIdeal.KLayout.b_slot1_apply]

/-- Layer 0, the transaction rows: member 0 of the three-slab output is the reference's dense map of slot 2. -/
theorem dense0_t0 (UR : Valuation Cert.ReferenceIdeal.τ Cert.ReferenceIdeal.sig (Elt Ideal))
    (hx : UR (Proc.devRef .tc Cert.ReferenceIdeal.main_arg0) = m ((c : Thread nD τ).loc main_arg0))
    (hW : UR (Proc.devRef .tc Cert.ReferenceIdeal.main_arg3) = m ((c : Thread nD τ).loc main_arg3))
    (hb : UR (Proc.devRef .tc Cert.ReferenceIdeal.main_arg4) = m ((c : Thread nD τ).loc main_arg4)) :
    shapeCast S1000000x16 (extractStridedSlice S1x1000000x16 ![0, 0, 0] (W6 m ρ c (Proc.devRef .tc main_v10)) slices_S3x1000000x16_S1x1000000x16_0_0_0) shapeCasts_S1x1000000x16_S1000000x16
      = StableHlo.after Cert.ReferenceIdeal.RefRun.ops0 UR (Proc.devRef .tc Cert.ReferenceIdeal.main_v23) := by
  rw [Cert.ReferenceIdeal.RefRead.ops0_v23 UR, hx, hW, hb]
  rw [W6_out m ρ c]
  funext j
  obtain ⟨p, q, rfl⟩ : ∃ (p : Fin 1000000) (q : Fin 16), j = ix2 p q := ⟨j 0, j 1, eq_ix2 j⟩
  rw [Cert.KernelIdeal.KLayout.member0_apply, Cert.KernelIdeal.KRegion.final2 (V5 m ρ) c (0 : Fin 3) p q]
  rw [Cert.ReferenceIdeal.RefLin.lin_128_2_apply]
  have e0 : Cert.KernelIdeal.KRegion.in2_0 (V5 m ρ) c = m ((c : Thread nD τ).loc main_arg0) := W5_arg0 m ρ c
  have e1 : Cert.KernelIdeal.KRegion.in2_1 (V5 m ρ) c = _ := W5_v8 m ρ c
  have e2 : Cert.KernelIdeal.KRegion.in2_2 (V5 m ρ) c = _ := W5_v9 m ρ c
  rw [e0, e1, e2]
  simp only [Cert.KernelIdeal.KLayout.w128_band_apply, Cert.KernelIdeal.KLayout.b_band_apply]
  try rfl

/-- Layer 0, the transaction rows: member 1 of the three-slab output is the reference's dense map of slot 3. -/
theorem dense0_t1 (UR : Valuation Cert.ReferenceIdeal.τ Cert.ReferenceIdeal.sig (Elt Ideal))
    (hx : UR (Proc.devRef .tc Cert.ReferenceIdeal.main_arg0) = m ((c : Thread nD τ).loc main_arg0))
    (hW : UR (Proc.devRef .tc Cert.ReferenceIdeal.main_arg3) = m ((c : Thread nD τ).loc main_arg3))
    (hb : UR (Proc.devRef .tc Cert.ReferenceIdeal.main_arg4) = m ((c : Thread nD τ).loc main_arg4)) :
    shapeCast S1000000x16 (extractStridedSlice S1x1000000x16 ![1, 0, 0] (W6 m ρ c (Proc.devRef .tc main_v10)) slices_S3x1000000x16_S1x1000000x16_1_0_0) shapeCasts_S1x1000000x16_S1000000x16
      = StableHlo.after Cert.ReferenceIdeal.RefRun.ops0 UR (Proc.devRef .tc Cert.ReferenceIdeal.main_v31) := by
  rw [Cert.ReferenceIdeal.RefRead.ops0_v31 UR, hx, hW, hb]
  rw [W6_out m ρ c]
  funext j
  obtain ⟨p, q, rfl⟩ : ∃ (p : Fin 1000000) (q : Fin 16), j = ix2 p q := ⟨j 0, j 1, eq_ix2 j⟩
  rw [Cert.KernelIdeal.KLayout.member1_apply, Cert.KernelIdeal.KRegion.final2 (V5 m ρ) c (1 : Fin 3) p q]
  rw [Cert.ReferenceIdeal.RefLin.lin_128_3_apply]
  have e0 : Cert.KernelIdeal.KRegion.in2_0 (V5 m ρ) c = m ((c : Thread nD τ).loc main_arg0) := W5_arg0 m ρ c
  have e1 : Cert.KernelIdeal.KRegion.in2_1 (V5 m ρ) c = _ := W5_v8 m ρ c
  have e2 : Cert.KernelIdeal.KRegion.in2_2 (V5 m ρ) c = _ := W5_v9 m ρ c
  rw [e0, e1, e2]
  simp only [Cert.KernelIdeal.KLayout.w128_band_apply, Cert.KernelIdeal.KLayout.b_band_apply]
  try rfl

/-- Layer 0, the transaction rows: member 2 of the three-slab output is the reference's dense map of slot 4. -/
theorem dense0_t2 (UR : Valuation Cert.ReferenceIdeal.τ Cert.ReferenceIdeal.sig (Elt Ideal))
    (hx : UR (Proc.devRef .tc Cert.ReferenceIdeal.main_arg0) = m ((c : Thread nD τ).loc main_arg0))
    (hW : UR (Proc.devRef .tc Cert.ReferenceIdeal.main_arg3) = m ((c : Thread nD τ).loc main_arg3))
    (hb : UR (Proc.devRef .tc Cert.ReferenceIdeal.main_arg4) = m ((c : Thread nD τ).loc main_arg4)) :
    shapeCast S1000000x16 (extractStridedSlice S1x1000000x16 ![2, 0, 0] (W6 m ρ c (Proc.devRef .tc main_v10)) slices_S3x1000000x16_S1x1000000x16_2_0_0) shapeCasts_S1x1000000x16_S1000000x16
      = StableHlo.after Cert.ReferenceIdeal.RefRun.ops0 UR (Proc.devRef .tc Cert.ReferenceIdeal.main_v39) := by
  rw [Cert.ReferenceIdeal.RefRead.ops0_v39 UR, hx, hW, hb]
  rw [W6_out m ρ c]
  funext j
  obtain ⟨p, q, rfl⟩ : ∃ (p : Fin 1000000) (q : Fin 16), j = ix2 p q := ⟨j 0, j 1, eq_ix2 j⟩
  rw [Cert.KernelIdeal.KLayout.member2_apply, Cert.KernelIdeal.KRegion.final2 (V5 m ρ) c (2 : Fin 3) p q]
  rw [Cert.ReferenceIdeal.RefLin.lin_128_4_apply]
  have e0 : Cert.KernelIdeal.KRegion.in2_0 (V5 m ρ) c = m ((c : Thread nD τ).loc main_arg0) := W5_arg0 m ρ c
  have e1 : Cert.KernelIdeal.KRegion.in2_1 (V5 m ρ) c = _ := W5_v8 m ρ c
  have e2 : Cert.KernelIdeal.KRegion.in2_2 (V5 m ρ) c = _ := W5_v9 m ρ c
  rw [e0, e1, e2]
  simp only [Cert.KernelIdeal.KLayout.w128_band_apply, Cert.KernelIdeal.KLayout.b_band_apply]
  try rfl

end Cert.Proof.Dense

end
-- ==== Proof.KRegion3.lean ====
/-
  What one row-tiled dense layer leaves in its output array, as one function of its three input arrays.

  The layer maps each of 500000 rows x of 16 entries to x W + b with W of 16 by 16 and b of 16 entries, the weight
  and the bias given as stacks of one slab.  The rows are handled in 125 tiles of 4000; each tile's result is written
  to the tile's rows of the output, and the tiles cover the output.  Entry (0, p, q) of the output is therefore
  (sum over k < 16 of x (p, k) * W (0, k, q)) + b (0, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 3: a dense layer, 500000 rows in 125 tiles of 4000, 16 inputs, 16 outputs, one slab -/

/-- What the body leaves in its output block, entry by entry: row r of the row tile through the affine map. -/
theorem out3_apply (x0 : Vec Ideal S4000x16 .f32) (x1 : Vec Ideal S1x16x16 .f32) (x2 : Vec Ideal S1x16 .f32)
    (u : Fin 1) (r : Fin 4000) (q : Fin 16) :
    Gen.out3_3 x0 x1 x2 (ix3 u r q)
      = (∑ k : Fin 16, x0 (ix2 r k) * x1 (ix3 (0 : Fin 1) k q)) + x2 (ix2 (0 : Fin 1) q) := by
  unfold Gen.out3_3
  rw [View.canon_unit_zero hz3]
  simp only [View.ld_unit_zero (S := S4000x16) hz2, View.ld_unit_zero (S := S1x16x16) hz3, View.ld_unit_zero (S := S1x16) hz2]
  unfold Gen.k3_pay1
  exact Cert.Lib.slab_self_apply dot_S4000x16_S16x16_S4000x16_1_0_0_1_n_n dot_S4000x16_S16x16_S4000x16_1_0_0_1_n_n.wf rfl x0 x1 x2 _ _ _ _ _ _ _ _ u r q

/-- The region's three input arrays as it finds them, at their literal types. -/
abbrev in3_0 : FVec Ideal S500000x16 .f32 := V c (Pipeline.arrRef spec3 0)
abbrev in3_1 : FVec Ideal S1x16x16 .f32 := V c (Pipeline.arrRef spec3 1)
abbrev in3_2 : FVec Ideal S1x16 .f32 := V c (Pipeline.arrRef spec3 2)

/-- Row p of the layer's input through the affine map of slab 0, at output column q. -/
def row3 (p : Fin 500000) (q : Fin 16) : Ideal .f32 :=
  (∑ k : Fin 16, in3_0 V c (ix2 p k) * in3_1 V c (ix3 (0 : Fin 1) k q)) + in3_2 V c (ix2 (0 : Fin 1) q)

/-- The whole output array as one function of the three input arrays. -/
def G3 : FVec Ideal S1x500000x16 .f32 := fun j => row3 V c (j 1) (j 2)

/-- The index maps, decided over the grid: the row tile and the output tile move with the point, the weight and
    bias stacks stay. -/
theorem idx_facts3 : ∀ t : Fin cfg3.N, win3_0.index t (0 : Fin 2) = t.val ∧ win3_0.index t (1 : Fin 2) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 3) = 0 ∧ win3_3.index t (1 : Fin 3) = t.val ∧ win3_3.index t (2 : Fin 3) = 0 :=
  (by decide +kernel : ∀ t : Fin grid3.N, _)

/-- The row of the array that row r of tile t is. -/
abbrev rowAt3 (t : Fin cfg3.N) (r : Fin 4000) : Fin 500000 :=
  ⟨t.val * 4000 + r.val, by have := t.isLt; have hN : cfg3.N = 125 := Gen.N_3; omega⟩

/-- What point t writes back is its block of G3. -/
theorem flushed3_eq (t : Fin cfg3.N) :
    (Gen.dat3 V c).flushed 3 t = ((cfg3.win 3).blk t).view.read (Elt Ideal) (G3 V c) := by
  show (cfg3.win 3).cut (grid3.coords t) ((Gen.dat3 V c).after 3 t) = _
  rw [Gen.after3_3]
  obtain ⟨e00, e01, e10, e11, e12, e20, e21, e30, e31, e32⟩ := idx_facts3 t
  funext j
  obtain ⟨u, r, q, rfl⟩ : ∃ (u : Fin 1) (r : Fin 4000) (q : Fin 16), j = ix3 u r q := ⟨j 0, j 1, j 2, eq_ix3 j⟩
  show Gen.out3_3 (Gen.iblk3 V c 0 t) (Gen.iblk3 V c 1 t) (Gen.iblk3 V c 2 t) (ix3 u r q)
    = G3 V c (((cfg3.win 3).blk t).view.emb (ix3 u r q))
  rw [out3_apply]
  have h3 : ((cfg3.win 3).blk t).view.emb (ix3 u r q) = ix3 (0 : Fin 1) (rowAt3 t r) q := by
    funext a; apply Fin.ext
    match a with
    | ⟨0, _⟩ => show win3_3.index t (0 : Fin 3) * 1 + 1 * u.val = 0; rw [e30]; omega
    | ⟨1, _⟩ => show win3_3.index t (1 : Fin 3) * 4000 + 1 * r.val = t.val * 4000 + r.val; rw [e31]; omega
    | ⟨2, _⟩ => show win3_3.index t (2 : Fin 3) * 16 + 1 * q.val = q.val; rw [e32]; omega
  rw [h3]
  show _ = row3 V c (rowAt3 t r) q
  unfold row3
  have h0 : ∀ k : Fin 16, Gen.iblk3 V c 0 t (ix2 r k) = in3_0 V c (ix2 (rowAt3 t r) k) := fun k => by
    show in3_0 V c (((cfg3.win 0).blk t).view.emb (ix2 r k)) = _
    refine congrArg _ ?_
    funext a; apply Fin.ext
    match a with
    | ⟨0, _⟩ => show win3_0.index t (0 : Fin 2) * 4000 + 1 * r.val = t.val * 4000 + r.val; rw [e00]; omega
    | ⟨1, _⟩ => show win3_0.index t (1 : Fin 2) * 16 + 1 * k.val = k.val; rw [e01]; omega
  have h1 : ∀ k : Fin 16, Gen.iblk3 V c 1 t (ix3 (0 : Fin 1) k q) = in3_1 V c (ix3 (0 : Fin 1) k q) := fun k => by
    show in3_1 V c (((cfg3.win 1).blk t).view.emb (ix3 (0 : Fin 1) k q)) = _
    refine congrArg _ ?_
    funext a; apply Fin.ext
    match a with
    | ⟨0, _⟩ => show win3_1.index t (0 : Fin 3) * 1 + 1 * 0 = 0; rw [e10]
    | ⟨1, _⟩ => show win3_1.index t (1 : Fin 3) * 16 + 1 * k.val = k.val; rw [e11]; omega
    | ⟨2, _⟩ => show win3_1.index t (2 : Fin 3) * 16 + 1 * q.val = q.val; rw [e12]; omega
  have h2 : Gen.iblk3 V c 2 t (ix2 (0 : Fin 1) q) = in3_2 V c (ix2 (0 : Fin 1) q) := by
    show in3_2 V c (((cfg3.win 2).blk t).view.emb (ix2 (0 : Fin 1) q)) = _
    refine congrArg _ ?_
    funext a; apply Fin.ext
    match a with
    | ⟨0, _⟩ => show win3_2.index t (0 : Fin 2) * 1 + 1 * 0 = 0; rw [e20]
    | ⟨1, _⟩ => show win3_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover3 (i : S1x500000x16.Idx) :
    ∃ t : Fin cfg3.N, (cfg3.win 3).flush t = true ∧ i ∈ ((cfg3.win 3).blk t).view.set := by
  have hN : cfg3.N = 125 := Gen.N_3
  have h0 : (i 0).val < 1 := (i 0).isLt
  have h1 : (i 1).val < 500000 := (i 1).isLt
  have h2 : (i 2).val < 16 := (i 2).isLt
  have htN : (i 1).val / 4000 < cfg3.N := by rw [hN]; omega
  obtain ⟨e00, e01, e10, e11, e12, e20, e21, e30, e31, e32⟩ := idx_facts3 ⟨(i 1).val / 4000, htN⟩
  refine ⟨⟨(i 1).val / 4000, htN⟩, Gen.flush3_3 _, ?_⟩
  show i ∈ ((View.whole main_v62).slice (win3_3.rect ⟨(i 1).val / 4000, htN⟩)).set
  rw [View.set_slice_whole, Rect.mem_set_unit]
  intro a
  match a with
  | ⟨0, _⟩ => show win3_3.index ⟨(i 1).val / 4000, htN⟩ (0 : Fin 3) * 1 ≤ (i 0).val ∧ (i 0).val < win3_3.index ⟨(i 1).val / 4000, htN⟩ (0 : Fin 3) * 1 + 1; rw [e30]; omega
  | ⟨1, _⟩ => show win3_3.index ⟨(i 1).val / 4000, htN⟩ (1 : Fin 3) * 4000 ≤ (i 1).val ∧ (i 1).val < win3_3.index ⟨(i 1).val / 4000, htN⟩ (1 : Fin 3) * 4000 + 4000; rw [e31]; show (i 1).val / 4000 * 4000 ≤ (i 1).val ∧ (i 1).val < (i 1).val / 4000 * 4000 + 4000; omega
  | ⟨2, _⟩ => show win3_3.index ⟨(i 1).val / 4000, htN⟩ (2 : Fin 3) * 16 ≤ (i 2).val ∧ (i 2).val < win3_3.index ⟨(i 1).val / 4000, htN⟩ (2 : Fin 3) * 16 + 16; rw [e32]; omega

/-- The output array after the region: G3 of the three input arrays as the region finds them. -/
theorem final3_fun : (Gen.dat3 V c).arrAt 3 cfg3.N = G3 V c :=
  (Gen.dat3 V c).arrAt_eq_of_cover 3 (G3 V c) (fun t _ => flushed3_eq V c t) cover3

/-- Entry by entry. -/
theorem final3 (p : Fin 500000) (q : Fin 16) :
    (Gen.dat3 V c).arrAt 3 cfg3.N (ix3 (0 : Fin 1) p q)
      = (∑ k : Fin 16, in3_0 V c (ix2 p k) * in3_1 V c (ix3 (0 : Fin 1) k q)) + in3_2 V c (ix2 (0 : Fin 1) q) :=
  congrFun (final3_fun V c) (ix3 (0 : Fin 1) p q)

end Cert.KernelIdeal.KRegion

end
-- ==== Proof.KRegion4.lean ====
/-
  What one row-tiled dense layer leaves in its output array, as one function of its three input arrays.

  The layer maps each of 100000 rows x of 16 entries to x W + b with W of 16 by 16 and b of 16 entries, the weight
  and the bias given as stacks of one slab.  The rows are handled in 50 tiles of 2000; each tile's result is written
  to the tile's rows of the output, and the tiles cover the output.  Entry (0, p, q) of the output is therefore
  (sum over k < 16 of x (p, k) * W (0, k, q)) + b (0, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 4: a dense layer, 100000 rows in 50 tiles of 2000, 16 inputs, 16 outputs, one slab -/

/-- What the body leaves in its output block, entry by entry: row r of the row tile through the affine map. -/
theorem out4_apply (x0 : Vec Ideal S2000x16 .f32) (x1 : Vec Ideal S1x16x16 .f32) (x2 : Vec Ideal S1x16 .f32)
    (u : Fin 1) (r : Fin 2000) (q : Fin 16) :
    Gen.out4_3 x0 x1 x2 (ix3 u r q)
      = (∑ k : Fin 16, x0 (ix2 r k) * x1 (ix3 (0 : Fin 1) k q)) + x2 (ix2 (0 : Fin 1) q) := by
  unfold Gen.out4_3
  rw [View.canon_unit_zero hz3]
  simp only [View.ld_unit_zero (S := S2000x16) hz2, View.ld_unit_zero (S := S1x16x16) hz3, View.ld_unit_zero (S := S1x16) hz2]
  unfold Gen.k4_pay1
  exact Cert.Lib.slab_self_apply dot_S2000x16_S16x16_S2000x16_1_0_0_1_n_n dot_S2000x16_S16x16_S2000x16_1_0_0_1_n_n.wf rfl x0 x1 x2 _ _ _ _ _ _ _ _ u r q

/-- The region's three input arrays as it finds them, at their literal types. -/
abbrev in4_0 : FVec Ideal S100000x16 .f32 := V c (Pipeline.arrRef spec4 0)
abbrev in4_1 : FVec Ideal S1x16x16 .f32 := V c (Pipeline.arrRef spec4 1)
abbrev in4_2 : FVec Ideal S1x16 .f32 := V c (Pipeline.arrRef spec4 2)

/-- Row p of the layer's input through the affine map of slab 0, at output column q. -/
def row4 (p : Fin 100000) (q : Fin 16) : Ideal .f32 :=
  (∑ k : Fin 16, in4_0 V c (ix2 p k) * in4_1 V c (ix3 (0 : Fin 1) k q)) + in4_2 V c (ix2 (0 : Fin 1) q)

/-- The whole output array as one function of the three input arrays. -/
def G4 : FVec Ideal S1x100000x16 .f32 := fun j => row4 V c (j 1) (j 2)

/-- The index maps, decided over the grid: the row tile and the output tile move with the point, the weight and
    bias stacks stay. -/
theorem idx_facts4 : ∀ t : Fin cfg4.N, win4_0.index t (0 : Fin 2) = t.val ∧ win4_0.index t (1 : Fin 2) = 0
    ∧ win4_1.index t (0 : Fin 3) = 0 ∧ win4_1.index t (1 : Fin 3) = 0 ∧ win4_1.index t (2 : Fin 3) = 0
    ∧ win4_2.index t (0 : Fin 2) = 0 ∧ win4_2.index t (1 : Fin 2) = 0
    ∧ win4_3.index t (0 : Fin 3) = 0 ∧ win4_3.index t (1 : Fin 3) = t.val ∧ win4_3.index t (2 : Fin 3) = 0 :=
  (by decide +kernel : ∀ t : Fin grid4.N, _)

/-- The row of the array that row r of tile t is. -/
abbrev rowAt4 (t : Fin cfg4.N) (r : Fin 2000) : Fin 100000 :=
  ⟨t.val * 2000 + r.val, by have := t.isLt; have hN : cfg4.N = 50 := Gen.N_4; omega⟩

/-- What point t writes back is its block of G4. -/
theorem flushed4_eq (t : Fin cfg4.N) :
    (Gen.dat4 V c).flushed 3 t = ((cfg4.win 3).blk t).view.read (Elt Ideal) (G4 V c) := by
  show (cfg4.win 3).cut (grid4.coords t) ((Gen.dat4 V c).after 3 t) = _
  rw [Gen.after4_3]
  obtain ⟨e00, e01, e10, e11, e12, e20, e21, e30, e31, e32⟩ := idx_facts4 t
  funext j
  obtain ⟨u, r, q, rfl⟩ : ∃ (u : Fin 1) (r : Fin 2000) (q : Fin 16), j = ix3 u r q := ⟨j 0, j 1, j 2, eq_ix3 j⟩
  show Gen.out4_3 (Gen.iblk4 V c 0 t) (Gen.iblk4 V c 1 t) (Gen.iblk4 V c 2 t) (ix3 u r q)
    = G4 V c (((cfg4.win 3).blk t).view.emb (ix3 u r q))
  rw [out4_apply]
  have h3 : ((cfg4.win 3).blk t).view.emb (ix3 u r q) = ix3 (0 : Fin 1) (rowAt4 t r) q := by
    funext a; apply Fin.ext
    match a with
    | ⟨0, _⟩ => show win4_3.index t (0 : Fin 3) * 1 + 1 * u.val = 0; rw [e30]; omega
    | ⟨1, _⟩ => show win4_3.index t (1 : Fin 3) * 2000 + 1 * r.val = t.val * 2000 + r.val; rw [e31]; omega
    | ⟨2, _⟩ => show win4_3.index t (2 : Fin 3) * 16 + 1 * q.val = q.val; rw [e32]; omega
  rw [h3]
  show _ = row4 V c (rowAt4 t r) q
  unfold row4
  have h0 : ∀ k : Fin 16, Gen.iblk4 V c 0 t (ix2 r k) = in4_0 V c (ix2 (rowAt4 t r) k) := fun k => by
    show in4_0 V c (((cfg4.win 0).blk t).view.emb (ix2 r k)) = _
    refine congrArg _ ?_
    funext a; apply Fin.ext
    match a with
    | ⟨0, _⟩ => show win4_0.index t (0 : Fin 2) * 2000 + 1 * r.val = t.val * 2000 + r.val; rw [e00]; omega
    | ⟨1, _⟩ => show win4_0.index t (1 : Fin 2) * 16 + 1 * k.val = k.val; rw [e01]; omega
  have h1 : ∀ k : Fin 16, Gen.iblk4 V c 1 t (ix3 (0 : Fin 1) k q) = in4_1 V c (ix3 (0 : Fin 1) k q) := fun k => by
    show in4_1 V c (((cfg4.win 1).blk t).view.emb (ix3 (0 : Fin 1) k q)) = _
    refine congrArg _ ?_
    funext a; apply Fin.ext
    match a with
    | ⟨0, _⟩ => show win4_1.index t (0 : Fin 3) * 1 + 1 * 0 = 0; rw [e10]
    | ⟨1, _⟩ => show win4_1.index t (1 : Fin 3) * 16 + 1 * k.val = k.val; rw [e11]; omega
    | ⟨2, _⟩ => show win4_1.index t (2 : Fin 3) * 16 + 1 * q.val = q.val; rw [e12]; omega
  have h2 : Gen.iblk4 V c 2 t (ix2 (0 : Fin 1) q) = in4_2 V c (ix2 (0 : Fin 1) q) := by
    show in4_2 V c (((cfg4.win 2).blk t).view.emb (ix2 (0 : Fin 1) q)) = _
    refine congrArg _ ?_
    funext a; apply Fin.ext
    match a with
    | ⟨0, _⟩ => show win4_2.index t (0 : Fin 2) * 1 + 1 * 0 = 0; rw [e20]
    | ⟨1, _⟩ => show win4_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover4 (i : S1x100000x16.Idx) :
    ∃ t : Fin cfg4.N, (cfg4.win 3).flush t = true ∧ i ∈ ((cfg4.win 3).blk t).view.set := by
  have hN : cfg4.N = 50 := Gen.N_4
  have h0 : (i 0).val < 1 := (i 0).isLt
  have h1 : (i 1).val < 100000 := (i 1).isLt
  have h2 : (i 2).val < 16 := (i 2).isLt
  have htN : (i 1).val / 2000 < cfg4.N := by rw [hN]; omega
  obtain ⟨e00, e01, e10, e11, e12, e20, e21, e30, e31, e32⟩ := idx_facts4 ⟨(i 1).val / 2000, htN⟩
  refine ⟨⟨(i 1).val / 2000, htN⟩, Gen.flush4_3 _, ?_⟩
  show i ∈ ((View.whole main_v66).slice (win4_3.rect ⟨(i 1).val / 2000, htN⟩)).set
  rw [View.set_slice_whole, Rect.mem_set_unit]
  intro a
  match a with
  | ⟨0, _⟩ => show win4_3.index ⟨(i 1).val / 2000, htN⟩ (0 : Fin 3) * 1 ≤ (i 0).val ∧ (i 0).val < win4_3.index ⟨(i 1).val / 2000, htN⟩ (0 : Fin 3) * 1 + 1; rw [e30]; omega
  | ⟨1, _⟩ => show win4_3.index ⟨(i 1).val / 2000, htN⟩ (1 : Fin 3) * 2000 ≤ (i 1).val ∧ (i 1).val < win4_3.index ⟨(i 1).val / 2000, htN⟩ (1 : Fin 3) * 2000 + 2000; rw [e31]; show (i 1).val / 2000 * 2000 ≤ (i 1).val ∧ (i 1).val < (i 1).val / 2000 * 2000 + 2000; omega
  | ⟨2, _⟩ => show win4_3.index ⟨(i 1).val / 2000, htN⟩ (2 : Fin 3) * 16 ≤ (i 2).val ∧ (i 2).val < win4_3.index ⟨(i 1).val / 2000, htN⟩ (2 : Fin 3) * 16 + 16; rw [e32]; omega

/-- The output array after the region: G4 of the three input arrays as the region finds them. -/
theorem final4_fun : (Gen.dat4 V c).arrAt 3 cfg4.N = G4 V c :=
  (Gen.dat4 V c).arrAt_eq_of_cover 3 (G4 V c) (fun t _ => flushed4_eq V c t) cover4

/-- Entry by entry. -/
theorem final4 (p : Fin 100000) (q : Fin 16) :
    (Gen.dat4 V c).arrAt 3 cfg4.N (ix3 (0 : Fin 1) p q)
      = (∑ k : Fin 16, in4_0 V c (ix2 p k) * in4_1 V c (ix3 (0 : Fin 1) k q)) + in4_2 V c (ix2 (0 : Fin 1) q) :=
  congrFun (final4_fun V c) (ix3 (0 : Fin 1) p q)

end Cert.KernelIdeal.KRegion

end
-- ==== Proof.KRegion5.lean ====
/-
  What three row-tiled dense layers on one input leave in their output array, as one function of the three input arrays.

  For each slab e < 3 the layers map each of 1000000 rows x of 16 entries to x W[e] + b[e], with a weight stack W of three
  16 by 16 slabs and a bias stack b of three slabs of 16 entries.  The rows are handled in 125 tiles of 8000; for each
  tile the body stores the three slabs' results one after the other, each into its slab of the tile's output block,
  and the tiles cover the output.  Entry (e, p, q) of the output is therefore
  (sum over k < 16 of x (p, k) * W (e, k, q)) + b (e, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 5: three dense layers on one input, 1000000 rows in 125 tiles of 8000, 16 inputs, 16 outputs, three slabs -/

/-- Row r of a row tile through the affine map of slab e, at output column q. -/
def slab5 (x0 : Vec Ideal S8000x16 .f32) (x1 : Vec Ideal S3x16x16 .f32) (x2 : Vec Ideal S3x16 .f32)
    (e : Fin 3) (r : Fin 8000) (q : Fin 16) : Ideal .f32 :=
  (∑ k : Fin 16, x0 (ix2 r k) * x1 (ix3 e k q)) + x2 (ix2 e q)

/-- The body's store into slab 0 of its output block, entry by entry. -/
theorem piece5_0 (x0 : Vec Ideal S8000x16 .f32) (x1 : Vec Ideal S3x16x16 .f32) (x2 : Vec Ideal S3x16 .f32)
    (u : Fin 1) (r : Fin 8000) (q : Fin 16) :
    (Gen.k5_pay3 (View.ld x0 Gen.r5_0) (View.ld x1 Gen.r5_1) (View.ld x2 Gen.r5_2)) (ix3 u r q) = slab5 x0 x1 x2 (0 : Fin 3) r q := by
  simp only [View.ld_unit_zero (S := S8000x16) hz2]
  unfold Gen.k5_pay3 Gen.k5_pay2
  refine (Cert.Lib.slab_self_apply dot_S8000x16_S16x16_S8000x16_1_0_0_1_n_n dot_S8000x16_S16x16_S8000x16_1_0_0_1_n_n.wf rfl x0 (View.ld x1 Gen.r5_1) (View.ld x2 Gen.r5_2) _ _ _ _ _ _ _ _ u r q).trans ?_
  unfold slab5
  refine congrArg₂ (· + ·) (Finset.sum_congr rfl fun k _ => ?_) ?_
  · show x0 (ix2 r k) * x1 (Gen.r5_1.idx (ix3 (0 : Fin 1) k q)) = x0 (ix2 r k) * x1 (ix3 (0 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r5_2.idx (ix2 (0 : Fin 1) q)) = x2 (ix2 (0 : Fin 3) q)
    refine congrArg x2 ?_
    funext a; apply Fin.ext
    match a with
    | ⟨0, _⟩ => rfl
    | ⟨1, _⟩ => show 0 + 1 * q.val = q.val; omega

/-- The body's store into slab 1 of its output block, entry by entry. -/
theorem piece5_1 (x0 : Vec Ideal S8000x16 .f32) (x1 : Vec Ideal S3x16x16 .f32) (x2 : Vec Ideal S3x16 .f32)
    (u : Fin 1) (r : Fin 8000) (q : Fin 16) :
    (Gen.k5_pay4 (View.ld x0 Gen.r5_0) (View.ld x1 Gen.r5_4) (View.ld x2 Gen.r5_5)) (ix3 u r q) = slab5 x0 x1 x2 (1 : Fin 3) r q := by
  simp only [View.ld_unit_zero (S := S8000x16) hz2]
  unfold Gen.k5_pay4 Gen.k5_pay2
  refine (Cert.Lib.slab_self_apply dot_S8000x16_S16x16_S8000x16_1_0_0_1_n_n dot_S8000x16_S16x16_S8000x16_1_0_0_1_n_n.wf rfl x0 (View.ld x1 Gen.r5_4) (View.ld x2 Gen.r5_5) _ _ _ _ _ _ _ _ u r q).trans ?_
  unfold slab5
  refine congrArg₂ (· + ·) (Finset.sum_congr rfl fun k _ => ?_) ?_
  · show x0 (ix2 r k) * x1 (Gen.r5_4.idx (ix3 (0 : Fin 1) k q)) = x0 (ix2 r k) * x1 (ix3 (1 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r5_5.idx (ix2 (0 : Fin 1) q)) = x2 (ix2 (1 : Fin 3) q)
    refine congrArg x2 ?_
    funext a; apply Fin.ext
    match a with
    | ⟨0, _⟩ => rfl
    | ⟨1, _⟩ => show 0 + 1 * q.val = q.val; omega

/-- The body's store into slab 2 of its output block, entry by entry. -/
theorem piece5_2 (x0 : Vec Ideal S8000x16 .f32) (x1 : Vec Ideal S3x16x16 .f32) (x2 : Vec Ideal S3x16 .f32)
    (u : Fin 1) (r : Fin 8000) (q : Fin 16) :
    (Gen.k5_pay1 (Gen.k5_pay5 (View.ld x0 Gen.r5_0) (View.ld x1 Gen.r5_7)) (View.ld x2 Gen.r5_8)) (ix3 u r q) = slab5 x0 x1 x2 (2 : Fin 3) r q := by
  simp only [View.ld_unit_zero (S := S8000x16) hz2]
  unfold Gen.k5_pay1 Gen.k5_pay5 Gen.k5_pay2
  refine (Cert.Lib.slab_self_apply dot_S8000x16_S16x16_S8000x16_1_0_0_1_n_n dot_S8000x16_S16x16_S8000x16_1_0_0_1_n_n.wf rfl x0 (View.ld x1 Gen.r5_7) (View.ld x2 Gen.r5_8) _ _ _ _ _ _ _ _ u r q).trans ?_
  unfold slab5
  refine congrArg₂ (· + ·) (Finset.sum_congr rfl fun k _ => ?_) ?_
  · show x0 (ix2 r k) * x1 (Gen.r5_7.idx (ix3 (0 : Fin 1) k q)) = x0 (ix2 r k) * x1 (ix3 (2 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r5_8.idx (ix2 (0 : Fin 1) q)) = x2 (ix2 (2 : Fin 3) q)
    refine congrArg x2 ?_
    funext a; apply Fin.ext
    match a with
    | ⟨0, _⟩ => rfl
    | ⟨1, _⟩ => show 0 + 1 * q.val = q.val; omega

/-- What the body leaves in its output block, entry by entry: its three stores are the three slabs of one function,
    and they cover the block. -/
theorem out5_apply (x0 : Vec Ideal S8000x16 .f32) (x1 : Vec Ideal S3x16x16 .f32) (x2 : Vec Ideal S3x16 .f32)
    (e : Fin 3) (r : Fin 8000) (q : Fin 16) :
    Gen.out5_3 x0 x1 x2 (ix3 e r q)
      = (∑ k : Fin 16, x0 (ix2 r k) * x1 (ix3 e k q)) + x2 (ix2 e q) := by
  unfold Gen.out5_3
  refine (View.canon_apply_of_pieces (fun y => slab5 x0 x1 x2 (y 0) (y 1) (y 2)) _ ?_ (ix3 e r q) (Gen.cover5_3 _ _ _ _)).trans rfl
  refine Cert.Lib.forall_mem_three ?_ ?_ ?_
  · intro x
    obtain ⟨u, r', q', rfl⟩ : ∃ (u : Fin 1) (r' : Fin 8000) (q' : Fin 16), x = ix3 u r' q' := ⟨x 0, x 1, x 2, eq_ix3 x⟩
    have hemb : Gen.r5_9.emb (ix3 u r' q') = ix3 (2 : Fin 3) r' q' := by
      funext a; apply Fin.ext
      match a with
      | ⟨0, _⟩ => show 2 + 1 * u.val = 2; omega
      | ⟨1, _⟩ => show 0 + 1 * r'.val = r'.val; omega
      | ⟨2, _⟩ => show 0 + 1 * q'.val = q'.val; omega
    show (Gen.k5_pay1 (Gen.k5_pay5 (View.ld x0 Gen.r5_0) (View.ld x1 Gen.r5_7)) (View.ld x2 Gen.r5_8)) (ix3 u r' q')
      = slab5 x0 x1 x2 ((Gen.r5_9.emb (ix3 u r' q')) 0) ((Gen.r5_9.emb (ix3 u r' q')) 1) ((Gen.r5_9.emb (ix3 u r' q')) 2)
    rw [hemb]
    exact piece5_2 x0 x1 x2 u r' q'
  · intro x
    obtain ⟨u, r', q', rfl⟩ : ∃ (u : Fin 1) (r' : Fin 8000) (q' : Fin 16), x = ix3 u r' q' := ⟨x 0, x 1, x 2, eq_ix3 x⟩
    have hemb : Gen.r5_6.emb (ix3 u r' q') = ix3 (1 : Fin 3) r' q' := by
      funext a; apply Fin.ext
      match a with
      | ⟨0, _⟩ => show 1 + 1 * u.val = 1; omega
      | ⟨1, _⟩ => show 0 + 1 * r'.val = r'.val; omega
      | ⟨2, _⟩ => show 0 + 1 * q'.val = q'.val; omega
    show (Gen.k5_pay4 (View.ld x0 Gen.r5_0) (View.ld x1 Gen.r5_4) (View.ld x2 Gen.r5_5)) (ix3 u r' q')
      = slab5 x0 x1 x2 ((Gen.r5_6.emb (ix3 u r' q')) 0) ((Gen.r5_6.emb (ix3 u r' q')) 1) ((Gen.r5_6.emb (ix3 u r' q')) 2)
    rw [hemb]
    exact piece5_1 x0 x1 x2 u r' q'
  · intro x
    obtain ⟨u, r', q', rfl⟩ : ∃ (u : Fin 1) (r' : Fin 8000) (q' : Fin 16), x = ix3 u r' q' := ⟨x 0, x 1, x 2, eq_ix3 x⟩
    have hemb : Gen.r5_3.emb (ix3 u r' q') = ix3 (0 : Fin 3) r' q' := by
      funext a; apply Fin.ext
      match a with
      | ⟨0, _⟩ => show 0 + 1 * u.val = 0; omega
      | ⟨1, _⟩ => show 0 + 1 * r'.val = r'.val; omega
      | ⟨2, _⟩ => show 0 + 1 * q'.val = q'.val; omega
    show (Gen.k5_pay3 (View.ld x0 Gen.r5_0) (View.ld x1 Gen.r5_1) (View.ld x2 Gen.r5_2)) (ix3 u r' q')
      = slab5 x0 x1 x2 ((Gen.r5_3.emb (ix3 u r' q')) 0) ((Gen.r5_3.emb (ix3 u r' q')) 1) ((Gen.r5_3.emb (ix3 u r' q')) 2)
    rw [hemb]
    exact piece5_0 x0 x1 x2 u r' q'

/-- The region's three input arrays as it finds them, at their literal types. -/
abbrev in5_0 : FVec Ideal S1000000x16 .f32 := V c (Pipeline.arrRef spec5 0)
abbrev in5_1 : FVec Ideal S3x16x16 .f32 := V c (Pipeline.arrRef spec5 1)
abbrev in5_2 : FVec Ideal S3x16 .f32 := V c (Pipeline.arrRef spec5 2)

/-- Row p of the layers' input through the affine map of slab e, at output column q. -/
def row5 (e : Fin 3) (p : Fin 1000000) (q : Fin 16) : Ideal .f32 :=
  (∑ k : Fin 16, in5_0 V c (ix2 p k) * in5_1 V c (ix3 e k q)) + in5_2 V c (ix2 e q)

/-- The whole output array as one function of the three input arrays. -/
def G5 : FVec Ideal S3x1000000x16 .f32 := fun j => row5 V c (j 0) (j 1) (j 2)

/-- The index maps, decided over the grid: the row tile and the output tile move with the point, the weight and
    bias stacks stay. -/
theorem idx_facts5 : ∀ t : Fin cfg5.N, win5_0.index t (0 : Fin 2) = t.val ∧ win5_0.index t (1 : Fin 2) = 0
    ∧ win5_1.index t (0 : Fin 3) = 0 ∧ win5_1.index t (1 : Fin 3) = 0 ∧ win5_1.index t (2 : Fin 3) = 0
    ∧ win5_2.index t (0 : Fin 2) = 0 ∧ win5_2.index t (1 : Fin 2) = 0
    ∧ win5_3.index t (0 : Fin 3) = 0 ∧ win5_3.index t (1 : Fin 3) = t.val ∧ win5_3.index t (2 : Fin 3) = 0 :=
  (by decide +kernel : ∀ t : Fin grid5.N, _)

/-- The row of the array that row r of tile t is. -/
abbrev rowAt5 (t : Fin cfg5.N) (r : Fin 8000) : Fin 1000000 :=
  ⟨t.val * 8000 + r.val, by have := t.isLt; have hN : cfg5.N = 125 := Gen.N_5; omega⟩

/-- What point t writes back is its block of G5. -/
theorem flushed5_eq (t : Fin cfg5.N) :
    (Gen.dat5 V c).flushed 3 t = ((cfg5.win 3).blk t).view.read (Elt Ideal) (G5 V c) := by
  show (cfg5.win 3).cut (grid5.coords t) ((Gen.dat5 V c).after 3 t) = _
  rw [Gen.after5_3]
  obtain ⟨e00, e01, e10, e11, e12, e20, e21, e30, e31, e32⟩ := idx_facts5 t
  funext j
  obtain ⟨e, r, q, rfl⟩ : ∃ (e : Fin 3) (r : Fin 8000) (q : Fin 16), j = ix3 e r q := ⟨j 0, j 1, j 2, eq_ix3 j⟩
  show Gen.out5_3 (Gen.iblk5 V c 0 t) (Gen.iblk5 V c 1 t) (Gen.iblk5 V c 2 t) (ix3 e r q)
    = G5 V c (((cfg5.win 3).blk t).view.emb (ix3 e r q))
  rw [out5_apply]
  have h3 : ((cfg5.win 3).blk t).view.emb (ix3 e r q) = ix3 e (rowAt5 t r) q := by
    funext a; apply Fin.ext
    match a with
    | ⟨0, _⟩ => show win5_3.index t (0 : Fin 3) * 3 + 1 * e.val = e.val; rw [e30]; omega
    | ⟨1, _⟩ => show win5_3.index t (1 : Fin 3) * 8000 + 1 * r.val = t.val * 8000 + r.val; rw [e31]; omega
    | ⟨2, _⟩ => show win5_3.index t (2 : Fin 3) * 16 + 1 * q.val = q.val; rw [e32]; omega
  rw [h3]
  show _ = row5 V c e (rowAt5 t r) q
  unfold row5
  have h0 : ∀ k : Fin 16, Gen.iblk5 V c 0 t (ix2 r k) = in5_0 V c (ix2 (rowAt5 t r) k) := fun k => by
    show in5_0 V c (((cfg5.win 0).blk t).view.emb (ix2 r k)) = _
    refine congrArg _ ?_
    funext a; apply Fin.ext
    match a with
    | ⟨0, _⟩ => show win5_0.index t (0 : Fin 2) * 8000 + 1 * r.val = t.val * 8000 + r.val; rw [e00]; omega
    | ⟨1, _⟩ => show win5_0.index t (1 : Fin 2) * 16 + 1 * k.val = k.val; rw [e01]; omega
  have h1 : ∀ k : Fin 16, Gen.iblk5 V c 1 t (ix3 e k q) = in5_1 V c (ix3 e k q) := fun k => by
    show in5_1 V c (((cfg5.win 1).blk t).view.emb (ix3 e k q)) = _
    refine congrArg _ ?_
    funext a; apply Fin.ext
    match a with
    | ⟨0, _⟩ => show win5_1.index t (0 : Fin 3) * 3 + 1 * e.val = e.val; rw [e10]; omega
    | ⟨1, _⟩ => show win5_1.index t (1 : Fin 3) * 16 + 1 * k.val = k.val; rw [e11]; omega
    | ⟨2, _⟩ => show win5_1.index t (2 : Fin 3) * 16 + 1 * q.val = q.val; rw [e12]; omega
  have h2 : Gen.iblk5 V c 2 t (ix2 e q) = in5_2 V c (ix2 e q) := by
    show in5_2 V c (((cfg5.win 2).blk t).view.emb (ix2 e q)) = _
    refine congrArg _ ?_
    funext a; apply Fin.ext
    match a with
    | ⟨0, _⟩ => show win5_2.index t (0 : Fin 2) * 3 + 1 * e.val = e.val; rw [e20]; omega
    | ⟨1, _⟩ => show win5_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover5 (i : S3x1000000x16.Idx) :
    ∃ t : Fin cfg5.N, (cfg5.win 3).flush t = true ∧ i ∈ ((cfg5.win 3).blk t).view.set := by
  have hN : cfg5.N = 125 := Gen.N_5
  have h0 : (i 0).val < 3 := (i 0).isLt
  have h1 : (i 1).val < 1000000 := (i 1).isLt
  have h2 : (i 2).val < 16 := (i 2).isLt
  have htN : (i 1).val / 8000 < cfg5.N := by rw [hN]; omega
  obtain ⟨e00, e01, e10, e11, e12, e20, e21, e30, e31, e32⟩ := idx_facts5 ⟨(i 1).val / 8000, htN⟩
  refine ⟨⟨(i 1).val / 8000, htN⟩, Gen.flush5_3 _, ?_⟩
  show i ∈ ((View.whole main_v70).slice (win5_3.rect ⟨(i 1).val / 8000, htN⟩)).set
  rw [View.set_slice_whole, Rect.mem_set_unit]
  intro a
  match a with
  | ⟨0, _⟩ => show win5_3.index ⟨(i 1).val / 8000, htN⟩ (0 : Fin 3) * 3 ≤ (i 0).val ∧ (i 0).val < win5_3.index ⟨(i 1).val / 8000, htN⟩ (0 : Fin 3) * 3 + 3; rw [e30]; omega
  | ⟨1, _⟩ => show win5_3.index ⟨(i 1).val / 8000, htN⟩ (1 : Fin 3) * 8000 ≤ (i 1).val ∧ (i 1).val < win5_3.index ⟨(i 1).val / 8000, htN⟩ (1 : Fin 3) * 8000 + 8000; rw [e31]; show (i 1).val / 8000 * 8000 ≤ (i 1).val ∧ (i 1).val < (i 1).val / 8000 * 8000 + 8000; omega
  | ⟨2, _⟩ => show win5_3.index ⟨(i 1).val / 8000, htN⟩ (2 : Fin 3) * 16 ≤ (i 2).val ∧ (i 2).val < win5_3.index ⟨(i 1).val / 8000, htN⟩ (2 : Fin 3) * 16 + 16; rw [e32]; omega

/-- The output array after the region: G5 of the three input arrays as the region finds them. -/
theorem final5_fun : (Gen.dat5 V c).arrAt 3 cfg5.N = G5 V c :=
  (Gen.dat5 V c).arrAt_eq_of_cover 3 (G5 V c) (fun t _ => flushed5_eq V c t) cover5

/-- Entry by entry. -/
theorem final5 (e : Fin 3) (p : Fin 1000000) (q : Fin 16) :
    (Gen.dat5 V c).arrAt 3 cfg5.N (ix3 e p q)
      = (∑ k : Fin 16, in5_0 V c (ix2 p k) * in5_1 V c (ix3 e k q)) + in5_2 V c (ix2 e q) :=
  congrFun (final5_fun V c) (ix3 e p q)

end Cert.KernelIdeal.KRegion

end
-- ==== Proof.Dense1.lean ====
/-
  Layer 1's dense maps, kernel program against reference, as whole arrays.

  A region of the kernel program leaves in its output array, at (e, p, q), the sum over k of x (p, k) · w (e, k, q)
  plus b (e, q), where w and b are the slabs the host cut out of the weight and bias stacks before the region.  The
  reference computes the same sums by a matrix product of x with the slot's weight matrix plus the slot's bias row
  repeated along the rows.  So, the rows x being equal on the two sides, the region's output (its unit axis dropped,
  or one member of its three slabs) and the reference's dense map are equal, entry by entry: the two sums have the same
  terms in the same order.
-/
import proofs.«154745_j79044578115861_1_alg».proof.Proof.KChainB
import proofs.«154745_j79044578115861_1_alg».proof.Proof.KLayout
import proofs.«154745_j79044578115861_1_alg».proof.Proof.RefLin
import proofs.«154745_j79044578115861_1_alg».proof.Proof.RefRead
import proofs.«154745_j79044578115861_1_alg».proof.Proof.KRegion3
import proofs.«154745_j79044578115861_1_alg».proof.Proof.KRegion4
import proofs.«154745_j79044578115861_1_alg».proof.Proof.KRegion5

set_option maxRecDepth 16384

noncomputable section

namespace Cert.Proof.Dense

open Idealize.ShloMosaic Idealize.ShloMosaic.TcCoe Idealize.SL.Sem Idealize.ShloMosaic.StableHlo Idealize.ShloMosaic.ValueIdx
open scoped BigOperators
open Cert.KernelIdeal Cert.KernelIdeal.Gen Cert.KernelIdeal.KChain

variable (m : (ℓ : Loc nD τ sig) → Buf (Elt Ideal) ℓ) (ρ : Dev nD → PrngReg) (c : Dev nD)

/-- Layer 1, the card rows: the region's output with its unit axis dropped is the reference's dense map of slot 0 — entry (p, q) of both is the sum over k of x (p, k) · W (0, k, q), plus b (0, q). -/
theorem dense1_c (UR : Valuation Cert.ReferenceIdeal.τ Cert.ReferenceIdeal.sig (Elt Ideal))
    (hx : W13 m ρ c (Proc.devRef .tc main_v58) = UR (Proc.devRef .tc Cert.ReferenceIdeal.main_v81))
    (hW : UR (Proc.devRef .tc Cert.ReferenceIdeal.main_arg5) = m ((c : Thread nD τ).loc main_arg5))
    (hb : UR (Proc.devRef .tc Cert.ReferenceIdeal.main_arg6) = m ((c : Thread nD τ).loc main_arg6)) :
    W15 m ρ c (Proc.devRef .tc main_v63)
      = StableHlo.after Cert.ReferenceIdeal.RefRun.ops2 UR (Proc.devRef .tc Cert.ReferenceIdeal.main_v90) := by
  rw [Cert.ReferenceIdeal.RefRead.ops2_v90 UR, hW, hb]
  rw [W15_v63_raw m ρ c, W14_out m ρ c]
  funext j
  obtain ⟨p, q, rfl⟩ : ∃ (p : Fin 500000) (q : Fin 16), j = ix2 p q := ⟨j 0, j 1, eq_ix2 j⟩
  rw [Cert.KernelIdeal.KLayout.out500000_apply, Cert.KernelIdeal.KRegion.final3 (V13 m ρ) c p q]
  rw [Cert.ReferenceIdeal.RefLin.lin_16_0_apply]
  have e0 : Cert.KernelIdeal.KRegion.in3_0 (V13 m ρ) c = UR (Proc.devRef .tc Cert.ReferenceIdeal.main_v81) := hx
  have e1 : Cert.KernelIdeal.KRegion.in3_1 (V13 m ρ) c = _ := W13_v60 m ρ c
  have e2 : Cert.KernelIdeal.KRegion.in3_2 (V13 m ρ) c = _ := W13_v61 m ρ c
  rw [e0, e1, e2]
  simp only [Cert.KernelIdeal.KLayout.w16_slot0_apply, Cert.KernelIdeal.KLayout.b_slot0_apply]

/-- Layer 1, the merchant rows: slot 1. -/
theorem dense1_m (UR : Valuation Cert.ReferenceIdeal.τ Cert.ReferenceIdeal.sig (Elt Ideal))
    (hx : W15 m ρ c (Proc.devRef .tc main_v59) = UR (Proc.devRef .tc Cert.ReferenceIdeal.main_v82))
    (hW : UR (Proc.devRef .tc Cert.ReferenceIdeal.main_arg5) = m ((c : Thread nD τ).loc main_arg5))
    (hb : UR (Proc.devRef .tc Cert.ReferenceIdeal.main_arg6) = m ((c : Thread nD τ).loc main_arg6)) :
    W17 m ρ c (Proc.devRef .tc main_v67)
      = StableHlo.after Cert.ReferenceIdeal.RefRun.ops2 UR (Proc.devRef .tc Cert.ReferenceIdeal.main_v98) := by
  rw [Cert.ReferenceIdeal.RefRead.ops2_v98 UR, hW, hb]
  rw [W17_v67_raw m ρ c, W16_out m ρ c]
  funext j
  obtain ⟨p, q, rfl⟩ : ∃ (p : Fin 100000) (q : Fin 16), j = ix2 p q := ⟨j 0, j 1, eq_ix2 j⟩
  rw [Cert.KernelIdeal.KLayout.out100000_apply, Cert.KernelIdeal.KRegion.final4 (V15 m ρ) c p q]
  rw [Cert.ReferenceIdeal.RefLin.lin_16_1_apply]
  have e0 : Cert.KernelIdeal.KRegion.in4_0 (V15 m ρ) c = UR (Proc.devRef .tc Cert.ReferenceIdeal.main_v82) := hx
  have e1 : Cert.KernelIdeal.KRegion.in4_1 (V15 m ρ) c = _ := W15_v64 m ρ c
  have e2 : Cert.KernelIdeal.KRegion.in4_2 (V15 m ρ) c = _ := W15_v65 m ρ c
  rw [e0, e1, e2]
  simp only [Cert.KernelIdeal.KLayout.w16_slot1_apply, Cert.KernelIdeal.KLayout.b_slot1_apply]

/-- Layer 1, the transaction rows: member 0 of the three-slab output is the reference's dense map of slot 2. -/
theorem dense1_t0 (UR : Valuation Cert.ReferenceIdeal.τ Cert.ReferenceIdeal.sig (Elt Ideal))
    (hx : W17 m ρ c (Proc.devRef .tc main_v57) = UR (Proc.devRef .tc Cert.ReferenceIdeal.main_v80))
    (hW : UR (Proc.devRef .tc Cert.ReferenceIdeal.main_arg5) = m ((c : Thread nD τ).loc main_arg5))
    (hb : UR (Proc.devRef .tc Cert.ReferenceIdeal.main_arg6) = m ((c : Thread nD τ).loc main_arg6)) :
    shapeCast S1000000x16 (extractStridedSlice S1x1000000x16 ![0, 0, 0] (W18 m ρ c (Proc.devRef .tc main_v70)) slices_S3x1000000x16_S1x1000000x16_0_0_0) shapeCasts_S1x1000000x16_S1000000x16
      = StableHlo.after Cert.ReferenceIdeal.RefRun.ops2 UR (Proc.devRef .tc Cert.ReferenceIdeal.main_v106) := by
  rw [Cert.ReferenceIdeal.RefRead.ops2_v106 UR, hW, hb]
  rw [W18_out m ρ c]
  funext j
  obtain ⟨p, q, rfl⟩ : ∃ (p : Fin 1000000) (q : Fin 16), j = ix2 p q := ⟨j 0, j 1, eq_ix2 j⟩
  rw [Cert.KernelIdeal.KLayout.member0_apply, Cert.KernelIdeal.KRegion.final5 (V17 m ρ) c (0 : Fin 3) p q]
  rw [Cert.ReferenceIdeal.RefLin.lin_16_2_apply]
  have e0 : Cert.KernelIdeal.KRegion.in5_0 (V17 m ρ) c = UR (Proc.devRef .tc Cert.ReferenceIdeal.main_v80) := hx
  have e1 : Cert.KernelIdeal.KRegion.in5_1 (V17 m ρ) c = _ := W17_v68 m ρ c
  have e2 : Cert.KernelIdeal.KRegion.in5_2 (V17 m ρ) c = _ := W17_v69 m ρ c
  rw [e0, e1, e2]
  simp only [Cert.KernelIdeal.KLayout.w16_band_apply, Cert.KernelIdeal.KLayout.b_band_apply]
  try rfl

/-- Layer 1, the transaction rows: member 1 of the three-slab output is the reference's dense map of slot 3. -/
theorem dense1_t1 (UR : Valuation Cert.ReferenceIdeal.τ Cert.ReferenceIdeal.sig (Elt Ideal))
    (hx : W17 m ρ c (Proc.devRef .tc main_v57) = UR (Proc.devRef .tc Cert.ReferenceIdeal.main_v80))
    (hW : UR (Proc.devRef .tc Cert.ReferenceIdeal.main_arg5) = m ((c : Thread nD τ).loc main_arg5))
    (hb : UR (Proc.devRef .tc Cert.ReferenceIdeal.main_arg6) = m ((c : Thread nD τ).loc main_arg6)) :
    shapeCast S1000000x16 (extractStridedSlice S1x1000000x16 ![1, 0, 0] (W18 m ρ c (Proc.devRef .tc main_v70)) slices_S3x1000000x16_S1x1000000x16_1_0_0) shapeCasts_S1x1000000x16_S1000000x16
      = StableHlo.after Cert.ReferenceIdeal.RefRun.ops2 UR (Proc.devRef .tc Cert.ReferenceIdeal.main_v114) := by
  rw [Cert.ReferenceIdeal.RefRead.ops2_v114 UR, hW, hb]
  rw [W18_out m ρ c]
  funext j
  obtain ⟨p, q, rfl⟩ : ∃ (p : Fin 1000000) (q : Fin 16), j = ix2 p q := ⟨j 0, j 1, eq_ix2 j⟩
  rw [Cert.KernelIdeal.KLayout.member1_apply, Cert.KernelIdeal.KRegion.final5 (V17 m ρ) c (1 : Fin 3) p q]
  rw [Cert.ReferenceIdeal.RefLin.lin_16_3_apply]
  have e0 : Cert.KernelIdeal.KRegion.in5_0 (V17 m ρ) c = UR (Proc.devRef .tc Cert.ReferenceIdeal.main_v80) := hx
  have e1 : Cert.KernelIdeal.KRegion.in5_1 (V17 m ρ) c = _ := W17_v68 m ρ c
  have e2 : Cert.KernelIdeal.KRegion.in5_2 (V17 m ρ) c = _ := W17_v69 m ρ c
  rw [e0, e1, e2]
  simp only [Cert.KernelIdeal.KLayout.w16_band_apply, Cert.KernelIdeal.KLayout.b_band_apply]
  try rfl

/-- Layer 1, the transaction rows: member 2 of the three-slab output is the reference's dense map of slot 4. -/
theorem dense1_t2 (UR : Valuation Cert.ReferenceIdeal.τ Cert.ReferenceIdeal.sig (Elt Ideal))
    (hx : W17 m ρ c (Proc.devRef .tc main_v57) = UR (Proc.devRef .tc Cert.ReferenceIdeal.main_v80))
    (hW : UR (Proc.devRef .tc Cert.ReferenceIdeal.main_arg5) = m ((c : Thread nD τ).loc main_arg5))
    (hb : UR (Proc.devRef .tc Cert.ReferenceIdeal.main_arg6) = m ((c : Thread nD τ).loc main_arg6)) :
    shapeCast S1000000x16 (extractStridedSlice S1x1000000x16 ![2, 0, 0] (W18 m ρ c (Proc.devRef .tc main_v70)) slices_S3x1000000x16_S1x1000000x16_2_0_0) shapeCasts_S1x1000000x16_S1000000x16
      = StableHlo.after Cert.ReferenceIdeal.RefRun.ops2 UR (Proc.devRef .tc Cert.ReferenceIdeal.main_v122) := by
  rw [Cert.ReferenceIdeal.RefRead.ops2_v122 UR, hW, hb]
  rw [W18_out m ρ c]
  funext j
  obtain ⟨p, q, rfl⟩ : ∃ (p : Fin 1000000) (q : Fin 16), j = ix2 p q := ⟨j 0, j 1, eq_ix2 j⟩
  rw [Cert.KernelIdeal.KLayout.member2_apply, Cert.KernelIdeal.KRegion.final5 (V17 m ρ) c (2 : Fin 3) p q]
  rw [Cert.ReferenceIdeal.RefLin.lin_16_4_apply]
  have e0 : Cert.KernelIdeal.KRegion.in5_0 (V17 m ρ) c = UR (Proc.devRef .tc Cert.ReferenceIdeal.main_v80) := hx
  have e1 : Cert.KernelIdeal.KRegion.in5_1 (V17 m ρ) c = _ := W17_v68 m ρ c
  have e2 : Cert.KernelIdeal.KRegion.in5_2 (V17 m ρ) c = _ := W17_v69 m ρ c
  rw [e0, e1, e2]
  simp only [Cert.KernelIdeal.KLayout.w16_band_apply, Cert.KernelIdeal.KLayout.b_band_apply]
  try rfl

end Cert.Proof.Dense

end
-- ==== Proof.KRegion6.lean ====
/-
  What one row-tiled dense layer leaves in its output array, as one function of its three input arrays.

  The layer maps each of 500000 rows x of 16 entries to x W + b with W of 16 by 16 and b of 16 entries, the weight
  and the bias given as stacks of one slab.  The rows are handled in 125 tiles of 4000; each tile's result is written
  to the tile's rows of the output, and the tiles cover the output.  Entry (0, p, q) of the output is therefore
  (sum over k < 16 of x (p, k) * W (0, k, q)) + b (0, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 6: a dense layer, 500000 rows in 125 tiles of 4000, 16 inputs, 16 outputs, one slab -/

/-- What the body leaves in its output block, entry by entry: row r of the row tile through the affine map. -/
theorem out6_apply (x0 : Vec Ideal S4000x16 .f32) (x1 : Vec Ideal S1x16x16 .f32) (x2 : Vec Ideal S1x16 .f32)
    (u : Fin 1) (r : Fin 4000) (q : Fin 16) :
    Gen.out6_3 x0 x1 x2 (ix3 u r q)
      = (∑ k : Fin 16, x0 (ix2 r k) * x1 (ix3 (0 : Fin 1) k q)) + x2 (ix2 (0 : Fin 1) q) := by
  unfold Gen.out6_3
  rw [View.canon_unit_zero hz3]
  simp only [View.ld_unit_zero (S := S4000x16) hz2, View.ld_unit_zero (S := S1x16x16) hz3, View.ld_unit_zero (S := S1x16) hz2]
  unfold Gen.k6_pay1
  exact Cert.Lib.slab_self_apply dot_S4000x16_S16x16_S4000x16_1_0_0_1_n_n dot_S4000x16_S16x16_S4000x16_1_0_0_1_n_n.wf rfl x0 x1 x2 _ _ _ _ _ _ _ _ u r q

/-- The region's three input arrays as it finds them, at their literal types. -/
abbrev in6_0 : FVec Ideal S500000x16 .f32 := V c (Pipeline.arrRef spec6 0)
abbrev in6_1 : FVec Ideal S1x16x16 .f32 := V c (Pipeline.arrRef spec6 1)
abbrev in6_2 : FVec Ideal S1x16 .f32 := V c (Pipeline.arrRef spec6 2)

/-- Row p of the layer's input through the affine map of slab 0, at output column q. -/
def row6 (p : Fin 500000) (q : Fin 16) : Ideal .f32 :=
  (∑ k : Fin 16, in6_0 V c (ix2 p k) * in6_1 V c (ix3 (0 : Fin 1) k q)) + in6_2 V c (ix2 (0 : Fin 1) q)

/-- The whole output array as one function of the three input arrays. -/
def G6 : FVec Ideal S1x500000x16 .f32 := fun j => row6 V c (j 1) (j 2)

/-- The index maps, decided over the grid: the row tile and the output tile move with the point, the weight and
    bias stacks stay. -/
theorem idx_facts6 : ∀ t : Fin cfg6.N, win6_0.index t (0 : Fin 2) = t.val ∧ win6_0.index t (1 : Fin 2) = 0
    ∧ win6_1.index t (0 : Fin 3) = 0 ∧ win6_1.index t (1 : Fin 3) = 0 ∧ win6_1.index t (2 : Fin 3) = 0
    ∧ win6_2.index t (0 : Fin 2) = 0 ∧ win6_2.index t (1 : Fin 2) = 0
    ∧ win6_3.index t (0 : Fin 3) = 0 ∧ win6_3.index t (1 : Fin 3) = t.val ∧ win6_3.index t (2 : Fin 3) = 0 :=
  (by decide +kernel : ∀ t : Fin grid6.N, _)

/-- The row of the array that row r of tile t is. -/
abbrev rowAt6 (t : Fin cfg6.N) (r : Fin 4000) : Fin 500000 :=
  ⟨t.val * 4000 + r.val, by have := t.isLt; have hN : cfg6.N = 125 := Gen.N_6; omega⟩

/-- What point t writes back is its block of G6. -/
theorem flushed6_eq (t : Fin cfg6.N) :
    (Gen.dat6 V c).flushed 3 t = ((cfg6.win 3).blk t).view.read (Elt Ideal) (G6 V c) := by
  show (cfg6.win 3).cut (grid6.coords t) ((Gen.dat6 V c).after 3 t) = _
  rw [Gen.after6_3]
  obtain ⟨e00, e01, e10, e11, e12, e20, e21, e30, e31, e32⟩ := idx_facts6 t
  funext j
  obtain ⟨u, r, q, rfl⟩ : ∃ (u : Fin 1) (r : Fin 4000) (q : Fin 16), j = ix3 u r q := ⟨j 0, j 1, j 2, eq_ix3 j⟩
  show Gen.out6_3 (Gen.iblk6 V c 0 t) (Gen.iblk6 V c 1 t) (Gen.iblk6 V c 2 t) (ix3 u r q)
    = G6 V c (((cfg6.win 3).blk t).view.emb (ix3 u r q))
  rw [out6_apply]
  have h3 : ((cfg6.win 3).blk t).view.emb (ix3 u r q) = ix3 (0 : Fin 1) (rowAt6 t r) q := by
    funext a; apply Fin.ext
    match a with
    | ⟨0, _⟩ => show win6_3.index t (0 : Fin 3) * 1 + 1 * u.val = 0; rw [e30]; omega
    | ⟨1, _⟩ => show win6_3.index t (1 : Fin 3) * 4000 + 1 * r.val = t.val * 4000 + r.val; rw [e31]; omega
    | ⟨2, _⟩ => show win6_3.index t (2 : Fin 3) * 16 + 1 * q.val = q.val; rw [e32]; omega
  rw [h3]
  show _ = row6 V c (rowAt6 t r) q
  unfold row6
  have h0 : ∀ k : Fin 16, Gen.iblk6 V c 0 t (ix2 r k) = in6_0 V c (ix2 (rowAt6 t r) k) := fun k => by
    show in6_0 V c (((cfg6.win 0).blk t).view.emb (ix2 r k)) = _
    refine congrArg _ ?_
    funext a; apply Fin.ext
    match a with
    | ⟨0, _⟩ => show win6_0.index t (0 : Fin 2) * 4000 + 1 * r.val = t.val * 4000 + r.val; rw [e00]; omega
    | ⟨1, _⟩ => show win6_0.index t (1 : Fin 2) * 16 + 1 * k.val = k.val; rw [e01]; omega
  have h1 : ∀ k : Fin 16, Gen.iblk6 V c 1 t (ix3 (0 : Fin 1) k q) = in6_1 V c (ix3 (0 : Fin 1) k q) := fun k => by
    show in6_1 V c (((cfg6.win 1).blk t).view.emb (ix3 (0 : Fin 1) k q)) = _
    refine congrArg _ ?_
    funext a; apply Fin.ext
    match a with
    | ⟨0, _⟩ => show win6_1.index t (0 : Fin 3) * 1 + 1 * 0 = 0; rw [e10]
    | ⟨1, _⟩ => show win6_1.index t (1 : Fin 3) * 16 + 1 * k.val = k.val; rw [e11]; omega
    | ⟨2, _⟩ => show win6_1.index t (2 : Fin 3) * 16 + 1 * q.val = q.val; rw [e12]; omega
  have h2 : Gen.iblk6 V c 2 t (ix2 (0 : Fin 1) q) = in6_2 V c (ix2 (0 : Fin 1) q) := by
    show in6_2 V c (((cfg6.win 2).blk t).view.emb (ix2 (0 : Fin 1) q)) = _
    refine congrArg _ ?_
    funext a; apply Fin.ext
    match a with
    | ⟨0, _⟩ => show win6_2.index t (0 : Fin 2) * 1 + 1 * 0 = 0; rw [e20]
    | ⟨1, _⟩ => show win6_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover6 (i : S1x500000x16.Idx) :
    ∃ t : Fin cfg6.N, (cfg6.win 3).flush t = true ∧ i ∈ ((cfg6.win 3).blk t).view.set := by
  have hN : cfg6.N = 125 := Gen.N_6
  have h0 : (i 0).val < 1 := (i 0).isLt
  have h1 : (i 1).val < 500000 := (i 1).isLt
  have h2 : (i 2).val < 16 := (i 2).isLt
  have htN : (i 1).val / 4000 < cfg6.N := by rw [hN]; omega
  obtain ⟨e00, e01, e10, e11, e12, e20, e21, e30, e31, e32⟩ := idx_facts6 ⟨(i 1).val / 4000, htN⟩
  refine ⟨⟨(i 1).val / 4000, htN⟩, Gen.flush6_3 _, ?_⟩
  show i ∈ ((View.whole main_v122).slice (win6_3.rect ⟨(i 1).val / 4000, htN⟩)).set
  rw [View.set_slice_whole, Rect.mem_set_unit]
  intro a
  match a with
  | ⟨0, _⟩ => show win6_3.index ⟨(i 1).val / 4000, htN⟩ (0 : Fin 3) * 1 ≤ (i 0).val ∧ (i 0).val < win6_3.index ⟨(i 1).val / 4000, htN⟩ (0 : Fin 3) * 1 + 1; rw [e30]; omega
  | ⟨1, _⟩ => show win6_3.index ⟨(i 1).val / 4000, htN⟩ (1 : Fin 3) * 4000 ≤ (i 1).val ∧ (i 1).val < win6_3.index ⟨(i 1).val / 4000, htN⟩ (1 : Fin 3) * 4000 + 4000; rw [e31]; show (i 1).val / 4000 * 4000 ≤ (i 1).val ∧ (i 1).val < (i 1).val / 4000 * 4000 + 4000; omega
  | ⟨2, _⟩ => show win6_3.index ⟨(i 1).val / 4000, htN⟩ (2 : Fin 3) * 16 ≤ (i 2).val ∧ (i 2).val < win6_3.index ⟨(i 1).val / 4000, htN⟩ (2 : Fin 3) * 16 + 16; rw [e32]; omega

/-- The output array after the region: G6 of the three input arrays as the region finds them. -/
theorem final6_fun : (Gen.dat6 V c).arrAt 3 cfg6.N = G6 V c :=
  (Gen.dat6 V c).arrAt_eq_of_cover 3 (G6 V c) (fun t _ => flushed6_eq V c t) cover6

/-- Entry by entry. -/
theorem final6 (p : Fin 500000) (q : Fin 16) :
    (Gen.dat6 V c).arrAt 3 cfg6.N (ix3 (0 : Fin 1) p q)
      = (∑ k : Fin 16, in6_0 V c (ix2 p k) * in6_1 V c (ix3 (0 : Fin 1) k q)) + in6_2 V c (ix2 (0 : Fin 1) q) :=
  congrFun (final6_fun V c) (ix3 (0 : Fin 1) p q)

end Cert.KernelIdeal.KRegion

end
-- ==== Proof.KRegion7.lean ====
/-
  What one row-tiled dense layer leaves in its output array, as one function of its three input arrays.

  The layer maps each of 100000 rows x of 16 entries to x W + b with W of 16 by 16 and b of 16 entries, the weight
  and the bias given as stacks of one slab.  The rows are handled in 50 tiles of 2000; each tile's result is written
  to the tile's rows of the output, and the tiles cover the output.  Entry (0, p, q) of the output is therefore
  (sum over k < 16 of x (p, k) * W (0, k, q)) + b (0, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 7: a dense layer, 100000 rows in 50 tiles of 2000, 16 inputs, 16 outputs, one slab -/

/-- What the body leaves in its output block, entry by entry: row r of the row tile through the affine map. -/
theorem out7_apply (x0 : Vec Ideal S2000x16 .f32) (x1 : Vec Ideal S1x16x16 .f32) (x2 : Vec Ideal S1x16 .f32)
    (u : Fin 1) (r : Fin 2000) (q : Fin 16) :
    Gen.out7_3 x0 x1 x2 (ix3 u r q)
      = (∑ k : Fin 16, x0 (ix2 r k) * x1 (ix3 (0 : Fin 1) k q)) + x2 (ix2 (0 : Fin 1) q) := by
  unfold Gen.out7_3
  rw [View.canon_unit_zero hz3]
  simp only [View.ld_unit_zero (S := S2000x16) hz2, View.ld_unit_zero (S := S1x16x16) hz3, View.ld_unit_zero (S := S1x16) hz2]
  unfold Gen.k7_pay1
  exact Cert.Lib.slab_self_apply dot_S2000x16_S16x16_S2000x16_1_0_0_1_n_n dot_S2000x16_S16x16_S2000x16_1_0_0_1_n_n.wf rfl x0 x1 x2 _ _ _ _ _ _ _ _ u r q

/-- The region's three input arrays as it finds them, at their literal types. -/
abbrev in7_0 : FVec Ideal S100000x16 .f32 := V c (Pipeline.arrRef spec7 0)
abbrev in7_1 : FVec Ideal S1x16x16 .f32 := V c (Pipeline.arrRef spec7 1)
abbrev in7_2 : FVec Ideal S1x16 .f32 := V c (Pipeline.arrRef spec7 2)

/-- Row p of the layer's input through the affine map of slab 0, at output column q. -/
def row7 (p : Fin 100000) (q : Fin 16) : Ideal .f32 :=
  (∑ k : Fin 16, in7_0 V c (ix2 p k) * in7_1 V c (ix3 (0 : Fin 1) k q)) + in7_2 V c (ix2 (0 : Fin 1) q)

/-- The whole output array as one function of the three input arrays. -/
def G7 : FVec Ideal S1x100000x16 .f32 := fun j => row7 V c (j 1) (j 2)

/-- The index maps, decided over the grid: the row tile and the output tile move with the point, the weight and
    bias stacks stay. -/
theorem idx_facts7 : ∀ t : Fin cfg7.N, win7_0.index t (0 : Fin 2) = t.val ∧ win7_0.index t (1 : Fin 2) = 0
    ∧ win7_1.index t (0 : Fin 3) = 0 ∧ win7_1.index t (1 : Fin 3) = 0 ∧ win7_1.index t (2 : Fin 3) = 0
    ∧ win7_2.index t (0 : Fin 2) = 0 ∧ win7_2.index t (1 : Fin 2) = 0
    ∧ win7_3.index t (0 : Fin 3) = 0 ∧ win7_3.index t (1 : Fin 3) = t.val ∧ win7_3.index t (2 : Fin 3) = 0 :=
  (by decide +kernel : ∀ t : Fin grid7.N, _)

/-- The row of the array that row r of tile t is. -/
abbrev rowAt7 (t : Fin cfg7.N) (r : Fin 2000) : Fin 100000 :=
  ⟨t.val * 2000 + r.val, by have := t.isLt; have hN : cfg7.N = 50 := Gen.N_7; omega⟩

/-- What point t writes back is its block of G7. -/
theorem flushed7_eq (t : Fin cfg7.N) :
    (Gen.dat7 V c).flushed 3 t = ((cfg7.win 3).blk t).view.read (Elt Ideal) (G7 V c) := by
  show (cfg7.win 3).cut (grid7.coords t) ((Gen.dat7 V c).after 3 t) = _
  rw [Gen.after7_3]
  obtain ⟨e00, e01, e10, e11, e12, e20, e21, e30, e31, e32⟩ := idx_facts7 t
  funext j
  obtain ⟨u, r, q, rfl⟩ : ∃ (u : Fin 1) (r : Fin 2000) (q : Fin 16), j = ix3 u r q := ⟨j 0, j 1, j 2, eq_ix3 j⟩
  show Gen.out7_3 (Gen.iblk7 V c 0 t) (Gen.iblk7 V c 1 t) (Gen.iblk7 V c 2 t) (ix3 u r q)
    = G7 V c (((cfg7.win 3).blk t).view.emb (ix3 u r q))
  rw [out7_apply]
  have h3 : ((cfg7.win 3).blk t).view.emb (ix3 u r q) = ix3 (0 : Fin 1) (rowAt7 t r) q := by
    funext a; apply Fin.ext
    match a with
    | ⟨0, _⟩ => show win7_3.index t (0 : Fin 3) * 1 + 1 * u.val = 0; rw [e30]; omega
    | ⟨1, _⟩ => show win7_3.index t (1 : Fin 3) * 2000 + 1 * r.val = t.val * 2000 + r.val; rw [e31]; omega
    | ⟨2, _⟩ => show win7_3.index t (2 : Fin 3) * 16 + 1 * q.val = q.val; rw [e32]; omega
  rw [h3]
  show _ = row7 V c (rowAt7 t r) q
  unfold row7
  have h0 : ∀ k : Fin 16, Gen.iblk7 V c 0 t (ix2 r k) = in7_0 V c (ix2 (rowAt7 t r) k) := fun k => by
    show in7_0 V c (((cfg7.win 0).blk t).view.emb (ix2 r k)) = _
    refine congrArg _ ?_
    funext a; apply Fin.ext
    match a with
    | ⟨0, _⟩ => show win7_0.index t (0 : Fin 2) * 2000 + 1 * r.val = t.val * 2000 + r.val; rw [e00]; omega
    | ⟨1, _⟩ => show win7_0.index t (1 : Fin 2) * 16 + 1 * k.val = k.val; rw [e01]; omega
  have h1 : ∀ k : Fin 16, Gen.iblk7 V c 1 t (ix3 (0 : Fin 1) k q) = in7_1 V c (ix3 (0 : Fin 1) k q) := fun k => by
    show in7_1 V c (((cfg7.win 1).blk t).view.emb (ix3 (0 : Fin 1) k q)) = _
    refine congrArg _ ?_
    funext a; apply Fin.ext
    match a with
    | ⟨0, _⟩ => show win7_1.index t (0 : Fin 3) * 1 + 1 * 0 = 0; rw [e10]
    | ⟨1, _⟩ => show win7_1.index t (1 : Fin 3) * 16 + 1 * k.val = k.val; rw [e11]; omega
    | ⟨2, _⟩ => show win7_1.index t (2 : Fin 3) * 16 + 1 * q.val = q.val; rw [e12]; omega
  have h2 : Gen.iblk7 V c 2 t (ix2 (0 : Fin 1) q) = in7_2 V c (ix2 (0 : Fin 1) q) := by
    show in7_2 V c (((cfg7.win 2).blk t).view.emb (ix2 (0 : Fin 1) q)) = _
    refine congrArg _ ?_
    funext a; apply Fin.ext
    match a with
    | ⟨0, _⟩ => show win7_2.index t (0 : Fin 2) * 1 + 1 * 0 = 0; rw [e20]
    | ⟨1, _⟩ => show win7_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover7 (i : S1x100000x16.Idx) :
    ∃ t : Fin cfg7.N, (cfg7.win 3).flush t = true ∧ i ∈ ((cfg7.win 3).blk t).view.set := by
  have hN : cfg7.N = 50 := Gen.N_7
  have h0 : (i 0).val < 1 := (i 0).isLt
  have h1 : (i 1).val < 100000 := (i 1).isLt
  have h2 : (i 2).val < 16 := (i 2).isLt
  have htN : (i 1).val / 2000 < cfg7.N := by rw [hN]; omega
  obtain ⟨e00, e01, e10, e11, e12, e20, e21, e30, e31, e32⟩ := idx_facts7 ⟨(i 1).val / 2000, htN⟩
  refine ⟨⟨(i 1).val / 2000, htN⟩, Gen.flush7_3 _, ?_⟩
  show i ∈ ((View.whole main_v126).slice (win7_3.rect ⟨(i 1).val / 2000, htN⟩)).set
  rw [View.set_slice_whole, Rect.mem_set_unit]
  intro a
  match a with
  | ⟨0, _⟩ => show win7_3.index ⟨(i 1).val / 2000, htN⟩ (0 : Fin 3) * 1 ≤ (i 0).val ∧ (i 0).val < win7_3.index ⟨(i 1).val / 2000, htN⟩ (0 : Fin 3) * 1 + 1; rw [e30]; omega
  | ⟨1, _⟩ => show win7_3.index ⟨(i 1).val / 2000, htN⟩ (1 : Fin 3) * 2000 ≤ (i 1).val ∧ (i 1).val < win7_3.index ⟨(i 1).val / 2000, htN⟩ (1 : Fin 3) * 2000 + 2000; rw [e31]; show (i 1).val / 2000 * 2000 ≤ (i 1).val ∧ (i 1).val < (i 1).val / 2000 * 2000 + 2000; omega
  | ⟨2, _⟩ => show win7_3.index ⟨(i 1).val / 2000, htN⟩ (2 : Fin 3) * 16 ≤ (i 2).val ∧ (i 2).val < win7_3.index ⟨(i 1).val / 2000, htN⟩ (2 : Fin 3) * 16 + 16; rw [e32]; omega

/-- The output array after the region: G7 of the three input arrays as the region finds them. -/
theorem final7_fun : (Gen.dat7 V c).arrAt 3 cfg7.N = G7 V c :=
  (Gen.dat7 V c).arrAt_eq_of_cover 3 (G7 V c) (fun t _ => flushed7_eq V c t) cover7

/-- Entry by entry. -/
theorem final7 (p : Fin 100000) (q : Fin 16) :
    (Gen.dat7 V c).arrAt 3 cfg7.N (ix3 (0 : Fin 1) p q)
      = (∑ k : Fin 16, in7_0 V c (ix2 p k) * in7_1 V c (ix3 (0 : Fin 1) k q)) + in7_2 V c (ix2 (0 : Fin 1) q) :=
  congrFun (final7_fun V c) (ix3 (0 : Fin 1) p q)

end Cert.KernelIdeal.KRegion

end
-- ==== Proof.KRegion8.lean ====
/-
  What three row-tiled dense layers on one input leave in their output array, as one function of the three input arrays.

  For each slab e < 3 the layers map each of 1000000 rows x of 16 entries to x W[e] + b[e], with a weight stack W of three
  16 by 16 slabs and a bias stack b of three slabs of 16 entries.  The rows are handled in 125 tiles of 8000; for each
  tile the body stores the three slabs' results one after the other, each into its slab of the tile's output block,
  and the tiles cover the output.  Entry (e, p, q) of the output is therefore
  (sum over k < 16 of x (p, k) * W (e, k, q)) + b (e, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 8: three dense layers on one input, 1000000 rows in 125 tiles of 8000, 16 inputs, 16 outputs, three slabs -/

/-- Row r of a row tile through the affine map of slab e, at output column q. -/
def slab8 (x0 : Vec Ideal S8000x16 .f32) (x1 : Vec Ideal S3x16x16 .f32) (x2 : Vec Ideal S3x16 .f32)
    (e : Fin 3) (r : Fin 8000) (q : Fin 16) : Ideal .f32 :=
  (∑ k : Fin 16, x0 (ix2 r k) * x1 (ix3 e k q)) + x2 (ix2 e q)

/-- The body's store into slab 0 of its output block, entry by entry. -/
theorem piece8_0 (x0 : Vec Ideal S8000x16 .f32) (x1 : Vec Ideal S3x16x16 .f32) (x2 : Vec Ideal S3x16 .f32)
    (u : Fin 1) (r : Fin 8000) (q : Fin 16) :
    (Gen.k8_pay3 (View.ld x0 Gen.r8_0) (View.ld x1 Gen.r8_1) (View.ld x2 Gen.r8_2)) (ix3 u r q) = slab8 x0 x1 x2 (0 : Fin 3) r q := by
  simp only [View.ld_unit_zero (S := S8000x16) hz2]
  unfold Gen.k8_pay3 Gen.k8_pay2
  refine (Cert.Lib.slab_self_apply dot_S8000x16_S16x16_S8000x16_1_0_0_1_n_n dot_S8000x16_S16x16_S8000x16_1_0_0_1_n_n.wf rfl x0 (View.ld x1 Gen.r8_1) (View.ld x2 Gen.r8_2) _ _ _ _ _ _ _ _ u r q).trans ?_
  unfold slab8
  refine congrArg₂ (· + ·) (Finset.sum_congr rfl fun k _ => ?_) ?_
  · show x0 (ix2 r k) * x1 (Gen.r8_1.idx (ix3 (0 : Fin 1) k q)) = x0 (ix2 r k) * x1 (ix3 (0 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r8_2.idx (ix2 (0 : Fin 1) q)) = x2 (ix2 (0 : Fin 3) q)
    refine congrArg x2 ?_
    funext a; apply Fin.ext
    match a with
    | ⟨0, _⟩ => rfl
    | ⟨1, _⟩ => show 0 + 1 * q.val = q.val; omega

/-- The body's store into slab 1 of its output block, entry by entry. -/
theorem piece8_1 (x0 : Vec Ideal S8000x16 .f32) (x1 : Vec Ideal S3x16x16 .f32) (x2 : Vec Ideal S3x16 .f32)
    (u : Fin 1) (r : Fin 8000) (q : Fin 16) :
    (Gen.k8_pay4 (View.ld x0 Gen.r8_0) (View.ld x1 Gen.r8_4) (View.ld x2 Gen.r8_5)) (ix3 u r q) = slab8 x0 x1 x2 (1 : Fin 3) r q := by
  simp only [View.ld_unit_zero (S := S8000x16) hz2]
  unfold Gen.k8_pay4 Gen.k8_pay2
  refine (Cert.Lib.slab_self_apply dot_S8000x16_S16x16_S8000x16_1_0_0_1_n_n dot_S8000x16_S16x16_S8000x16_1_0_0_1_n_n.wf rfl x0 (View.ld x1 Gen.r8_4) (View.ld x2 Gen.r8_5) _ _ _ _ _ _ _ _ u r q).trans ?_
  unfold slab8
  refine congrArg₂ (· + ·) (Finset.sum_congr rfl fun k _ => ?_) ?_
  · show x0 (ix2 r k) * x1 (Gen.r8_4.idx (ix3 (0 : Fin 1) k q)) = x0 (ix2 r k) * x1 (ix3 (1 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r8_5.idx (ix2 (0 : Fin 1) q)) = x2 (ix2 (1 : Fin 3) q)
    refine congrArg x2 ?_
    funext a; apply Fin.ext
    match a with
    | ⟨0, _⟩ => rfl
    | ⟨1, _⟩ => show 0 + 1 * q.val = q.val; omega

/-- The body's store into slab 2 of its output block, entry by entry. -/
theorem piece8_2 (x0 : Vec Ideal S8000x16 .f32) (x1 : Vec Ideal S3x16x16 .f32) (x2 : Vec Ideal S3x16 .f32)
    (u : Fin 1) (r : Fin 8000) (q : Fin 16) :
    (Gen.k8_pay1 (Gen.k8_pay5 (View.ld x0 Gen.r8_0) (View.ld x1 Gen.r8_7)) (View.ld x2 Gen.r8_8)) (ix3 u r q) = slab8 x0 x1 x2 (2 : Fin 3) r q := by
  simp only [View.ld_unit_zero (S := S8000x16) hz2]
  unfold Gen.k8_pay1 Gen.k8_pay5 Gen.k8_pay2
  refine (Cert.Lib.slab_self_apply dot_S8000x16_S16x16_S8000x16_1_0_0_1_n_n dot_S8000x16_S16x16_S8000x16_1_0_0_1_n_n.wf rfl x0 (View.ld x1 Gen.r8_7) (View.ld x2 Gen.r8_8) _ _ _ _ _ _ _ _ u r q).trans ?_
  unfold slab8
  refine congrArg₂ (· + ·) (Finset.sum_congr rfl fun k _ => ?_) ?_
  · show x0 (ix2 r k) * x1 (Gen.r8_7.idx (ix3 (0 : Fin 1) k q)) = x0 (ix2 r k) * x1 (ix3 (2 : Fin 3) k q)
    refine congrArg (fun z => x0 (ix2 r k) * x1 z) ?_
    funext a; apply Fin.ext
    match a with
    | ⟨0, _⟩ => rfl
    | ⟨1, _⟩ => show 0 + 1 * k.val = k.val; omega
    | ⟨2, _⟩ => show 0 + 1 * q.val = q.val; omega
  · show x2 (Gen.r8_8.idx (ix2 (0 : Fin 1) q)) = x2 (ix2 (2 : Fin 3) q)
    refine congrArg x2 ?_
    funext a; apply Fin.ext
    match a with
    | ⟨0, _⟩ => rfl
    | ⟨1, _⟩ => show 0 + 1 * q.val = q.val; omega

/-- What the body leaves in its output block, entry by entry: its three stores are the three slabs of one function,
    and they cover the block. -/
theorem out8_apply (x0 : Vec Ideal S8000x16 .f32) (x1 : Vec Ideal S3x16x16 .f32) (x2 : Vec Ideal S3x16 .f32)
    (e : Fin 3) (r : Fin 8000) (q : Fin 16) :
    Gen.out8_3 x0 x1 x2 (ix3 e r q)
      = (∑ k : Fin 16, x0 (ix2 r k) * x1 (ix3 e k q)) + x2 (ix2 e q) := by
  unfold Gen.out8_3
  refine (View.canon_apply_of_pieces (fun y => slab8 x0 x1 x2 (y 0) (y 1) (y 2)) _ ?_ (ix3 e r q) (Gen.cover8_3 _ _ _ _)).trans rfl
  refine Cert.Lib.forall_mem_three ?_ ?_ ?_
  · intro x
    obtain ⟨u, r', q', rfl⟩ : ∃ (u : Fin 1) (r' : Fin 8000) (q' : Fin 16), x = ix3 u r' q' := ⟨x 0, x 1, x 2, eq_ix3 x⟩
    have hemb : Gen.r8_9.emb (ix3 u r' q') = ix3 (2 : Fin 3) r' q' := by
      funext a; apply Fin.ext
      match a with
      | ⟨0, _⟩ => show 2 + 1 * u.val = 2; omega
      | ⟨1, _⟩ => show 0 + 1 * r'.val = r'.val; omega
      | ⟨2, _⟩ => show 0 + 1 * q'.val = q'.val; omega
    show (Gen.k8_pay1 (Gen.k8_pay5 (View.ld x0 Gen.r8_0) (View.ld x1 Gen.r8_7)) (View.ld x2 Gen.r8_8)) (ix3 u r' q')
      = slab8 x0 x1 x2 ((Gen.r8_9.emb (ix3 u r' q')) 0) ((Gen.r8_9.emb (ix3 u r' q')) 1) ((Gen.r8_9.emb (ix3 u r' q')) 2)
    rw [hemb]
    exact piece8_2 x0 x1 x2 u r' q'
  · intro x
    obtain ⟨u, r', q', rfl⟩ : ∃ (u : Fin 1) (r' : Fin 8000) (q' : Fin 16), x = ix3 u r' q' := ⟨x 0, x 1, x 2, eq_ix3 x⟩
    have hemb : Gen.r8_6.emb (ix3 u r' q') = ix3 (1 : Fin 3) r' q' := by
      funext a; apply Fin.ext
      match a with
      | ⟨0, _⟩ => show 1 + 1 * u.val = 1; omega
      | ⟨1, _⟩ => show 0 + 1 * r'.val = r'.val; omega
      | ⟨2, _⟩ => show 0 + 1 * q'.val = q'.val; omega
    show (Gen.k8_pay4 (View.ld x0 Gen.r8_0) (View.ld x1 Gen.r8_4) (View.ld x2 Gen.r8_5)) (ix3 u r' q')
      = slab8 x0 x1 x2 ((Gen.r8_6.emb (ix3 u r' q')) 0) ((Gen.r8_6.emb (ix3 u r' q')) 1) ((Gen.r8_6.emb (ix3 u r' q')) 2)
    rw [hemb]
    exact piece8_1 x0 x1 x2 u r' q'
  · intro x
    obtain ⟨u, r', q', rfl⟩ : ∃ (u : Fin 1) (r' : Fin 8000) (q' : Fin 16), x = ix3 u r' q' := ⟨x 0, x 1, x 2, eq_ix3 x⟩
    have hemb : Gen.r8_3.emb (ix3 u r' q') = ix3 (0 : Fin 3) r' q' := by
      funext a; apply Fin.ext
      match a with
      | ⟨0, _⟩ => show 0 + 1 * u.val = 0; omega
      | ⟨1, _⟩ => show 0 + 1 * r'.val = r'.val; omega
      | ⟨2, _⟩ => show 0 + 1 * q'.val = q'.val; omega
    show (Gen.k8_pay3 (View.ld x0 Gen.r8_0) (View.ld x1 Gen.r8_1) (View.ld x2 Gen.r8_2)) (ix3 u r' q')
      = slab8 x0 x1 x2 ((Gen.r8_3.emb (ix3 u r' q')) 0) ((Gen.r8_3.emb (ix3 u r' q')) 1) ((Gen.r8_3.emb (ix3 u r' q')) 2)
    rw [hemb]
    exact piece8_0 x0 x1 x2 u r' q'

/-- The region's three input arrays as it finds them, at their literal types. -/
abbrev in8_0 : FVec Ideal S1000000x16 .f32 := V c (Pipeline.arrRef spec8 0)
abbrev in8_1 : FVec Ideal S3x16x16 .f32 := V c (Pipeline.arrRef spec8 1)
abbrev in8_2 : FVec Ideal S3x16 .f32 := V c (Pipeline.arrRef spec8 2)

/-- Row p of the layers' input through the affine map of slab e, at output column q. -/
def row8 (e : Fin 3) (p : Fin 1000000) (q : Fin 16) : Ideal .f32 :=
  (∑ k : Fin 16, in8_0 V c (ix2 p k) * in8_1 V c (ix3 e k q)) + in8_2 V c (ix2 e q)

/-- The whole output array as one function of the three input arrays. -/
def G8 : FVec Ideal S3x1000000x16 .f32 := fun j => row8 V c (j 0) (j 1) (j 2)

/-- The index maps, decided over the grid: the row tile and the output tile move with the point, the weight and
    bias stacks stay. -/
theorem idx_facts8 : ∀ t : Fin cfg8.N, win8_0.index t (0 : Fin 2) = t.val ∧ win8_0.index t (1 : Fin 2) = 0
    ∧ win8_1.index t (0 : Fin 3) = 0 ∧ win8_1.index t (1 : Fin 3) = 0 ∧ win8_1.index t (2 : Fin 3) = 0
    ∧ win8_2.index t (0 : Fin 2) = 0 ∧ win8_2.index t (1 : Fin 2) = 0
    ∧ win8_3.index t (0 : Fin 3) = 0 ∧ win8_3.index t (1 : Fin 3) = t.val ∧ win8_3.index t (2 : Fin 3) = 0 :=
  (by decide +kernel : ∀ t : Fin grid8.N, _)

/-- The row of the array that row r of tile t is. -/
abbrev rowAt8 (t : Fin cfg8.N) (r : Fin 8000) : Fin 1000000 :=
  ⟨t.val * 8000 + r.val, by have := t.isLt; have hN : cfg8.N = 125 := Gen.N_8; omega⟩

/-- What point t writes back is its block of G8. -/
theorem flushed8_eq (t : Fin cfg8.N) :
    (Gen.dat8 V c).flushed 3 t = ((cfg8.win 3).blk t).view.read (Elt Ideal) (G8 V c) := by
  show (cfg8.win 3).cut (grid8.coords t) ((Gen.dat8 V c).after 3 t) = _
  rw [Gen.after8_3]
  obtain ⟨e00, e01, e10, e11, e12, e20, e21, e30, e31, e32⟩ := idx_facts8 t
  funext j
  obtain ⟨e, r, q, rfl⟩ : ∃ (e : Fin 3) (r : Fin 8000) (q : Fin 16), j = ix3 e r q := ⟨j 0, j 1, j 2, eq_ix3 j⟩
  show Gen.out8_3 (Gen.iblk8 V c 0 t) (Gen.iblk8 V c 1 t) (Gen.iblk8 V c 2 t) (ix3 e r q)
    = G8 V c (((cfg8.win 3).blk t).view.emb (ix3 e r q))
  rw [out8_apply]
  have h3 : ((cfg8.win 3).blk t).view.emb (ix3 e r q) = ix3 e (rowAt8 t r) q := by
    funext a; apply Fin.ext
    match a with
    | ⟨0, _⟩ => show win8_3.index t (0 : Fin 3) * 3 + 1 * e.val = e.val; rw [e30]; omega
    | ⟨1, _⟩ => show win8_3.index t (1 : Fin 3) * 8000 + 1 * r.val = t.val * 8000 + r.val; rw [e31]; omega
    | ⟨2, _⟩ => show win8_3.index t (2 : Fin 3) * 16 + 1 * q.val = q.val; rw [e32]; omega
  rw [h3]
  show _ = row8 V c e (rowAt8 t r) q
  unfold row8
  have h0 : ∀ k : Fin 16, Gen.iblk8 V c 0 t (ix2 r k) = in8_0 V c (ix2 (rowAt8 t r) k) := fun k => by
    show in8_0 V c (((cfg8.win 0).blk t).view.emb (ix2 r k)) = _
    refine congrArg _ ?_
    funext a; apply Fin.ext
    match a with
    | ⟨0, _⟩ => show win8_0.index t (0 : Fin 2) * 8000 + 1 * r.val = t.val * 8000 + r.val; rw [e00]; omega
    | ⟨1, _⟩ => show win8_0.index t (1 : Fin 2) * 16 + 1 * k.val = k.val; rw [e01]; omega
  have h1 : ∀ k : Fin 16, Gen.iblk8 V c 1 t (ix3 e k q) = in8_1 V c (ix3 e k q) := fun k => by
    show in8_1 V c (((cfg8.win 1).blk t).view.emb (ix3 e k q)) = _
    refine congrArg _ ?_
    funext a; apply Fin.ext
    match a with
    | ⟨0, _⟩ => show win8_1.index t (0 : Fin 3) * 3 + 1 * e.val = e.val; rw [e10]; omega
    | ⟨1, _⟩ => show win8_1.index t (1 : Fin 3) * 16 + 1 * k.val = k.val; rw [e11]; omega
    | ⟨2, _⟩ => show win8_1.index t (2 : Fin 3) * 16 + 1 * q.val = q.val; rw [e12]; omega
  have h2 : Gen.iblk8 V c 2 t (ix2 e q) = in8_2 V c (ix2 e q) := by
    show in8_2 V c (((cfg8.win 2).blk t).view.emb (ix2 e q)) = _
    refine congrArg _ ?_
    funext a; apply Fin.ext
    match a with
    | ⟨0, _⟩ => show win8_2.index t (0 : Fin 2) * 3 + 1 * e.val = e.val; rw [e20]; omega
    | ⟨1, _⟩ => show win8_2.index t (1 : Fin 2) * 16 + 1 * q.val = q.val; rw [e21]; omega
  rw [h2]
  refine congrArg (· + _) (Finset.sum_congr rfl fun k _ => ?_)
  rw [h0 k, h1 k]

/-- Every entry of the output array is in the block of the point its row's tile is. -/
theorem cover8 (i : S3x1000000x16.Idx) :
    ∃ t : Fin cfg8.N, (cfg8.win 3).flush t = true ∧ i ∈ ((cfg8.win 3).blk t).view.set := by
  have hN : cfg8.N = 125 := Gen.N_8
  have h0 : (i 0).val < 3 := (i 0).isLt
  have h1 : (i 1).val < 1000000 := (i 1).isLt
  have h2 : (i 2).val < 16 := (i 2).isLt
  have htN : (i 1).val / 8000 < cfg8.N := by rw [hN]; omega
  obtain ⟨e00, e01, e10, e11, e12, e20, e21, e30, e31, e32⟩ := idx_facts8 ⟨(i 1).val / 8000, htN⟩
  refine ⟨⟨(i 1).val / 8000, htN⟩, Gen.flush8_3 _, ?_⟩
  show i ∈ ((View.whole main_v130).slice (win8_3.rect ⟨(i 1).val / 8000, htN⟩)).set
  rw [View.set_slice_whole, Rect.mem_set_unit]
  intro a
  match a with
  | ⟨0, _⟩ => show win8_3.index ⟨(i 1).val / 8000, htN⟩ (0 : Fin 3) * 3 ≤ (i 0).val ∧ (i 0).val < win8_3.index ⟨(i 1).val / 8000, htN⟩ (0 : Fin 3) * 3 + 3; rw [e30]; omega
  | ⟨1, _⟩ => show win8_3.index ⟨(i 1).val / 8000, htN⟩ (1 : Fin 3) * 8000 ≤ (i 1).val ∧ (i 1).val < win8_3.index ⟨(i 1).val / 8000, htN⟩ (1 : Fin 3) * 8000 + 8000; rw [e31]; show (i 1).val / 8000 * 8000 ≤ (i 1).val ∧ (i 1).val < (i 1).val / 8000 * 8000 + 8000; omega
  | ⟨2, _⟩ => show win8_3.index ⟨(i 1).val / 8000, htN⟩ (2 : Fin 3) * 16 ≤ (i 2).val ∧ (i 2).val < win8_3.index ⟨(i 1).val / 8000, htN⟩ (2 : Fin 3) * 16 + 16; rw [e32]; omega

/-- The output array after the region: G8 of the three input arrays as the region finds them. -/
theorem final8_fun : (Gen.dat8 V c).arrAt 3 cfg8.N = G8 V c :=
  (Gen.dat8 V c).arrAt_eq_of_cover 3 (G8 V c) (fun t _ => flushed8_eq V c t) cover8

/-- Entry by entry. -/
theorem final8 (e : Fin 3) (p : Fin 1000000) (q : Fin 16) :
    (Gen.dat8 V c).arrAt 3 cfg8.N (ix3 e p q)
      = (∑ k : Fin 16, in8_0 V c (ix2 p k) * in8_1 V c (ix3 e k q)) + in8_2 V c (ix2 e q) :=
  congrFun (final8_fun V c) (ix3 e p q)

end Cert.KernelIdeal.KRegion

end
-- ==== Proof.KRegion9.lean ====
/-
  What one row-tiled dense layer leaves in its output array, as one function of its three input arrays.

  The layer maps each of 1000000 rows x of 16 entries to x W + b with W of 16 by 2 and b of 2 entries, the weight
  and the bias given as stacks of one slab.  The rows are handled in 125 tiles of 8000; each tile's result is written
  to the tile's rows of the output, and the tiles cover the output.  Entry (0, p, q) of the output is therefore
  (sum over k < 16 of x (p, k) * W (0, k, q)) + b (0, q).
-/
import proofs.«154745_j79044578115861_1_alg».proof.Proof.Gen.KernelIdeal.Frame
import proofs.«154745_j79044578115861_1_alg».proof.Proof.KRegionLib
import Idealize.ShloMosaic.Lib.Pipeline.Value

set_option maxRecDepth 16384

noncomputable section

open scoped BigOperators

namespace Cert.KernelIdeal.KRegion

open Idealize.ShloMosaic Idealize.ShloMosaic.TcCoe Idealize.ShloMosaic.ValueIdx Idealize.SL.Sem
open Idealize.ShloMosaic.Pipeline (Dat)
open Cert.KernelIdeal
open Cert.Lib (hz2 hz3)

variable (V : (c : Dev nD) → (b : Ref sig .tc) → Buf (Elt Ideal) ((c : Thread nD τ).loc b)) (c : Dev nD)

/-! # Region 9: a dense layer, 1000000 rows in 125 tiles of 8000, 16 inputs, 2 outputs, one slab -/

/-- What the body leaves in its output block, entry by entry: row r of the row tile through the affine map. -/
theorem out9_apply (x0 : Vec Ideal S8000x16 .f32) (x1 : Vec Ideal S1x16x2 .f32) (x2 : Vec Ideal S1x2 .f32)
    (u : Fin 1) (r : Fin 8000) (q : Fin 2) :
    Gen.out9_3 x0 x1 x2 (ix3 u r q)
      = (∑ k : Fin 16, x0 (ix2 r k) * x1 (ix3 (0 : Fin 1) k q)) + x2 (ix2 (0 : Fin 1) q) := by
  unfold Gen.out9_3
  rw [View.canon_unit_zero hz3]
  simp only [View.ld_unit_zero (S := S8000x16) hz2, View.ld_unit_zero (S := S1x16x2) hz3, View.ld_unit_zero (S := S1x2) hz2]
  unfold Gen.k9_pay1
  exact Cert.Lib.slab_self_apply dot_S8000x16_S16x2_S8000x2_1_0_0_1_n_n dot_S8000x16_S16x2_S8000x2_1_0_0_1_n_n.wf rfl x0 x1 x2 _ _ _ _ _ _ _ _ u r q

/-- The region's three input arrays as it finds them, at their literal types. -/
abbrev in9_0 : FVec Ideal S1000000x16 .f32 := V c (Pipeline.arrRef spec9 0)
abbrev in9_1 : FVec Ideal S1x16x2 .f32 := V c (Pipeline.arrRef spec9 1)
abbrev in9_2 : FVec Ideal S1x2 .f32 := V c (Pipeline.arrRef spec9 2)

/-- Row p of the layer's input through the affine map of slab 0, at output column q. -/
def row9 (p : Fin 1000000) (q : Fin 2) : Ideal .f32 :=
  (∑ k : Fin 16, in9_0 V c (ix2 p k) * in9_1 V c (ix3 (0 : Fin 1) k q)) + in9_2 V c (ix2 (0 : Fin 1) q)

/-- The whole output array as one function of the three input arrays. -/
def G9 : FVec Ideal S1x1000000x2 .f32 := fun j => row9 V c (j 1) (j 2)

/-- The index maps, decided over the grid: the row tile and the output tile move with the point, the weight and
    bias stacks stay. -/
theorem idx_facts9 : ∀ t : Fin cfg9.N, win9_0.index t (0 : Fin 2) = t.val ∧ win9_0.index t (1 : Fin 2) = 0
    ∧ win9_1.index t (0 : Fin 3) = 0 ∧ win9_1.index t (1 : Fin 3) = 0 ∧ win9_1.index t (2 : Fin 3) = 0
    ∧ win9_2.index t (0 : Fin 2) = 0 ∧ win9_2.index t (1 : Fin 2) = 0
    ∧ win9_3.index t (0 : Fin 3) = 0 ∧ win9_3.index t (1 : Fin 3) = t.val ∧ win9_3.index t (2 : Fin 3) = 0 :=
  (by decide +kernel : ∀ t : Fin grid9.N, _)

/-- The row of the array that row r of tile t is. -/
abbrev rowAt9 (t : Fin cfg9.N) (r : Fin 8000) : Fin 1000000 :=
  ⟨t.val * 8000 + r.val, by have := t.isLt; have hN : cfg9.N = 125 := Gen.N_9; omega⟩

/-- What point t writes back is its block of G9. -/
theorem flushed9_eq (t : Fin cfg9.N) :
    (Gen.dat9 V c).flushed 3 t = ((cfg9.win 3).blk t).view.read (Elt Ideal) (G9 V c) := by
  show (cfg9.win 3).cut (grid9.coords t) ((Gen.dat9 V c).after 3 t) = _
  rw [Gen.after9_3]
  obtain ⟨e00, e01, e10, e11, e12, e20, e21, e30, e31, e32⟩ := idx_facts9 t
  funext j
  obtain ⟨u, r, q, rfl⟩ : ∃ (u : Fin 1) (r : Fin 8000) (q : Fin 2), j = ix3 u r q := ⟨j 0, j 1, j 2, eq_ix3 j⟩
  show Gen.out9_3 (Gen.iblk9 V c 0 t) (Gen.iblk9 V c 1 t) (Gen.iblk9 V c 2 t) (ix3 u r q)
    = G9 V c (((cfg9.win 3).blk t).view.emb (ix3 u r q))
  rw [out9_apply]
  have h3 : ((cfg9.win 3).blk t).view.emb (ix3 u r q) = ix3 (0 : Fin 1) (rowAt9 t r) q := by
    funext a; apply Fin.ext
    match a with
    | ⟨0, _⟩ => show win9_3.index t (0 : Fin 3) * 1 + 1 * u.val = 0; rw [e30]; omega
    | ⟨1, _⟩ => show win9_3.index t (1 : Fin 3) * 8000 + 1 * r.val = t.val * 8000 + r.val; rw [e31]; omega
    | ⟨2, _⟩ => show win9_3.index t (2 : Fin 3) * 2 + 1 * q.val = q.val; rw [e32]; omega
  rw [h3]
  show _ = row9 V c (rowAt9 t r) q
  unfold row9
  have h0 : ∀ k : Fin 16, Gen.iblk9 V c 0 t (ix2 r k) = in9_0 V c (ix2 (rowAt9 t r) k) := fun k => by
    show in9_0 V c (((cfg9.win 0).blk t).view.emb (ix2 r k)) = _
    refine congrArg _ ?_
    funext a; apply Fin.ext
    match a with
    | ⟨0, _⟩ => show win9_0.index t (0 : Fin 2) * 8000 + 1 * r.val = t.val * 8000 + r.val; rw [e00]; omega
    | ⟨1, _⟩ => show win9_0.index t (1 : Fin 2) * 16 + 1 * k.val = k.val; rw [e01]; omega
  have h1 : ∀ k : Fin 16, Gen.iblk9 V c 1 t (ix3 (0 : Fin 1) k q) = in9_1 V c (ix3 (0 : Fin 1) k q) := fun k => by
    show in9_1 V c (((cfg9.win 1).blk t).view.emb (ix3 (0 : Fin 1) k q)) = _
    refine congrArg _ ?_
    funext a; apply Fin.ext
    match a with
    | ⟨0, _⟩ => show win9_1.index t (0 : Fin 3) * 1 + 1 * 0 = 0; rw [e10]
    | ⟨1, _⟩ => show win9_1.index t (1 : Fin 3) * 16 + 1 * k.val = k.val; rw [e11]; omega
    | ⟨2, _⟩ => show win9_1.index t (2 : Fin 3) * 2 + 1 * q.val = q.val; rw [e12]; omega
  have h2 : Gen.iblk9 V c 2 t (ix2 (0 : Fin 1) q) = in9_2 V c (ix2 (0 : Fin 1) q) := by
    show in9_2 V c (((cfg9.win 2).blk t).view.emb (ix2 (0 : Fin 1) q)) = _
    refine congrArg _ ?_
    funext a; apply Fin.ext
    match a with
    | ⟨0, _⟩ => show win9_2.index t (0 : Fin 2) * 1 + 1 * 0 = 0; rw [e20]
    | ⟨1, _⟩ => show win9_2.index t (1 : Fin 2) * 2 + 1 * q.val = q.val; rw [e21]; omega
  rw [h2]
  refine congrArg (· + _) (Finset.sum_congr rfl fun k _ => ?_)
  rw [h0 k, h1 k]

/-- Every entry of the output array is in the block of the point its row's tile is. -/
theorem cover9 (i : S1x1000000x2.Idx) :
    ∃ t : Fin cfg9.N, (cfg9.win 3).flush t = true ∧ i ∈ ((cfg9.win 3).blk t).view.set := by
  have hN : cfg9.N = 125 := Gen.N_9
  have h0 : (i 0).val < 1 := (i 0).isLt
  have h1 : (i 1).val < 1000000 := (i 1).isLt
  have h2 : (i 2).val < 2 := (i 2).isLt
  have htN : (i 1).val / 8000 < cfg9.N := by rw [hN]; omega
  obtain ⟨e00, e01, e10, e11, e12, e20, e21, e30, e31, e32⟩ := idx_facts9 ⟨(i 1).val / 8000, htN⟩
  refine ⟨⟨(i 1).val / 8000, htN⟩, Gen.flush9_3 _, ?_⟩
  show i ∈ ((View.whole main_v179).slice (win9_3.rect ⟨(i 1).val / 8000, htN⟩)).set
  rw [View.set_slice_whole, Rect.mem_set_unit]
  intro a
  match a with
  | ⟨0, _⟩ => show win9_3.index ⟨(i 1).val / 8000, htN⟩ (0 : Fin 3) * 1 ≤ (i 0).val ∧ (i 0).val < win9_3.index ⟨(i 1).val / 8000, htN⟩ (0 : Fin 3) * 1 + 1; rw [e30]; omega
  | ⟨1, _⟩ => show win9_3.index ⟨(i 1).val / 8000, htN⟩ (1 : Fin 3) * 8000 ≤ (i 1).val ∧ (i 1).val < win9_3.index ⟨(i 1).val / 8000, htN⟩ (1 : Fin 3) * 8000 + 8000; rw [e31]; show (i 1).val / 8000 * 8000 ≤ (i 1).val ∧ (i 1).val < (i 1).val / 8000 * 8000 + 8000; omega
  | ⟨2, _⟩ => show win9_3.index ⟨(i 1).val / 8000, htN⟩ (2 : Fin 3) * 2 ≤ (i 2).val ∧ (i 2).val < win9_3.index ⟨(i 1).val / 8000, htN⟩ (2 : Fin 3) * 2 + 2; rw [e32]; omega

/-- The output array after the region: G9 of the three input arrays as the region finds them. -/
theorem final9_fun : (Gen.dat9 V c).arrAt 3 cfg9.N = G9 V c :=
  (Gen.dat9 V c).arrAt_eq_of_cover 3 (G9 V c) (fun t _ => flushed9_eq V c t) cover9

/-- Entry by entry. -/
theorem final9 (p : Fin 1000000) (q : Fin 2) :
    (Gen.dat9 V c).arrAt 3 cfg9.N (ix3 (0 : Fin 1) p q)
      = (∑ k : Fin 16, in9_0 V c (ix2 p k) * in9_1 V c (ix3 (0 : Fin 1) k q)) + in9_2 V c (ix2 (0 : Fin 1) q) :=
  congrFun (final9_fun V c) (ix3 (0 : Fin 1) p q)

end Cert.KernelIdeal.KRegion

end
-- ==== Proof.Dense2.lean ====
/-
  Layer 2's dense maps, kernel program against reference, as whole arrays.

  A region of the kernel program leaves in its output array, at (e, p, q), the sum over k of x (p, k) · w (e, k, q)
  plus b (e, q), where w and b are the slabs the host cut out of the weight and bias stacks before the region.  The
  reference computes the same sums by a matrix product of x with the slot's weight matrix plus the slot's bias row
  repeated along the rows.  So, the rows x being equal on the two sides, the region's output (its unit axis dropped,
  or one member of its three slabs) and the reference's dense map are equal, entry by entry: the two sums have the same
  terms in the same order.
  The head (the tenth region against the reference's last product) is here too.
-/
import proofs.«154745_j79044578115861_1_alg».proof.Proof.KChainB
import proofs.«154745_j79044578115861_1_alg».proof.Proof.KLayout
import proofs.«154745_j79044578115861_1_alg».proof.Proof.RefLin
import proofs.«154745_j79044578115861_1_alg».proof.Proof.RefRead
import proofs.«154745_j79044578115861_1_alg».proof.Proof.KRegion6
import proofs.«154745_j79044578115861_1_alg».proof.Proof.KRegion7
import proofs.«154745_j79044578115861_1_alg».proof.Proof.KRegion8
import proofs.«154745_j79044578115861_1_alg».proof.Proof.KRegion9

set_option maxRecDepth 16384

noncomputable section

namespace Cert.Proof.Dense

open Idealize.ShloMosaic Idealize.ShloMosaic.TcCoe Idealize.SL.Sem Idealize.ShloMosaic.StableHlo Idealize.ShloMosaic.ValueIdx
open scoped BigOperators
open Cert.KernelIdeal Cert.KernelIdeal.Gen Cert.KernelIdeal.KChain

variable (m : (ℓ : Loc nD τ sig) → Buf (Elt Ideal) ℓ) (ρ : Dev nD → PrngReg) (c : Dev nD)

/-- Layer 2, the card rows: the region's output with its unit axis dropped is the reference's dense map of slot 0 — entry (p, q) of both is the sum over k of x (p, k) · W (0, k, q), plus b (0, q). -/
theorem dense2_c (UR : Valuation Cert.ReferenceIdeal.τ Cert.ReferenceIdeal.sig (Elt Ideal))
    (hx : W25 m ρ c (Proc.devRef .tc main_v118) = UR (Proc.devRef .tc Cert.ReferenceIdeal.main_v164))
    (hW : UR (Proc.devRef .tc Cert.ReferenceIdeal.main_arg7) = m ((c : Thread nD τ).loc main_arg7))
    (hb : UR (Proc.devRef .tc Cert.ReferenceIdeal.main_arg8) = m ((c : Thread nD τ).loc main_arg8)) :
    W27 m ρ c (Proc.devRef .tc main_v123)
      = StableHlo.after Cert.ReferenceIdeal.RefRun.ops4 UR (Proc.devRef .tc Cert.ReferenceIdeal.main_v173) := by
  rw [Cert.ReferenceIdeal.RefRead.ops4_v173 UR, hW, hb]
  rw [W27_v123_raw m ρ c, W26_out m ρ c]
  funext j
  obtain ⟨p, q, rfl⟩ : ∃ (p : Fin 500000) (q : Fin 16), j = ix2 p q := ⟨j 0, j 1, eq_ix2 j⟩
  rw [Cert.KernelIdeal.KLayout.out500000_apply, Cert.KernelIdeal.KRegion.final6 (V25 m ρ) c p q]
  rw [Cert.ReferenceIdeal.RefLin.lin_16_0_apply]
  have e0 : Cert.KernelIdeal.KRegion.in6_0 (V25 m ρ) c = UR (Proc.devRef .tc Cert.ReferenceIdeal.main_v164) := hx
  have e1 : Cert.KernelIdeal.KRegion.in6_1 (V25 m ρ) c = _ := W25_v120 m ρ c
  have e2 : Cert.KernelIdeal.KRegion.in6_2 (V25 m ρ) c = _ := W25_v121 m ρ c
  rw [e0, e1, e2]
  simp only [Cert.KernelIdeal.KLayout.w16_slot0_apply, Cert.KernelIdeal.KLayout.b_slot0_apply]

/-- Layer 2, the merchant rows: slot 1. -/
theorem dense2_m (UR : Valuation Cert.ReferenceIdeal.τ Cert.ReferenceIdeal.sig (Elt Ideal))
    (hx : W27 m ρ c (Proc.devRef .tc main_v119) = UR (Proc.devRef .tc Cert.ReferenceIdeal.main_v165))
    (hW : UR (Proc.devRef .tc Cert.ReferenceIdeal.main_arg7) = m ((c : Thread nD τ).loc main_arg7))
    (hb : UR (Proc.devRef .tc Cert.ReferenceIdeal.main_arg8) = m ((c : Thread nD τ).loc main_arg8)) :
    W29 m ρ c (Proc.devRef .tc main_v127)
      = StableHlo.after Cert.ReferenceIdeal.RefRun.ops4 UR (Proc.devRef .tc Cert.ReferenceIdeal.main_v181) := by
  rw [Cert.ReferenceIdeal.RefRead.ops4_v181 UR, hW, hb]
  rw [W29_v127_raw m ρ c, W28_out m ρ c]
  funext j
  obtain ⟨p, q, rfl⟩ : ∃ (p : Fin 100000) (q : Fin 16), j = ix2 p q := ⟨j 0, j 1, eq_ix2 j⟩
  rw [Cert.KernelIdeal.KLayout.out100000_apply, Cert.KernelIdeal.KRegion.final7 (V27 m ρ) c p q]
  rw [Cert.ReferenceIdeal.RefLin.lin_16_1_apply]
  have e0 : Cert.KernelIdeal.KRegion.in7_0 (V27 m ρ) c = UR (Proc.devRef .tc Cert.ReferenceIdeal.main_v165) := hx
  have e1 : Cert.KernelIdeal.KRegion.in7_1 (V27 m ρ) c = _ := W27_v124 m ρ c
  have e2 : Cert.KernelIdeal.KRegion.in7_2 (V27 m ρ) c = _ := W27_v125 m ρ c
  rw [e0, e1, e2]
  simp only [Cert.KernelIdeal.KLayout.w16_slot1_apply, Cert.KernelIdeal.KLayout.b_slot1_apply]

/-- Layer 2, the transaction rows: member 0 of the three-slab output is the reference's dense map of slot 2. -/
theorem dense2_t0 (UR : Valuation Cert.ReferenceIdeal.τ Cert.ReferenceIdeal.sig (Elt Ideal))
    (hx : W29 m ρ c (Proc.devRef .tc main_v117) = UR (Proc.devRef .tc Cert.ReferenceIdeal.main_v163))
    (hW : UR (Proc.devRef .tc Cert.ReferenceIdeal.main_arg7) = m ((c : Thread nD τ).loc main_arg7))
    (hb : UR (Proc.devRef .tc Cert.ReferenceIdeal.main_arg8) = m ((c : Thread nD τ).loc main_arg8)) :
    shapeCast S1000000x16 (extractStridedSlice S1x1000000x16 ![0, 0, 0] (W30 m ρ c (Proc.devRef .tc main_v130)) slices_S3x1000000x16_S1x1000000x16_0_0_0) shapeCasts_S1x1000000x16_S1000000x16
      = StableHlo.after Cert.ReferenceIdeal.RefRun.ops4 UR (Proc.devRef .tc Cert.ReferenceIdeal.main_v189) := by
  rw [Cert.ReferenceIdeal.RefRead.ops4_v189 UR, hW, hb]
  rw [W30_out m ρ c]
  funext j
  obtain ⟨p, q, rfl⟩ : ∃ (p : Fin 1000000) (q : Fin 16), j = ix2 p q := ⟨j 0, j 1, eq_ix2 j⟩
  rw [Cert.KernelIdeal.KLayout.member0_apply, Cert.KernelIdeal.KRegion.final8 (V29 m ρ) c (0 : Fin 3) p q]
  rw [Cert.ReferenceIdeal.RefLin.lin_16_2_apply]
  have e0 : Cert.KernelIdeal.KRegion.in8_0 (V29 m ρ) c = UR (Proc.devRef .tc Cert.ReferenceIdeal.main_v163) := hx
  have e1 : Cert.KernelIdeal.KRegion.in8_1 (V29 m ρ) c = _ := W29_v128 m ρ c
  have e2 : Cert.KernelIdeal.KRegion.in8_2 (V29 m ρ) c = _ := W29_v129 m ρ c
  rw [e0, e1, e2]
  simp only [Cert.KernelIdeal.KLayout.w16_band_apply, Cert.KernelIdeal.KLayout.b_band_apply]
  try rfl

/-- The head: the last region's output with its unit axis dropped is the reference's final dense map — entry (p, q) of both is the sum over k of x (p, k) · W (k, q), plus b (q). -/
theorem dense_head (UR : Valuation Cert.ReferenceIdeal.τ Cert.ReferenceIdeal.sig (Elt Ideal))
    (hx : W31 m ρ c (Proc.devRef .tc main_v152) = UR (Proc.devRef .tc Cert.ReferenceIdeal.main_v221))
    (hW : UR (Proc.devRef .tc Cert.ReferenceIdeal.main_arg9) = m ((c : Thread nD τ).loc main_arg9))
    (hb : UR (Proc.devRef .tc Cert.ReferenceIdeal.main_arg10) = m ((c : Thread nD τ).loc main_arg10)) :
    W33 m ρ c (Proc.devRef .tc main_v180)
      = StableHlo.after Cert.ReferenceIdeal.RefRun.ops6 UR (Proc.devRef .tc Cert.ReferenceIdeal.main_v249) := by
  rw [Cert.ReferenceIdeal.RefRead.ops6_v249 UR, hW, hb]
  rw [W33_v180_raw m ρ c, W32_out m ρ c]
  funext j
  obtain ⟨p, q, rfl⟩ : ∃ (p : Fin 1000000) (q : Fin 2), j = ix2 p q := ⟨j 0, j 1, eq_ix2 j⟩
  rw [Cert.KernelIdeal.KLayout.outHead_apply, Cert.KernelIdeal.KRegion.final9 (V31 m ρ) c p q]
  rw [Cert.ReferenceIdeal.RefLin.linOut_apply]
  have e0 : Cert.KernelIdeal.KRegion.in9_0 (V31 m ρ) c = UR (Proc.devRef .tc Cert.ReferenceIdeal.main_v221) := hx
  have e1 : Cert.KernelIdeal.KRegion.in9_1 (V31 m ρ) c = _ := W31_v177 m ρ c
  have e2 : Cert.KernelIdeal.KRegion.in9_2 (V31 m ρ) c = _ := W31_v178 m ρ c
  rw [e0, e1, e2]
  simp only [Cert.KernelIdeal.KLayout.headW_apply, Cert.KernelIdeal.KLayout.headB_apply]

end Cert.Proof.Dense

end
-- ==== Proof.Sim.lean ====
import proofs.«154745_j79044578115861_1_alg».proof.Proof.KChain0
import proofs.«154745_j79044578115861_1_alg».proof.Proof.RefRun
import proofs.«154745_j79044578115861_1_alg».proof.Proof.LibTypedRefs

/-!
# The host glue between the dense maps is the same function in the two programs

Between two layers' dense maps both programs do the same thing to the same five arrays: the two index vectors are
normalised (a negative index counts from the end), the source rows and the destination rows are gathered at them and
added to the edge rows; the edge-to-node rows are summed per node, divided by the number of edges at the node (at least
one), and each result is passed through the leaky rectifier. The two texts differ only in the names of the buffers and
in the namespaces of the records that describe the gathers, the scatters, the broadcasts and the shapes.

So if the five input buffers hold equal arrays in the two programs, the output buffers do. Each lemma here takes
arbitrary buffer contents on the two sides, equal at the inputs, folds the two operation lists over them, and reads the
outputs: both are then one and the same expression in the inputs.
-/

set_option maxRecDepth 16384

noncomputable section

namespace Cert.Proof.Sim

open Idealize.ShloMosaic Idealize.ShloMosaic.StableHlo

variable {F : FTy → Type} [FloatOps F]

/-- The leaky rectifier `x ↦ if x ≥ 0 then x else c · x`, written with a comparison, a product and a selection, is a
    function of `x`: equal arguments give equal results. -/
theorem leaky_congr {s : Shape} {φ : FTy} {z c X X' : FVec F s φ} (h : X = X') :
    select (cmpf .oge X z) X (mulf c X) = select (cmpf .oge X' z) X' (mulf c X') := by
  subst h; rfl

set_option maxHeartbeats 1000000 in
/-- The first layer's glue: the rectified edge rows, and the rectified per-node means of the two edge-to-node row sets.
    The three row sets the glue starts from are the members of the stack of three the preceding kernel wrote. -/
theorem sim_glue0
    (UK : Valuation Cert.KernelIdeal.τ Cert.KernelIdeal.sig (Elt F))
    (UR : Valuation Cert.ReferenceIdeal.τ Cert.ReferenceIdeal.sig (Elt F))
    {hs0 : Cert.KernelIdeal.S3x1000000x16.Slices ![0, 0, 0] Cert.KernelIdeal.S1x1000000x16}
    {hs1 : Cert.KernelIdeal.S3x1000000x16.Slices ![1, 0, 0] Cert.KernelIdeal.S1x1000000x16}
    {hs2 : Cert.KernelIdeal.S3x1000000x16.Slices ![2, 0, 0] Cert.KernelIdeal.S1x1000000x16}
    {hc : Cert.KernelIdeal.S1x1000000x16.ShapeCasts Cert.KernelIdeal.S1000000x16}
    (hx : UK (Proc.devRef .tc Cert.KernelIdeal.main_v3) = UR (Proc.devRef .tc Cert.ReferenceIdeal.main_v7))
    (hy : UK (Proc.devRef .tc Cert.KernelIdeal.main_v7) = UR (Proc.devRef .tc Cert.ReferenceIdeal.main_v15))
    (hz0 : shapeCast Cert.KernelIdeal.S1000000x16
            (extractStridedSlice Cert.KernelIdeal.S1x1000000x16 ![0, 0, 0]
              (UK (Proc.devRef .tc Cert.KernelIdeal.main_v10)) hs0) hc
          = UR (Proc.devRef .tc Cert.ReferenceIdeal.main_v23))
    (hz1 : shapeCast Cert.KernelIdeal.S1000000x16
            (extractStridedSlice Cert.KernelIdeal.S1x1000000x16 ![1, 0, 0]
              (UK (Proc.devRef .tc Cert.KernelIdeal.main_v10)) hs1) hc
          = UR (Proc.devRef .tc Cert.ReferenceIdeal.main_v31))
    (hz2 : shapeCast Cert.KernelIdeal.S1000000x16
            (extractStridedSlice Cert.KernelIdeal.S1x1000000x16 ![2, 0, 0]
              (UK (Proc.devRef .tc Cert.KernelIdeal.main_v10)) hs2) hc
          = UR (Proc.devRef .tc Cert.ReferenceIdeal.main_v39))
    (h11 : UK (Proc.devRef .tc Cert.KernelIdeal.main_arg11) = UR (Proc.devRef .tc Cert.ReferenceIdeal.main_arg11))
    (h12 : UK (Proc.devRef .tc Cert.KernelIdeal.main_arg12) = UR (Proc.devRef .tc Cert.ReferenceIdeal.main_arg12)) :
    after (Cert.KernelIdeal.KChain.kops3 (F := F)) UK (Proc.devRef .tc Cert.KernelIdeal.main_v57)
        = after (Cert.ReferenceIdeal.RefRun.ops1 (F := F)) UR (Proc.devRef .tc Cert.ReferenceIdeal.main_v80)
    ∧ after (Cert.KernelIdeal.KChain.kops3 (F := F)) UK (Proc.devRef .tc Cert.KernelIdeal.main_v58)
        = after (Cert.ReferenceIdeal.RefRun.ops1 (F := F)) UR (Proc.devRef .tc Cert.ReferenceIdeal.main_v81)
    ∧ after (Cert.KernelIdeal.KChain.kops3 (F := F)) UK (Proc.devRef .tc Cert.KernelIdeal.main_v59)
        = after (Cert.ReferenceIdeal.RefRun.ops1 (F := F)) UR (Proc.devRef .tc Cert.ReferenceIdeal.main_v82) := by
  refine ⟨?_, ?_, ?_⟩
  · simp only [Cert.KernelIdeal.KChain.kops3, Cert.Lib.after_append]
    after_results_simp
    simp only [Cert.Lib.ofBuf_toBuf]
    rw [hx, hy, h11, h12]
    refine leaky_congr ?_
    exact congrArg₂ addf rfl hz0
  · simp only [Cert.KernelIdeal.KChain.kops3, Cert.Lib.after_append]
    after_results_simp
    simp only [Cert.Lib.ofBuf_toBuf]
    rw [h11]
    refine leaky_congr ?_
    exact congrArg₂ Host.divf (congrArg (Host.scatterAdd _ _ _) hz1) rfl
  · simp only [Cert.KernelIdeal.KChain.kops3, Cert.Lib.after_append]
    after_results_simp
    simp only [Cert.Lib.ofBuf_toBuf]
    rw [h12]
    refine leaky_congr ?_
    exact congrArg₂ Host.divf (congrArg (Host.scatterAdd _ _ _) hz2) rfl

set_option maxHeartbeats 1000000 in
/-- The second layer's glue: the same operations one layer on, over that layer's buffers. -/
theorem sim_glue1
    (UK : Valuation Cert.KernelIdeal.τ Cert.KernelIdeal.sig (Elt F))
    (UR : Valuation Cert.ReferenceIdeal.τ Cert.ReferenceIdeal.sig (Elt F))
    {hs0 : Cert.KernelIdeal.S3x1000000x16.Slices ![0, 0, 0] Cert.KernelIdeal.S1x1000000x16}
    {hs1 : Cert.KernelIdeal.S3x1000000x16.Slices ![1, 0, 0] Cert.KernelIdeal.S1x1000000x16}
    {hs2 : Cert.KernelIdeal.S3x1000000x16.Slices ![2, 0, 0] Cert.KernelIdeal.S1x1000000x16}
    {hc : Cert.KernelIdeal.S1x1000000x16.ShapeCasts Cert.KernelIdeal.S1000000x16}
    (hx : UK (Proc.devRef .tc Cert.KernelIdeal.main_v63) = UR (Proc.devRef .tc Cert.ReferenceIdeal.main_v90))
    (hy : UK (Proc.devRef .tc Cert.KernelIdeal.main_v67) = UR (Proc.devRef .tc Cert.ReferenceIdeal.main_v98))
    (hz0 : shapeCast Cert.KernelIdeal.S1000000x16
            (extractStridedSlice Cert.KernelIdeal.S1x1000000x16 ![0, 0, 0]
              (UK (Proc.devRef .tc Cert.KernelIdeal.main_v70)) hs0) hc
          = UR (Proc.devRef .tc Cert.ReferenceIdeal.main_v106))
    (hz1 : shapeCast Cert.KernelIdeal.S1000000x16
            (extractStridedSlice Cert.KernelIdeal.S1x1000000x16 ![1, 0, 0]
              (UK (Proc.devRef .tc Cert.KernelIdeal.main_v70)) hs1) hc
          = UR (Proc.devRef .tc Cert.ReferenceIdeal.main_v114))
    (hz2 : shapeCast Cert.KernelIdeal.S1000000x16
            (extractStridedSlice Cert.KernelIdeal.S1x1000000x16 ![2, 0, 0]
              (UK (Proc.devRef .tc Cert.KernelIdeal.main_v70)) hs2) hc
          = UR (Proc.devRef .tc Cert.ReferenceIdeal.main_v122))
    (h11 : UK (Proc.devRef .tc Cert.KernelIdeal.main_arg11) = UR (Proc.devRef .tc Cert.ReferenceIdeal.main_arg11))
    (h12 : UK (Proc.devRef .tc Cert.KernelIdeal.main_arg12) = UR (Proc.devRef .tc Cert.ReferenceIdeal.main_arg12)) :
    after (Cert.KernelIdeal.KChain.kops6 (F := F)) UK (Proc.devRef .tc Cert.KernelIdeal.main_v117)
        = after (Cert.ReferenceIdeal.RefRun.ops3 (F := F)) UR (Proc.devRef .tc Cert.ReferenceIdeal.main_v163)
    ∧ after (Cert.KernelIdeal.KChain.kops6 (F := F)) UK (Proc.devRef .tc Cert.KernelIdeal.main_v118)
        = after (Cert.ReferenceIdeal.RefRun.ops3 (F := F)) UR (Proc.devRef .tc Cert.ReferenceIdeal.main_v164)
    ∧ after (Cert.KernelIdeal.KChain.kops6 (F := F)) UK (Proc.devRef .tc Cert.KernelIdeal.main_v119)
        = after (Cert.ReferenceIdeal.RefRun.ops3 (F := F)) UR (Proc.devRef .tc Cert.ReferenceIdeal.main_v165) := by
  refine ⟨?_, ?_, ?_⟩
  · simp only [Cert.KernelIdeal.KChain.kops6, Cert.Lib.after_append]
    after_results_simp
    simp only [Cert.Lib.ofBuf_toBuf]
    rw [hx, hy, h11, h12]
    refine leaky_congr ?_
    exact congrArg₂ addf rfl hz0
  · simp only [Cert.KernelIdeal.KChain.kops6, Cert.Lib.after_append]
    after_results_simp
    simp only [Cert.Lib.ofBuf_toBuf]
    rw [h11]
    refine leaky_congr ?_
    exact congrArg₂ Host.divf (congrArg (Host.scatterAdd _ _ _) hz1) rfl
  · simp only [Cert.KernelIdeal.KChain.kops6, Cert.Lib.after_append]
    after_results_simp
    simp only [Cert.Lib.ofBuf_toBuf]
    rw [h12]
    refine leaky_congr ?_
    exact congrArg₂ Host.divf (congrArg (Host.scatterAdd _ _ _) hz2) rfl

/-- The last layer's glue: the sum of the two gathered row sets and the edge rows (no rectifier follows it, and nothing
    else of that stretch is read afterwards). The edge rows are member 0 of the stack of three the preceding kernel wrote. -/
theorem sim_glue2
    (UK : Valuation Cert.KernelIdeal.τ Cert.KernelIdeal.sig (Elt F))
    (UR : Valuation Cert.ReferenceIdeal.τ Cert.ReferenceIdeal.sig (Elt F))
    {hs : Cert.KernelIdeal.S3x1000000x16.Slices ![0, 0, 0] Cert.KernelIdeal.S1x1000000x16}
    {hc : Cert.KernelIdeal.S1x1000000x16.ShapeCasts Cert.KernelIdeal.S1000000x16}
    (hx : UK (Proc.devRef .tc Cert.KernelIdeal.main_v123) = UR (Proc.devRef .tc Cert.ReferenceIdeal.main_v173))
    (hy : UK (Proc.devRef .tc Cert.KernelIdeal.main_v127) = UR (Proc.devRef .tc Cert.ReferenceIdeal.main_v181))
    (hz : shapeCast Cert.KernelIdeal.S1000000x16
            (extractStridedSlice Cert.KernelIdeal.S1x1000000x16 ![0, 0, 0]
              (UK (Proc.devRef .tc Cert.KernelIdeal.main_v130)) hs) hc
          = UR (Proc.devRef .tc Cert.ReferenceIdeal.main_v189))
    (h11 : UK (Proc.devRef .tc Cert.KernelIdeal.main_arg11) = UR (Proc.devRef .tc Cert.ReferenceIdeal.main_arg11))
    (h12 : UK (Proc.devRef .tc Cert.KernelIdeal.main_arg12) = UR (Proc.devRef .tc Cert.ReferenceIdeal.main_arg12)) :
    after (Cert.KernelIdeal.Gen.hostOps9 (F := F)) UK (Proc.devRef .tc Cert.KernelIdeal.main_v152)
      = after (Cert.ReferenceIdeal.RefRun.ops5 (F := F)) UR (Proc.devRef .tc Cert.ReferenceIdeal.main_v221) := by
  after_results_simp
  rw [hx, hy, h11, h12]
  exact congrArg₂ addf rfl hz

end Cert.Proof.Sim

end
-- ==== Proof.RefFrame.lean ====
import proofs.«154745_j79044578115861_1_alg».proof.Proof.RefRead

noncomputable section

namespace Cert.ReferenceIdeal.RefFrame

open Cert.ReferenceIdeal Cert.ReferenceIdeal.Gen Cert.ReferenceIdeal.RefRun Cert.ReferenceIdeal.RefRead Idealize.ShloMosaic Idealize.ShloMosaic.TcCoe Idealize.SL.Sem Idealize.ShloMosaic.StableHlo

variable {F : FTy → Type} [FloatOps F]

/-- The launch contents at a TensorCore reference are the memory at that thread's location of it. -/
theorem launch_at (m : (ℓ : Loc nD τ sig) → Buf (Elt F) ℓ) (c : Dev nD) (b : Ref sig .tc) :
    StableHlo.launchContents m c (Proc.devRef .tc b) = m ((c.tc : Thread nD τ).loc b) := rfl

/-! ## No operation writes an argument

Stretch by stretch an argument's buffer is not among the results, so the whole fold leaves it as launched. -/

theorem ops0_keep_arg0 (U : Valuation τ sig (Elt F)) :
    after (ops0 (F := F)) U (Proc.devRef .tc main_arg0) = U (Proc.devRef .tc main_arg0) := by
  after_results_simp

theorem ops0_keep_arg1 (U : Valuation τ sig (Elt F)) :
    after (ops0 (F := F)) U (Proc.devRef .tc main_arg1) = U (Proc.devRef .tc main_arg1) := by
  after_results_simp

theorem ops0_keep_arg2 (U : Valuation τ sig (Elt F)) :
    after (ops0 (F := F)) U (Proc.devRef .tc main_arg2) = U (Proc.devRef .tc main_arg2) := by
  after_results_simp

theorem ops0_keep_arg3 (U : Valuation τ sig (Elt F)) :
    after (ops0 (F := F)) U (Proc.devRef .tc main_arg3) = U (Proc.devRef .tc main_arg3) := by
  after_results_simp

theorem ops0_keep_arg4 (U : Valuation τ sig (Elt F)) :
    after (ops0 (F := F)) U (Proc.devRef .tc main_arg4) = U (Proc.devRef .tc main_arg4) := by
  after_results_simp

theorem ops1_keep_arg0 (U : Valuation τ sig (Elt F)) :
    after (ops1 (F := F)) U (Proc.devRef .tc main_arg0) = U (Proc.devRef .tc main_arg0) := by
  after_results_simp

theorem ops1_keep_arg1 (U : Valuation τ sig (Elt F)) :
    after (ops1 (F := F)) U (Proc.devRef .tc main_arg1) = U (Proc.devRef .tc main_arg1) := by
  after_results_simp

theorem ops1_keep_arg2 (U : Valuation τ sig (Elt F)) :
    after (ops1 (F := F)) U (Proc.devRef .tc main_arg2) = U (Proc.devRef .tc main_arg2) := by
  after_results_simp

theorem ops1_keep_arg3 (U : Valuation τ sig (Elt F)) :
    after (ops1 (F := F)) U (Proc.devRef .tc main_arg3) = U (Proc.devRef .tc main_arg3) := by
  after_results_simp

theorem ops1_keep_arg4 (U : Valuation τ sig (Elt F)) :
    after (ops1 (F := F)) U (Proc.devRef .tc main_arg4) = U (Proc.devRef .tc main_arg4) := by
  after_results_simp

theorem ops2_keep_arg0 (U : Valuation τ sig (Elt F)) :
    after (ops2 (F := F)) U (Proc.devRef .tc main_arg0) = U (Proc.devRef .tc main_arg0) := by
  after_results_simp

theorem ops2_keep_arg1 (U : Valuation τ sig (Elt F)) :
    after (ops2 (F := F)) U (Proc.devRef .tc main_arg1) = U (Proc.devRef .tc main_arg1) := by
  after_results_simp

theorem ops2_keep_arg2 (U : Valuation τ sig (Elt F)) :
    after (ops2 (F := F)) U (Proc.devRef .tc main_arg2) = U (Proc.devRef .tc main_arg2) := by
  after_results_simp

theorem ops2_keep_arg3 (U : Valuation τ sig (Elt F)) :
    after (ops2 (F := F)) U (Proc.devRef .tc main_arg3) = U (Proc.devRef .tc main_arg3) := by
  after_results_simp

theorem ops2_keep_arg4 (U : Valuation τ sig (Elt F)) :
    after (ops2 (F := F)) U (Proc.devRef .tc main_arg4) = U (Proc.devRef .tc main_arg4) := by
  after_results_simp

theorem ops2_keep_arg5 (U : Valuation τ sig (Elt F)) :
    after (ops2 (F := F)) U (Proc.devRef .tc main_arg5) = U (Proc.devRef .tc main_arg5) := by
  after_results_simp

theorem ops2_keep_arg6 (U : Valuation τ sig (Elt F)) :
    after (ops2 (F := F)) U (Proc.devRef .tc main_arg6) = U (Proc.devRef .tc main_arg6) := by
  after_results_simp

theorem ops3_keep_arg0 (U : Valuation τ sig (Elt F)) :
    after (ops3 (F := F)) U (Proc.devRef .tc main_arg0) = U (Proc.devRef .tc main_arg0) := by
  after_results_simp

theorem ops3_keep_arg1 (U : Valuation τ sig (Elt F)) :
    after (ops3 (F := F)) U (Proc.devRef .tc main_arg1) = U (Proc.devRef .tc main_arg1) := by
  after_results_simp

theorem ops3_keep_arg2 (U : Valuation τ sig (Elt F)) :
    after (ops3 (F := F)) U (Proc.devRef .tc main_arg2) = U (Proc.devRef .tc main_arg2) := by
  after_results_simp

theorem ops3_keep_arg3 (U : Valuation τ sig (Elt F)) :
    after (ops3 (F := F)) U (Proc.devRef .tc main_arg3) = U (Proc.devRef .tc main_arg3) := by
  after_results_simp

theorem ops3_keep_arg4 (U : Valuation τ sig (Elt F)) :
    after (ops3 (F := F)) U (Proc.devRef .tc main_arg4) = U (Proc.devRef .tc main_arg4) := by
  after_results_simp

theorem ops3_keep_arg5 (U : Valuation τ sig (Elt F)) :
    after (ops3 (F := F)) U (Proc.devRef .tc main_arg5) = U (Proc.devRef .tc main_arg5) := by
  after_results_simp

theorem ops3_keep_arg6 (U : Valuation τ sig (Elt F)) :
    after (ops3 (F := F)) U (Proc.devRef .tc main_arg6) = U (Proc.devRef .tc main_arg6) := by
  after_results_simp

theorem ops4_keep_arg0 (U : Valuation τ sig (Elt F)) :
    after (ops4 (F := F)) U (Proc.devRef .tc main_arg0) = U (Proc.devRef .tc main_arg0) := by
  after_results_simp

theorem ops4_keep_arg1 (U : Valuation τ sig (Elt F)) :
    after (ops4 (F := F)) U (Proc.devRef .tc main_arg1) = U (Proc.devRef .tc main_arg1) := by
  after_results_simp

theorem ops4_keep_arg2 (U : Valuation τ sig (Elt F)) :
    after (ops4 (F := F)) U (Proc.devRef .tc main_arg2) = U (Proc.devRef .tc main_arg2) := by
  after_results_simp

theorem ops4_keep_arg3 (U : Valuation τ sig (Elt F)) :
    after (ops4 (F := F)) U (Proc.devRef .tc main_arg3) = U (Proc.devRef .tc main_arg3) := by
  after_results_simp

theorem ops4_keep_arg4 (U : Valuation τ sig (Elt F)) :
    after (ops4 (F := F)) U (Proc.devRef .tc main_arg4) = U (Proc.devRef .tc main_arg4) := by
  after_results_simp

theorem ops4_keep_arg5 (U : Valuation τ sig (Elt F)) :
    after (ops4 (F := F)) U (Proc.devRef .tc main_arg5) = U (Proc.devRef .tc main_arg5) := by
  after_results_simp

theorem ops4_keep_arg6 (U : Valuation τ sig (Elt F)) :
    after (ops4 (F := F)) U (Proc.devRef .tc main_arg6) = U (Proc.devRef .tc main_arg6) := by
  after_results_simp

theorem ops4_keep_arg7 (U : Valuation τ sig (Elt F)) :
    after (ops4 (F := F)) U (Proc.devRef .tc main_arg7) = U (Proc.devRef .tc main_arg7) := by
  after_results_simp

theorem ops4_keep_arg8 (U : Valuation τ sig (Elt F)) :
    after (ops4 (F := F)) U (Proc.devRef .tc main_arg8) = U (Proc.devRef .tc main_arg8) := by
  after_results_simp

theorem ops5_keep_arg0 (U : Valuation τ sig (Elt F)) :
    after (ops5 (F := F)) U (Proc.devRef .tc main_arg0) = U (Proc.devRef .tc main_arg0) := by
  after_results_simp

theorem ops5_keep_arg1 (U : Valuation τ sig (Elt F)) :
    after (ops5 (F := F)) U (Proc.devRef .tc main_arg1) = U (Proc.devRef .tc main_arg1) := by
  after_results_simp

theorem ops5_keep_arg2 (U : Valuation τ sig (Elt F)) :
    after (ops5 (F := F)) U (Proc.devRef .tc main_arg2) = U (Proc.devRef .tc main_arg2) := by
  after_results_simp

theorem ops5_keep_arg3 (U : Valuation τ sig (Elt F)) :
    after (ops5 (F := F)) U (Proc.devRef .tc main_arg3) = U (Proc.devRef .tc main_arg3) := by
  after_results_simp

theorem ops5_keep_arg4 (U : Valuation τ sig (Elt F)) :
    after (ops5 (F := F)) U (Proc.devRef .tc main_arg4) = U (Proc.devRef .tc main_arg4) := by
  after_results_simp

theorem ops5_keep_arg5 (U : Valuation τ sig (Elt F)) :
    after (ops5 (F := F)) U (Proc.devRef .tc main_arg5) = U (Proc.devRef .tc main_arg5) := by
  after_results_simp

theorem ops5_keep_arg6 (U : Valuation τ sig (Elt F)) :
    after (ops5 (F := F)) U (Proc.devRef .tc main_arg6) = U (Proc.devRef .tc main_arg6) := by
  after_results_simp

theorem ops5_keep_arg7 (U : Valuation τ sig (Elt F)) :
    after (ops5 (F := F)) U (Proc.devRef .tc main_arg7) = U (Proc.devRef .tc main_arg7) := by
  after_results_simp

theorem ops5_keep_arg8 (U : Valuation τ sig (Elt F)) :
    after (ops5 (F := F)) U (Proc.devRef .tc main_arg8) = U (Proc.devRef .tc main_arg8) := by
  after_results_simp

theorem ops5_keep_arg11 (U : Valuation τ sig (Elt F)) :
    after (ops5 (F := F)) U (Proc.devRef .tc main_arg11) = U (Proc.devRef .tc main_arg11) := by
  after_results_simp

theorem ops5_keep_arg12 (U : Valuation τ sig (Elt F)) :
    after (ops5 (F := F)) U (Proc.devRef .tc main_arg12) = U (Proc.devRef .tc main_arg12) := by
  after_results_simp

theorem ops6_keep_arg0 (U : Valuation τ sig (Elt F)) :
    after (ops6 (F := F)) U (Proc.devRef .tc main_arg0) = U (Proc.devRef .tc main_arg0) := by
  after_results_simp

theorem ops6_keep_arg1 (U : Valuation τ sig (Elt F)) :
    after (ops6 (F := F)) U (Proc.devRef .tc main_arg1) = U (Proc.devRef .tc main_arg1) := by
  after_results_simp

theorem ops6_keep_arg2 (U : Valuation τ sig (Elt F)) :
    after (ops6 (F := F)) U (Proc.devRef .tc main_arg2) = U (Proc.devRef .tc main_arg2) := by
  after_results_simp

theorem ops6_keep_arg3 (U : Valuation τ sig (Elt F)) :
    after (ops6 (F := F)) U (Proc.devRef .tc main_arg3) = U (Proc.devRef .tc main_arg3) := by
  after_results_simp

theorem ops6_keep_arg4 (U : Valuation τ sig (Elt F)) :
    after (ops6 (F := F)) U (Proc.devRef .tc main_arg4) = U (Proc.devRef .tc main_arg4) := by
  after_results_simp

theorem ops6_keep_arg5 (U : Valuation τ sig (Elt F)) :
    after (ops6 (F := F)) U (Proc.devRef .tc main_arg5) = U (Proc.devRef .tc main_arg5) := by
  after_results_simp

theorem ops6_keep_arg6 (U : Valuation τ sig (Elt F)) :
    after (ops6 (F := F)) U (Proc.devRef .tc main_arg6) = U (Proc.devRef .tc main_arg6) := by
  after_results_simp

theorem ops6_keep_arg7 (U : Valuation τ sig (Elt F)) :
    after (ops6 (F := F)) U (Proc.devRef .tc main_arg7) = U (Proc.devRef .tc main_arg7) := by
  after_results_simp

theorem ops6_keep_arg8 (U : Valuation τ sig (Elt F)) :
    after (ops6 (F := F)) U (Proc.devRef .tc main_arg8) = U (Proc.devRef .tc main_arg8) := by
  after_results_simp

theorem ops6_keep_arg9 (U : Valuation τ sig (Elt F)) :
    after (ops6 (F := F)) U (Proc.devRef .tc main_arg9) = U (Proc.devRef .tc main_arg9) := by
  after_results_simp

theorem ops6_keep_arg10 (U : Valuation τ sig (Elt F)) :
    after (ops6 (F := F)) U (Proc.devRef .tc main_arg10) = U (Proc.devRef .tc main_arg10) := by
  after_results_simp

theorem ops6_keep_arg11 (U : Valuation τ sig (Elt F)) :
    after (ops6 (F := F)) U (Proc.devRef .tc main_arg11) = U (Proc.devRef .tc main_arg11) := by
  after_results_simp

theorem ops6_keep_arg12 (U : Valuation τ sig (Elt F)) :
    after (ops6 (F := F)) U (Proc.devRef .tc main_arg12) = U (Proc.devRef .tc main_arg12) := by
  after_results_simp

theorem ops_keep_arg0 (U : Valuation τ sig (Elt F)) :
    after (ops (F := F)) U (Proc.devRef .tc main_arg0) = U (Proc.devRef .tc main_arg0) :=
  (congrFun (ops_split U) _).trans ((ops6_keep_arg0 _).trans ((ops5_keep_arg0 _).trans ((ops4_keep_arg0 _).trans
    ((ops3_keep_arg0 _).trans ((ops2_keep_arg0 _).trans ((ops1_keep_arg0 _).trans (ops0_keep_arg0 U)))))))

theorem ops_keep_arg1 (U : Valuation τ sig (Elt F)) :
    after (ops (F := F)) U (Proc.devRef .tc main_arg1) = U (Proc.devRef .tc main_arg1) :=
  (congrFun (ops_split U) _).trans ((ops6_keep_arg1 _).trans ((ops5_keep_arg1 _).trans ((ops4_keep_arg1 _).trans
    ((ops3_keep_arg1 _).trans ((ops2_keep_arg1 _).trans ((ops1_keep_arg1 _).trans (ops0_keep_arg1 U)))))))

theorem ops_keep_arg2 (U : Valuation τ sig (Elt F)) :
    after (ops (F := F)) U (Proc.devRef .tc main_arg2) = U (Proc.devRef .tc main_arg2) :=
  (congrFun (ops_split U) _).trans ((ops6_keep_arg2 _).trans ((ops5_keep_arg2 _).trans ((ops4_keep_arg2 _).trans
    ((ops3_keep_arg2 _).trans ((ops2_keep_arg2 _).trans ((ops1_keep_arg2 _).trans (ops0_keep_arg2 U)))))))

theorem ops_keep_arg3 (U : Valuation τ sig (Elt F)) :
    after (ops (F := F)) U (Proc.devRef .tc main_arg3) = U (Proc.devRef .tc main_arg3) :=
  (congrFun (ops_split U) _).trans ((ops6_keep_arg3 _).trans ((ops5_keep_arg3 _).trans ((ops4_keep_arg3 _).trans
    ((ops3_keep_arg3 _).trans ((ops2_keep_arg3 _).trans ((ops1_keep_arg3 _).trans (ops0_keep_arg3 U)))))))

theorem ops_keep_arg4 (U : Valuation τ sig (Elt F)) :
    after (ops (F := F)) U (Proc.devRef .tc main_arg4) = U (Proc.devRef .tc main_arg4) :=
  (congrFun (ops_split U) _).trans ((ops6_keep_arg4 _).trans ((ops5_keep_arg4 _).trans ((ops4_keep_arg4 _).trans
    ((ops3_keep_arg4 _).trans ((ops2_keep_arg4 _).trans ((ops1_keep_arg4 _).trans (ops0_keep_arg4 U)))))))

theorem ops_keep_arg5 (U : Valuation τ sig (Elt F)) :
    after (ops (F := F)) U (Proc.devRef .tc main_arg5) = U (Proc.devRef .tc main_arg5) :=
  (congrFun (ops_split U) _).trans ((ops6_keep_arg5 _).trans ((ops5_keep_arg5 _).trans ((ops4_keep_arg5 _).trans
    ((ops3_keep_arg5 _).trans ((ops2_keep_arg5 _).trans ((ops1_keep_arg5 _).trans (ops0_keep_arg5 U)))))))

theorem ops_keep_arg6 (U : Valuation τ sig (Elt F)) :
    after (ops (F := F)) U (Proc.devRef .tc main_arg6) = U (Proc.devRef .tc main_arg6) :=
  (congrFun (ops_split U) _).trans ((ops6_keep_arg6 _).trans ((ops5_keep_arg6 _).trans ((ops4_keep_arg6 _).trans
    ((ops3_keep_arg6 _).trans ((ops2_keep_arg6 _).trans ((ops1_keep_arg6 _).trans (ops0_keep_arg6 U)))))))

theorem ops_keep_arg7 (U : Valuation τ sig (Elt F)) :
    after (ops (F := F)) U (Proc.devRef .tc main_arg7) = U (Proc.devRef .tc main_arg7) :=
  (congrFun (ops_split U) _).trans ((ops6_keep_arg7 _).trans ((ops5_keep_arg7 _).trans ((ops4_keep_arg7 _).trans
    ((ops3_keep_arg7 _).trans ((ops2_keep_arg7 _).trans ((ops1_keep_arg7 _).trans (ops0_keep_arg7 U)))))))

theorem ops_keep_arg8 (U : Valuation τ sig (Elt F)) :
    after (ops (F := F)) U (Proc.devRef .tc main_arg8) = U (Proc.devRef .tc main_arg8) :=
  (congrFun (ops_split U) _).trans ((ops6_keep_arg8 _).trans ((ops5_keep_arg8 _).trans ((ops4_keep_arg8 _).trans
    ((ops3_keep_arg8 _).trans ((ops2_keep_arg8 _).trans ((ops1_keep_arg8 _).trans (ops0_keep_arg8 U)))))))

theorem ops_keep_arg9 (U : Valuation τ sig (Elt F)) :
    after (ops (F := F)) U (Proc.devRef .tc main_arg9) = U (Proc.devRef .tc main_arg9) :=
  (congrFun (ops_split U) _).trans ((ops6_keep_arg9 _).trans ((ops5_keep_arg9 _).trans ((ops4_keep_arg9 _).trans
    ((ops3_keep_arg9 _).trans ((ops2_keep_arg9 _).trans ((ops1_keep_arg9 _).trans (ops0_keep_arg9 U)))))))

theorem ops_keep_arg10 (U : Valuation τ sig (Elt F)) :
    after (ops (F := F)) U (Proc.devRef .tc main_arg10) = U (Proc.devRef .tc main_arg10) :=
  (congrFun (ops_split U) _).trans ((ops6_keep_arg10 _).trans ((ops5_keep_arg10 _).trans ((ops4_keep_arg10 _).trans
    ((ops3_keep_arg10 _).trans ((ops2_keep_arg10 _).trans ((ops1_keep_arg10 _).trans (ops0_keep_arg10 U)))))))

theorem ops_keep_arg11 (U : Valuation τ sig (Elt F)) :
    after (ops (F := F)) U (Proc.devRef .tc main_arg11) = U (Proc.devRef .tc main_arg11) :=
  (congrFun (ops_split U) _).trans ((ops6_keep_arg11 _).trans ((ops5_keep_arg11 _).trans ((ops4_keep_arg11 _).trans
    ((ops3_keep_arg11 _).trans ((ops2_keep_arg11 _).trans ((ops1_keep_arg11 _).trans (ops0_keep_arg11 U)))))))

theorem ops_keep_arg12 (U : Valuation τ sig (Elt F)) :
    after (ops (F := F)) U (Proc.devRef .tc main_arg12) = U (Proc.devRef .tc main_arg12) :=
  (congrFun (ops_split U) _).trans ((ops6_keep_arg12 _).trans ((ops5_keep_arg12 _).trans ((ops4_keep_arg12 _).trans
    ((ops3_keep_arg12 _).trans ((ops2_keep_arg12 _).trans ((ops1_keep_arg12 _).trans (ops0_keep_arg12 U)))))))

/-! ## The run in the claim's shapes -/

/-- Every weakly fair execution of @main terminates with each argument as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_arg0).trans ((ops_keep_arg0 _).trans (launch_at m c main_arg0)),
    (h c main_arg1).trans ((ops_keep_arg1 _).trans (launch_at m c main_arg1)),
    (h c main_arg2).trans ((ops_keep_arg2 _).trans (launch_at m c main_arg2)),
    (h c main_arg3).trans ((ops_keep_arg3 _).trans (launch_at m c main_arg3)),
    (h c main_arg4).trans ((ops_keep_arg4 _).trans (launch_at m c main_arg4)),
    (h c main_arg5).trans ((ops_keep_arg5 _).trans (launch_at m c main_arg5)),
    (h c main_arg6).trans ((ops_keep_arg6 _).trans (launch_at m c main_arg6)),
    (h c main_arg7).trans ((ops_keep_arg7 _).trans (launch_at m c main_arg7)),
    (h c main_arg8).trans ((ops_keep_arg8 _).trans (launch_at m c main_arg8)),
    (h c main_arg9).trans ((ops_keep_arg9 _).trans (launch_at m c main_arg9)),
    (h c main_arg10).trans ((ops_keep_arg10 _).trans (launch_at m c main_arg10)),
    (h c main_arg11).trans ((ops_keep_arg11 _).trans (launch_at m c main_arg11)),
    (h c main_arg12).trans ((ops_keep_arg12 _).trans (launch_at m c main_arg12))⟩)
    (run m ρ)

/-- Every weakly fair execution of @main terminates with the result at the operations' fold over the launch contents
    and each argument as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v249) = StableHlo.after ops (StableHlo.launchContents m c) (Proc.devRef .tc main_v249)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v249,
    (h c main_arg0).trans ((ops_keep_arg0 _).trans (launch_at m c main_arg0)),
    (h c main_arg1).trans ((ops_keep_arg1 _).trans (launch_at m c main_arg1)),
    (h c main_arg2).trans ((ops_keep_arg2 _).trans (launch_at m c main_arg2)),
    (h c main_arg3).trans ((ops_keep_arg3 _).trans (launch_at m c main_arg3)),
    (h c main_arg4).trans ((ops_keep_arg4 _).trans (launch_at m c main_arg4)),
    (h c main_arg5).trans ((ops_keep_arg5 _).trans (launch_at m c main_arg5)),
    (h c main_arg6).trans ((ops_keep_arg6 _).trans (launch_at m c main_arg6)),
    (h c main_arg7).trans ((ops_keep_arg7 _).trans (launch_at m c main_arg7)),
    (h c main_arg8).trans ((ops_keep_arg8 _).trans (launch_at m c main_arg8)),
    (h c main_arg9).trans ((ops_keep_arg9 _).trans (launch_at m c main_arg9)),
    (h c main_arg10).trans ((ops_keep_arg10 _).trans (launch_at m c main_arg10)),
    (h c main_arg11).trans ((ops_keep_arg11 _).trans (launch_at m c main_arg11)),
    (h c main_arg12).trans ((ops_keep_arg12 _).trans (launch_at m c main_arg12))⟩)
    (run m ρ)

end Cert.ReferenceIdeal.RefFrame

end
-- ==== Proof.Bridge.lean ====
/-
  The kernel program's result and the reference's result are the same array.

  Both programs are three layers and a head.  Within a layer each computes five dense maps (card rows, merchant rows,
  and three of the transaction rows) — the kernel program by its regions, the reference by matrix products — and then
  the same host glue: every transaction gathers its card's and its merchant's row and adds its own; every card and
  every merchant takes the mean of its transactions' rows (a scattered sum divided by the count, at least one); a leaky
  rectifier follows in the first two layers.  Going down the layers: equal rows in give equal dense maps out (the two
  sums have the same terms), and equal dense maps in give equal glue out (the glue is the same operations).  The
  arguments are equal by hypothesis, so the results are equal.  No entry is ever required to be finite.
-/
import proofs.«154745_j79044578115861_1_alg».proof.Proof.Dense0
import proofs.«154745_j79044578115861_1_alg».proof.Proof.Dense1
import proofs.«154745_j79044578115861_1_alg».proof.Proof.Dense2
import proofs.«154745_j79044578115861_1_alg».proof.Proof.Sim
import proofs.«154745_j79044578115861_1_alg».proof.Proof.RefFrame

set_option maxRecDepth 16384

noncomputable section

namespace Cert.Proof.Bridge

open Idealize.ShloMosaic Idealize.ShloMosaic.TcCoe Idealize.SL.Sem Idealize.ShloMosaic.StableHlo
open Cert.KernelIdeal Cert.KernelIdeal.Gen Cert.KernelIdeal.KChain Cert.Proof.Dense Cert.Proof.Sim
open Cert.ReferenceIdeal.RefRun Cert.ReferenceIdeal.RefRead Cert.ReferenceIdeal.RefFrame

variable (m : (ℓ : Loc nD τ sig) → Buf (Elt Ideal) ℓ) (ρ : Dev nD → PrngReg) (c : Dev nD)
variable (m' : (ℓ : Loc Cert.ReferenceIdeal.nD Cert.ReferenceIdeal.τ Cert.ReferenceIdeal.sig) → Buf (Elt Ideal) ℓ)

/-! ## The reference's buffer contents at its stretch boundaries -/

abbrev R0 : Valuation Cert.ReferenceIdeal.τ Cert.ReferenceIdeal.sig (Elt Ideal) := StableHlo.launchContents m' c
abbrev R1 : Valuation Cert.ReferenceIdeal.τ Cert.ReferenceIdeal.sig (Elt Ideal) := StableHlo.after Cert.ReferenceIdeal.RefRun.ops0 (R0 c m')
abbrev R2 : Valuation Cert.ReferenceIdeal.τ Cert.ReferenceIdeal.sig (Elt Ideal) := StableHlo.after Cert.ReferenceIdeal.RefRun.ops1 (R1 c m')
abbrev R3 : Valuation Cert.ReferenceIdeal.τ Cert.ReferenceIdeal.sig (Elt Ideal) := StableHlo.after Cert.ReferenceIdeal.RefRun.ops2 (R2 c m')
abbrev R4 : Valuation Cert.ReferenceIdeal.τ Cert.ReferenceIdeal.sig (Elt Ideal) := StableHlo.after Cert.ReferenceIdeal.RefRun.ops3 (R3 c m')
abbrev R5 : Valuation Cert.ReferenceIdeal.τ Cert.ReferenceIdeal.sig (Elt Ideal) := StableHlo.after Cert.ReferenceIdeal.RefRun.ops4 (R4 c m')
abbrev R6 : Valuation Cert.ReferenceIdeal.τ Cert.ReferenceIdeal.sig (Elt Ideal) := StableHlo.after Cert.ReferenceIdeal.RefRun.ops5 (R5 c m')
abbrev R7 : Valuation Cert.ReferenceIdeal.τ Cert.ReferenceIdeal.sig (Elt Ideal) := StableHlo.after Cert.ReferenceIdeal.RefRun.ops6 (R6 c m')

/-- The arguments agree on the two sides (the claim's hypothesis, one device). -/
structure Agree : Prop where
  a0 : m' ((c.tc : Thread Cert.ReferenceIdeal.nD Cert.ReferenceIdeal.τ).loc Cert.ReferenceIdeal.main_arg0) = m ((c.tc : Thread nD τ).loc main_arg0)
  a1 : m' ((c.tc : Thread Cert.ReferenceIdeal.nD Cert.ReferenceIdeal.τ).loc Cert.ReferenceIdeal.main_arg1) = m ((c.tc : Thread nD τ).loc main_arg1)
  a2 : m' ((c.tc : Thread Cert.ReferenceIdeal.nD Cert.ReferenceIdeal.τ).loc Cert.ReferenceIdeal.main_arg2) = m ((c.tc : Thread nD τ).loc main_arg2)
  a3 : m' ((c.tc : Thread Cert.ReferenceIdeal.nD Cert.ReferenceIdeal.τ).loc Cert.ReferenceIdeal.main_arg3) = m ((c.tc : Thread nD τ).loc main_arg3)
  a4 : m' ((c.tc : Thread Cert.ReferenceIdeal.nD Cert.ReferenceIdeal.τ).loc Cert.ReferenceIdeal.main_arg4) = m ((c.tc : Thread nD τ).loc main_arg4)
  a5 : m' ((c.tc : Thread Cert.ReferenceIdeal.nD Cert.ReferenceIdeal.τ).loc Cert.ReferenceIdeal.main_arg5) = m ((c.tc : Thread nD τ).loc main_arg5)
  a6 : m' ((c.tc : Thread Cert.ReferenceIdeal.nD Cert.ReferenceIdeal.τ).loc Cert.ReferenceIdeal.main_arg6) = m ((c.tc : Thread nD τ).loc main_arg6)
  a7 : m' ((c.tc : Thread Cert.ReferenceIdeal.nD Cert.ReferenceIdeal.τ).loc Cert.ReferenceIdeal.main_arg7) = m ((c.tc : Thread nD τ).loc main_arg7)
  a8 : m' ((c.tc : Thread Cert.ReferenceIdeal.nD Cert.ReferenceIdeal.τ).loc Cert.ReferenceIdeal.main_arg8) = m ((c.tc : Thread nD τ).loc main_arg8)
  a9 : m' ((c.tc : Thread Cert.ReferenceIdeal.nD Cert.ReferenceIdeal.τ).loc Cert.ReferenceIdeal.main_arg9) = m ((c.tc : Thread nD τ).loc main_arg9)
  a10 : m' ((c.tc : Thread Cert.ReferenceIdeal.nD Cert.ReferenceIdeal.τ).loc Cert.ReferenceIdeal.main_arg10) = m ((c.tc : Thread nD τ).loc main_arg10)
  a11 : m' ((c.tc : Thread Cert.ReferenceIdeal.nD Cert.ReferenceIdeal.τ).loc Cert.ReferenceIdeal.main_arg11) = m ((c.tc : Thread nD τ).loc main_arg11)
  a12 : m' ((c.tc : Thread Cert.ReferenceIdeal.nD Cert.ReferenceIdeal.τ).loc Cert.ReferenceIdeal.main_arg12) = m ((c.tc : Thread nD τ).loc main_arg12)

variable (hag : Agree m c m')
include hag

/-! ## The reference's arguments at its boundaries: no stretch writes one -/
theorem R0_arg0 : (R0 c m') (Proc.devRef .tc Cert.ReferenceIdeal.main_arg0) = m ((c : Thread nD τ).loc main_arg0) := hag.a0
theorem R0_arg1 : (R0 c m') (Proc.devRef .tc Cert.ReferenceIdeal.main_arg1) = m ((c : Thread nD τ).loc main_arg1) := hag.a1
theorem R0_arg2 : (R0 c m') (Proc.devRef .tc Cert.ReferenceIdeal.main_arg2) = m ((c : Thread nD τ).loc main_arg2) := hag.a2
theorem R0_arg3 : (R0 c m') (Proc.devRef .tc Cert.ReferenceIdeal.main_arg3) = m ((c : Thread nD τ).loc main_arg3) := hag.a3
theorem R0_arg4 : (R0 c m') (Proc.devRef .tc Cert.ReferenceIdeal.main_arg4) = m ((c : Thread nD τ).loc main_arg4) := hag.a4
theorem R0_arg5 : (R0 c m') (Proc.devRef .tc Cert.ReferenceIdeal.main_arg5) = m ((c : Thread nD τ).loc main_arg5) := hag.a5
theorem R0_arg6 : (R0 c m') (Proc.devRef .tc Cert.ReferenceIdeal.main_arg6) = m ((c : Thread nD τ).loc main_arg6) := hag.a6
theorem R0_arg7 : (R0 c m') (Proc.devRef .tc Cert.ReferenceIdeal.main_arg7) = m ((c : Thread nD τ).loc main_arg7) := hag.a7
theorem R0_arg8 : (R0 c m') (Proc.devRef .tc Cert.ReferenceIdeal.main_arg8) = m ((c : Thread nD τ).loc main_arg8) := hag.a8
theorem R0_arg9 : (R0 c m') (Proc.devRef .tc Cert.ReferenceIdeal.main_arg9) = m ((c : Thread nD τ).loc main_arg9) := hag.a9
theorem R0_arg10 : (R0 c m') (Proc.devRef .tc Cert.ReferenceIdeal.main_arg10) = m ((c : Thread nD τ).loc main_arg10) := hag.a10
theorem R0_arg11 : (R0 c m') (Proc.devRef .tc Cert.ReferenceIdeal.main_arg11) = m ((c : Thread nD τ).loc main_arg11) := hag.a11
theorem R0_arg12 : (R0 c m') (Proc.devRef .tc Cert.ReferenceIdeal.main_arg12) = m ((c : Thread nD τ).loc main_arg12) := hag.a12
theorem R1_arg5 : (R1 c m') (Proc.devRef .tc Cert.ReferenceIdeal.main_arg5) = m ((c : Thread nD τ).loc main_arg5) :=
  (ops0_keep_arg5 (R0 c m')).trans (R0_arg5 m c m' hag)
theorem R1_arg6 : (R1 c m') (Proc.devRef .tc Cert.ReferenceIdeal.main_arg6) = m ((c : Thread nD τ).loc main_arg6) :=
  (ops0_keep_arg6 (R0 c m')).trans (R0_arg6 m c m' hag)
theorem R1_arg7 : (R1 c m') (Proc.devRef .tc Cert.ReferenceIdeal.main_arg7) = m ((c : Thread nD τ).loc main_arg7) :=
  (ops0_keep_arg7 (R0 c m')).trans (R0_arg7 m c m' hag)
theorem R1_arg8 : (R1 c m') (Proc.devRef .tc Cert.ReferenceIdeal.main_arg8) = m ((c : Thread nD τ).loc main_arg8) :=
  (ops0_keep_arg8 (R0 c m')).trans (R0_arg8 m c m' hag)
theorem R1_arg9 : (R1 c m') (Proc.devRef .tc Cert.ReferenceIdeal.main_arg9) = m ((c : Thread nD τ).loc main_arg9) :=
  (ops0_keep_arg9 (R0 c m')).trans (R0_arg9 m c m' hag)
theorem R1_arg10 : (R1 c m') (Proc.devRef .tc Cert.ReferenceIdeal.main_arg10) = m ((c : Thread nD τ).loc main_arg10) :=
  (ops0_keep_arg10 (R0 c m')).trans (R0_arg10 m c m' hag)
theorem R1_arg11 : (R1 c m') (Proc.devRef .tc Cert.ReferenceIdeal.main_arg11) = m ((c : Thread nD τ).loc main_arg11) :=
  (ops0_keep_arg11 (R0 c m')).trans (R0_arg11 m c m' hag)
theorem R1_arg12 : (R1 c m') (Proc.devRef .tc Cert.ReferenceIdeal.main_arg12) = m ((c : Thread nD τ).loc main_arg12) :=
  (ops0_keep_arg12 (R0 c m')).trans (R0_arg12 m c m' hag)
theorem R2_arg5 : (R2 c m') (Proc.devRef .tc Cert.ReferenceIdeal.main_arg5) = m ((c : Thread nD τ).loc main_arg5) :=
  (ops1_keep_arg5 (R1 c m')).trans (R1_arg5 m c m' hag)
theorem R2_arg6 : (R2 c m') (Proc.devRef .tc Cert.ReferenceIdeal.main_arg6) = m ((c : Thread nD τ).loc main_arg6) :=
  (ops1_keep_arg6 (R1 c m')).trans (R1_arg6 m c m' hag)
theorem R2_arg7 : (R2 c m') (Proc.devRef .tc Cert.ReferenceIdeal.main_arg7) = m ((c : Thread nD τ).loc main_arg7) :=
  (ops1_keep_arg7 (R1 c m')).trans (R1_arg7 m c m' hag)
theorem R2_arg8 : (R2 c m') (Proc.devRef .tc Cert.ReferenceIdeal.main_arg8) = m ((c : Thread nD τ).loc main_arg8) :=
  (ops1_keep_arg8 (R1 c m')).trans (R1_arg8 m c m' hag)
theorem R2_arg9 : (R2 c m') (Proc.devRef .tc Cert.ReferenceIdeal.main_arg9) = m ((c : Thread nD τ).loc main_arg9) :=
  (ops1_keep_arg9 (R1 c m')).trans (R1_arg9 m c m' hag)
theorem R2_arg10 : (R2 c m') (Proc.devRef .tc Cert.ReferenceIdeal.main_arg10) = m ((c : Thread nD τ).loc main_arg10) :=
  (ops1_keep_arg10 (R1 c m')).trans (R1_arg10 m c m' hag)
theorem R2_arg11 : (R2 c m') (Proc.devRef .tc Cert.ReferenceIdeal.main_arg11) = m ((c : Thread nD τ).loc main_arg11) :=
  (ops1_keep_arg11 (R1 c m')).trans (R1_arg11 m c m' hag)
theorem R2_arg12 : (R2 c m') (Proc.devRef .tc Cert.ReferenceIdeal.main_arg12) = m ((c : Thread nD τ).loc main_arg12) :=
  (ops1_keep_arg12 (R1 c m')).trans (R1_arg12 m c m' hag)
theorem R3_arg7 : (R3 c m') (Proc.devRef .tc Cert.ReferenceIdeal.main_arg7) = m ((c : Thread nD τ).loc main_arg7) :=
  (ops2_keep_arg7 (R2 c m')).trans (R2_arg7 m c m' hag)
theorem R3_arg8 : (R3 c m') (Proc.devRef .tc Cert.ReferenceIdeal.main_arg8) = m ((c : Thread nD τ).loc main_arg8) :=
  (ops2_keep_arg8 (R2 c m')).trans (R2_arg8 m c m' hag)
theorem R3_arg9 : (R3 c m') (Proc.devRef .tc Cert.ReferenceIdeal.main_arg9) = m ((c : Thread nD τ).loc main_arg9) :=
  (ops2_keep_arg9 (R2 c m')).trans (R2_arg9 m c m' hag)
theorem R3_arg10 : (R3 c m') (Proc.devRef .tc Cert.ReferenceIdeal.main_arg10) = m ((c : Thread nD τ).loc main_arg10) :=
  (ops2_keep_arg10 (R2 c m')).trans (R2_arg10 m c m' hag)
theorem R3_arg11 : (R3 c m') (Proc.devRef .tc Cert.ReferenceIdeal.main_arg11) = m ((c : Thread nD τ).loc main_arg11) :=
  (ops2_keep_arg11 (R2 c m')).trans (R2_arg11 m c m' hag)
theorem R3_arg12 : (R3 c m') (Proc.devRef .tc Cert.ReferenceIdeal.main_arg12) = m ((c : Thread nD τ).loc main_arg12) :=
  (ops2_keep_arg12 (R2 c m')).trans (R2_arg12 m c m' hag)
theorem R4_arg7 : (R4 c m') (Proc.devRef .tc Cert.ReferenceIdeal.main_arg7) = m ((c : Thread nD τ).loc main_arg7) :=
  (ops3_keep_arg7 (R3 c m')).trans (R3_arg7 m c m' hag)
theorem R4_arg8 : (R4 c m') (Proc.devRef .tc Cert.ReferenceIdeal.main_arg8) = m ((c : Thread nD τ).loc main_arg8) :=
  (ops3_keep_arg8 (R3 c m')).trans (R3_arg8 m c m' hag)
theorem R4_arg9 : (R4 c m') (Proc.devRef .tc Cert.ReferenceIdeal.main_arg9) = m ((c : Thread nD τ).loc main_arg9) :=
  (ops3_keep_arg9 (R3 c m')).trans (R3_arg9 m c m' hag)
theorem R4_arg10 : (R4 c m') (Proc.devRef .tc Cert.ReferenceIdeal.main_arg10) = m ((c : Thread nD τ).loc main_arg10) :=
  (ops3_keep_arg10 (R3 c m')).trans (R3_arg10 m c m' hag)
theorem R4_arg11 : (R4 c m') (Proc.devRef .tc Cert.ReferenceIdeal.main_arg11) = m ((c : Thread nD τ).loc main_arg11) :=
  (ops3_keep_arg11 (R3 c m')).trans (R3_arg11 m c m' hag)
theorem R4_arg12 : (R4 c m') (Proc.devRef .tc Cert.ReferenceIdeal.main_arg12) = m ((c : Thread nD τ).loc main_arg12) :=
  (ops3_keep_arg12 (R3 c m')).trans (R3_arg12 m c m' hag)
theorem R5_arg9 : (R5 c m') (Proc.devRef .tc Cert.ReferenceIdeal.main_arg9) = m ((c : Thread nD τ).loc main_arg9) :=
  (ops4_keep_arg9 (R4 c m')).trans (R4_arg9 m c m' hag)
theorem R5_arg10 : (R5 c m') (Proc.devRef .tc Cert.ReferenceIdeal.main_arg10) = m ((c : Thread nD τ).loc main_arg10) :=
  (ops4_keep_arg10 (R4 c m')).trans (R4_arg10 m c m' hag)
theorem R5_arg11 : (R5 c m') (Proc.devRef .tc Cert.ReferenceIdeal.main_arg11) = m ((c : Thread nD τ).loc main_arg11) :=
  (ops4_keep_arg11 (R4 c m')).trans (R4_arg11 m c m' hag)
theorem R5_arg12 : (R5 c m') (Proc.devRef .tc Cert.ReferenceIdeal.main_arg12) = m ((c : Thread nD τ).loc main_arg12) :=
  (ops4_keep_arg12 (R4 c m')).trans (R4_arg12 m c m' hag)
theorem R6_arg9 : (R6 c m') (Proc.devRef .tc Cert.ReferenceIdeal.main_arg9) = m ((c : Thread nD τ).loc main_arg9) :=
  (ops5_keep_arg9 (R5 c m')).trans (R5_arg9 m c m' hag)
theorem R6_arg10 : (R6 c m') (Proc.devRef .tc Cert.ReferenceIdeal.main_arg10) = m ((c : Thread nD τ).loc main_arg10) :=
  (ops5_keep_arg10 (R5 c m')).trans (R5_arg10 m c m' hag)

/-! ## Layer 0 -/

theorem l0_c : W6 m ρ c (Proc.devRef .tc main_v3) = (R1 c m') (Proc.devRef .tc Cert.ReferenceIdeal.main_v7) :=
  (W6_v3 m ρ c).trans (dense0_c m ρ c (R0 c m') (R0_arg1 m c m' hag) (R0_arg3 m c m' hag) (R0_arg4 m c m' hag))
theorem l0_m : W6 m ρ c (Proc.devRef .tc main_v7) = (R1 c m') (Proc.devRef .tc Cert.ReferenceIdeal.main_v15) :=
  (W6_v7 m ρ c).trans (dense0_m m ρ c (R0 c m') (R0_arg2 m c m' hag) (R0_arg3 m c m' hag) (R0_arg4 m c m' hag))
theorem g0 :
    W13 m ρ c (Proc.devRef .tc main_v57) = (R2 c m') (Proc.devRef .tc Cert.ReferenceIdeal.main_v80)
    ∧ W13 m ρ c (Proc.devRef .tc main_v58) = (R2 c m') (Proc.devRef .tc Cert.ReferenceIdeal.main_v81)
    ∧ W13 m ρ c (Proc.devRef .tc main_v59) = (R2 c m') (Proc.devRef .tc Cert.ReferenceIdeal.main_v82) := by
  rw [W13_eq m ρ c]
  exact sim_glue0 (W6 m ρ c) (R1 c m') (l0_c m ρ c m' hag) (l0_m m ρ c m' hag)
    (dense0_t0 m ρ c (R0 c m') (R0_arg0 m c m' hag) (R0_arg3 m c m' hag) (R0_arg4 m c m' hag))
    (dense0_t1 m ρ c (R0 c m') (R0_arg0 m c m' hag) (R0_arg3 m c m' hag) (R0_arg4 m c m' hag))
    (dense0_t2 m ρ c (R0 c m') (R0_arg0 m c m' hag) (R0_arg3 m c m' hag) (R0_arg4 m c m' hag))
    ((W6_arg11 m ρ c).trans (R1_arg11 m c m' hag).symm) ((W6_arg12 m ρ c).trans (R1_arg12 m c m' hag).symm)

/-! ## Layer 1 -/

theorem l1_c : W18 m ρ c (Proc.devRef .tc main_v63) = (R3 c m') (Proc.devRef .tc Cert.ReferenceIdeal.main_v90) :=
  (W18_v63 m ρ c).trans (dense1_c m ρ c (R2 c m') (g0 m ρ c m' hag).2.1 (R2_arg5 m c m' hag) (R2_arg6 m c m' hag))
theorem l1_m : W18 m ρ c (Proc.devRef .tc main_v67) = (R3 c m') (Proc.devRef .tc Cert.ReferenceIdeal.main_v98) :=
  (W18_v67 m ρ c).trans (dense1_m m ρ c (R2 c m') ((W15_v59 m ρ c).trans (g0 m ρ c m' hag).2.2) (R2_arg5 m c m' hag) (R2_arg6 m c m' hag))
theorem l1_x : W17 m ρ c (Proc.devRef .tc main_v57) = (R2 c m') (Proc.devRef .tc Cert.ReferenceIdeal.main_v80) :=
  (W17_v57 m ρ c).trans (g0 m ρ c m' hag).1
theorem g1 :
    W25 m ρ c (Proc.devRef .tc main_v117) = (R4 c m') (Proc.devRef .tc Cert.ReferenceIdeal.main_v163)
    ∧ W25 m ρ c (Proc.devRef .tc main_v118) = (R4 c m') (Proc.devRef .tc Cert.ReferenceIdeal.main_v164)
    ∧ W25 m ρ c (Proc.devRef .tc main_v119) = (R4 c m') (Proc.devRef .tc Cert.ReferenceIdeal.main_v165) := by
  rw [W25_eq m ρ c]
  exact sim_glue1 (W18 m ρ c) (R3 c m') (l1_c m ρ c m' hag) (l1_m m ρ c m' hag)
    (dense1_t0 m ρ c (R2 c m') (l1_x m ρ c m' hag) (R2_arg5 m c m' hag) (R2_arg6 m c m' hag))
    (dense1_t1 m ρ c (R2 c m') (l1_x m ρ c m' hag) (R2_arg5 m c m' hag) (R2_arg6 m c m' hag))
    (dense1_t2 m ρ c (R2 c m') (l1_x m ρ c m' hag) (R2_arg5 m c m' hag) (R2_arg6 m c m' hag))
    ((W18_arg11 m ρ c).trans (R3_arg11 m c m' hag).symm) ((W18_arg12 m ρ c).trans (R3_arg12 m c m' hag).symm)

/-! ## Layer 2 and the head -/

theorem l2_c : W30 m ρ c (Proc.devRef .tc main_v123) = (R5 c m') (Proc.devRef .tc Cert.ReferenceIdeal.main_v173) :=
  (W30_v123 m ρ c).trans (dense2_c m ρ c (R4 c m') (g1 m ρ c m' hag).2.1 (R4_arg7 m c m' hag) (R4_arg8 m c m' hag))
theorem l2_m : W30 m ρ c (Proc.devRef .tc main_v127) = (R5 c m') (Proc.devRef .tc Cert.ReferenceIdeal.main_v181) :=
  (W30_v127 m ρ c).trans (dense2_m m ρ c (R4 c m') ((W27_v119 m ρ c).trans (g1 m ρ c m' hag).2.2) (R4_arg7 m c m' hag) (R4_arg8 m c m' hag))
theorem g2 : W31 m ρ c (Proc.devRef .tc main_v152) = (R6 c m') (Proc.devRef .tc Cert.ReferenceIdeal.main_v221) :=
  sim_glue2 (W30 m ρ c) (R5 c m') (l2_c m ρ c m' hag) (l2_m m ρ c m' hag)
    (dense2_t0 m ρ c (R4 c m') ((W29_v117 m ρ c).trans (g1 m ρ c m' hag).1) (R4_arg7 m c m' hag) (R4_arg8 m c m' hag))
    ((W30_arg11 m ρ c).trans (R5_arg11 m c m' hag).symm) ((W30_arg12 m ρ c).trans (R5_arg12 m c m' hag).symm)

/-- The two results: the reference's result buffer after its whole list holds what the kernel program's last boundary
    holds in its result buffer. -/
theorem result_eq :
    StableHlo.after Cert.ReferenceIdeal.RefRun.ops (StableHlo.launchContents m' c) (Proc.devRef .tc Cert.ReferenceIdeal.main_v249) = W33 m ρ c (Proc.devRef .tc main_v180) := by
  rw [ops_split]
  exact (dense_head m ρ c (R6 c m') (g2 m ρ c m' hag) (R6_arg9 m c m' hag) (R6_arg10 m c m' hag)).symm

end Cert.Proof.Bridge

end
-- ==== Proof.lean ====
/-
  The certificate: the kernel program and its reference compute the same array, on the extended reals.

  The kernel program is three layers of a network over transactions, cards and merchants, and a linear head.  In every
  layer each kind of node gets dense maps of its rows, x · W[e] + b[e] for the slots e that concern it: these are the
  program's ten tiled regions (rows of x in tiles; the weight and bias slabs whole; the bias row repeated down the
  tile).  Between the dense maps the host gathers, for every transaction, its card's and its merchant's row and adds
  its own; gives every card and every merchant the mean of its transactions' rows; and applies a leaky rectifier.  The
  reference does the dense maps as matrix products plus a repeated bias row, and the very same host steps.

  The frames of the two kernel programs are the generated ones.  The reference's run is read off its list of host
  operations.  The idealization rewrote nothing, so there is nothing to preserve.  For the equality of the results, the
  kernel program's result is read off the fold of buffer contents its frame is stated over: each region's output array
  is, entry by entry, the sum over the inner index of x (p, k) · w (e, k, q) plus b (e, q) — the same terms in the same
  order as the reference's product —, and the host steps between are the same operations on both sides, so equal arrays
  go in and equal arrays come out, layer after layer.  Nothing in the argument needs an entry to be finite: the
  precondition is not used.
-/
import proofs.«154745_j79044578115861_1_alg».proof.Defs
import proofs.«154745_j79044578115861_1_alg».proof.Proof.Gen.Kernel
import proofs.«154745_j79044578115861_1_alg».proof.Proof.Gen.Kernel.Frame
import proofs.«154745_j79044578115861_1_alg».proof.Proof.Gen.KernelIdeal
import proofs.«154745_j79044578115861_1_alg».proof.Proof.Gen.KernelIdeal.Frame
import proofs.«154745_j79044578115861_1_alg».proof.Proof.Gen.ReferenceIdeal
import proofs.«154745_j79044578115861_1_alg».proof.Proof.Gen.Pre_finite_inputs
import proofs.«154745_j79044578115861_1_alg».proof.Proof.KRun
import proofs.«154745_j79044578115861_1_alg».proof.Proof.Bridge
import Idealize.ShloMosaic.Adequacy
import Idealize.ShloMosaic.Init

noncomputable section

namespace Cert.Proof

open Idealize.ShloMosaic Idealize.SL.Sem

/-- The kernel program as printed: it runs, and its arguments end as launched. -/
theorem frame_k : Cert.frame_Kernel := fun m ρ _ => Cert.Kernel.Gen.frame m ρ
/-- The idealized kernel program: the same. -/
theorem frame_ki : Cert.frame_KernelIdeal := fun m ρ _ => Cert.KernelIdeal.Gen.frame m ρ
/-- The reference: its list of host operations runs, and writes no argument. -/
theorem frame_ri : Cert.frame_ReferenceIdeal := fun m ρ _ => Cert.ReferenceIdeal.RefFrame.frame (F := Ideal) m ρ
/-- The idealization rewrote no operation. -/
theorem preserves : Cert.preserves_Kernel_KernelIdeal := trivial

/-- From memories that agree on the arguments both programs run, and end with the same result array: the kernel
    program's at the last boundary of its fold, the reference's at the fold of its whole list, which are equal. -/
theorem algebraic : Cert.algebraic_KernelIdeal_ReferenceIdeal := by
  intro m ρ m' ρ' _ hagree
  refine ⟨fun c => Cert.KernelIdeal.Gen.W33 m ρ c (Proc.devRef .tc Cert.KernelIdeal.main_v180),
    Cert.KernelIdeal.KRun.run (F := Ideal) m ρ, ?_⟩
  refine (θ_run Cert.ReferenceIdeal.defs _ _).mono (fun r h c => ⟨(h c).1.trans ?_, (h c).2⟩)
    (Cert.ReferenceIdeal.RefFrame.run_value (F := Ideal) m' ρ')
  exact Cert.Proof.Bridge.result_eq m ρ c m'
    ⟨(hagree c).1, (hagree c).2.1, (hagree c).2.2.1, (hagree c).2.2.2.1, (hagree c).2.2.2.2.1, (hagree c).2.2.2.2.2.1,
     (hagree c).2.2.2.2.2.2.1, (hagree c).2.2.2.2.2.2.2.1, (hagree c).2.2.2.2.2.2.2.2.1, (hagree c).2.2.2.2.2.2.2.2.2.1,
     (hagree c).2.2.2.2.2.2.2.2.2.2.1, (hagree c).2.2.2.2.2.2.2.2.2.2.2.1, (hagree c).2.2.2.2.2.2.2.2.2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
